-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S4096 : Shape := ⟨1, ![4096]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel

variable [Facts]

def fn {F : FTy → Type} [FloatOps F] (main_arg0 : FVec F S12288x128 .f32) (main_arg1 : IVec S4096 32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  main_v3
-- ==== Kernel.lean ====
abbrev S12288x128 : Shape := ⟨2, ![12288, 128]⟩
abbrev S4096 : Shape := ⟨1, ![4096]⟩
abbrev S4096x128 : Shape := ⟨2, ![4096, 128]⟩
abbrev S_ : Shape := ⟨0, ![]⟩
abbrev S4096x1 : Shape := ⟨2, ![4096, 1]⟩
abbrev S1x4096 : Shape := ⟨2, ![1, 4096]⟩
abbrev S512x128 : Shape := ⟨2, ![512, 128]⟩
abbrev S1024x128 : Shape := ⟨2, ![1024, 128]⟩
abbrev S512x1 : Shape := ⟨2, ![512, 1]⟩
abbrev S1x1024 : Shape := ⟨2, ![1, 1024]⟩
abbrev S128x1024 : Shape := ⟨2, ![128, 1024]⟩
abbrev S512x1024 : Shape := ⟨2, ![512, 1024]⟩
abbrev S512 : Shape := ⟨1, ![512]⟩

abbrev nBuf : Space → Nat
  | .hbm => 129
  | .vmem => 38
  | .smem => 0
  | _ => 0

abbrev hbmTy0_0 (i : Nat) : BufTy := match i % 128 with
  | 0 => ⟨S12288x128, .f32⟩
  | 1 => ⟨S4096, .i32⟩
  | 2 => ⟨S4096x128, .f32⟩
  | 3 => ⟨S4096x128, .f32⟩
  | 4 => ⟨S4096x128, .f32⟩
  | 5 => ⟨S4096x128, .bf16⟩
  | 6 => ⟨S4096x128, .bf16⟩
  | 7 => ⟨S4096x128, .bf16⟩
  | 8 => ⟨S4096x128, .f32⟩
  | 9 => ⟨S_, .f32⟩
  | 10 => ⟨S4096, .f32⟩
  | 11 => ⟨S4096x1, .f32⟩
  | 12 => ⟨S4096x128, .f32⟩
  | 13 => ⟨S_, .f32⟩
  | 14 => ⟨S4096, .f32⟩
  | 15 => ⟨S4096x1, .f32⟩
  | 16 => ⟨S4096x128, .f32⟩
  | 17 => ⟨S_, .f32⟩
  | 18 => ⟨S4096, .f32⟩
  | 19 => ⟨S4096x1, .f32⟩
  | 20 => ⟨S1x4096, .f32⟩
  | 21 => ⟨S4096x128, .f32⟩
  | 22 => ⟨S_, .f32⟩
  | 23 => ⟨S4096, .f32⟩
  | 24 => ⟨S4096x1, .f32⟩
  | 25 => ⟨S1x4096, .f32⟩
  | 26 => ⟨S4096x1, .i32⟩
  | 27 => ⟨S1x4096, .i32⟩
  | 28 => ⟨S4096x1, .f32⟩
  | 29 => ⟨S4096x1, .f32⟩
  | 30 => ⟨S4096x1, .f32⟩
  | 31 => ⟨S4096x1, .f32⟩
  | 32 => ⟨S4096x1, .f32⟩
  | 33 => ⟨S4096x1, .f32⟩
  | 34 => ⟨S4096, .f32⟩
  | 35 => ⟨S4096, .f32⟩
  | 36 => ⟨S4096, .f32⟩
  | 37 => ⟨S4096, .f32⟩
  | 38 => ⟨S4096, .f32⟩
  | 39 => ⟨S4096, .f32⟩
  | 40 => ⟨S_, .f32⟩
  | 41 => ⟨S4096, .f32⟩
  | 42 => ⟨S4096, .f32⟩
  | 43 => ⟨S4096, .f32⟩
  | 44 => ⟨S_, .f32⟩
  | 45 => ⟨S4096, .f32⟩
  | 46 => ⟨S4096, .f32⟩
  | 47 => ⟨S4096, .f32⟩
  | 48 => ⟨S_, .f32⟩
  | 49 => ⟨S4096, .f32⟩
  | 50 => ⟨S4096, .f32⟩
  | 51 => ⟨S4096, .f32⟩
  | 52 => ⟨S_, .f32⟩
  | 53 => ⟨S4096, .f32⟩
  | 54 => ⟨S4096, .f32⟩
  | 55 => ⟨S4096, .f32⟩
  | 56 => ⟨S_, .f32⟩
  | 57 => ⟨S4096, .f32⟩
  | 58 => ⟨S4096, .f32⟩
  | 59 => ⟨S4096, .f32⟩
  | 60 => ⟨S_, .f32⟩
  | 61 => ⟨S4096, .f32⟩
  | 62 => ⟨S4096, .f32⟩
  | 63 => ⟨S4096, .f32⟩
  | 64 => ⟨S4096, .f32⟩
  | 65 => ⟨S_, .f32⟩
  | 66 => ⟨S4096, .f32⟩
  | 67 => ⟨S4096, .f32⟩
  | 68 => ⟨S_, .f32⟩
  | 69 => ⟨S4096, .f32⟩
  | 70 => ⟨S4096, .f32⟩
  | 71 => ⟨S4096, .f32⟩
  | 72 => ⟨S_, .f32⟩
  | 73 => ⟨S4096, .f32⟩
  | 74 => ⟨S4096, .f32⟩
  | 75 => ⟨S_, .f32⟩
  | 76 => ⟨S4096, .f32⟩
  | 77 => ⟨S4096, .f32⟩
  | 78 => ⟨S4096, .f32⟩
  | 79 => ⟨S_, .f32⟩
  | 80 => ⟨S4096, .f32⟩
  | 81 => ⟨S4096, .f32⟩
  | 82 => ⟨S_, .f32⟩
  | 83 => ⟨S4096, .f32⟩
  | 84 => ⟨S4096, .f32⟩
  | 85 => ⟨S4096, .f32⟩
  | 86 => ⟨S4096, .f32⟩
  | 87 => ⟨S4096, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S4096, .f32⟩
  | 97 => ⟨S4096, .f32⟩
  | 98 => ⟨S4096, .f32⟩
  | 99 => ⟨S_, .f32⟩
  | 100 => ⟨S_, .f32⟩
  | 101 => ⟨S4096, .f32⟩
  | 102 => ⟨S4096, .f32⟩
  | 103 => ⟨S4096, .f32⟩
  | 104 => ⟨S_, .f32⟩
  | 105 => ⟨S_, .f32⟩
  | 106 => ⟨S_, .f32⟩
  | 107 => ⟨S4096, .f32⟩
  | 108 => ⟨S4096, .f32⟩
  | 109 => ⟨S4096, .f32⟩
  | 110 => ⟨S_, .f32⟩
  | 111 => ⟨S_, .f32⟩
  | 112 => ⟨S_, .f32⟩
  | 113 => ⟨S4096, .i1⟩
  | 114 => ⟨S4096, .i32⟩
  | 115 => ⟨S_, .i32⟩
  | 116 => ⟨S_, .i32⟩
  | 117 => ⟨S4096, .i1⟩
  | 118 => ⟨S4096, .i32⟩
  | 119 => ⟨S_, .i32⟩
  | 120 => ⟨S_, .i32⟩
  | 121 => ⟨S_, .i32⟩
  | 122 => ⟨S4096, .i1⟩
  | 123 => ⟨S4096, .i32⟩
  | 124 => ⟨S_, .i32⟩
  | 125 => ⟨S_, .i32⟩
  | 126 => ⟨S_, .i32⟩
  | 127 => ⟨S_, .f32⟩
  | _ => ⟨S12288x128, .f32⟩

abbrev hbmTy0_1 (i : Nat) : BufTy := match i % 128 with
  | 0 => ⟨S_, .f32⟩
  | _ => ⟨S12288x128, .f32⟩

abbrev hbmTy (i : Nat) : BufTy := match i / 128 with
  | 0 => hbmTy0_0 i
  | 1 => hbmTy0_1 i
  | _ => ⟨S12288x128, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1, .i32⟩
  | .local _ .vmem, ⟨17, _⟩ => ⟨S512x1, .i32⟩
  | .local _ .vmem, ⟨18, _⟩ => ⟨S1x1024, .i32⟩
  | .local _ .vmem, ⟨19, _⟩ => ⟨S1x1024, .i32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22_0 : Ref sig .tc := ⟨.hbm, 28, rfl⟩
abbrev main_v22_1 : Ref sig .tc := ⟨.hbm, 29, rfl⟩
abbrev main_v22_2 : Ref sig .tc := ⟨.hbm, 30, rfl⟩
abbrev main_v22_3 : Ref sig .tc := ⟨.hbm, 31, rfl⟩
abbrev main_v22_4 : Ref sig .tc := ⟨.hbm, 32, rfl⟩
abbrev main_v22_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_18 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_19 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_21 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_22 : Ref sig .tc := ⟨.hbm, 124, rfl⟩
abbrev main_v93 : Ref sig .tc := ⟨.hbm, 125, rfl⟩
abbrev main_v94 : Ref sig .tc := ⟨.hbm, 126, rfl⟩
abbrev main_cst_23 : Ref sig .tc := ⟨.hbm, 127, rfl⟩
abbrev main_v95 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v104 : BitVec 1 := Scalar.cmpi .eq arg1 c3_i32
  let v105 : BitVec 32 := Scalar.extui v104
  let c0_i32_61 : BitVec 32 := 0#32
  let v106 : BitVec 1 := Scalar.cmpi .ne v105 c0_i32_61
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  slices_S12288x128_S4096x128_0_0 : S12288x128.Slices ![0, 0] S4096x128
  slices_S12288x128_S4096x128_4096_0 : S12288x128.Slices ![4096, 0] S4096x128
  slices_S12288x128_S4096x128_8192_0 : S12288x128.Slices ![8192, 0] S4096x128
  bitsLt_bf16_f32 : FTy.bits .bf16 < FTy.bits .f32
  reducesTo_S4096x128_S4096_d1 : S4096x128.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S4096x1_S4096 : S4096x1.ShapeCasts S4096
  bcast_S_S4096 : S_.BroadcastsInDim S4096 (![] : Fin 0 → Fin S4096.rank)
  reducesTo_S4096_S_d0 : S4096.ReducesTo [0] S_
  natLt_1_32 : 1 < 32
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .bf16 = 32 ∨ (Rect.block (s := S4096x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .bf16 = 32 ∨ (Rect.block (s := S4096x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .bf16 = 32 ∨ (Rect.block (s := S4096x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .bf16 = 32 ∨ (Rect.block (s := S4096x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x4096.size a
  hwx0_7 : ∀ i : grid0.Coords, EltTy.bits .f32 = 32 ∨ (Rect.block (s := S1x4096) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4096x1.size a
  hwx0_8 : ∀ i : grid0.Coords, EltTy.bits .i32 = 32 ∨ (Rect.block (s := S4096x1) S512x1.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x4096.size a
  hwx0_9 : ∀ i : grid0.Coords, EltTy.bits .i32 = 32 ∨ (Rect.block (s := S1x4096) S1x1024.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S4096x1.size a
  hwx0_12 : ∀ i : grid0.Coords, EltTy.bits .f32 = 32 ∨ (Rect.block (s := S4096x1) S512x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S4096x1.size a
  hwx0_13 : ∀ i : grid0.Coords, EltTy.bits .f32 = 32 ∨ (Rect.block (s := S4096x1) S512x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S4096x1.size a
  hwx0_14 : ∀ i : grid0.Coords, EltTy.bits .f32 = 32 ∨ (Rect.block (s := S4096x1) S512x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x1.size a ≤ S4096x1.size a
  hwx0_15 : ∀ i : grid0.Coords, EltTy.bits .f32 = 32 ∨ (Rect.block (s := S4096x1) S512x1.size (cc0_transform_15 i) (hinb0_15 i)).WholeWords (EltTy.packing .f32)

variable [Facts₀]

def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v3) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20) S512x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v22_0) S512x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v22_1) S512x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_2) S512x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v22_3) S512x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v22_4) S512x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v22_5) S512x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | 12 => fun i => !(k0_cond2 i == 1#1) | 13 => fun i => !(k0_cond2 i == 1#1) | 14 => fun i => !(k0_cond2 i == 1#1) | 15 => fun i => !(k0_cond2 i == 1#1) | ⟨_ + 16, h⟩ => absurd h (Nat.not_lt.2 (Nat.le_add_left _ _))

class Facts : Prop extends Facts₀ where

variable [Facts]
-- ==== ReferenceIdeal.lean ====
abbrev S12288x128 : Shape := ⟨2, ![12288, 128]⟩
abbrev S4096 : Shape := ⟨1, ![4096]⟩
abbrev S4096x128 : Shape := ⟨2, ![4096, 128]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

abbrev nBuf : Space → Nat
  | .hbm => 177
  | .vmem => 0
  | .smem => 0
  | _ => 0

abbrev hbmTy0_0 (i : Nat) : BufTy := match i % 128 with
  | 0 => ⟨S12288x128, .f32⟩
  | 1 => ⟨S4096, .i32⟩
  | 2 => ⟨S4096x128, .f32⟩
  | 3 => ⟨S4096x128, .f32⟩
  | 4 => ⟨S4096x128, .f32⟩
  | 5 => ⟨S4096x128, .f32⟩
  | 6 => ⟨S_, .f32⟩
  | 7 => ⟨S4096, .f32⟩
  | 8 => ⟨S4096x1, .f32⟩
  | 9 => ⟨S4096x128, .f32⟩
  | 10 => ⟨S_, .f32⟩
  | 11 => ⟨S4096, .f32⟩
  | 12 => ⟨S4096x1, .f32⟩
  | 13 => ⟨S1x4096, .f32⟩
  | 14 => ⟨S4096x4096, .f32⟩
  | 15 => ⟨S4096x4096, .f32⟩
  | 16 => ⟨S4096x4096, .f32⟩
  | 17 => ⟨S128x4096, .f32⟩
  | 18 => ⟨S4096x4096, .f32⟩
  | 19 => ⟨S_, .f32⟩
  | 20 => ⟨S4096x4096, .f32⟩
  | 21 => ⟨S4096x4096, .f32⟩
  | 22 => ⟨S4096x4096, .f32⟩
  | 23 => ⟨S_, .f32⟩
  | 24 => ⟨S4096x4096, .f32⟩
  | 25 => ⟨S4096x4096, .f32⟩
  | 26 => ⟨S4096x4096, .f32⟩
  | 27 => ⟨S4096x128, .f32⟩
  | 28 => ⟨S_, .f32⟩
  | 29 => ⟨S4096, .f32⟩
  | 30 => ⟨S4096x1, .f32⟩
  | 31 => ⟨S4096x128, .f32⟩
  | 32 => ⟨S_, .f32⟩
  | 33 => ⟨S4096, .f32⟩
  | 34 => ⟨S4096x1, .f32⟩
  | 35 => ⟨S1x4096, .f32⟩
  | 36 => ⟨S4096x4096, .f32⟩
  | 37 => ⟨S4096x4096, .f32⟩
  | 38 => ⟨S4096x4096, .f32⟩
  | 39 => ⟨S128x4096, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S4096x128, .f32⟩
  | 50 => ⟨S_, .f32⟩
  | 51 => ⟨S4096, .f32⟩
  | 52 => ⟨S4096x1, .f32⟩
  | 53 => ⟨S4096x128, .f32⟩
  | 54 => ⟨S_, .f32⟩
  | 55 => ⟨S4096, .f32⟩
  | 56 => ⟨S4096x1, .f32⟩
  | 57 => ⟨S1x4096, .f32⟩
  | 58 => ⟨S4096x4096, .f32⟩
  | 59 => ⟨S4096x4096, .f32⟩
  | 60 => ⟨S4096x4096, .f32⟩
  | 61 => ⟨S128x4096, .f32⟩
  | 62 => ⟨S4096x4096, .f32⟩
  | 63 => ⟨S_, .f32⟩
  | 64 => ⟨S4096x4096, .f32⟩
  | 65 => ⟨S4096x4096, .f32⟩
  | 66 => ⟨S4096x4096, .f32⟩
  | 67 => ⟨S_, .f32⟩
  | 68 => ⟨S4096x4096, .f32⟩
  | 69 => ⟨S4096x4096, .f32⟩
  | 70 => ⟨S4096x4096, .f32⟩
  | 71 => ⟨S4096x1, .i32⟩
  | 72 => ⟨S1x4096, .i32⟩
  | 73 => ⟨S4096x4096, .i32⟩
  | 74 => ⟨S4096x4096, .i32⟩
  | 75 => ⟨S4096x4096, .i1⟩
  | 76 => ⟨S_, .f32⟩
  | 77 => ⟨S_, .f32⟩
  | 78 => ⟨S4096x4096, .f32⟩
  | 79 => ⟨S4096x4096, .f32⟩
  | 80 => ⟨S_, .f32⟩
  | 81 => ⟨S4096, .f32⟩
  | 82 => ⟨S_, .f32⟩
  | 83 => ⟨S_, .f32⟩
  | 84 => ⟨S4096x4096, .f32⟩
  | 85 => ⟨S4096x4096, .f32⟩
  | 86 => ⟨S_, .f32⟩
  | 87 => ⟨S4096, .f32⟩
  | 88 => ⟨S_, .f32⟩
  | 89 => ⟨S_, .f32⟩
  | 90 => ⟨S4096x4096, .f32⟩
  | 91 => ⟨S4096x4096, .f32⟩
  | 92 => ⟨S_, .f32⟩
  | 93 => ⟨S4096, .f32⟩
  | 94 => ⟨S_, .f32⟩
  | 95 => ⟨S_, .f32⟩
  | 96 => ⟨S4096x4096, .f32⟩
  | 97 => ⟨S4096x4096, .f32⟩
  | 98 => ⟨S_, .f32⟩
  | 99 => ⟨S4096, .f32⟩
  | 100 => ⟨S_, .f32⟩
  | 101 => ⟨S_, .f32⟩
  | 102 => ⟨S4096x4096, .f32⟩
  | 103 => ⟨S4096x4096, .f32⟩
  | 104 => ⟨S_, .f32⟩
  | 105 => ⟨S4096, .f32⟩
  | 106 => ⟨S_, .f32⟩
  | 107 => ⟨S_, .f32⟩
  | 108 => ⟨S4096x4096, .f32⟩
  | 109 => ⟨S4096x4096, .f32⟩
  | 110 => ⟨S_, .f32⟩
  | 111 => ⟨S4096, .f32⟩
  | 112 => ⟨S4096, .f32⟩
  | 113 => ⟨S_, .f32⟩
  | 114 => ⟨S4096, .f32⟩
  | 115 => ⟨S4096, .f32⟩
  | 116 => ⟨S_, .f32⟩
  | 117 => ⟨S4096, .f32⟩
  | 118 => ⟨S4096, .f32⟩
  | 119 => ⟨S4096, .f32⟩
  | 120 => ⟨S_, .f32⟩
  | 121 => ⟨S4096, .f32⟩
  | 122 => ⟨S4096, .f32⟩
  | 123 => ⟨S_, .f32⟩
  | 124 => ⟨S4096, .f32⟩
  | 125 => ⟨S4096, .f32⟩
  | 126 => ⟨S4096, .f32⟩
  | 127 => ⟨S_, .f32⟩
  | _ => ⟨S12288x128, .f32⟩

abbrev hbmTy0_1 (i : Nat) : BufTy := match i % 128 with
  | 0 => ⟨S4096, .f32⟩
  | 1 => ⟨S4096, .f32⟩
  | 2 => ⟨S_, .f32⟩
  | 3 => ⟨S4096, .f32⟩
  | 4 => ⟨S4096, .f32⟩
  | 5 => ⟨S4096, .f32⟩
  | 6 => ⟨S4096, .f32⟩
  | 7 => ⟨S4096, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S4096, .f32⟩
  | 17 => ⟨S4096, .f32⟩
  | 18 => ⟨S4096, .f32⟩
  | 19 => ⟨S_, .f32⟩
  | 20 => ⟨S_, .f32⟩
  | 21 => ⟨S4096, .f32⟩
  | 22 => ⟨S4096, .f32⟩
  | 23 => ⟨S4096, .f32⟩
  | 24 => ⟨S_, .f32⟩
  | 25 => ⟨S_, .f32⟩
  | 26 => ⟨S_, .f32⟩
  | 27 => ⟨S4096, .f32⟩
  | 28 => ⟨S4096, .f32⟩
  | 29 => ⟨S4096, .f32⟩
  | 30 => ⟨S_, .f32⟩
  | 31 => ⟨S_, .f32⟩
  | 32 => ⟨S_, .f32⟩
  | 33 => ⟨S4096, .i1⟩
  | 34 => ⟨S4096, .i32⟩
  | 35 => ⟨S_, .i32⟩
  | 36 => ⟨S_, .i32⟩
  | 37 => ⟨S4096, .i1⟩
  | 38 => ⟨S4096, .i32⟩
  | 39 => ⟨S_, .i32⟩
  | 40 => ⟨S_, .i32⟩
  | 41 => ⟨S_, .i32⟩
  | 42 => ⟨S4096, .i1⟩
  | 43 => ⟨S4096, .i32⟩
  | 44 => ⟨S_, .i32⟩
  | 45 => ⟨S_, .i32⟩
  | 46 => ⟨S_, .i32⟩
  | 47 => ⟨S_, .f32⟩
  | 48 => ⟨S_, .f32⟩
  | _ => ⟨S12288x128, .f32⟩

abbrev hbmTy (i : Nat) : BufTy := match i / 128 with
  | 0 => hbmTy0_0 i
  | 1 => hbmTy0_1 i
  | _ => ⟨S12288x128, .f32⟩

abbrev bufTy : (tb : Table) → Fin (tcTables nBuf tb) → BufTy
  | .hbm, ⟨i, _⟩ => hbmTy i
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_9 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_10 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_11 : Ref sig .tc := ⟨.hbm, 76, rfl⟩
abbrev main_call0_v0 : Ref sig .tc := ⟨.hbm, 77, rfl⟩
abbrev main_call0_v1 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_cst_13 : Ref sig .tc := ⟨.hbm, 82, rfl⟩
abbrev main_call1_v0 : Ref sig .tc := ⟨.hbm, 83, rfl⟩
abbrev main_call1_v1 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_cst_15 : Ref sig .tc := ⟨.hbm, 88, rfl⟩
abbrev main_call2_v0 : Ref sig .tc := ⟨.hbm, 89, rfl⟩
abbrev main_call2_v1 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_cst_17 : Ref sig .tc := ⟨.hbm, 94, rfl⟩
abbrev main_call3_v0 : Ref sig .tc := ⟨.hbm, 95, rfl⟩
abbrev main_call3_v1 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_cst_19 : Ref sig .tc := ⟨.hbm, 100, rfl⟩
abbrev main_call4_v0 : Ref sig .tc := ⟨.hbm, 101, rfl⟩
abbrev main_call4_v1 : Ref sig .tc := ⟨.hbm, 102, rfl⟩
abbrev main_v70 : Ref sig .tc := ⟨.hbm, 103, rfl⟩
abbrev main_cst_20 : Ref sig .tc := ⟨.hbm, 104, rfl⟩
abbrev main_v71 : Ref sig .tc := ⟨.hbm, 105, rfl⟩
abbrev main_cst_21 : Ref sig .tc := ⟨.hbm, 106, rfl⟩
abbrev main_call5_v0 : Ref sig .tc := ⟨.hbm, 107, rfl⟩
abbrev main_call5_v1 : Ref sig .tc := ⟨.hbm, 108, rfl⟩
abbrev main_v72 : Ref sig .tc := ⟨.hbm, 109, rfl⟩
abbrev main_cst_22 : Ref sig .tc := ⟨.hbm, 110, rfl⟩
abbrev main_v73 : Ref sig .tc := ⟨.hbm, 111, rfl⟩
abbrev main_v74 : Ref sig .tc := ⟨.hbm, 112, rfl⟩
abbrev main_cst_23 : Ref sig .tc := ⟨.hbm, 113, rfl⟩
abbrev main_v75 : Ref sig .tc := ⟨.hbm, 114, rfl⟩
abbrev main_v76 : Ref sig .tc := ⟨.hbm, 115, rfl⟩
abbrev main_cst_24 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_25 : Ref sig .tc := ⟨.hbm, 120, rfl⟩
abbrev main_v80 : Ref sig .tc := ⟨.hbm, 121, rfl⟩
abbrev main_v81 : Ref sig .tc := ⟨.hbm, 122, rfl⟩
abbrev main_cst_26 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_27 : Ref sig .tc := ⟨.hbm, 127, rfl⟩
abbrev main_v85 : Ref sig .tc := ⟨.hbm, 128, rfl⟩
abbrev main_v86 : Ref sig .tc := ⟨.hbm, 129, rfl⟩
abbrev main_cst_28 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_29 : Ref sig .tc := ⟨.hbm, 136, rfl⟩
abbrev main_v92 : Ref sig .tc := ⟨.hbm, 137, rfl⟩
abbrev main_cst_30 : Ref sig .tc := ⟨.hbm, 138, rfl⟩
abbrev main_v93 : Ref sig .tc := ⟨.hbm, 139, rfl⟩
abbrev main_v94 : Ref sig .tc := ⟨.hbm, 140, rfl⟩
abbrev main_cst_31 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_32 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_33 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_34 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_c : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_35 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_c_36 : Ref sig .tc := ⟨.hbm, 172, rfl⟩
abbrev main_v120 : Ref sig .tc := ⟨.hbm, 173, rfl⟩
abbrev main_v121 : Ref sig .tc := ⟨.hbm, 174, rfl⟩
abbrev main_cst_37 : Ref sig .tc := ⟨.hbm, 175, rfl⟩
abbrev main_v122 : Ref sig .tc := ⟨.hbm, 176, rfl⟩

abbrev nD : Nat := 1
abbrev τ : Topo := Topo.v7x

variable {F : FTy → Type} [FloatOps F]

class Facts₀ : Prop where
  slices_S12288x128_S4096x128_0_0 : S12288x128.Slices ![0, 0] S4096x128
  slices_S12288x128_S4096x128_4096_0 : S12288x128.Slices ![4096, 0] S4096x128
  slices_S12288x128_S4096x128_8192_0 : S12288x128.Slices ![8192, 0] S4096x128
  reducesTo_S4096x128_S4096_d1 : S4096x128.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  natLt_1_32 : 1 < 32
  dot_S4096x128_S128x4096_S4096x4096_1_0_0_1_n_n_wf : DotDims.WF S4096x128 S128x4096 S4096x4096 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.KI.Common.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import Idealize.ShloMosaic.Lib.Pipeline.FrameBody
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six accumulators the body keeps between grid points, each a whole 512-by-1 buffer. -/
abbrev sc0 : Memref sig .tc .vmem S512x1 .f32 := Memref.whole cc0_scratch0
abbrev sc1 : Memref sig .tc .vmem S512x1 .f32 := Memref.whole cc0_scratch1
abbrev sc2 : Memref sig .tc .vmem S512x1 .f32 := Memref.whole cc0_scratch2
abbrev sc3 : Memref sig .tc .vmem S512x1 .f32 := Memref.whole cc0_scratch3
abbrev sc4 : Memref sig .tc .vmem S512x1 .f32 := Memref.whole cc0_scratch4
abbrev sc5 : Memref sig .tc .vmem S512x1 .f32 := Memref.whole cc0_scratch5

/-- A run of stores into a 512-by-1 buffer, latest first. -/
abbrev Pieces (F : FTy → Type) [FloatOps F] : Type := List (View.Piece (Elt F) S512x1 .f32)

/-- The column index is 0 at a row block's first step: the accumulators are reset there. -/
abbrev IsFirst (i : grid0.Coords) : Prop := (Scalar.cmpi .ne (Scalar.extui (Scalar.cmpi .eq (BitVec.ofNat 32 (i 1).val) 0#32)) 0#32) = 1#1
/-- The column index is 3 at a row block's last step: the accumulators are copied out there. -/
abbrev IsLast (i : grid0.Coords) : Prop := k0_cond2 i = 1#1

/-- Six runs of stores found together with the fact stated of them. -/
structure Found6 (P : Pieces F → Pieces F → Pieces F → Pieces F → Pieces F → Pieces F → Prop) where
  L0 : Pieces F
  L1 : Pieces F
  L2 : Pieces F
  L3 : Pieces F
  L4 : Pieces F
  L5 : Pieces F
  run : P L0 L1 L2 L3 L4 L5

end Cert.KernelIdeal.Hand

end
-- ==== Proof.KI.RunMid.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.KI.Common
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step (column index 1 or 2): from the ten input buffers at their blocks, the output buffers as whatever
    holds them (untouched) and the accumulators at `s0 … s5`, the body runs and leaves in each accumulator the stores found. -/
noncomputable def runMid (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole)
    (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    Found6 (F := F) fun L0 L1 L2 L3 L4 L5 =>
      ∀ (E : Set ℕ) (O : sProp 𝕄) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ O ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ O ∗ (∃ f, sc0.view.loc (c : Thread nD τ) ↦[sc0.view.set]{fullShare} sc0.view.writes (Elt F) f L0) ∗ (∃ f, sc1.view.loc (c : Thread nD τ) ↦[sc1.view.set]{fullShare} sc1.view.writes (Elt F) f L1) ∗ (∃ f, sc2.view.loc (c : Thread nD τ) ↦[sc2.view.set]{fullShare} sc2.view.writes (Elt F) f L2) ∗ (∃ f, sc3.view.loc (c : Thread nD τ) ↦[sc3.view.set]{fullShare} sc3.view.writes (Elt F) f L3) ∗ (∃ f, sc4.view.loc (c : Thread nD τ) ↦[sc4.view.set]{fullShare} sc4.view.writes (Elt F) f L4) ∗ (∃ f, sc5.view.loc (c : Thread nD τ) ↦[sc5.view.set]{fullShare} sc5.view.writes (Elt F) f L5)) -∗ K ⟨⟩))
          ⊢ wp frame (wpE (defs₀ (F := F)) Variants.none c none) E (cc0__fused_kernel i a0 h0 a1 h1 a2 h2 a3 h3 a4 h4 a5 h5 a6 h6 a7 h7 a8 h8 a9 h9 a10 h10 a11 h11 a12 h12 a13 h13 a14 h14 a15 h15 sc0 (Memref.isWhole_whole _) sc1 (Memref.isWhole_whole _) sc2 (Memref.isWhole_whole _) sc3 (Memref.isWhole_whole _) sc4 (Memref.isWhole_whole _) sc5 (Memref.isWhole_whole _)) K := by
  refine ⟨?_, ?_, ?_, ?_, ?_, ?_, fun E O K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HO, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    obtain rfl := (Memref.isWhole_whole _ : (sc0).IsWhole).eq_unread hg0
    obtain rfl := (Memref.isWhole_whole _ : (sc1).IsWhole).eq_unread hg1
    obtain rfl := (Memref.isWhole_whole _ : (sc2).IsWhole).eq_unread hg2
    obtain rfl := (Memref.isWhole_whole _ : (sc3).IsWhole).eq_unread hg3
    obtain rfl := (Memref.isWhole_whole _ : (sc4).IsWhole).eq_unread hg4
    obtain rfl := (Memref.isWhole_whole _ : (sc5).IsWhole).eq_unread hg5
    sl_exec (disch := first | exact hF | exact hL)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [HO]; · iexact HO
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.KernelIdeal.Hand

end
-- ==== Proof.KI.RunFirst.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.KI.RunMid
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first step (column index 0): the accumulators, whatever they held, are reset and then updated; the output buffers
    are untouched. -/
noncomputable def runFirst (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole)
    (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) :
    Found6 (F := F) fun L0 L1 L2 L3 L4 L5 =>
      ∀ (E : Set ℕ) (O : sProp 𝕄) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ O ∗ (∃ s, owns (c : Thread nD τ) sc0 fullShare s) ∗ (∃ s, owns (c : Thread nD τ) sc1 fullShare s) ∗ (∃ s, owns (c : Thread nD τ) sc2 fullShare s) ∗ (∃ s, owns (c : Thread nD τ) sc3 fullShare s) ∗ (∃ s, owns (c : Thread nD τ) sc4 fullShare s) ∗ (∃ s, owns (c : Thread nD τ) sc5 fullShare s)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ O ∗ (∃ f, sc0.view.loc (c : Thread nD τ) ↦[sc0.view.set]{fullShare} sc0.view.writes (Elt F) f L0) ∗ (∃ f, sc1.view.loc (c : Thread nD τ) ↦[sc1.view.set]{fullShare} sc1.view.writes (Elt F) f L1) ∗ (∃ f, sc2.view.loc (c : Thread nD τ) ↦[sc2.view.set]{fullShare} sc2.view.writes (Elt F) f L2) ∗ (∃ f, sc3.view.loc (c : Thread nD τ) ↦[sc3.view.set]{fullShare} sc3.view.writes (Elt F) f L3) ∗ (∃ f, sc4.view.loc (c : Thread nD τ) ↦[sc4.view.set]{fullShare} sc4.view.writes (Elt F) f L4) ∗ (∃ f, sc5.view.loc (c : Thread nD τ) ↦[sc5.view.set]{fullShare} sc5.view.writes (Elt F) f L5)) -∗ K ⟨⟩))
          ⊢ wp frame (wpE (defs₀ (F := F)) Variants.none c none) E (cc0__fused_kernel i a0 h0 a1 h1 a2 h2 a3 h3 a4 h4 a5 h5 a6 h6 a7 h7 a8 h8 a9 h9 a10 h10 a11 h11 a12 h12 a13 h13 a14 h14 a15 h15 sc0 (Memref.isWhole_whole _) sc1 (Memref.isWhole_whole _) sc2 (Memref.isWhole_whole _) sc3 (Memref.isWhole_whole _) sc4 (Memref.isWhole_whole _) sc5 (Memref.isWhole_whole _)) K := by
  refine ⟨?_, ?_, ?_, ?_, ?_, ?_, fun E O K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HO, ⟨%s0, %g0, %hg0, S0⟩, ⟨%s1, %g1, %hg1, S1⟩, ⟨%s2, %g2, %hg2, S2⟩, ⟨%s3, %g3, %hg3, S3⟩, ⟨%s4, %g4, %hg4, S4⟩, ⟨%s5, %g5, %hg5, S5⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    sl_exec (disch := first | exact hF | exact hL)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [HO]; · iexact HO
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.KernelIdeal.Hand

end
-- ==== Proof.KI.RunLast.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.KI.RunFirst
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Twelve runs of stores found together with the fact stated of them. -/
structure Found12 (P : Pieces F → Pieces F → Pieces F → Pieces F → Pieces F → Pieces F → Pieces F → Pieces F → Pieces F → Pieces F → Pieces F → Pieces F → Prop) where
  R0 : Pieces F
  R1 : Pieces F
  R2 : Pieces F
  R3 : Pieces F
  R4 : Pieces F
  R5 : Pieces F
  L0 : Pieces F
  L1 : Pieces F
  L2 : Pieces F
  L3 : Pieces F
  L4 : Pieces F
  L5 : Pieces F
  run : P R0 R1 R2 R3 R4 R5 L0 L1 L2 L3 L4 L5

set_option maxHeartbeats 4000000 in
/-- A last step (column index 3): the accumulators at `s0 … s5` are updated and then copied into the six output buffers,
    whatever those held. -/
noncomputable def runLast (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole)
    (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    Found12 (F := F) fun R0 R1 R2 R3 R4 R5 L0 L1 L2 L3 L4 L5 =>
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f R0) ∗ (∃ f, a11.view.loc (c : Thread nD τ) ↦[a11.view.set]{fullShare} a11.view.writes (Elt F) f R1) ∗ (∃ f, a12.view.loc (c : Thread nD τ) ↦[a12.view.set]{fullShare} a12.view.writes (Elt F) f R2) ∗ (∃ f, a13.view.loc (c : Thread nD τ) ↦[a13.view.set]{fullShare} a13.view.writes (Elt F) f R3) ∗ (∃ f, a14.view.loc (c : Thread nD τ) ↦[a14.view.set]{fullShare} a14.view.writes (Elt F) f R4) ∗ (∃ f, a15.view.loc (c : Thread nD τ) ↦[a15.view.set]{fullShare} a15.view.writes (Elt F) f R5) ∗ (∃ f, sc0.view.loc (c : Thread nD τ) ↦[sc0.view.set]{fullShare} sc0.view.writes (Elt F) f L0) ∗ (∃ f, sc1.view.loc (c : Thread nD τ) ↦[sc1.view.set]{fullShare} sc1.view.writes (Elt F) f L1) ∗ (∃ f, sc2.view.loc (c : Thread nD τ) ↦[sc2.view.set]{fullShare} sc2.view.writes (Elt F) f L2) ∗ (∃ f, sc3.view.loc (c : Thread nD τ) ↦[sc3.view.set]{fullShare} sc3.view.writes (Elt F) f L3) ∗ (∃ f, sc4.view.loc (c : Thread nD τ) ↦[sc4.view.set]{fullShare} sc4.view.writes (Elt F) f L4) ∗ (∃ f, sc5.view.loc (c : Thread nD τ) ↦[sc5.view.set]{fullShare} sc5.view.writes (Elt F) f L5)) -∗ K ⟨⟩))
          ⊢ wp frame (wpE (defs₀ (F := F)) Variants.none c none) E (cc0__fused_kernel i a0 h0 a1 h1 a2 h2 a3 h3 a4 h4 a5 h5 a6 h6 a7 h7 a8 h8 a9 h9 a10 h10 a11 h11 a12 h12 a13 h13 a14 h14 a15 h15 sc0 (Memref.isWhole_whole _) sc1 (Memref.isWhole_whole _) sc2 (Memref.isWhole_whole _) sc3 (Memref.isWhole_whole _) sc4 (Memref.isWhole_whole _) sc5 (Memref.isWhole_whole _)) K := by
  refine ⟨?_, ?_, ?_, ?_, ?_, ?_, ?_, ?_, ?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d0, %e0, %he0, O0⟩, ⟨%d1, %e1, %he1, O1⟩, ⟨%d2, %e2, %he2, O2⟩, ⟨%d3, %e3, %he3, O3⟩, ⟨%d4, %e4, %he4, O4⟩, ⟨%d5, %e5, %he5, O5⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    obtain rfl := (Memref.isWhole_whole _ : (sc0).IsWhole).eq_unread hg0
    obtain rfl := (Memref.isWhole_whole _ : (sc1).IsWhole).eq_unread hg1
    obtain rfl := (Memref.isWhole_whole _ : (sc2).IsWhole).eq_unread hg2
    obtain rfl := (Memref.isWhole_whole _ : (sc3).IsWhole).eq_unread hg3
    obtain rfl := (Memref.isWhole_whole _ : (sc4).IsWhole).eq_unread hg4
    obtain rfl := (Memref.isWhole_whole _ : (sc5).IsWhole).eq_unread hg5
    sl_exec (disch := first | exact hF | exact hL)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [O0]; · iexists _; iexact O0
    isplitl [O1]; · iexists _; iexact O1
    isplitl [O2]; · iexists _; iexact O2
    isplitl [O3]; · iexists _; iexact O3
    isplitl [O4]; · iexists _; iexact O4
    isplitl [O5]; · iexists _; iexact O5
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.KernelIdeal.Hand

end
-- ==== Proof.KI.Data.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.KI.RunLast
import Idealize.ShloMosaic.Lib.Pipeline.FrameBody
import Idealize.ShloMosaic.Lib.Ring
import Idealize.ShloMosaic.Lib.Pipeline.Frame
import Idealize.ShloMosaic.Lib.Pipeline.FrameSuffix
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- The buffers of core `c` when the kernel region is entered: the launch memory after the host operations before it. -/
abbrev V₀ (c : Dev nD) : Valuation τ sig (Elt F) :=
  StableHlo.after ([hostOps0 (F := F)] : List (List (HloOp τ sig (Elt F)))).flatten (fun b => m (c, b))
abbrev V (c : Dev nD) (b : Ref sig .tc) : Buf (Elt F) ((c : Thread nD τ).loc b) := V₀ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The kinds of point: a row block's four column steps -/

theorem N_32 : cfg0.N = 32 := N_0

theorem isFirst_iff : ∀ t : Fin cfg0.N, IsFirst (grid0.coords t) ↔ t.val % 4 = 0 :=
  (by decide +kernel : ∀ t : Fin grid0.N, (Scalar.cmpi .ne (Scalar.extui (Scalar.cmpi .eq (BitVec.ofNat 32 ((grid0.coords t) 1).val) 0#32)) 0#32 = 1#1) ↔ t.val % 4 = 0)
theorem isLast_iff : ∀ t : Fin cfg0.N, IsLast (grid0.coords t) ↔ t.val % 4 = 3 :=
  (by decide +kernel : ∀ t : Fin grid0.N, k0_cond2 (grid0.coords t) = 1#1 ↔ t.val % 4 = 3)

theorem first_of (t : Fin cfg0.N) (h : t.val % 4 = 0) : IsFirst (grid0.coords t) := (isFirst_iff t).mpr h
theorem not_first_of (t : Fin cfg0.N) (h : ¬ t.val % 4 = 0) : ¬ IsFirst (grid0.coords t) := fun h' => h ((isFirst_iff t).mp h')
theorem last_of (t : Fin cfg0.N) (h : t.val % 4 = 3) : IsLast (grid0.coords t) := (isLast_iff t).mpr h
theorem not_last_of (t : Fin cfg0.N) (h : ¬ t.val % 4 = 3) : ¬ IsLast (grid0.coords t) := fun h' => h ((isLast_iff t).mp h')

/-! ## Each window's current staging buffer at a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
abbrev ms13 (t : Fin cfg0.N) := win0_13.stage (cfg0.slots t 13)
abbrev hs13 (t : Fin cfg0.N) : (ms13 t).IsWhole := hstage0_13 ((cfg0.slots t 13).cast nbuf0_13)
abbrev ms14 (t : Fin cfg0.N) := win0_14.stage (cfg0.slots t 14)
abbrev hs14 (t : Fin cfg0.N) : (ms14 t).IsWhole := hstage0_14 ((cfg0.slots t 14).cast nbuf0_14)
abbrev ms15 (t : Fin cfg0.N) := win0_15.stage (cfg0.slots t 15)
abbrev hs15 (t : Fin cfg0.N) : (ms15 t).IsWhole := hstage0_15 ((cfg0.slots t 15).cast nbuf0_15)

/-! ## What the accumulators and the output buffers hold after each point -/

/-- What a 512-by-1 buffer reads after a run of stores (over anything, through any view when the stores cover it). -/
def rd (L : Pieces F) : Vec F S512x1 .f32 := sc0.view.read (Elt F) (sc0.view.writes (Elt F) sc0.view.junk L)

/-- The accumulators a run of a first or middle step leaves, by number. -/
def Found6.acc {P} (r : Found6 (F := F) P) (j : Fin 6) : Vec F S512x1 .f32 :=
  match j with | 0 => rd r.L0 | 1 => rd r.L1 | 2 => rd r.L2 | 3 => rd r.L3 | 4 => rd r.L4 | 5 => rd r.L5
/-- The accumulators a run of a last step leaves, -/
def Found12.acc {P} (r : Found12 (F := F) P) (j : Fin 6) : Vec F S512x1 .f32 :=
  match j with | 0 => rd r.L0 | 1 => rd r.L1 | 2 => rd r.L2 | 3 => rd r.L3 | 4 => rd r.L4 | 5 => rd r.L5
/-- and the six output blocks it stores. -/
def Found12.out {P} (r : Found12 (F := F) P) (j : Fin 6) : Vec F S512x1 .f32 :=
  match j with | 0 => rd r.R0 | 1 => rd r.R1 | 2 => rd r.R2 | 3 => rd r.R3 | 4 => rd r.R4 | 5 => rd r.R5

/-- The six accumulators after point `n`: a first step resets and updates them, any other step updates what the step
    before left. -/
def accAt (c : Dev nD) : (n : ℕ) → n < cfg0.N → Fin 6 → Vec F S512x1 .f32
  | 0, hn => (runFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) (ms13 ⟨0, hn⟩) (hs13 ⟨0, hn⟩) (ms14 ⟨0, hn⟩) (hs14 ⟨0, hn⟩) (ms15 ⟨0, hn⟩) (hs15 ⟨0, hn⟩) (first_of ⟨0, hn⟩ (Nat.zero_mod _)) (not_last_of ⟨0, hn⟩ (by show ¬ 0 % 4 = 3; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)).acc
  | n + 1, hn =>
    if h0 : (n + 1) % 4 = 0 then
      (runFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) (ms15 ⟨n + 1, hn⟩) (hs15 ⟨n + 1, hn⟩) (first_of ⟨n + 1, hn⟩ h0) (not_last_of ⟨n + 1, hn⟩ (by show ¬ (n + 1) % 4 = 3; omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)).acc
    else if h3 : (n + 1) % 4 = 3 then
      (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) (ms15 ⟨n + 1, hn⟩) (hs15 ⟨n + 1, hn⟩) (not_first_of ⟨n + 1, hn⟩ h0) (last_of ⟨n + 1, hn⟩ h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (accAt c n (Nat.lt_of_succ_lt hn) 0) (accAt c n (Nat.lt_of_succ_lt hn) 1) (accAt c n (Nat.lt_of_succ_lt hn) 2) (accAt c n (Nat.lt_of_succ_lt hn) 3) (accAt c n (Nat.lt_of_succ_lt hn) 4) (accAt c n (Nat.lt_of_succ_lt hn) 5)).acc
    else
      (runMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) (ms15 ⟨n + 1, hn⟩) (hs15 ⟨n + 1, hn⟩) (not_first_of ⟨n + 1, hn⟩ h0) (not_last_of ⟨n + 1, hn⟩ h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (accAt c n (Nat.lt_of_succ_lt hn) 0) (accAt c n (Nat.lt_of_succ_lt hn) 1) (accAt c n (Nat.lt_of_succ_lt hn) 2) (accAt c n (Nat.lt_of_succ_lt hn) 3) (accAt c n (Nat.lt_of_succ_lt hn) 4) (accAt c n (Nat.lt_of_succ_lt hn) 5)).acc

/-- The accumulators before point `t` when it is not a row block's first step: what the step before left. -/
abbrev accB (c : Dev nD) (t : Fin cfg0.N) (h : ¬ t.val % 4 = 0) : Fin 6 → Vec F S512x1 .f32 :=
  accAt m c (t.val - 1) (by have := t.isLt; omega)

theorem accAt_first (c : Dev nD) (t : Fin cfg0.N) (h0 : t.val % 4 = 0) :
    accAt m c t.val t.isLt = (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (first_of t h0) (not_last_of t (by omega)) (iblk m c 0 t) (iblk m c 1 t) (iblk m c 2 t) (iblk m c 3 t) (iblk m c 4 t) (iblk m c 5 t) (iblk m c 6 t) (iblk m c 7 t) (iblk m c 8 t) (iblk m c 9 t)).acc := by
  obtain ⟨n, hn⟩ := t
  cases n with
  | zero => rfl
  | succ n => exact (dif_pos h0).trans rfl

theorem accAt_last (c : Dev nD) (t : Fin cfg0.N) (h0 : ¬ t.val % 4 = 0) (h3 : t.val % 4 = 3) :
    accAt m c t.val t.isLt = (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (not_first_of t h0) (last_of t h3) (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).acc := by
  obtain ⟨n, hn⟩ := t
  cases n with
  | zero => exact absurd (Nat.zero_mod _) h0
  | succ n => exact (dif_neg h0).trans ((dif_pos h3).trans rfl)

theorem accAt_mid (c : Dev nD) (t : Fin cfg0.N) (h0 : ¬ t.val % 4 = 0) (h3 : ¬ t.val % 4 = 3) :
    accAt m c t.val t.isLt = (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (not_first_of t h0) (not_last_of t h3) (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).acc := by
  obtain ⟨n, hn⟩ := t
  cases n with
  | zero => exact absurd (Nat.zero_mod _) h0
  | succ n => exact (dif_neg h0).trans ((dif_neg h3).trans rfl)

/-- The block output `j`'s staging buffer holds after point `t` — read only at a last step, where it is what that step's
    run stores. -/
def outAt (c : Dev nD) (t : Fin cfg0.N) (j : Fin 6) : Vec F S512x1 .f32 :=
  if h : t.val % 4 = 3 then
    (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (not_first_of t (by omega)) (last_of t h) (iblk m c 0 t) (iblk m c 1 t) (iblk m c 2 t) (iblk m c 3 t) (iblk m c 4 t) (iblk m c 5 t) (iblk m c 6 t) (iblk m c 7 t) (iblk m c 8 t) (iblk m c 9 t) (accB m c t (by omega) 0) (accB m c t (by omega) 1) (accB m c t (by omega) 2) (accB m c t (by omega) 3) (accB m c t (by omega) 4) (accB m c t (by omega) 5)).out j
  else k0_pay1

/-! ## The stores each run finds cover the buffer they go to -/

theorem cover_first_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L0, y ∈ p.1.set :=
  View.cover_of_tiledL _ S512x1.size (by sl_kernel_rfl) y
theorem cover_mid_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L0, y ∈ p.1.set :=
  View.cover_of_tiledL _ S512x1.size (by sl_kernel_rfl) y
theorem cover_last_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L0, y ∈ p.1.set :=
  View.cover_of_tiledL _ S512x1.size (by sl_kernel_rfl) y
theorem cover_out_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R0, y ∈ p.1.set :=
  View.cover_of_tiledL _ S512x1.size (by sl_kernel_rfl) y
theorem cover_first_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L1, y ∈ p.1.set :=
  View.cover_of_tiledL _ S512x1.size (by sl_kernel_rfl) y
theorem cover_mid_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L1, y ∈ p.1.set :=
  View.cover_of_tiledL _ S512x1.size (by sl_kernel_rfl) y
theorem cover_last_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L1, y ∈ p.1.set :=
  View.cover_of_tiledL _ S512x1.size (by sl_kernel_rfl) y
theorem cover_out_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R1, y ∈ p.1.set :=
  View.cover_of_tiledL _ S512x1.size (by sl_kernel_rfl) y
theorem cover_first_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L2, y ∈ p.1.set :=
  View.cover_of_tiledL _ S512x1.size (by sl_kernel_rfl) y
theorem cover_mid_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L2, y ∈ p.1.set :=
  View.cover_of_tiledL _ S512x1.size (by sl_kernel_rfl) y
theorem cover_last_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L2, y ∈ p.1.set :=
  View.cover_of_tiledL _ S512x1.size (by sl_kernel_rfl) y
theorem cover_out_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R2, y ∈ p.1.set :=
  View.cover_of_tiledL _ S512x1.size (by sl_kernel_rfl) y
theorem cover_first_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L3, y ∈ p.1.set :=
  View.cover_of_tiledL _ S512x1.size (by sl_kernel_rfl) y
theorem cover_mid_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L3, y ∈ p.1.set :=
  View.cover_of_tiledL _ S512x1.size (by sl_kernel_rfl) y
theorem cover_last_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L3, y ∈ p.1.set :=
  View.cover_of_tiledL _ S512x1.size (by sl_kernel_rfl) y
theorem cover_out_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R3, y ∈ p.1.set :=
  View.cover_of_tiledL _ S512x1.size (by sl_kernel_rfl) y
theorem cover_first_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L4, y ∈ p.1.set :=
  View.cover_of_tiledL _ S512x1.size (by sl_kernel_rfl) y
theorem cover_mid_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L4, y ∈ p.1.set :=
  View.cover_of_tiledL _ S512x1.size (by sl_kernel_rfl) y
theorem cover_last_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L4, y ∈ p.1.set :=
  View.cover_of_tiledL _ S512x1.size (by sl_kernel_rfl) y
theorem cover_out_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R4, y ∈ p.1.set :=
  View.cover_of_tiledL _ S512x1.size (by sl_kernel_rfl) y
theorem cover_first_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L5, y ∈ p.1.set :=
  View.cover_of_tiledL _ S512x1.size (by sl_kernel_rfl) y
theorem cover_mid_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L5, y ∈ p.1.set :=
  View.cover_of_tiledL _ S512x1.size (by sl_kernel_rfl) y
theorem cover_last_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L5, y ∈ p.1.set :=
  View.cover_of_tiledL _ S512x1.size (by sl_kernel_rfl) y
theorem cover_out_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R5, y ∈ p.1.set :=
  View.cover_of_tiledL _ S512x1.size (by sl_kernel_rfl) y

/-- A buffer after stores that cover it holds what they leave, whatever it held. -/
theorem owns_of_writes (c : Dev nD) (M : Memref sig .tc .vmem S512x1 .f32) (L : Pieces F) (hcov : ∀ y, ∃ p ∈ L, y ∈ p.1.set) :
    iprop(∃ f, M.view.loc (c : Thread nD τ) ↦[M.view.set]{fullShare} M.view.writes (Elt F) f L) ⊢ (owns (c : Thread nD τ) M fullShare (rd L) : sProp 𝕄) := by
  iintro ⟨%f, H⟩
  unfold owns rd; iexists _; isplitr
  swap; · iexact H
  ipureintro; exact View.read_writes_of_cover _ _ _ _ _ hcov

/-! ## The proof data -/

/-- The accumulators before point `k` (k = 0 … 32): at anything before a row block's first step and after the last
    row block, else at what the step before left. -/
def accPart (c : Dev nD) (k : Fin (cfg0.N + 1)) : sProp 𝕄 :=
  if h : k.val % 4 = 0 then iprop((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a))
  else iprop(owns (c : Thread nD τ) sc0 fullShare (accAt m c (k.val - 1) (by have := k.isLt; omega) 0) ∗ owns (c : Thread nD τ) sc1 fullShare (accAt m c (k.val - 1) (by have := k.isLt; omega) 1) ∗ owns (c : Thread nD τ) sc2 fullShare (accAt m c (k.val - 1) (by have := k.isLt; omega) 2) ∗ owns (c : Thread nD τ) sc3 fullShare (accAt m c (k.val - 1) (by have := k.isLt; omega) 3) ∗ owns (c : Thread nD τ) sc4 fullShare (accAt m c (k.val - 1) (by have := k.isLt; omega) 4) ∗ owns (c : Thread nD τ) sc5 fullShare (accAt m c (k.val - 1) (by have := k.isLt; omega) 5))
/-- The body's invariant: the accumulators and the generator register. -/
def Φv (c : Dev nD) (k : Fin (cfg0.N + 1)) : sProp 𝕄 := iprop(accPart m c k ∗ ∃ r, prngReg c r)

/-- The proof data of the pipeline on core `c`: the arrays as the region finds them; after the body each input's buffer
    at its block and each output's at `outAt`; the invariant `Φv`; the array two windows share held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t 0
    | ⟨11, _⟩ => outAt m c t 1
    | ⟨12, _⟩ => outAt m c t 2
    | ⟨13, _⟩ => outAt m c t 3
    | ⟨14, _⟩ => outAt m c t 4
    | ⟨15, _⟩ => outAt m c t 5
    | ⟨_ + 16, h⟩ => absurd h (Nat.not_lt.2 (Nat.le_add_left _ _))
  Φ k := Φv m c k
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t 0 := by dsimp only [dats]
theorem after_11 (c : Dev nD) (t : Fin cfg0.N) : (dats m 0 c).after 11 t = outAt m c t 1 := by dsimp only [dats]
theorem after_12 (c : Dev nD) (t : Fin cfg0.N) : (dats m 0 c).after 12 t = outAt m c t 2 := by dsimp only [dats]
theorem after_13 (c : Dev nD) (t : Fin cfg0.N) : (dats m 0 c).after 13 t = outAt m c t 3 := by dsimp only [dats]
theorem after_14 (c : Dev nD) (t : Fin cfg0.N) : (dats m 0 c).after 14 t = outAt m c t 4 := by dsimp only [dats]
theorem after_15 (c : Dev nD) (t : Fin cfg0.N) : (dats m 0 c).after 15 t = outAt m c t 5 := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

theorem Φ_pre_first (c : Dev nD) (t : Fin cfg0.N) (h : t.val % 4 = 0) :
    (dats m 0 c).Φ t.castSucc = iprop(((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a)) ∗ ∃ r, prngReg c r) := by
  show Φv m c _ = _; unfold Φv accPart; rw [dif_pos (by exact h)]
theorem Φ_pre_other (c : Dev nD) (t : Fin cfg0.N) (h : ¬ t.val % 4 = 0) :
    (dats m 0 c).Φ t.castSucc = iprop((owns (c : Thread nD τ) sc0 fullShare (accB m c t h 0) ∗ owns (c : Thread nD τ) sc1 fullShare (accB m c t h 1) ∗ owns (c : Thread nD τ) sc2 fullShare (accB m c t h 2) ∗ owns (c : Thread nD τ) sc3 fullShare (accB m c t h 3) ∗ owns (c : Thread nD τ) sc4 fullShare (accB m c t h 4) ∗ owns (c : Thread nD τ) sc5 fullShare (accB m c t h 5)) ∗ ∃ r, prngReg c r) := by
  show Φv m c _ = _; unfold Φv accPart; rw [dif_neg (by exact h)]; rfl
theorem Φ_post_last (c : Dev nD) (t : Fin cfg0.N) (h : t.val % 4 = 3) :
    (dats m 0 c).Φ t.succ = iprop(((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a)) ∗ ∃ r, prngReg c r) := by
  show Φv m c _ = _; unfold Φv accPart; rw [dif_pos (by show (t.val + 1) % 4 = 0; omega)]
theorem Φ_post_other (c : Dev nD) (t : Fin cfg0.N) (h : ¬ t.val % 4 = 3) :
    (dats m 0 c).Φ t.succ = iprop((owns (c : Thread nD τ) sc0 fullShare (accAt m c t.val t.isLt 0) ∗ owns (c : Thread nD τ) sc1 fullShare (accAt m c t.val t.isLt 1) ∗ owns (c : Thread nD τ) sc2 fullShare (accAt m c t.val t.isLt 2) ∗ owns (c : Thread nD τ) sc3 fullShare (accAt m c t.val t.isLt 3) ∗ owns (c : Thread nD τ) sc4 fullShare (accAt m c t.val t.isLt 4) ∗ owns (c : Thread nD τ) sc5 fullShare (accAt m c t.val t.isLt 5)) ∗ ∃ r, prngReg c r) := by
  show Φv m c _ = _; unfold Φv accPart; rw [dif_neg (by show ¬ (t.val + 1) % 4 = 0; omega)]; rfl

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

end Cert.KernelIdeal.Hand

end
-- ==== Proof.KI.Body.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.KI.Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Found6.acc_0 {P} (r : Found6 (F := F) P) : r.acc 0 = rd r.L0 := rfl
theorem Found12.acc_0 {P} (r : Found12 (F := F) P) : r.acc 0 = rd r.L0 := rfl
theorem Found12.out_0 {P} (r : Found12 (F := F) P) : r.out 0 = rd r.R0 := rfl
theorem Found6.acc_1 {P} (r : Found6 (F := F) P) : r.acc 1 = rd r.L1 := rfl
theorem Found12.acc_1 {P} (r : Found12 (F := F) P) : r.acc 1 = rd r.L1 := rfl
theorem Found12.out_1 {P} (r : Found12 (F := F) P) : r.out 1 = rd r.R1 := rfl
theorem Found6.acc_2 {P} (r : Found6 (F := F) P) : r.acc 2 = rd r.L2 := rfl
theorem Found12.acc_2 {P} (r : Found12 (F := F) P) : r.acc 2 = rd r.L2 := rfl
theorem Found12.out_2 {P} (r : Found12 (F := F) P) : r.out 2 = rd r.R2 := rfl
theorem Found6.acc_3 {P} (r : Found6 (F := F) P) : r.acc 3 = rd r.L3 := rfl
theorem Found12.acc_3 {P} (r : Found12 (F := F) P) : r.acc 3 = rd r.L3 := rfl
theorem Found12.out_3 {P} (r : Found12 (F := F) P) : r.out 3 = rd r.R3 := rfl
theorem Found6.acc_4 {P} (r : Found6 (F := F) P) : r.acc 4 = rd r.L4 := rfl
theorem Found12.acc_4 {P} (r : Found12 (F := F) P) : r.acc 4 = rd r.L4 := rfl
theorem Found12.out_4 {P} (r : Found12 (F := F) P) : r.out 4 = rd r.R4 := rfl
theorem Found6.acc_5 {P} (r : Found6 (F := F) P) : r.acc 5 = rd r.L5 := rfl
theorem Found12.acc_5 {P} (r : Found12 (F := F) P) : r.acc 5 = rd r.L5 := rfl
theorem Found12.out_5 {P} (r : Found12 (F := F) P) : r.out 5 = rd r.R5 := rfl

/-! ## Where the windows are idle, and where the outputs are written back -/

theorem idle_in_0 (t : Fin cfg0.N) : idle0 0 (grid0.coords t) = false := rfl
theorem idle_in_1 (t : Fin cfg0.N) : idle0 1 (grid0.coords t) = false := rfl
theorem idle_in_2 (t : Fin cfg0.N) : idle0 2 (grid0.coords t) = false := rfl
theorem idle_in_3 (t : Fin cfg0.N) : idle0 3 (grid0.coords t) = false := rfl
theorem idle_in_4 (t : Fin cfg0.N) : idle0 4 (grid0.coords t) = false := rfl
theorem idle_in_5 (t : Fin cfg0.N) : idle0 5 (grid0.coords t) = false := rfl
theorem idle_in_6 (t : Fin cfg0.N) : idle0 6 (grid0.coords t) = false := rfl
theorem idle_in_7 (t : Fin cfg0.N) : idle0 7 (grid0.coords t) = false := rfl
theorem idle_in_8 (t : Fin cfg0.N) : idle0 8 (grid0.coords t) = false := rfl
theorem idle_in_9 (t : Fin cfg0.N) : idle0 9 (grid0.coords t) = false := rfl
theorem idle_out_0_of_last (t : Fin cfg0.N) (h : IsLast (grid0.coords t)) : idle0 10 (grid0.coords t) = false := by
  show (!(k0_cond2 (grid0.coords t) == 1#1)) = false; rw [show (k0_cond2 (grid0.coords t) == 1#1) = true from beq_iff_eq.mpr h]; rfl
theorem idle_out_0_of_not_last (t : Fin cfg0.N) (h : ¬ IsLast (grid0.coords t)) : idle0 10 (grid0.coords t) = true := by
  show (!(k0_cond2 (grid0.coords t) == 1#1)) = true; rw [show (k0_cond2 (grid0.coords t) == 1#1) = false from beq_eq_false_iff_ne.mpr h]; rfl
theorem flush_0_of_last (t : Fin cfg0.N) (h : t.val % 4 = 3) : (cfg0.win 10).flush t = true := (flush0_10 t).mpr h
theorem flush_0_of_not_last (t : Fin cfg0.N) (h : ¬ t.val % 4 = 3) : (cfg0.win 10).flush t = false :=
  Bool.eq_false_iff.mpr fun hf => h ((flush0_10 t).mp hf)
theorem idle_out_1_of_last (t : Fin cfg0.N) (h : IsLast (grid0.coords t)) : idle0 11 (grid0.coords t) = false := by
  show (!(k0_cond2 (grid0.coords t) == 1#1)) = false; rw [show (k0_cond2 (grid0.coords t) == 1#1) = true from beq_iff_eq.mpr h]; rfl
theorem idle_out_1_of_not_last (t : Fin cfg0.N) (h : ¬ IsLast (grid0.coords t)) : idle0 11 (grid0.coords t) = true := by
  show (!(k0_cond2 (grid0.coords t) == 1#1)) = true; rw [show (k0_cond2 (grid0.coords t) == 1#1) = false from beq_eq_false_iff_ne.mpr h]; rfl
theorem flush_1_of_last (t : Fin cfg0.N) (h : t.val % 4 = 3) : (cfg0.win 11).flush t = true := (flush0_11 t).mpr h
theorem flush_1_of_not_last (t : Fin cfg0.N) (h : ¬ t.val % 4 = 3) : (cfg0.win 11).flush t = false :=
  Bool.eq_false_iff.mpr fun hf => h ((flush0_11 t).mp hf)
theorem idle_out_2_of_last (t : Fin cfg0.N) (h : IsLast (grid0.coords t)) : idle0 12 (grid0.coords t) = false := by
  show (!(k0_cond2 (grid0.coords t) == 1#1)) = false; rw [show (k0_cond2 (grid0.coords t) == 1#1) = true from beq_iff_eq.mpr h]; rfl
theorem idle_out_2_of_not_last (t : Fin cfg0.N) (h : ¬ IsLast (grid0.coords t)) : idle0 12 (grid0.coords t) = true := by
  show (!(k0_cond2 (grid0.coords t) == 1#1)) = true; rw [show (k0_cond2 (grid0.coords t) == 1#1) = false from beq_eq_false_iff_ne.mpr h]; rfl
theorem flush_2_of_last (t : Fin cfg0.N) (h : t.val % 4 = 3) : (cfg0.win 12).flush t = true := (flush0_12 t).mpr h
theorem flush_2_of_not_last (t : Fin cfg0.N) (h : ¬ t.val % 4 = 3) : (cfg0.win 12).flush t = false :=
  Bool.eq_false_iff.mpr fun hf => h ((flush0_12 t).mp hf)
theorem idle_out_3_of_last (t : Fin cfg0.N) (h : IsLast (grid0.coords t)) : idle0 13 (grid0.coords t) = false := by
  show (!(k0_cond2 (grid0.coords t) == 1#1)) = false; rw [show (k0_cond2 (grid0.coords t) == 1#1) = true from beq_iff_eq.mpr h]; rfl
theorem idle_out_3_of_not_last (t : Fin cfg0.N) (h : ¬ IsLast (grid0.coords t)) : idle0 13 (grid0.coords t) = true := by
  show (!(k0_cond2 (grid0.coords t) == 1#1)) = true; rw [show (k0_cond2 (grid0.coords t) == 1#1) = false from beq_eq_false_iff_ne.mpr h]; rfl
theorem flush_3_of_last (t : Fin cfg0.N) (h : t.val % 4 = 3) : (cfg0.win 13).flush t = true := (flush0_13 t).mpr h
theorem flush_3_of_not_last (t : Fin cfg0.N) (h : ¬ t.val % 4 = 3) : (cfg0.win 13).flush t = false :=
  Bool.eq_false_iff.mpr fun hf => h ((flush0_13 t).mp hf)
theorem idle_out_4_of_last (t : Fin cfg0.N) (h : IsLast (grid0.coords t)) : idle0 14 (grid0.coords t) = false := by
  show (!(k0_cond2 (grid0.coords t) == 1#1)) = false; rw [show (k0_cond2 (grid0.coords t) == 1#1) = true from beq_iff_eq.mpr h]; rfl
theorem idle_out_4_of_not_last (t : Fin cfg0.N) (h : ¬ IsLast (grid0.coords t)) : idle0 14 (grid0.coords t) = true := by
  show (!(k0_cond2 (grid0.coords t) == 1#1)) = true; rw [show (k0_cond2 (grid0.coords t) == 1#1) = false from beq_eq_false_iff_ne.mpr h]; rfl
theorem flush_4_of_last (t : Fin cfg0.N) (h : t.val % 4 = 3) : (cfg0.win 14).flush t = true := (flush0_14 t).mpr h
theorem flush_4_of_not_last (t : Fin cfg0.N) (h : ¬ t.val % 4 = 3) : (cfg0.win 14).flush t = false :=
  Bool.eq_false_iff.mpr fun hf => h ((flush0_14 t).mp hf)
theorem idle_out_5_of_last (t : Fin cfg0.N) (h : IsLast (grid0.coords t)) : idle0 15 (grid0.coords t) = false := by
  show (!(k0_cond2 (grid0.coords t) == 1#1)) = false; rw [show (k0_cond2 (grid0.coords t) == 1#1) = true from beq_iff_eq.mpr h]; rfl
theorem idle_out_5_of_not_last (t : Fin cfg0.N) (h : ¬ IsLast (grid0.coords t)) : idle0 15 (grid0.coords t) = true := by
  show (!(k0_cond2 (grid0.coords t) == 1#1)) = true; rw [show (k0_cond2 (grid0.coords t) == 1#1) = false from beq_eq_false_iff_ne.mpr h]; rfl
theorem flush_5_of_last (t : Fin cfg0.N) (h : t.val % 4 = 3) : (cfg0.win 15).flush t = true := (flush0_15 t).mpr h
theorem flush_5_of_not_last (t : Fin cfg0.N) (h : ¬ t.val % 4 = 3) : (cfg0.win 15).flush t = false :=
  Bool.eq_false_iff.mpr fun hf => h ((flush0_15 t).mp hf)

theorem outAt_last (c : Dev nD) (t : Fin cfg0.N) (h0 : ¬ t.val % 4 = 0) (h3 : t.val % 4 = 3) (j : Fin 6) :
    outAt m c t j = (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (not_first_of t h0) (last_of t h3) (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).out j := by
  unfold outAt; rw [dif_pos h3]

/-! ## The body obligation -/

set_option maxHeartbeats 4000000 in
/-- The library's body obligation at every point, by the point's kind: the run of that kind between the invariant's two
    forms; an output's staging buffer is passed through untouched except at a last step, where it ends at the block the
    run stores. -/
theorem body_obligation (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl]
  by_cases h3 : t.val % 4 = 3
  · -- a last step
    have h0 : ¬ t.val % 4 = 0 := by omega
    have hL := last_of t h3
    have hF := not_first_of t h0
    simp only [idle_in_0, idle_in_1, idle_in_2, idle_in_3, idle_in_4, idle_in_5, idle_in_6, idle_in_7, idle_in_8, idle_in_9, idle_out_0_of_last t hL, flush_0_of_last t h3, idle_out_1_of_last t hL, flush_1_of_last t h3, idle_out_2_of_last t hL, flush_2_of_last t h3, idle_out_3_of_last t hL, flush_3_of_last t h3, idle_out_4_of_last t hL, flush_4_of_last t h3, idle_out_5_of_last t hL, flush_5_of_last t h3, before_0, before_1, before_2, before_3, before_4, before_5, before_6, before_7, before_8, before_9, after_0, after_1, after_2, after_3, after_4, after_5, after_6, after_7, after_8, after_9, after_10, after_11, after_12, after_13, after_14, after_15]
    rw [Φ_pre_other m c t h0, Φ_post_last m c t h3]
    simp only [outAt_last m c t h0 h3]
    iintro ⟨⟨⟨Ha0, Ha1, Ha2, Ha3, Ha4, Ha5⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%e0, O0⟩, ⟨%e1, O1⟩, ⟨%e2, O2⟩, ⟨%e3, O3⟩, ⟨%e4, O4⟩, ⟨%e5, O5⟩⟩
    iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) hF hL (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).run Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [O0]; · iexists _; iexact O0
    isplitl [O1]; · iexists _; iexact O1
    isplitl [O2]; · iexists _; iexact O2
    isplitl [O3]; · iexists _; iexact O3
    isplitl [O4]; · iexists _; iexact O4
    isplitl [O5]; · iexists _; iexact O5
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iintro ⟨H0, H1, H2, H3, H4, H5, H6, H7, H8, H9, O0, O1, O2, O3, O4, O5, S0, S1, S2, S3, S4, S5⟩
    isplitl [S0 S1 S2 S3 S4 S5 Hp]
    · isplitr [Hp]; swap; · iexact Hp
      isplitl [S0]; · iexists _; iapply (owns_of_writes c sc0 _ (cover_last_0 c _ _ _ _ _ _ _ _ _ _ _ _ _ _ _ _ _ _ _ _ _ _ _ _ _ _ _ _ _ _ _ _ _ _ _ _ _ _ _ _ _ _ _ _ _ _ _ _ _ _ _)); iexact S0
      isplitl [S1]; · iexists _; iapply (owns_of_writes c sc1 _ (cover_last_1 c _ _ _ _ _ _ _ _ _ _ _ _ _ _ _ _ _ _ _ _ _ _ _ _ _ _ _ _ _ _ _ _ _ _ _ _ _ _ _ _ _ _ _ _ _ _ _ _ _ _ _)); iexact S1
      isplitl [S2]; · iexists _; iapply (owns_of_writes c sc2 _ (cover_last_2 c _ _ _ _ _ _ _ _ _ _ _ _ _ _ _ _ _ _ _ _ _ _ _ _ _ _ _ _ _ _ _ _ _ _ _ _ _ _ _ _ _ _ _ _ _ _ _ _ _ _ _)); iexact S2
      isplitl [S3]; · iexists _; iapply (owns_of_writes c sc3 _ (cover_last_3 c _ _ _ _ _ _ _ _ _ _ _ _ _ _ _ _ _ _ _ _ _ _ _ _ _ _ _ _ _ _ _ _ _ _ _ _ _ _ _ _ _ _ _ _ _ _ _ _ _ _ _)); iexact S3
      isplitl [S4]; · iexists _; iapply (owns_of_writes c sc4 _ (cover_last_4 c _ _ _ _ _ _ _ _ _ _ _ _ _ _ _ _ _ _ _ _ _ _ _ _ _ _ _ _ _ _ _ _ _ _ _ _ _ _ _ _ _ _ _ _ _ _ _ _ _ _ _)); iexact S4
      iexists _; iapply (owns_of_writes c sc5 _ (cover_last_5 c _ _ _ _ _ _ _ _ _ _ _ _ _ _ _ _ _ _ _ _ _ _ _ _ _ _ _ _ _ _ _ _ _ _ _ _ _ _ _ _ _ _ _ _ _ _ _ _ _ _ _)); iexact S5
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [O0]; · rw [Found12.out_0]; iapply (owns_of_writes c (ms10 t) _ (cover_out_0 c _ _ _ _ _ _ _ _ _ _ _ _ _ _ _ _ _ _ _ _ _ _ _ _ _ _ _ _ _ _ _ _ _ _ _ _ _ _ _ _ _ _ _ _ _ _ _ _ _ _ _)); iexact O0
    isplitl [O1]; · rw [Found12.out_1]; iapply (owns_of_writes c (ms11 t) _ (cover_out_1 c _ _ _ _ _ _ _ _ _ _ _ _ _ _ _ _ _ _ _ _ _ _ _ _ _ _ _ _ _ _ _ _ _ _ _ _ _ _ _ _ _ _ _ _ _ _ _ _ _ _ _)); iexact O1
    isplitl [O2]; · rw [Found12.out_2]; iapply (owns_of_writes c (ms12 t) _ (cover_out_2 c _ _ _ _ _ _ _ _ _ _ _ _ _ _ _ _ _ _ _ _ _ _ _ _ _ _ _ _ _ _ _ _ _ _ _ _ _ _ _ _ _ _ _ _ _ _ _ _ _ _ _)); iexact O2
    isplitl [O3]; · rw [Found12.out_3]; iapply (owns_of_writes c (ms13 t) _ (cover_out_3 c _ _ _ _ _ _ _ _ _ _ _ _ _ _ _ _ _ _ _ _ _ _ _ _ _ _ _ _ _ _ _ _ _ _ _ _ _ _ _ _ _ _ _ _ _ _ _ _ _ _ _)); iexact O3
    isplitl [O4]; · rw [Found12.out_4]; iapply (owns_of_writes c (ms14 t) _ (cover_out_4 c _ _ _ _ _ _ _ _ _ _ _ _ _ _ _ _ _ _ _ _ _ _ _ _ _ _ _ _ _ _ _ _ _ _ _ _ _ _ _ _ _ _ _ _ _ _ _ _ _ _ _)); iexact O4
    rw [Found12.out_5]; iapply (owns_of_writes c (ms15 t) _ (cover_out_5 c _ _ _ _ _ _ _ _ _ _ _ _ _ _ _ _ _ _ _ _ _ _ _ _ _ _ _ _ _ _ _ _ _ _ _ _ _ _ _ _ _ _ _ _ _ _ _ _ _ _ _)); iexact O5
  · have hL := not_last_of t h3
    simp only [idle_in_0, idle_in_1, idle_in_2, idle_in_3, idle_in_4, idle_in_5, idle_in_6, idle_in_7, idle_in_8, idle_in_9, idle_out_0_of_not_last t hL, flush_0_of_not_last t h3, idle_out_1_of_not_last t hL, flush_1_of_not_last t h3, idle_out_2_of_not_last t hL, flush_2_of_not_last t h3, idle_out_3_of_not_last t hL, flush_3_of_not_last t h3, idle_out_4_of_not_last t hL, flush_4_of_not_last t h3, idle_out_5_of_not_last t hL, flush_5_of_not_last t h3, before_0, before_1, before_2, before_3, before_4, before_5, before_6, before_7, before_8, before_9, after_0, after_1, after_2, after_3, after_4, after_5, after_6, after_7, after_8, after_9, after_10, after_11, after_12, after_13, after_14, after_15]
    by_cases h0 : t.val % 4 = 0
    · -- a first step
      have hF := first_of t h0
      rw [Φ_pre_first m c t h0, Φ_post_other m c t h3, accAt_first m c t h0]
      iintro ⟨⟨⟨Ha0, Ha1, Ha2, Ha3, Ha4, Ha5⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, O0, O1, O2, O3, O4, O5⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) hF hL (iblk m c 0 t) (iblk m c 1 t) (iblk m c 2 t) (iblk m c 3 t) (iblk m c 4 t) (iblk m c 5 t) (iblk m c 6 t) (iblk m c 7 t) (iblk m c 8 t) (iblk m c 9 t)).run Set.univ iprop((∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d))) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [O0 O1 O2 O3 O4 O5]
      · isplitl [O0]; · iexact O0
        isplitl [O1]; · iexact O1
        isplitl [O2]; · iexact O2
        isplitl [O3]; · iexact O3
        isplitl [O4]; · iexact O4
        iexact O5
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iintro ⟨H0, H1, H2, H3, H4, H5, H6, H7, H8, H9, HO6, S0, S1, S2, S3, S4, S5⟩
      isplitl [S0 S1 S2 S3 S4 S5 Hp]
      · isplitr [Hp]; swap; · iexact Hp
        isplitl [S0]; · rw [Found6.acc_0]; iapply (owns_of_writes c sc0 _ (cover_first_0 c _ _ _ _ _ _ _ _ _ _ _ _ _ _ _ _ _ _ _ _ _ _ _ _ _ _ _ _ _ _ _ _ _ _ _ _ _ _ _ _ _ _ _ _ _)); iexact S0
        isplitl [S1]; · rw [Found6.acc_1]; iapply (owns_of_writes c sc1 _ (cover_first_1 c _ _ _ _ _ _ _ _ _ _ _ _ _ _ _ _ _ _ _ _ _ _ _ _ _ _ _ _ _ _ _ _ _ _ _ _ _ _ _ _ _ _ _ _ _)); iexact S1
        isplitl [S2]; · rw [Found6.acc_2]; iapply (owns_of_writes c sc2 _ (cover_first_2 c _ _ _ _ _ _ _ _ _ _ _ _ _ _ _ _ _ _ _ _ _ _ _ _ _ _ _ _ _ _ _ _ _ _ _ _ _ _ _ _ _ _ _ _ _)); iexact S2
        isplitl [S3]; · rw [Found6.acc_3]; iapply (owns_of_writes c sc3 _ (cover_first_3 c _ _ _ _ _ _ _ _ _ _ _ _ _ _ _ _ _ _ _ _ _ _ _ _ _ _ _ _ _ _ _ _ _ _ _ _ _ _ _ _ _ _ _ _ _)); iexact S3
        isplitl [S4]; · rw [Found6.acc_4]; iapply (owns_of_writes c sc4 _ (cover_first_4 c _ _ _ _ _ _ _ _ _ _ _ _ _ _ _ _ _ _ _ _ _ _ _ _ _ _ _ _ _ _ _ _ _ _ _ _ _ _ _ _ _ _ _ _ _)); iexact S4
        rw [Found6.acc_5]; iapply (owns_of_writes c sc5 _ (cover_first_5 c _ _ _ _ _ _ _ _ _ _ _ _ _ _ _ _ _ _ _ _ _ _ _ _ _ _ _ _ _ _ _ _ _ _ _ _ _ _ _ _ _ _ _ _ _)); iexact S5
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HO6
    · -- a middle step
      have hF := not_first_of t h0
      rw [Φ_pre_other m c t h0, Φ_post_other m c t h3, accAt_mid m c t h0 h3]
      iintro ⟨⟨⟨Ha0, Ha1, Ha2, Ha3, Ha4, Ha5⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, O0, O1, O2, O3, O4, O5⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) hF hL (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).run Set.univ iprop((∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d))) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [O0 O1 O2 O3 O4 O5]
      · isplitl [O0]; · iexact O0
        isplitl [O1]; · iexact O1
        isplitl [O2]; · iexact O2
        isplitl [O3]; · iexact O3
        isplitl [O4]; · iexact O4
        iexact O5
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iintro ⟨H0, H1, H2, H3, H4, H5, H6, H7, H8, H9, HO6, S0, S1, S2, S3, S4, S5⟩
      isplitl [S0 S1 S2 S3 S4 S5 Hp]
      · isplitr [Hp]; swap; · iexact Hp
        isplitl [S0]; · rw [Found6.acc_0]; iapply (owns_of_writes c sc0 _ (cover_mid_0 c _ _ _ _ _ _ _ _ _ _ _ _ _ _ _ _ _ _ _ _ _ _ _ _ _ _ _ _ _ _ _ _ _ _ _ _ _ _ _ _ _ _ _ _ _ _ _ _ _ _ _)); iexact S0
        isplitl [S1]; · rw [Found6.acc_1]; iapply (owns_of_writes c sc1 _ (cover_mid_1 c _ _ _ _ _ _ _ _ _ _ _ _ _ _ _ _ _ _ _ _ _ _ _ _ _ _ _ _ _ _ _ _ _ _ _ _ _ _ _ _ _ _ _ _ _ _ _ _ _ _ _)); iexact S1
        isplitl [S2]; · rw [Found6.acc_2]; iapply (owns_of_writes c sc2 _ (cover_mid_2 c _ _ _ _ _ _ _ _ _ _ _ _ _ _ _ _ _ _ _ _ _ _ _ _ _ _ _ _ _ _ _ _ _ _ _ _ _ _ _ _ _ _ _ _ _ _ _ _ _ _ _)); iexact S2
        isplitl [S3]; · rw [Found6.acc_3]; iapply (owns_of_writes c sc3 _ (cover_mid_3 c _ _ _ _ _ _ _ _ _ _ _ _ _ _ _ _ _ _ _ _ _ _ _ _ _ _ _ _ _ _ _ _ _ _ _ _ _ _ _ _ _ _ _ _ _ _ _ _ _ _ _)); iexact S3
        isplitl [S4]; · rw [Found6.acc_4]; iapply (owns_of_writes c sc4 _ (cover_mid_4 c _ _ _ _ _ _ _ _ _ _ _ _ _ _ _ _ _ _ _ _ _ _ _ _ _ _ _ _ _ _ _ _ _ _ _ _ _ _ _ _ _ _ _ _ _ _ _ _ _ _ _)); iexact S4
        rw [Found6.acc_5]; iapply (owns_of_writes c sc5 _ (cover_mid_5 c _ _ _ _ _ _ _ _ _ _ _ _ _ _ _ _ _ _ _ _ _ _ _ _ _ _ _ _ _ _ _ _ _ _ _ _ _ _ _ _ _ _ _ _ _ _ _ _ _ _ _)); iexact S5
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HO6

end Cert.KernelIdeal.Hand

end
-- ==== Proof.LibSharedFrame.lean ====
/-
  A one-region program whose input windows may read THE SAME array, with host operations before and after the
  region: the run from the launch to the end.

  When two windows of a pipeline stage blocks of one array, the array's buffer cannot be handed whole to each of
  them. It is held once, at the full share, before the region; at the region's entry its share is dealt among the
  windows on it (`hdeal`), each window then holds the array read-only at its part, and at the region's exit the parts
  are put together again (`hjoin` / `hdeal'`), so that the operations after the region find every unscoped buffer
  held whole at the full share, exactly as the operations before the region did. Those later operations may read
  anything unscoped and must write no array of the pipeline.

  The conclusion reads the final memory: each window's array at what the pipeline's write-backs leave in it (an
  input array: its entry contents), and every unscoped buffer that is no window's array at what the later operations
  compute from the contents at the region's exit.
-/
import Idealize.ShloMosaic.Lib.Pipeline.FrameSuffix

noncomputable section

namespace Cert.SharedFrame

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The contents of core `c`'s unscoped buffers after the later operations `opss`, run from the contents `W c` the
    region's exit leaves. -/
abbrev finalAt (W : Dev nD → Valuation τ sig Val) (opss : List (List (HloOp τ sig Val))) (c : Dev nD) (b : Ref sig .tc) :
    Buf Val ((c.tc : Thread nD τ).loc b) :=
  StableHlo.after opss.flatten (W c) (Proc.devRef .tc b)

/-- THE RUN. `hcell`, `hw`, `hne`, `harr`, `hstage`: the layout the launch decides (the arrays need not be distinct).
    `hmain`: @main is earlier operations, the region, the later operations `opss`. `V₀ c`: the contents at the region's
    entry; `W c`: at its exit, equal to `V₀ c` off the windows' arrays (`hWrest`). `hdeal`: the arrays' buffers, whole
    at the entry contents, make the proof data's arrays at entry; `hjoin` and `hdeal'`: at the exit the proof data's
    arrays and the buffers whole at `W c` are each other. The later operations touch TensorCore buffers only, allocate
    nothing, and write no array. -/
theorem θ_run_around_shared
    (hcell : Function.Injective (cellOf (nD := nD) (τ := τ) cfgs))
    (hw : WinFacts₀ (cfg).spec) (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ W : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hWrest : ∀ c, ∀ b ∈ restRefs sig (cfg).spec, W c (Proc.devRef .tc b) = V₀ c (Proc.devRef .tc b))
    (hdeal : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => W c (Proc.devRef .tc b)) : sProp 𝕄))
    (hdeal' : ∀ c, (arrBufs (cfg).spec c (fun b => W c (Proc.devRef .tc b)) : sProp 𝕄) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
        ∧ ∀ b ∈ restRefs sig (cfg).spec, r.2.mem ((c.tc : Thread nD τ).loc b) = finalAt W opss c b) := by
  classical
  -- the later operations write no array: an array's buffer holds after them what it held at the exit
  have hsame : ∀ c (w : Fin (cfg).W), StableHlo.after opss.flatten (W c) (Proc.devRef .tc (arrRef (cfg).spec w)) = W c (Proc.devRef .tc (arrRef (cfg).spec w)) :=
    fun c w => StableHlo.after_of_forall_not_mem _ _ fun op hop => by
      obtain ⟨ops, hops, hop⟩ := List.mem_flatten.mp hop
      exact hkeep ops hops op hop w
  have hcell' : Function.Injective (cellOf (nD := nD) (τ := τ) (pin (fun q => (cfgs q).toPCfg (Val := Val)) (fun q => (cfgs q).toPCfg_adm))) := hcell
  exact θ_run_region_pf_tail (fun q => (cfgs q).toPCfg (Val := Val)) (fun q => (cfgs q).toPCfg_adm) dats () hcell' p hw
    (OwnSemFacts.none (cfg).spec) (PreFacts.none _) emb₁ defs₀ 𝒱₀ m g main
    (fun _ => chain (opss.map StableHlo.seq)) hbody hne harr hstage howed
    (G := fun _ => iprop(emp)) (u₀ := initOf (cells (pin (fun q => (cfgs q).toPCfg (Val := Val)) (fun q => (cfgs q).toPCfg_adm)) hcell') (launchToks (pin (fun q => (cfgs q).toPCfg (Val := Val)) (fun q => (cfgs q).toPCfg_adm)) hcell'))
    (hu₀ := by
      iintro Hu; imodintro
      isplitl [Hu]; · iapply (show (ownU _ : sProp 𝕄) ⊢ BI.own (emb₁ (initOf (cells (pin (fun q => (cfgs q).toPCfg (Val := Val)) (fun q => (cfgs q).toPCfg_adm)) hcell') (launchToks (pin (fun q => (cfgs q).toPCfg (Val := Val)) (fun q => (cfgs q).toPCfg_adm)) hcell'))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hdeal)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c (finalAt W opss c))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      -- every unscoped buffer, whole at the exit contents
      have hall : iprop((dats p c).arrays ((dats p c).arrAt · (cfg).N)
            ∗ unscopedRestP (Ix := Unit) (Name := ℕ) (U := UR sig nD τ) (Lvl := ℕ) Prefetch.none (cfg).spec c (fun b => V₀ c (Proc.devRef .tc b)))
          ⊢ (StableHlo.held (c.tc : Thread nD τ) (ucRefs τ sig) (W c) : sProp 𝕄) := by
        rw [← unscopedBufs_held (Ix := Unit) (Name := ℕ) (U := UR sig nD τ) (Lvl := ℕ) c (W c),
          unscopedBufs_split₀ cfgs p hw.arr_unscoped c (fun b => W c (Proc.devRef .tc b)), unscopedRestP_none]
        refine sep_mono (hjoin c) (Entails.of_eq ?_)
        unfold unscopedRest
        exact bigSep_congr fun b hb => by dsimp only; rw [hWrest c b hb]
      -- and back, after the later operations
      have hback : (StableHlo.held (c.tc : Thread nD τ) (ucRefs τ sig) (StableHlo.after opss.flatten (W c)) : sProp 𝕄)
          ⊢ iprop((dats p c).arrays ((dats p c).arrAt · (cfg).N)
            ∗ unscopedRestP (Ix := Unit) (Name := ℕ) (U := UR sig nD τ) (Lvl := ℕ) Prefetch.none (cfg).spec c (finalAt W opss c)) := by
        rw [← unscopedBufs_held (Ix := Unit) (Name := ℕ) (U := UR sig nD τ) (Lvl := ℕ) c (StableHlo.after opss.flatten (W c)),
          unscopedBufs_split₀ cfgs p hw.arr_unscoped c (fun b => StableHlo.after opss.flatten (W c) (Proc.devRef .tc b)), unscopedRestP_none]
        refine sep_mono ((Entails.of_eq ?_).trans (hdeal' c)) .rfl
        unfold arrBufs
        exact bigSep_congr fun b hb => by
          obtain ⟨w, -, rfl⟩ := Finset.mem_image.mp hb
          dsimp only; rw [hsame c w]
      rw [← List.append_nil (opss.map StableHlo.seq)]
      iintro ⟨Hk, Hb, Ha, Hz⟩
      iapply (wp_seqs_then (fun q => (cfgs q).toPCfg (Val := Val)) defs₀ 𝒱₀ c (ucRefs τ sig) [] opss
        (fun ops ho op h => sub_ucRefs op (hsub ops ho op h)) hfresh (W c)) $$ [Hb Ha Hz]
      · isplitl [Hb]; · iexact Hb
        iapply hall; isplitl [Ha] <;> iassumption
      iintro ⟨-, H⟩
      rw [chain_nil, wp_pure]
      imodintro
      iapply Hk
      iapply hback; iexact H)
    (QY := fun c s => ∀ b ∈ restRefsP sig Prefetch.none (cfg).spec, s.mem ((c.tc : Thread nD τ).loc b) = finalAt W opss c b)
    (hY := fun c s' => by
      iintro ⟨-, HU, HSI⟩
      unfold unscopedRestP
      imodintro
      iapply (pointsTo_read_all (restRefsP sig Prefetch.none (cfg).spec) (fun b => (c.tc : Thread nD τ).loc b) (finalAt W opss c) s')
      isplitl [HU] <;> iassumption)
    (hQ := fun s h c => ⟨(h c).1, fun b hb => (h c).2.2 b (by
      unfold restRefsP
      rw [show (Finset.univ : Finset (Fin 0)).image (Prefetch.none (sig := sig)).ref = ∅ from rfl, Finset.sdiff_empty]
      exact hb)⟩)

end Cert.SharedFrame

end
-- ==== Proof.LibSharedDeal.lean ====
/-
  Two windows of one pipeline on THE SAME array: how the array's buffer, held once at the full share, is dealt to the
  windows and put together again.

  When windows `a` and `b` stage blocks of one array and every other window has an array of its own, the buffers behind
  the arrays — each held whole at the full share at contents `X` — ARE the pipeline's arrays at `X`, window by window,
  provided the proof data holds window `a`'s array at the left half of the full share, window `b`'s at the right half and
  every other at the full share: the one shared buffer's points-to splits along the share into the two windows'
  read-only halves, and the halves join back into it. Both directions are stated, for the entry of the region and for
  its exit.
-/
import Idealize.ShloMosaic.Lib.Pipeline.FrameSuffix
import Idealize.SL.ProofMode.BigOp

noncomputable section

namespace Cert.SharedDeal

open Idealize.ShloMosaic Idealize.ShloMosaic.Pipeline
open Idealize.SL
open Idealize.SL.BI (sProp bigSep bigSep_map bigSep_union bigSep_congr bigSep_insert)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type} {Λ₀ : Idealize.SL.Sem.Labels}

local notation "𝕄" => MT nD τ sig Unit Val ℕ (UR sig nD τ) ℕ

variable {cfg : Cfg sig Λ₀} {c : Dev nD} (dat : Dat τ Val Unit ℕ (UR sig nD τ) ℕ cfg c)

/-- One buffer at contents `X r`, held at the share `q`. -/
abbrev held (X : (r : Ref sig .tc) → Buf Val ((c.tc : Thread nD τ).loc r)) (q : PosShare TreeShare) (r : Ref sig .tc) : sProp 𝕄 :=
  ((c.tc : Thread nD τ).loc r) ↦{q} X r

/-- A conjunction over a finite set with one member taken out. -/
theorem bigSep_take {I : Type} [DecidableEq I] (s : Finset I) (i : I) (hi : i ∈ s) (G : I → sProp 𝕄) :
    bigSep s G = iprop(G i ∗ bigSep (s.erase i) G) := by
  conv_lhs => rw [← Finset.insert_erase hi]
  exact bigSep_insert (Finset.notMem_erase i s)

/-- THE DEAL. Windows `a ≠ b` share an array (`hsame`), no other two windows do (`hinj`), the arrays are whole buffers;
    window `a` holds the shared array at the left half, window `b` at the right half, every other window its own at the
    full share. Then the distinct buffers behind the arrays, whole at the full share at `X`, are exactly the pipeline's
    arrays at contents that read `X` window by window. -/
theorem arrBufs_iff_arrays (a b : Fin cfg.W) (hab : a ≠ b) (hsame : arrRef cfg.spec a = arrRef cfg.spec b)
    (hinj : ∀ w w', w ≠ b → w' ≠ b → arrRef cfg.spec w = arrRef cfg.spec w' → w = w')
    (harr : ∀ w, (cfg.spec w).arr.IsWhole)
    (ha : dat.share a = fullShare.left) (hb : dat.share b = fullShare.right)
    (hshare : ∀ w, w ≠ a → w ≠ b → dat.share w = fullShare)
    (X : (r : Ref sig .tc) → Buf Val ((c.tc : Thread nD τ).loc r))
    (F : (w : Fin cfg.W) → Buf Val ((cfg.spec w).arr.view.loc (c.tc : Thread nD τ))) (hF : ∀ w, F w = X (arrRef cfg.spec w)) :
    (arrBufs cfg.spec c X : sProp 𝕄) ⊣⊢ dat.arrays F := by
  classical
  -- the arrays, as points-tos of the buffers behind them at the windows' shares
  have hA : dat.arrays F = bigSep Finset.univ fun w => held (c := c) X (dat.share w) (arrRef cfg.spec w) := by
    unfold Dat.arrays
    exact bigSep_congr fun w _ => by rw [(harr w).set_eq_univ, hF]
  -- the distinct buffers are those of the windows other than `b`
  have himg : Finset.univ.image (arrRef cfg.spec) = (Finset.univ.erase b).image (arrRef cfg.spec) := by
    ext r
    simp only [Finset.mem_image, Finset.mem_univ, true_and, Finset.mem_erase, and_true]
    constructor
    · rintro ⟨w, rfl⟩
      by_cases hw : w = b
      · exact ⟨a, hab, by rw [hw, hsame]⟩
      · exact ⟨w, hw, rfl⟩
    · rintro ⟨w, -, rfl⟩; exact ⟨w, rfl⟩
  have hB : (arrBufs cfg.spec c X : sProp 𝕄) = bigSep (Finset.univ.erase b) fun w => held (c := c) X fullShare (arrRef cfg.spec w) := by
    unfold arrBufs
    rw [himg, Idealize.SL.BI.bigSep_image_of_injOn (fun w hw w' hw' h => hinj w w' (Finset.ne_of_mem_erase hw) (Finset.ne_of_mem_erase hw') h)]
  have ha' : a ∈ Finset.univ.erase b := Finset.mem_erase.mpr ⟨hab, Finset.mem_univ a⟩
  -- every window but the two holds its own array at the full share
  have hrest : bigSep ((Finset.univ.erase b).erase a) (fun w => held (c := c) X (dat.share w) (arrRef cfg.spec w))
      = bigSep ((Finset.univ.erase b).erase a) fun w => held (c := c) X fullShare (arrRef cfg.spec w) :=
    bigSep_congr fun w hw => by
      rw [hshare w (Finset.ne_of_mem_erase hw) (Finset.ne_of_mem_erase (Finset.mem_of_mem_erase hw))]
  -- the shared buffer along the share
  have hsplit : held (c := c) X fullShare (arrRef cfg.spec a)
      ⊣⊢ iprop(held (c := c) X (dat.share a) (arrRef cfg.spec a) ∗ held (c := c) X (dat.share b) (arrRef cfg.spec b)) := by
    rw [← hsame, ha, hb]
    exact pointsTo_share (PosShare.mem_left_op_right fullShare)
  rw [hA, hB, bigSep_take _ b (Finset.mem_univ b), bigSep_take _ a ha', bigSep_take (Finset.univ.erase b) a ha', hrest]
  constructor
  · iintro ⟨Hs, Hr⟩
    ihave Hs' := hsplit.1 $$ Hs
    icases Hs' with ⟨Ha, Hb⟩
    isplitl [Hb]; · iexact Hb
    isplitl [Ha]; · iexact Ha
    iexact Hr
  · iintro ⟨Hb, Ha, Hr⟩
    isplitr [Hr]; swap; · iexact Hr
    iapply hsplit.2
    isplitl [Ha]; · iexact Ha
    iexact Hb

end Cert.SharedDeal

end
-- ==== Proof.KI.Launch.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.KI.Body
import proofs.«123526_j17729624998291_2_alg».proof.Proof.LibSharedFrame
import proofs.«123526_j17729624998291_2_alg».proof.Proof.LibSharedDeal
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef arrBufs restRefs withArrays)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 8000000 in
/-- The operations after the region write their own results only, none of which is an array of the pipeline. -/
theorem hostOps1_keeps : (hostOps1 : List (HloOp τ sig (Elt F))).Forall fun op => ∀ w, Proc.devRef .tc (arrRef spec0 w) ∉ op.writes := by
  simp only [List.Forall]
  repeat' constructor
  all_goals (intro w; simp only [StableHlo.nullary_writes, StableHlo.unary_writes, StableHlo.binary_writes, StableHlo.reshape_writes, Finset.mem_singleton]; refine StableHlo.devRef_ne_of_ne ?_; revert w; decide)

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops, ∀ w, Proc.devRef .tc (arrRef spec0 w) ∉ op.writes := by
  intro ops hops op hop
  simp only [List.mem_cons, List.mem_nil_iff, or_false] at hops
  rcases hops with rfl
  exact (List.forall_iff_forall_mem.mp hostOps1_keeps) op hop

/-- @main is the host operations before the region, the region, the host operations after it. -/
theorem hmain : Pipeline.HMainK (Ix := Unit) (Name := ℕ) (U := UR sig nD τ) (Lvl := ℕ) cfgs 0 defs₀ Variants.none m (main (F := F)) (V m)
      (fun _ => Pipeline.chain (([hostOps1] : List (List (HloOp τ sig (Elt F)))).map StableHlo.seq)) :=
  Pipeline.hmain_around cfgs 0 defs₀ Variants.none m main [hostOps0] [hostOps1] (show List.Forall _ [hostOps0] from hostOps0_sub)
    (show List.Forall _ [hostOps0] from hostOps0_fresh) (fun c => (main_chain c).trans rfl)

/-! ## The buffers at the region's exit -/

/-- Which windows may share an array: only two inputs. -/
theorem arr_shared : ∀ w w' : Fin 16, arrRef spec0 w' = arrRef spec0 w → w' = w ∨ ((cfg0.win w).isOut = false ∧ (cfg0.win w').isOut = false) := by decide

/-- Core `c`'s buffers when the region is left: the pipeline's arrays at what the write-backs leave, the rest as found. -/
abbrev W (c : Dev nD) : Valuation τ sig (Elt F) := withArrays spec0 c (V₀ m c) (fun w => (dats m 0 c).arrAt w cfg0.N)

theorem cast_val {X : (b : DevRef τ sig) → b.ty.Contents (Elt F)} {b b' : DevRef τ sig} (e : b = b') :
    cast (congrArg (fun b' : DevRef τ sig => b'.ty.Contents (Elt F)) e) (X b) = X b' := by subst e; rfl

theorem W_arr (c : Dev nD) (w : Fin cfg0.W) : W m c (Proc.devRef .tc (arrRef spec0 w)) = (dats m 0 c).arrAt w cfg0.N := by
  unfold W withArrays
  have h : ∃ w', Proc.devRef .tc (arrRef spec0 w') = Proc.devRef (τ := τ) .tc (arrRef spec0 w) := ⟨w, rfl⟩
  rw [dif_pos h]
  suffices ∀ (w' : Fin 16) (e : Proc.devRef .tc (arrRef spec0 w') = Proc.devRef (τ := τ) .tc (arrRef spec0 w)),
      cast (congrArg (fun b' : DevRef τ sig => b'.ty.Contents (Elt F)) e) ((dats m 0 c).arrAt w' cfg0.N) = (dats m 0 c).arrAt w cfg0.N from this _ h.choose_spec
  intro w' e
  rcases arr_shared w w' (Proc.devRef_injective _ e) with rfl | ⟨hw, hw'⟩
  · rfl
  · rw [(dats m 0 c).arrAt_in w' hw' _, (dats m 0 c).arrAt_in w hw _, A_eq, A_eq]
    exact cast_val (X := V₀ m c) e

theorem W_rest (c : Dev nD) : ∀ b ∈ restRefs sig spec0, W m c (Proc.devRef .tc b) = V₀ m c (Proc.devRef .tc b) := fun b hb =>
  Pipeline.withArrays_of_ne spec0 c _ _ b fun w hw => by
    unfold restRefs at hb
    exact (Finset.mem_sdiff.mp hb).2 (Finset.mem_image.mpr ⟨w, Finset.mem_univ _, hw⟩)

/-! ## The shared array dealt to its two windows, and joined again -/

theorem share_1 (c : Dev nD) : (dats m 0 c).share 1 = fullShare.left := by unfold Dat.share; rfl
theorem share_2 (c : Dev nD) : (dats m 0 c).share 2 = fullShare.right := by unfold Dat.share; rfl
theorem share_rest (c : Dev nD) : ∀ w : Fin 16, w ≠ 1 → w ≠ 2 → (dats m 0 c).share w = fullShare := by
  intro w h1 h2; unfold Dat.share
  fin_cases w <;> first | rfl | exact absurd rfl h1 | exact absurd rfl h2

theorem deal (c : Dev nD) (X : (r : Ref sig .tc) → Buf (Elt F) ((c.tc : Thread nD τ).loc r))
    (G : (w : Fin cfg0.W) → Buf (Elt F) ((cfg0.spec w).arr.view.loc (c.tc : Thread nD τ))) (hG : ∀ w, G w = X (arrRef spec0 w)) :
    (arrBufs spec0 c X : sProp 𝕄) ⊣⊢ (dats m 0 c).arrays G :=
  Cert.SharedDeal.arrBufs_iff_arrays (dats m 0 c) (1 : Fin 16) (2 : Fin 16) (by decide) (by decide) (by decide) arr_whole0
    (share_1 m c) (share_2 m c) (share_rest m c) X G hG

/-! ## The invariant at the two ends -/

theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem accPart_zero (c : Dev nD) : accPart m c 0 = iprop((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a)) := by
  unfold accPart; exact dif_pos (by decide)
theorem accPart_last (c : Dev nD) : accPart m c (Fin.last cfg0.N) = iprop((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a)) := by
  unfold accPart; exact dif_pos (by decide)

theorem hin (c : Dev nD) : (Pipeline.ΦA (U := UR sig nD τ) spec0 c : sProp 𝕄) ⊢ (dats m 0 c).Φ 0 := by
  rw [show (dats m 0 c).Φ 0 = Φv m c 0 from rfl]
  unfold Pipeline.ΦA Φv; rw [scopedRest0_eq, accPart_zero]
  iintro ⟨⟨⟨%f0, Hf0⟩, ⟨%f1, Hf1⟩, ⟨%f2, Hf2⟩, ⟨%f3, Hf3⟩, ⟨%f4, Hf4⟩, ⟨%f5, Hf5⟩⟩, Hp⟩
  isplitr [Hp]; swap; · iexact Hp
  isplitl [Hf0]; · iexists f0; rw [owns_whole_eq]; iexists f0; isplitr; (· ipureintro; rfl); iexact Hf0
  isplitl [Hf1]; · iexists f1; rw [owns_whole_eq]; iexists f1; isplitr; (· ipureintro; rfl); iexact Hf1
  isplitl [Hf2]; · iexists f2; rw [owns_whole_eq]; iexists f2; isplitr; (· ipureintro; rfl); iexact Hf2
  isplitl [Hf3]; · iexists f3; rw [owns_whole_eq]; iexists f3; isplitr; (· ipureintro; rfl); iexact Hf3
  isplitl [Hf4]; · iexists f4; rw [owns_whole_eq]; iexists f4; isplitr; (· ipureintro; rfl); iexact Hf4
  iexists f5; rw [owns_whole_eq]; iexists f5; isplitr; (· ipureintro; rfl); iexact Hf5

theorem hout (c : Dev nD) : (dats m 0 c).Φ (Fin.last cfg0.N) ⊢ (Pipeline.ΦA (U := UR sig nD τ) spec0 c : sProp 𝕄) := by
  rw [show (dats m 0 c).Φ (Fin.last cfg0.N) = Φv m c (Fin.last cfg0.N) from rfl]
  unfold Pipeline.ΦA Φv; rw [scopedRest0_eq, accPart_last]; simp only [owns_whole_eq]
  iintro ⟨⟨⟨%a0, %f0, %hf0, Hf0⟩, ⟨%a1, %f1, %hf1, Hf1⟩, ⟨%a2, %f2, %hf2, Hf2⟩, ⟨%a3, %f3, %hf3, Hf3⟩, ⟨%a4, %f4, %hf4, Hf4⟩, ⟨%a5, %f5, %hf5, Hf5⟩⟩, Hp⟩
  isplitr [Hp]; swap; · iexact Hp
  isplitl [Hf0]; · iexists f0; iexact Hf0
  isplitl [Hf1]; · iexists f1; iexact Hf1
  isplitl [Hf2]; · iexists f2; iexact Hf2
  isplitl [Hf3]; · iexists f3; iexact Hf3
  isplitl [Hf4]; · iexists f4; iexact Hf4
  iexists f5; iexact Hf5

/-! ## The run -/

set_option backward.isDefEq.respectTransparency.types false in
/-- Every weakly fair execution of @main on the TensorCores terminates; each array of the pipeline ends at what the
    write-backs leave in it, every other unscoped buffer at what the later host operations compute. -/
theorem run_main : θ_run defs (onTc (τ := τ) (main (F := F))) (s₀ m ρ) (fun r => ∀ c : Dev nD,
      (∀ w, r.2.mem ((cfg0.spec w).arr.view.loc (c.tc : Thread nD τ)) = (dats m 0 c).arrAt w cfg0.N)
        ∧ ∀ b ∈ restRefs sig spec0, r.2.mem ((c.tc : Thread nD τ).loc b) = Cert.SharedFrame.finalAt (W m) [hostOps1] c b) :=
  Cert.SharedFrame.θ_run_around_shared cfgs (dats m) (0 : Fin 1) defs₀ Variants.none cellOf_inj winFacts₀0 block_pos0 arr_whole0 stage_whole0
    m ρ main (hbody := fun c => (body_obligation m c).loose) (howed := fun _ _ => rfl) (V₀ := V₀ m) (W := W m) (opss := [hostOps1])
    (hsub := sfx_sub) (hfresh := sfx_fresh) (hkeep := sfx_keeps) (hmain := hmain m) (hWrest := W_rest m)
    (hdeal := fun c => (deal m c (fun b => V₀ m c (Proc.devRef .tc b)) _ (fun w => A_eq m c w)).1)
    (hjoin := fun c => (deal m c (fun b => W m c (Proc.devRef .tc b)) _ (fun w => (W_arr m c w).symm)).2)
    (hdeal' := fun c => (deal m c (fun b => W m c (Proc.devRef .tc b)) _ (fun w => (W_arr m c w).symm)).1)
    (hin := hin m) (hout := hout m)

end Cert.KernelIdeal.Hand

end
-- ==== Proof.K.Common.lean ====
import proofs.«123526_j17729624998291_2_alg».proof.Proof.KI.Launch
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import Idealize.ShloMosaic.Lib.Pipeline.FrameBody
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six accumulators the body keeps between grid points, each a whole 512-by-1 buffer. -/
abbrev sc0 : Memref sig .tc .vmem S512x1 .f32 := Memref.whole cc0_scratch0
abbrev sc1 : Memref sig .tc .vmem S512x1 .f32 := Memref.whole cc0_scratch1
abbrev sc2 : Memref sig .tc .vmem S512x1 .f32 := Memref.whole cc0_scratch2
abbrev sc3 : Memref sig .tc .vmem S512x1 .f32 := Memref.whole cc0_scratch3
abbrev sc4 : Memref sig .tc .vmem S512x1 .f32 := Memref.whole cc0_scratch4
abbrev sc5 : Memref sig .tc .vmem S512x1 .f32 := Memref.whole cc0_scratch5

/-- A run of stores into a 512-by-1 buffer, latest first. -/
abbrev Pieces (F : FTy → Type) [FloatOps F] : Type := List (View.Piece (Elt F) S512x1 .f32)

/-- The column index is 0 at a row block's first step: the accumulators are reset there. -/
abbrev IsFirst (i : grid0.Coords) : Prop := (Scalar.cmpi .ne (Scalar.extui (Scalar.cmpi .eq (BitVec.ofNat 32 (i 1).val) 0#32)) 0#32) = 1#1
/-- The column index is 3 at a row block's last step: the accumulators are copied out there. -/
abbrev IsLast (i : grid0.Coords) : Prop := k0_cond2 i = 1#1

/-- Six runs of stores found together with the fact stated of them. -/
structure Found6 (P : Pieces F → Pieces F → Pieces F → Pieces F → Pieces F → Pieces F → Prop) where
  L0 : Pieces F
  L1 : Pieces F
  L2 : Pieces F
  L3 : Pieces F
  L4 : Pieces F
  L5 : Pieces F
  run : P L0 L1 L2 L3 L4 L5

end Cert.Kernel.Hand

end
-- ==== Proof.K.RunMid.lean ====
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import proofs.«123526_j17729624998291_2_alg».proof.Proof.K.Common
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step (column index 1 or 2): from the ten input buffers at their blocks, the output buffers as whatever
    holds them (untouched) and the accumulators at `s0 … s5`, the body runs and leaves in each accumulator the stores found. -/
noncomputable def runMid (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole)
    (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    Found6 (F := F) fun L0 L1 L2 L3 L4 L5 =>
      ∀ (E : Set ℕ) (O : sProp 𝕄) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ O ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ O ∗ (∃ f, sc0.view.loc (c : Thread nD τ) ↦[sc0.view.set]{fullShare} sc0.view.writes (Elt F) f L0) ∗ (∃ f, sc1.view.loc (c : Thread nD τ) ↦[sc1.view.set]{fullShare} sc1.view.writes (Elt F) f L1) ∗ (∃ f, sc2.view.loc (c : Thread nD τ) ↦[sc2.view.set]{fullShare} sc2.view.writes (Elt F) f L2) ∗ (∃ f, sc3.view.loc (c : Thread nD τ) ↦[sc3.view.set]{fullShare} sc3.view.writes (Elt F) f L3) ∗ (∃ f, sc4.view.loc (c : Thread nD τ) ↦[sc4.view.set]{fullShare} sc4.view.writes (Elt F) f L4) ∗ (∃ f, sc5.view.loc (c : Thread nD τ) ↦[sc5.view.set]{fullShare} sc5.view.writes (Elt F) f L5)) -∗ K ⟨⟩))
          ⊢ wp frame (wpE (defs₀ (F := F)) Variants.none c none) E (cc0__fused_kernel i a0 h0 a1 h1 a2 h2 a3 h3 a4 h4 a5 h5 a6 h6 a7 h7 a8 h8 a9 h9 a10 h10 a11 h11 a12 h12 a13 h13 a14 h14 a15 h15 sc0 (Memref.isWhole_whole _) sc1 (Memref.isWhole_whole _) sc2 (Memref.isWhole_whole _) sc3 (Memref.isWhole_whole _) sc4 (Memref.isWhole_whole _) sc5 (Memref.isWhole_whole _)) K := by
  refine ⟨?_, ?_, ?_, ?_, ?_, ?_, fun E O K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HO, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    obtain rfl := (Memref.isWhole_whole _ : (sc0).IsWhole).eq_unread hg0
    obtain rfl := (Memref.isWhole_whole _ : (sc1).IsWhole).eq_unread hg1
    obtain rfl := (Memref.isWhole_whole _ : (sc2).IsWhole).eq_unread hg2
    obtain rfl := (Memref.isWhole_whole _ : (sc3).IsWhole).eq_unread hg3
    obtain rfl := (Memref.isWhole_whole _ : (sc4).IsWhole).eq_unread hg4
    obtain rfl := (Memref.isWhole_whole _ : (sc5).IsWhole).eq_unread hg5
    sl_exec (disch := first | exact hF | exact hL)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [HO]; · iexact HO
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.Kernel.Hand

end
-- ==== Proof.K.RunFirst.lean ====
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import proofs.«123526_j17729624998291_2_alg».proof.Proof.K.RunMid
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first step (column index 0): the accumulators, whatever they held, are reset and then updated; the output buffers
    are untouched. -/
noncomputable def runFirst (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole)
    (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) :
    Found6 (F := F) fun L0 L1 L2 L3 L4 L5 =>
      ∀ (E : Set ℕ) (O : sProp 𝕄) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ O ∗ (∃ s, owns (c : Thread nD τ) sc0 fullShare s) ∗ (∃ s, owns (c : Thread nD τ) sc1 fullShare s) ∗ (∃ s, owns (c : Thread nD τ) sc2 fullShare s) ∗ (∃ s, owns (c : Thread nD τ) sc3 fullShare s) ∗ (∃ s, owns (c : Thread nD τ) sc4 fullShare s) ∗ (∃ s, owns (c : Thread nD τ) sc5 fullShare s)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ O ∗ (∃ f, sc0.view.loc (c : Thread nD τ) ↦[sc0.view.set]{fullShare} sc0.view.writes (Elt F) f L0) ∗ (∃ f, sc1.view.loc (c : Thread nD τ) ↦[sc1.view.set]{fullShare} sc1.view.writes (Elt F) f L1) ∗ (∃ f, sc2.view.loc (c : Thread nD τ) ↦[sc2.view.set]{fullShare} sc2.view.writes (Elt F) f L2) ∗ (∃ f, sc3.view.loc (c : Thread nD τ) ↦[sc3.view.set]{fullShare} sc3.view.writes (Elt F) f L3) ∗ (∃ f, sc4.view.loc (c : Thread nD τ) ↦[sc4.view.set]{fullShare} sc4.view.writes (Elt F) f L4) ∗ (∃ f, sc5.view.loc (c : Thread nD τ) ↦[sc5.view.set]{fullShare} sc5.view.writes (Elt F) f L5)) -∗ K ⟨⟩))
          ⊢ wp frame (wpE (defs₀ (F := F)) Variants.none c none) E (cc0__fused_kernel i a0 h0 a1 h1 a2 h2 a3 h3 a4 h4 a5 h5 a6 h6 a7 h7 a8 h8 a9 h9 a10 h10 a11 h11 a12 h12 a13 h13 a14 h14 a15 h15 sc0 (Memref.isWhole_whole _) sc1 (Memref.isWhole_whole _) sc2 (Memref.isWhole_whole _) sc3 (Memref.isWhole_whole _) sc4 (Memref.isWhole_whole _) sc5 (Memref.isWhole_whole _)) K := by
  refine ⟨?_, ?_, ?_, ?_, ?_, ?_, fun E O K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HO, ⟨%s0, %g0, %hg0, S0⟩, ⟨%s1, %g1, %hg1, S1⟩, ⟨%s2, %g2, %hg2, S2⟩, ⟨%s3, %g3, %hg3, S3⟩, ⟨%s4, %g4, %hg4, S4⟩, ⟨%s5, %g5, %hg5, S5⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    sl_exec (disch := first | exact hF | exact hL)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [HO]; · iexact HO
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.Kernel.Hand

end
-- ==== Proof.K.RunLast.lean ====
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import proofs.«123526_j17729624998291_2_alg».proof.Proof.K.RunFirst
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Twelve runs of stores found together with the fact stated of them. -/
structure Found12 (P : Pieces F → Pieces F → Pieces F → Pieces F → Pieces F → Pieces F → Pieces F → Pieces F → Pieces F → Pieces F → Pieces F → Pieces F → Prop) where
  R0 : Pieces F
  R1 : Pieces F
  R2 : Pieces F
  R3 : Pieces F
  R4 : Pieces F
  R5 : Pieces F
  L0 : Pieces F
  L1 : Pieces F
  L2 : Pieces F
  L3 : Pieces F
  L4 : Pieces F
  L5 : Pieces F
  run : P R0 R1 R2 R3 R4 R5 L0 L1 L2 L3 L4 L5

set_option maxHeartbeats 4000000 in
/-- A last step (column index 3): the accumulators at `s0 … s5` are updated and then copied into the six output buffers,
    whatever those held. -/
noncomputable def runLast (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole)
    (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    Found12 (F := F) fun R0 R1 R2 R3 R4 R5 L0 L1 L2 L3 L4 L5 =>
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f R0) ∗ (∃ f, a11.view.loc (c : Thread nD τ) ↦[a11.view.set]{fullShare} a11.view.writes (Elt F) f R1) ∗ (∃ f, a12.view.loc (c : Thread nD τ) ↦[a12.view.set]{fullShare} a12.view.writes (Elt F) f R2) ∗ (∃ f, a13.view.loc (c : Thread nD τ) ↦[a13.view.set]{fullShare} a13.view.writes (Elt F) f R3) ∗ (∃ f, a14.view.loc (c : Thread nD τ) ↦[a14.view.set]{fullShare} a14.view.writes (Elt F) f R4) ∗ (∃ f, a15.view.loc (c : Thread nD τ) ↦[a15.view.set]{fullShare} a15.view.writes (Elt F) f R5) ∗ (∃ f, sc0.view.loc (c : Thread nD τ) ↦[sc0.view.set]{fullShare} sc0.view.writes (Elt F) f L0) ∗ (∃ f, sc1.view.loc (c : Thread nD τ) ↦[sc1.view.set]{fullShare} sc1.view.writes (Elt F) f L1) ∗ (∃ f, sc2.view.loc (c : Thread nD τ) ↦[sc2.view.set]{fullShare} sc2.view.writes (Elt F) f L2) ∗ (∃ f, sc3.view.loc (c : Thread nD τ) ↦[sc3.view.set]{fullShare} sc3.view.writes (Elt F) f L3) ∗ (∃ f, sc4.view.loc (c : Thread nD τ) ↦[sc4.view.set]{fullShare} sc4.view.writes (Elt F) f L4) ∗ (∃ f, sc5.view.loc (c : Thread nD τ) ↦[sc5.view.set]{fullShare} sc5.view.writes (Elt F) f L5)) -∗ K ⟨⟩))
          ⊢ wp frame (wpE (defs₀ (F := F)) Variants.none c none) E (cc0__fused_kernel i a0 h0 a1 h1 a2 h2 a3 h3 a4 h4 a5 h5 a6 h6 a7 h7 a8 h8 a9 h9 a10 h10 a11 h11 a12 h12 a13 h13 a14 h14 a15 h15 sc0 (Memref.isWhole_whole _) sc1 (Memref.isWhole_whole _) sc2 (Memref.isWhole_whole _) sc3 (Memref.isWhole_whole _) sc4 (Memref.isWhole_whole _) sc5 (Memref.isWhole_whole _)) K := by
  refine ⟨?_, ?_, ?_, ?_, ?_, ?_, ?_, ?_, ?_, ?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d0, %e0, %he0, O0⟩, ⟨%d1, %e1, %he1, O1⟩, ⟨%d2, %e2, %he2, O2⟩, ⟨%d3, %e3, %he3, O3⟩, ⟨%d4, %e4, %he4, O4⟩, ⟨%d5, %e5, %he5, O5⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
    obtain rfl := (Memref.isWhole_whole _ : (sc0).IsWhole).eq_unread hg0
    obtain rfl := (Memref.isWhole_whole _ : (sc1).IsWhole).eq_unread hg1
    obtain rfl := (Memref.isWhole_whole _ : (sc2).IsWhole).eq_unread hg2
    obtain rfl := (Memref.isWhole_whole _ : (sc3).IsWhole).eq_unread hg3
    obtain rfl := (Memref.isWhole_whole _ : (sc4).IsWhole).eq_unread hg4
    obtain rfl := (Memref.isWhole_whole _ : (sc5).IsWhole).eq_unread hg5
    sl_exec (disch := first | exact hF | exact hL)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [O0]; · iexists _; iexact O0
    isplitl [O1]; · iexists _; iexact O1
    isplitl [O2]; · iexists _; iexact O2
    isplitl [O3]; · iexists _; iexact O3
    isplitl [O4]; · iexists _; iexact O4
    isplitl [O5]; · iexists _; iexact O5
    isplitl [S0]; · iexists _; iexact S0
    isplitl [S1]; · iexists _; iexact S1
    isplitl [S2]; · iexists _; iexact S2
    isplitl [S3]; · iexists _; iexact S3
    isplitl [S4]; · iexists _; iexact S4
    iexists _; iexact S5

end Cert.Kernel.Hand

end
-- ==== Proof.K.Data.lean ====
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import proofs.«123526_j17729624998291_2_alg».proof.Proof.K.RunLast
import Idealize.ShloMosaic.Lib.Pipeline.FrameBody
import Idealize.ShloMosaic.Lib.Ring
import Idealize.ShloMosaic.Lib.Pipeline.Frame
import Idealize.ShloMosaic.Lib.Pipeline.FrameSuffix
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- The buffers of core `c` when the kernel region is entered: the launch memory after the host operations before it. -/
abbrev V₀ (c : Dev nD) : Valuation τ sig (Elt F) :=
  StableHlo.after ([hostOps0 (F := F)] : List (List (HloOp τ sig (Elt F)))).flatten (fun b => m (c, b))
abbrev V (c : Dev nD) (b : Ref sig .tc) : Buf (Elt F) ((c : Thread nD τ).loc b) := V₀ m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The kinds of point: a row block's four column steps -/

theorem N_32 : cfg0.N = 32 := N_0

theorem isFirst_iff : ∀ t : Fin cfg0.N, IsFirst (grid0.coords t) ↔ t.val % 4 = 0 :=
  (by decide +kernel : ∀ t : Fin grid0.N, (Scalar.cmpi .ne (Scalar.extui (Scalar.cmpi .eq (BitVec.ofNat 32 ((grid0.coords t) 1).val) 0#32)) 0#32 = 1#1) ↔ t.val % 4 = 0)
theorem isLast_iff : ∀ t : Fin cfg0.N, IsLast (grid0.coords t) ↔ t.val % 4 = 3 :=
  (by decide +kernel : ∀ t : Fin grid0.N, k0_cond2 (grid0.coords t) = 1#1 ↔ t.val % 4 = 3)

theorem first_of (t : Fin cfg0.N) (h : t.val % 4 = 0) : IsFirst (grid0.coords t) := (isFirst_iff t).mpr h
theorem not_first_of (t : Fin cfg0.N) (h : ¬ t.val % 4 = 0) : ¬ IsFirst (grid0.coords t) := fun h' => h ((isFirst_iff t).mp h')
theorem last_of (t : Fin cfg0.N) (h : t.val % 4 = 3) : IsLast (grid0.coords t) := (isLast_iff t).mpr h
theorem not_last_of (t : Fin cfg0.N) (h : ¬ t.val % 4 = 3) : ¬ IsLast (grid0.coords t) := fun h' => h ((isLast_iff t).mp h')

/-! ## Each window's current staging buffer at a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
abbrev ms11 (t : Fin cfg0.N) := win0_11.stage (cfg0.slots t 11)
abbrev hs11 (t : Fin cfg0.N) : (ms11 t).IsWhole := hstage0_11 ((cfg0.slots t 11).cast nbuf0_11)
abbrev ms12 (t : Fin cfg0.N) := win0_12.stage (cfg0.slots t 12)
abbrev hs12 (t : Fin cfg0.N) : (ms12 t).IsWhole := hstage0_12 ((cfg0.slots t 12).cast nbuf0_12)
abbrev ms13 (t : Fin cfg0.N) := win0_13.stage (cfg0.slots t 13)
abbrev hs13 (t : Fin cfg0.N) : (ms13 t).IsWhole := hstage0_13 ((cfg0.slots t 13).cast nbuf0_13)
abbrev ms14 (t : Fin cfg0.N) := win0_14.stage (cfg0.slots t 14)
abbrev hs14 (t : Fin cfg0.N) : (ms14 t).IsWhole := hstage0_14 ((cfg0.slots t 14).cast nbuf0_14)
abbrev ms15 (t : Fin cfg0.N) := win0_15.stage (cfg0.slots t 15)
abbrev hs15 (t : Fin cfg0.N) : (ms15 t).IsWhole := hstage0_15 ((cfg0.slots t 15).cast nbuf0_15)

/-! ## What the accumulators and the output buffers hold after each point -/

/-- What a 512-by-1 buffer reads after a run of stores (over anything, through any view when the stores cover it). -/
def rd (L : Pieces F) : Vec F S512x1 .f32 := sc0.view.read (Elt F) (sc0.view.writes (Elt F) sc0.view.junk L)

/-- The accumulators a run of a first or middle step leaves, by number. -/
def Found6.acc {P} (r : Found6 (F := F) P) (j : Fin 6) : Vec F S512x1 .f32 :=
  match j with | 0 => rd r.L0 | 1 => rd r.L1 | 2 => rd r.L2 | 3 => rd r.L3 | 4 => rd r.L4 | 5 => rd r.L5
/-- The accumulators a run of a last step leaves, -/
def Found12.acc {P} (r : Found12 (F := F) P) (j : Fin 6) : Vec F S512x1 .f32 :=
  match j with | 0 => rd r.L0 | 1 => rd r.L1 | 2 => rd r.L2 | 3 => rd r.L3 | 4 => rd r.L4 | 5 => rd r.L5
/-- and the six output blocks it stores. -/
def Found12.out {P} (r : Found12 (F := F) P) (j : Fin 6) : Vec F S512x1 .f32 :=
  match j with | 0 => rd r.R0 | 1 => rd r.R1 | 2 => rd r.R2 | 3 => rd r.R3 | 4 => rd r.R4 | 5 => rd r.R5

/-- The six accumulators after point `n`: a first step resets and updates them, any other step updates what the step
    before left. -/
def accAt (c : Dev nD) : (n : ℕ) → n < cfg0.N → Fin 6 → Vec F S512x1 .f32
  | 0, hn => (runFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) (ms13 ⟨0, hn⟩) (hs13 ⟨0, hn⟩) (ms14 ⟨0, hn⟩) (hs14 ⟨0, hn⟩) (ms15 ⟨0, hn⟩) (hs15 ⟨0, hn⟩) (first_of ⟨0, hn⟩ (Nat.zero_mod _)) (not_last_of ⟨0, hn⟩ (by show ¬ 0 % 4 = 3; omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)).acc
  | n + 1, hn =>
    if h0 : (n + 1) % 4 = 0 then
      (runFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) (ms15 ⟨n + 1, hn⟩) (hs15 ⟨n + 1, hn⟩) (first_of ⟨n + 1, hn⟩ h0) (not_last_of ⟨n + 1, hn⟩ (by show ¬ (n + 1) % 4 = 3; omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)).acc
    else if h3 : (n + 1) % 4 = 3 then
      (runLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) (ms15 ⟨n + 1, hn⟩) (hs15 ⟨n + 1, hn⟩) (not_first_of ⟨n + 1, hn⟩ h0) (last_of ⟨n + 1, hn⟩ h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (accAt c n (Nat.lt_of_succ_lt hn) 0) (accAt c n (Nat.lt_of_succ_lt hn) 1) (accAt c n (Nat.lt_of_succ_lt hn) 2) (accAt c n (Nat.lt_of_succ_lt hn) 3) (accAt c n (Nat.lt_of_succ_lt hn) 4) (accAt c n (Nat.lt_of_succ_lt hn) 5)).acc
    else
      (runMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) (ms13 ⟨n + 1, hn⟩) (hs13 ⟨n + 1, hn⟩) (ms14 ⟨n + 1, hn⟩) (hs14 ⟨n + 1, hn⟩) (ms15 ⟨n + 1, hn⟩) (hs15 ⟨n + 1, hn⟩) (not_first_of ⟨n + 1, hn⟩ h0) (not_last_of ⟨n + 1, hn⟩ h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (accAt c n (Nat.lt_of_succ_lt hn) 0) (accAt c n (Nat.lt_of_succ_lt hn) 1) (accAt c n (Nat.lt_of_succ_lt hn) 2) (accAt c n (Nat.lt_of_succ_lt hn) 3) (accAt c n (Nat.lt_of_succ_lt hn) 4) (accAt c n (Nat.lt_of_succ_lt hn) 5)).acc

/-- The accumulators before point `t` when it is not a row block's first step: what the step before left. -/
abbrev accB (c : Dev nD) (t : Fin cfg0.N) (h : ¬ t.val % 4 = 0) : Fin 6 → Vec F S512x1 .f32 :=
  accAt m c (t.val - 1) (by have := t.isLt; omega)

theorem accAt_first (c : Dev nD) (t : Fin cfg0.N) (h0 : t.val % 4 = 0) :
    accAt m c t.val t.isLt = (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (first_of t h0) (not_last_of t (by omega)) (iblk m c 0 t) (iblk m c 1 t) (iblk m c 2 t) (iblk m c 3 t) (iblk m c 4 t) (iblk m c 5 t) (iblk m c 6 t) (iblk m c 7 t) (iblk m c 8 t) (iblk m c 9 t)).acc := by
  obtain ⟨n, hn⟩ := t
  cases n with
  | zero => rfl
  | succ n => exact (dif_pos h0).trans rfl

theorem accAt_last (c : Dev nD) (t : Fin cfg0.N) (h0 : ¬ t.val % 4 = 0) (h3 : t.val % 4 = 3) :
    accAt m c t.val t.isLt = (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (not_first_of t h0) (last_of t h3) (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).acc := by
  obtain ⟨n, hn⟩ := t
  cases n with
  | zero => exact absurd (Nat.zero_mod _) h0
  | succ n => exact (dif_neg h0).trans ((dif_pos h3).trans rfl)

theorem accAt_mid (c : Dev nD) (t : Fin cfg0.N) (h0 : ¬ t.val % 4 = 0) (h3 : ¬ t.val % 4 = 3) :
    accAt m c t.val t.isLt = (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (not_first_of t h0) (not_last_of t h3) (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).acc := by
  obtain ⟨n, hn⟩ := t
  cases n with
  | zero => exact absurd (Nat.zero_mod _) h0
  | succ n => exact (dif_neg h0).trans ((dif_neg h3).trans rfl)

/-- The block output `j`'s staging buffer holds after point `t` — read only at a last step, where it is what that step's
    run stores. -/
def outAt (c : Dev nD) (t : Fin cfg0.N) (j : Fin 6) : Vec F S512x1 .f32 :=
  if h : t.val % 4 = 3 then
    (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (not_first_of t (by omega)) (last_of t h) (iblk m c 0 t) (iblk m c 1 t) (iblk m c 2 t) (iblk m c 3 t) (iblk m c 4 t) (iblk m c 5 t) (iblk m c 6 t) (iblk m c 7 t) (iblk m c 8 t) (iblk m c 9 t) (accB m c t (by omega) 0) (accB m c t (by omega) 1) (accB m c t (by omega) 2) (accB m c t (by omega) 3) (accB m c t (by omega) 4) (accB m c t (by omega) 5)).out j
  else k0_pay1

/-! ## The stores each run finds cover the buffer they go to -/

theorem cover_first_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L0, y ∈ p.1.set :=
  View.cover_of_tiledL _ S512x1.size (by sl_kernel_rfl) y
theorem cover_mid_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L0, y ∈ p.1.set :=
  View.cover_of_tiledL _ S512x1.size (by sl_kernel_rfl) y
theorem cover_last_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L0, y ∈ p.1.set :=
  View.cover_of_tiledL _ S512x1.size (by sl_kernel_rfl) y
theorem cover_out_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R0, y ∈ p.1.set :=
  View.cover_of_tiledL _ S512x1.size (by sl_kernel_rfl) y
theorem cover_first_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L1, y ∈ p.1.set :=
  View.cover_of_tiledL _ S512x1.size (by sl_kernel_rfl) y
theorem cover_mid_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L1, y ∈ p.1.set :=
  View.cover_of_tiledL _ S512x1.size (by sl_kernel_rfl) y
theorem cover_last_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L1, y ∈ p.1.set :=
  View.cover_of_tiledL _ S512x1.size (by sl_kernel_rfl) y
theorem cover_out_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R1, y ∈ p.1.set :=
  View.cover_of_tiledL _ S512x1.size (by sl_kernel_rfl) y
theorem cover_first_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L2, y ∈ p.1.set :=
  View.cover_of_tiledL _ S512x1.size (by sl_kernel_rfl) y
theorem cover_mid_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L2, y ∈ p.1.set :=
  View.cover_of_tiledL _ S512x1.size (by sl_kernel_rfl) y
theorem cover_last_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L2, y ∈ p.1.set :=
  View.cover_of_tiledL _ S512x1.size (by sl_kernel_rfl) y
theorem cover_out_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R2, y ∈ p.1.set :=
  View.cover_of_tiledL _ S512x1.size (by sl_kernel_rfl) y
theorem cover_first_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L3, y ∈ p.1.set :=
  View.cover_of_tiledL _ S512x1.size (by sl_kernel_rfl) y
theorem cover_mid_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L3, y ∈ p.1.set :=
  View.cover_of_tiledL _ S512x1.size (by sl_kernel_rfl) y
theorem cover_last_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L3, y ∈ p.1.set :=
  View.cover_of_tiledL _ S512x1.size (by sl_kernel_rfl) y
theorem cover_out_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R3, y ∈ p.1.set :=
  View.cover_of_tiledL _ S512x1.size (by sl_kernel_rfl) y
theorem cover_first_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L4, y ∈ p.1.set :=
  View.cover_of_tiledL _ S512x1.size (by sl_kernel_rfl) y
theorem cover_mid_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L4, y ∈ p.1.set :=
  View.cover_of_tiledL _ S512x1.size (by sl_kernel_rfl) y
theorem cover_last_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L4, y ∈ p.1.set :=
  View.cover_of_tiledL _ S512x1.size (by sl_kernel_rfl) y
theorem cover_out_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R4, y ∈ p.1.set :=
  View.cover_of_tiledL _ S512x1.size (by sl_kernel_rfl) y
theorem cover_first_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (y : S512x1.Idx) :
    ∃ p ∈ (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).L5, y ∈ p.1.set :=
  View.cover_of_tiledL _ S512x1.size (by sl_kernel_rfl) y
theorem cover_mid_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L5, y ∈ p.1.set :=
  View.cover_of_tiledL _ S512x1.size (by sl_kernel_rfl) y
theorem cover_last_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).L5, y ∈ p.1.set :=
  View.cover_of_tiledL _ S512x1.size (by sl_kernel_rfl) y
theorem cover_out_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) (y : S512x1.Idx) :
    ∃ p ∈ (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).R5, y ∈ p.1.set :=
  View.cover_of_tiledL _ S512x1.size (by sl_kernel_rfl) y

/-- A buffer after stores that cover it holds what they leave, whatever it held. -/
theorem owns_of_writes (c : Dev nD) (M : Memref sig .tc .vmem S512x1 .f32) (L : Pieces F) (hcov : ∀ y, ∃ p ∈ L, y ∈ p.1.set) :
    iprop(∃ f, M.view.loc (c : Thread nD τ) ↦[M.view.set]{fullShare} M.view.writes (Elt F) f L) ⊢ (owns (c : Thread nD τ) M fullShare (rd L) : sProp 𝕄) := by
  iintro ⟨%f, H⟩
  unfold owns rd; iexists _; isplitr
  swap; · iexact H
  ipureintro; exact View.read_writes_of_cover _ _ _ _ _ hcov

/-! ## The proof data -/

/-- The accumulators before point `k` (k = 0 … 32): at anything before a row block's first step and after the last
    row block, else at what the step before left. -/
def accPart (c : Dev nD) (k : Fin (cfg0.N + 1)) : sProp 𝕄 :=
  if h : k.val % 4 = 0 then iprop((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a))
  else iprop(owns (c : Thread nD τ) sc0 fullShare (accAt m c (k.val - 1) (by have := k.isLt; omega) 0) ∗ owns (c : Thread nD τ) sc1 fullShare (accAt m c (k.val - 1) (by have := k.isLt; omega) 1) ∗ owns (c : Thread nD τ) sc2 fullShare (accAt m c (k.val - 1) (by have := k.isLt; omega) 2) ∗ owns (c : Thread nD τ) sc3 fullShare (accAt m c (k.val - 1) (by have := k.isLt; omega) 3) ∗ owns (c : Thread nD τ) sc4 fullShare (accAt m c (k.val - 1) (by have := k.isLt; omega) 4) ∗ owns (c : Thread nD τ) sc5 fullShare (accAt m c (k.val - 1) (by have := k.isLt; omega) 5))
/-- The body's invariant: the accumulators and the generator register. -/
def Φv (c : Dev nD) (k : Fin (cfg0.N + 1)) : sProp 𝕄 := iprop(accPart m c k ∗ ∃ r, prngReg c r)

/-- The proof data of the pipeline on core `c`: the arrays as the region finds them; after the body each input's buffer
    at its block and each output's at `outAt`; the invariant `Φv`; the array two windows share held by halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t 0
    | ⟨11, _⟩ => outAt m c t 1
    | ⟨12, _⟩ => outAt m c t 2
    | ⟨13, _⟩ => outAt m c t 3
    | ⟨14, _⟩ => outAt m c t 4
    | ⟨15, _⟩ => outAt m c t 5
    | ⟨_ + 16, h⟩ => absurd h (Nat.not_lt.2 (Nat.le_add_left _ _))
  Φ k := Φv m c k
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t 0 := by dsimp only [dats]
theorem after_11 (c : Dev nD) (t : Fin cfg0.N) : (dats m 0 c).after 11 t = outAt m c t 1 := by dsimp only [dats]
theorem after_12 (c : Dev nD) (t : Fin cfg0.N) : (dats m 0 c).after 12 t = outAt m c t 2 := by dsimp only [dats]
theorem after_13 (c : Dev nD) (t : Fin cfg0.N) : (dats m 0 c).after 13 t = outAt m c t 3 := by dsimp only [dats]
theorem after_14 (c : Dev nD) (t : Fin cfg0.N) : (dats m 0 c).after 14 t = outAt m c t 4 := by dsimp only [dats]
theorem after_15 (c : Dev nD) (t : Fin cfg0.N) : (dats m 0 c).after 15 t = outAt m c t 5 := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

theorem Φ_pre_first (c : Dev nD) (t : Fin cfg0.N) (h : t.val % 4 = 0) :
    (dats m 0 c).Φ t.castSucc = iprop(((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a)) ∗ ∃ r, prngReg c r) := by
  show Φv m c _ = _; unfold Φv accPart; rw [dif_pos (by exact h)]
theorem Φ_pre_other (c : Dev nD) (t : Fin cfg0.N) (h : ¬ t.val % 4 = 0) :
    (dats m 0 c).Φ t.castSucc = iprop((owns (c : Thread nD τ) sc0 fullShare (accB m c t h 0) ∗ owns (c : Thread nD τ) sc1 fullShare (accB m c t h 1) ∗ owns (c : Thread nD τ) sc2 fullShare (accB m c t h 2) ∗ owns (c : Thread nD τ) sc3 fullShare (accB m c t h 3) ∗ owns (c : Thread nD τ) sc4 fullShare (accB m c t h 4) ∗ owns (c : Thread nD τ) sc5 fullShare (accB m c t h 5)) ∗ ∃ r, prngReg c r) := by
  show Φv m c _ = _; unfold Φv accPart; rw [dif_neg (by exact h)]; rfl
theorem Φ_post_last (c : Dev nD) (t : Fin cfg0.N) (h : t.val % 4 = 3) :
    (dats m 0 c).Φ t.succ = iprop(((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a)) ∗ ∃ r, prngReg c r) := by
  show Φv m c _ = _; unfold Φv accPart; rw [dif_pos (by show (t.val + 1) % 4 = 0; omega)]
theorem Φ_post_other (c : Dev nD) (t : Fin cfg0.N) (h : ¬ t.val % 4 = 3) :
    (dats m 0 c).Φ t.succ = iprop((owns (c : Thread nD τ) sc0 fullShare (accAt m c t.val t.isLt 0) ∗ owns (c : Thread nD τ) sc1 fullShare (accAt m c t.val t.isLt 1) ∗ owns (c : Thread nD τ) sc2 fullShare (accAt m c t.val t.isLt 2) ∗ owns (c : Thread nD τ) sc3 fullShare (accAt m c t.val t.isLt 3) ∗ owns (c : Thread nD τ) sc4 fullShare (accAt m c t.val t.isLt 4) ∗ owns (c : Thread nD τ) sc5 fullShare (accAt m c t.val t.isLt 5)) ∗ ∃ r, prngReg c r) := by
  show Φv m c _ = _; unfold Φv accPart; rw [dif_neg (by show ¬ (t.val + 1) % 4 = 0; omega)]; rfl

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

end Cert.Kernel.Hand

end
-- ==== Proof.K.Body.lean ====
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import proofs.«123526_j17729624998291_2_alg».proof.Proof.K.Data
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Found6.acc_0 {P} (r : Found6 (F := F) P) : r.acc 0 = rd r.L0 := rfl
theorem Found12.acc_0 {P} (r : Found12 (F := F) P) : r.acc 0 = rd r.L0 := rfl
theorem Found12.out_0 {P} (r : Found12 (F := F) P) : r.out 0 = rd r.R0 := rfl
theorem Found6.acc_1 {P} (r : Found6 (F := F) P) : r.acc 1 = rd r.L1 := rfl
theorem Found12.acc_1 {P} (r : Found12 (F := F) P) : r.acc 1 = rd r.L1 := rfl
theorem Found12.out_1 {P} (r : Found12 (F := F) P) : r.out 1 = rd r.R1 := rfl
theorem Found6.acc_2 {P} (r : Found6 (F := F) P) : r.acc 2 = rd r.L2 := rfl
theorem Found12.acc_2 {P} (r : Found12 (F := F) P) : r.acc 2 = rd r.L2 := rfl
theorem Found12.out_2 {P} (r : Found12 (F := F) P) : r.out 2 = rd r.R2 := rfl
theorem Found6.acc_3 {P} (r : Found6 (F := F) P) : r.acc 3 = rd r.L3 := rfl
theorem Found12.acc_3 {P} (r : Found12 (F := F) P) : r.acc 3 = rd r.L3 := rfl
theorem Found12.out_3 {P} (r : Found12 (F := F) P) : r.out 3 = rd r.R3 := rfl
theorem Found6.acc_4 {P} (r : Found6 (F := F) P) : r.acc 4 = rd r.L4 := rfl
theorem Found12.acc_4 {P} (r : Found12 (F := F) P) : r.acc 4 = rd r.L4 := rfl
theorem Found12.out_4 {P} (r : Found12 (F := F) P) : r.out 4 = rd r.R4 := rfl
theorem Found6.acc_5 {P} (r : Found6 (F := F) P) : r.acc 5 = rd r.L5 := rfl
theorem Found12.acc_5 {P} (r : Found12 (F := F) P) : r.acc 5 = rd r.L5 := rfl
theorem Found12.out_5 {P} (r : Found12 (F := F) P) : r.out 5 = rd r.R5 := rfl

/-! ## Where the windows are idle, and where the outputs are written back -/

theorem idle_in_0 (t : Fin cfg0.N) : idle0 0 (grid0.coords t) = false := rfl
theorem idle_in_1 (t : Fin cfg0.N) : idle0 1 (grid0.coords t) = false := rfl
theorem idle_in_2 (t : Fin cfg0.N) : idle0 2 (grid0.coords t) = false := rfl
theorem idle_in_3 (t : Fin cfg0.N) : idle0 3 (grid0.coords t) = false := rfl
theorem idle_in_4 (t : Fin cfg0.N) : idle0 4 (grid0.coords t) = false := rfl
theorem idle_in_5 (t : Fin cfg0.N) : idle0 5 (grid0.coords t) = false := rfl
theorem idle_in_6 (t : Fin cfg0.N) : idle0 6 (grid0.coords t) = false := rfl
theorem idle_in_7 (t : Fin cfg0.N) : idle0 7 (grid0.coords t) = false := rfl
theorem idle_in_8 (t : Fin cfg0.N) : idle0 8 (grid0.coords t) = false := rfl
theorem idle_in_9 (t : Fin cfg0.N) : idle0 9 (grid0.coords t) = false := rfl
theorem idle_out_0_of_last (t : Fin cfg0.N) (h : IsLast (grid0.coords t)) : idle0 10 (grid0.coords t) = false := by
  show (!(k0_cond2 (grid0.coords t) == 1#1)) = false; rw [show (k0_cond2 (grid0.coords t) == 1#1) = true from beq_iff_eq.mpr h]; rfl
theorem idle_out_0_of_not_last (t : Fin cfg0.N) (h : ¬ IsLast (grid0.coords t)) : idle0 10 (grid0.coords t) = true := by
  show (!(k0_cond2 (grid0.coords t) == 1#1)) = true; rw [show (k0_cond2 (grid0.coords t) == 1#1) = false from beq_eq_false_iff_ne.mpr h]; rfl
theorem flush_0_of_last (t : Fin cfg0.N) (h : t.val % 4 = 3) : (cfg0.win 10).flush t = true := (flush0_10 t).mpr h
theorem flush_0_of_not_last (t : Fin cfg0.N) (h : ¬ t.val % 4 = 3) : (cfg0.win 10).flush t = false :=
  Bool.eq_false_iff.mpr fun hf => h ((flush0_10 t).mp hf)
theorem idle_out_1_of_last (t : Fin cfg0.N) (h : IsLast (grid0.coords t)) : idle0 11 (grid0.coords t) = false := by
  show (!(k0_cond2 (grid0.coords t) == 1#1)) = false; rw [show (k0_cond2 (grid0.coords t) == 1#1) = true from beq_iff_eq.mpr h]; rfl
theorem idle_out_1_of_not_last (t : Fin cfg0.N) (h : ¬ IsLast (grid0.coords t)) : idle0 11 (grid0.coords t) = true := by
  show (!(k0_cond2 (grid0.coords t) == 1#1)) = true; rw [show (k0_cond2 (grid0.coords t) == 1#1) = false from beq_eq_false_iff_ne.mpr h]; rfl
theorem flush_1_of_last (t : Fin cfg0.N) (h : t.val % 4 = 3) : (cfg0.win 11).flush t = true := (flush0_11 t).mpr h
theorem flush_1_of_not_last (t : Fin cfg0.N) (h : ¬ t.val % 4 = 3) : (cfg0.win 11).flush t = false :=
  Bool.eq_false_iff.mpr fun hf => h ((flush0_11 t).mp hf)
theorem idle_out_2_of_last (t : Fin cfg0.N) (h : IsLast (grid0.coords t)) : idle0 12 (grid0.coords t) = false := by
  show (!(k0_cond2 (grid0.coords t) == 1#1)) = false; rw [show (k0_cond2 (grid0.coords t) == 1#1) = true from beq_iff_eq.mpr h]; rfl
theorem idle_out_2_of_not_last (t : Fin cfg0.N) (h : ¬ IsLast (grid0.coords t)) : idle0 12 (grid0.coords t) = true := by
  show (!(k0_cond2 (grid0.coords t) == 1#1)) = true; rw [show (k0_cond2 (grid0.coords t) == 1#1) = false from beq_eq_false_iff_ne.mpr h]; rfl
theorem flush_2_of_last (t : Fin cfg0.N) (h : t.val % 4 = 3) : (cfg0.win 12).flush t = true := (flush0_12 t).mpr h
theorem flush_2_of_not_last (t : Fin cfg0.N) (h : ¬ t.val % 4 = 3) : (cfg0.win 12).flush t = false :=
  Bool.eq_false_iff.mpr fun hf => h ((flush0_12 t).mp hf)
theorem idle_out_3_of_last (t : Fin cfg0.N) (h : IsLast (grid0.coords t)) : idle0 13 (grid0.coords t) = false := by
  show (!(k0_cond2 (grid0.coords t) == 1#1)) = false; rw [show (k0_cond2 (grid0.coords t) == 1#1) = true from beq_iff_eq.mpr h]; rfl
theorem idle_out_3_of_not_last (t : Fin cfg0.N) (h : ¬ IsLast (grid0.coords t)) : idle0 13 (grid0.coords t) = true := by
  show (!(k0_cond2 (grid0.coords t) == 1#1)) = true; rw [show (k0_cond2 (grid0.coords t) == 1#1) = false from beq_eq_false_iff_ne.mpr h]; rfl
theorem flush_3_of_last (t : Fin cfg0.N) (h : t.val % 4 = 3) : (cfg0.win 13).flush t = true := (flush0_13 t).mpr h
theorem flush_3_of_not_last (t : Fin cfg0.N) (h : ¬ t.val % 4 = 3) : (cfg0.win 13).flush t = false :=
  Bool.eq_false_iff.mpr fun hf => h ((flush0_13 t).mp hf)
theorem idle_out_4_of_last (t : Fin cfg0.N) (h : IsLast (grid0.coords t)) : idle0 14 (grid0.coords t) = false := by
  show (!(k0_cond2 (grid0.coords t) == 1#1)) = false; rw [show (k0_cond2 (grid0.coords t) == 1#1) = true from beq_iff_eq.mpr h]; rfl
theorem idle_out_4_of_not_last (t : Fin cfg0.N) (h : ¬ IsLast (grid0.coords t)) : idle0 14 (grid0.coords t) = true := by
  show (!(k0_cond2 (grid0.coords t) == 1#1)) = true; rw [show (k0_cond2 (grid0.coords t) == 1#1) = false from beq_eq_false_iff_ne.mpr h]; rfl
theorem flush_4_of_last (t : Fin cfg0.N) (h : t.val % 4 = 3) : (cfg0.win 14).flush t = true := (flush0_14 t).mpr h
theorem flush_4_of_not_last (t : Fin cfg0.N) (h : ¬ t.val % 4 = 3) : (cfg0.win 14).flush t = false :=
  Bool.eq_false_iff.mpr fun hf => h ((flush0_14 t).mp hf)
theorem idle_out_5_of_last (t : Fin cfg0.N) (h : IsLast (grid0.coords t)) : idle0 15 (grid0.coords t) = false := by
  show (!(k0_cond2 (grid0.coords t) == 1#1)) = false; rw [show (k0_cond2 (grid0.coords t) == 1#1) = true from beq_iff_eq.mpr h]; rfl
theorem idle_out_5_of_not_last (t : Fin cfg0.N) (h : ¬ IsLast (grid0.coords t)) : idle0 15 (grid0.coords t) = true := by
  show (!(k0_cond2 (grid0.coords t) == 1#1)) = true; rw [show (k0_cond2 (grid0.coords t) == 1#1) = false from beq_eq_false_iff_ne.mpr h]; rfl
theorem flush_5_of_last (t : Fin cfg0.N) (h : t.val % 4 = 3) : (cfg0.win 15).flush t = true := (flush0_15 t).mpr h
theorem flush_5_of_not_last (t : Fin cfg0.N) (h : ¬ t.val % 4 = 3) : (cfg0.win 15).flush t = false :=
  Bool.eq_false_iff.mpr fun hf => h ((flush0_15 t).mp hf)

theorem outAt_last (c : Dev nD) (t : Fin cfg0.N) (h0 : ¬ t.val % 4 = 0) (h3 : t.val % 4 = 3) (j : Fin 6) :
    outAt m c t j = (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (not_first_of t h0) (last_of t h3) (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).out j := by
  unfold outAt; rw [dif_pos h3]

/-! ## The body obligation -/

set_option maxHeartbeats 4000000 in
/-- The library's body obligation at every point, by the point's kind: the run of that kind between the invariant's two
    forms; an output's staging buffer is passed through untouched except at a last step, where it ends at the block the
    run stores. -/
theorem body_obligation (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl]
  by_cases h3 : t.val % 4 = 3
  · -- a last step
    have h0 : ¬ t.val % 4 = 0 := by omega
    have hL := last_of t h3
    have hF := not_first_of t h0
    simp only [idle_in_0, idle_in_1, idle_in_2, idle_in_3, idle_in_4, idle_in_5, idle_in_6, idle_in_7, idle_in_8, idle_in_9, idle_out_0_of_last t hL, flush_0_of_last t h3, idle_out_1_of_last t hL, flush_1_of_last t h3, idle_out_2_of_last t hL, flush_2_of_last t h3, idle_out_3_of_last t hL, flush_3_of_last t h3, idle_out_4_of_last t hL, flush_4_of_last t h3, idle_out_5_of_last t hL, flush_5_of_last t h3, before_0, before_1, before_2, before_3, before_4, before_5, before_6, before_7, before_8, before_9, after_0, after_1, after_2, after_3, after_4, after_5, after_6, after_7, after_8, after_9, after_10, after_11, after_12, after_13, after_14, after_15]
    rw [Φ_pre_other m c t h0, Φ_post_last m c t h3]
    simp only [outAt_last m c t h0 h3]
    iintro ⟨⟨⟨Ha0, Ha1, Ha2, Ha3, Ha4, Ha5⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%e0, O0⟩, ⟨%e1, O1⟩, ⟨%e2, O2⟩, ⟨%e3, O3⟩, ⟨%e4, O4⟩, ⟨%e5, O5⟩⟩
    iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) hF hL (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).run Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [O0]; · iexists _; iexact O0
    isplitl [O1]; · iexists _; iexact O1
    isplitl [O2]; · iexists _; iexact O2
    isplitl [O3]; · iexists _; iexact O3
    isplitl [O4]; · iexists _; iexact O4
    isplitl [O5]; · iexists _; iexact O5
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    iintro ⟨H0, H1, H2, H3, H4, H5, H6, H7, H8, H9, O0, O1, O2, O3, O4, O5, S0, S1, S2, S3, S4, S5⟩
    isplitl [S0 S1 S2 S3 S4 S5 Hp]
    · isplitr [Hp]; swap; · iexact Hp
      isplitl [S0]; · iexists _; iapply (owns_of_writes c sc0 _ (cover_last_0 c _ _ _ _ _ _ _ _ _ _ _ _ _ _ _ _ _ _ _ _ _ _ _ _ _ _ _ _ _ _ _ _ _ _ _ _ _ _ _ _ _ _ _ _ _ _ _ _ _ _ _)); iexact S0
      isplitl [S1]; · iexists _; iapply (owns_of_writes c sc1 _ (cover_last_1 c _ _ _ _ _ _ _ _ _ _ _ _ _ _ _ _ _ _ _ _ _ _ _ _ _ _ _ _ _ _ _ _ _ _ _ _ _ _ _ _ _ _ _ _ _ _ _ _ _ _ _)); iexact S1
      isplitl [S2]; · iexists _; iapply (owns_of_writes c sc2 _ (cover_last_2 c _ _ _ _ _ _ _ _ _ _ _ _ _ _ _ _ _ _ _ _ _ _ _ _ _ _ _ _ _ _ _ _ _ _ _ _ _ _ _ _ _ _ _ _ _ _ _ _ _ _ _)); iexact S2
      isplitl [S3]; · iexists _; iapply (owns_of_writes c sc3 _ (cover_last_3 c _ _ _ _ _ _ _ _ _ _ _ _ _ _ _ _ _ _ _ _ _ _ _ _ _ _ _ _ _ _ _ _ _ _ _ _ _ _ _ _ _ _ _ _ _ _ _ _ _ _ _)); iexact S3
      isplitl [S4]; · iexists _; iapply (owns_of_writes c sc4 _ (cover_last_4 c _ _ _ _ _ _ _ _ _ _ _ _ _ _ _ _ _ _ _ _ _ _ _ _ _ _ _ _ _ _ _ _ _ _ _ _ _ _ _ _ _ _ _ _ _ _ _ _ _ _ _)); iexact S4
      iexists _; iapply (owns_of_writes c sc5 _ (cover_last_5 c _ _ _ _ _ _ _ _ _ _ _ _ _ _ _ _ _ _ _ _ _ _ _ _ _ _ _ _ _ _ _ _ _ _ _ _ _ _ _ _ _ _ _ _ _ _ _ _ _ _ _)); iexact S5
    isplitl [HO]; · iapply (owesAt_intro m c); iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [O0]; · rw [Found12.out_0]; iapply (owns_of_writes c (ms10 t) _ (cover_out_0 c _ _ _ _ _ _ _ _ _ _ _ _ _ _ _ _ _ _ _ _ _ _ _ _ _ _ _ _ _ _ _ _ _ _ _ _ _ _ _ _ _ _ _ _ _ _ _ _ _ _ _)); iexact O0
    isplitl [O1]; · rw [Found12.out_1]; iapply (owns_of_writes c (ms11 t) _ (cover_out_1 c _ _ _ _ _ _ _ _ _ _ _ _ _ _ _ _ _ _ _ _ _ _ _ _ _ _ _ _ _ _ _ _ _ _ _ _ _ _ _ _ _ _ _ _ _ _ _ _ _ _ _)); iexact O1
    isplitl [O2]; · rw [Found12.out_2]; iapply (owns_of_writes c (ms12 t) _ (cover_out_2 c _ _ _ _ _ _ _ _ _ _ _ _ _ _ _ _ _ _ _ _ _ _ _ _ _ _ _ _ _ _ _ _ _ _ _ _ _ _ _ _ _ _ _ _ _ _ _ _ _ _ _)); iexact O2
    isplitl [O3]; · rw [Found12.out_3]; iapply (owns_of_writes c (ms13 t) _ (cover_out_3 c _ _ _ _ _ _ _ _ _ _ _ _ _ _ _ _ _ _ _ _ _ _ _ _ _ _ _ _ _ _ _ _ _ _ _ _ _ _ _ _ _ _ _ _ _ _ _ _ _ _ _)); iexact O3
    isplitl [O4]; · rw [Found12.out_4]; iapply (owns_of_writes c (ms14 t) _ (cover_out_4 c _ _ _ _ _ _ _ _ _ _ _ _ _ _ _ _ _ _ _ _ _ _ _ _ _ _ _ _ _ _ _ _ _ _ _ _ _ _ _ _ _ _ _ _ _ _ _ _ _ _ _)); iexact O4
    rw [Found12.out_5]; iapply (owns_of_writes c (ms15 t) _ (cover_out_5 c _ _ _ _ _ _ _ _ _ _ _ _ _ _ _ _ _ _ _ _ _ _ _ _ _ _ _ _ _ _ _ _ _ _ _ _ _ _ _ _ _ _ _ _ _ _ _ _ _ _ _)); iexact O5
  · have hL := not_last_of t h3
    simp only [idle_in_0, idle_in_1, idle_in_2, idle_in_3, idle_in_4, idle_in_5, idle_in_6, idle_in_7, idle_in_8, idle_in_9, idle_out_0_of_not_last t hL, flush_0_of_not_last t h3, idle_out_1_of_not_last t hL, flush_1_of_not_last t h3, idle_out_2_of_not_last t hL, flush_2_of_not_last t h3, idle_out_3_of_not_last t hL, flush_3_of_not_last t h3, idle_out_4_of_not_last t hL, flush_4_of_not_last t h3, idle_out_5_of_not_last t hL, flush_5_of_not_last t h3, before_0, before_1, before_2, before_3, before_4, before_5, before_6, before_7, before_8, before_9, after_0, after_1, after_2, after_3, after_4, after_5, after_6, after_7, after_8, after_9, after_10, after_11, after_12, after_13, after_14, after_15]
    by_cases h0 : t.val % 4 = 0
    · -- a first step
      have hF := first_of t h0
      rw [Φ_pre_first m c t h0, Φ_post_other m c t h3, accAt_first m c t h0]
      iintro ⟨⟨⟨Ha0, Ha1, Ha2, Ha3, Ha4, Ha5⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, O0, O1, O2, O3, O4, O5⟩
      iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) hF hL (iblk m c 0 t) (iblk m c 1 t) (iblk m c 2 t) (iblk m c 3 t) (iblk m c 4 t) (iblk m c 5 t) (iblk m c 6 t) (iblk m c 7 t) (iblk m c 8 t) (iblk m c 9 t)).run Set.univ iprop((∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d))) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [O0 O1 O2 O3 O4 O5]
      · isplitl [O0]; · iexact O0
        isplitl [O1]; · iexact O1
        isplitl [O2]; · iexact O2
        isplitl [O3]; · iexact O3
        isplitl [O4]; · iexact O4
        iexact O5
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iintro ⟨H0, H1, H2, H3, H4, H5, H6, H7, H8, H9, HO6, S0, S1, S2, S3, S4, S5⟩
      isplitl [S0 S1 S2 S3 S4 S5 Hp]
      · isplitr [Hp]; swap; · iexact Hp
        isplitl [S0]; · rw [Found6.acc_0]; iapply (owns_of_writes c sc0 _ (cover_first_0 c _ _ _ _ _ _ _ _ _ _ _ _ _ _ _ _ _ _ _ _ _ _ _ _ _ _ _ _ _ _ _ _ _ _ _ _ _ _ _ _ _ _ _ _ _)); iexact S0
        isplitl [S1]; · rw [Found6.acc_1]; iapply (owns_of_writes c sc1 _ (cover_first_1 c _ _ _ _ _ _ _ _ _ _ _ _ _ _ _ _ _ _ _ _ _ _ _ _ _ _ _ _ _ _ _ _ _ _ _ _ _ _ _ _ _ _ _ _ _)); iexact S1
        isplitl [S2]; · rw [Found6.acc_2]; iapply (owns_of_writes c sc2 _ (cover_first_2 c _ _ _ _ _ _ _ _ _ _ _ _ _ _ _ _ _ _ _ _ _ _ _ _ _ _ _ _ _ _ _ _ _ _ _ _ _ _ _ _ _ _ _ _ _)); iexact S2
        isplitl [S3]; · rw [Found6.acc_3]; iapply (owns_of_writes c sc3 _ (cover_first_3 c _ _ _ _ _ _ _ _ _ _ _ _ _ _ _ _ _ _ _ _ _ _ _ _ _ _ _ _ _ _ _ _ _ _ _ _ _ _ _ _ _ _ _ _ _)); iexact S3
        isplitl [S4]; · rw [Found6.acc_4]; iapply (owns_of_writes c sc4 _ (cover_first_4 c _ _ _ _ _ _ _ _ _ _ _ _ _ _ _ _ _ _ _ _ _ _ _ _ _ _ _ _ _ _ _ _ _ _ _ _ _ _ _ _ _ _ _ _ _)); iexact S4
        rw [Found6.acc_5]; iapply (owns_of_writes c sc5 _ (cover_first_5 c _ _ _ _ _ _ _ _ _ _ _ _ _ _ _ _ _ _ _ _ _ _ _ _ _ _ _ _ _ _ _ _ _ _ _ _ _ _ _ _ _ _ _ _ _)); iexact S5
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HO6
    · -- a middle step
      have hF := not_first_of t h0
      rw [Φ_pre_other m c t h0, Φ_post_other m c t h3, accAt_mid m c t h0 h3]
      iintro ⟨⟨⟨Ha0, Ha1, Ha2, Ha3, Ha4, Ha5⟩, Hp⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, O0, O1, O2, O3, O4, O5⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) hF hL (iblk m c 0 t) (iblk m c 1 t) (iblk m c 2 t) (iblk m c 3 t) (iblk m c 4 t) (iblk m c 5 t) (iblk m c 6 t) (iblk m c 7 t) (iblk m c 8 t) (iblk m c 9 t) (accB m c t h0 0) (accB m c t h0 1) (accB m c t h0 2) (accB m c t h0 3) (accB m c t h0 4) (accB m c t h0 5)).run Set.univ iprop((∃ d, owns (c : Thread nD τ) (ms10 t) fullShare ((dats m 0 c).before 10 t d)) ∗ (∃ d, owns (c : Thread nD τ) (ms11 t) fullShare ((dats m 0 c).before 11 t d)) ∗ (∃ d, owns (c : Thread nD τ) (ms12 t) fullShare ((dats m 0 c).before 12 t d)) ∗ (∃ d, owns (c : Thread nD τ) (ms13 t) fullShare ((dats m 0 c).before 13 t d)) ∗ (∃ d, owns (c : Thread nD τ) (ms14 t) fullShare ((dats m 0 c).before 14 t d)) ∗ (∃ d, owns (c : Thread nD τ) (ms15 t) fullShare ((dats m 0 c).before 15 t d))) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [O0 O1 O2 O3 O4 O5]
      · isplitl [O0]; · iexact O0
        isplitl [O1]; · iexact O1
        isplitl [O2]; · iexact O2
        isplitl [O3]; · iexact O3
        isplitl [O4]; · iexact O4
        iexact O5
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iintro ⟨H0, H1, H2, H3, H4, H5, H6, H7, H8, H9, HO6, S0, S1, S2, S3, S4, S5⟩
      isplitl [S0 S1 S2 S3 S4 S5 Hp]
      · isplitr [Hp]; swap; · iexact Hp
        isplitl [S0]; · rw [Found6.acc_0]; iapply (owns_of_writes c sc0 _ (cover_mid_0 c _ _ _ _ _ _ _ _ _ _ _ _ _ _ _ _ _ _ _ _ _ _ _ _ _ _ _ _ _ _ _ _ _ _ _ _ _ _ _ _ _ _ _ _ _ _ _ _ _ _ _)); iexact S0
        isplitl [S1]; · rw [Found6.acc_1]; iapply (owns_of_writes c sc1 _ (cover_mid_1 c _ _ _ _ _ _ _ _ _ _ _ _ _ _ _ _ _ _ _ _ _ _ _ _ _ _ _ _ _ _ _ _ _ _ _ _ _ _ _ _ _ _ _ _ _ _ _ _ _ _ _)); iexact S1
        isplitl [S2]; · rw [Found6.acc_2]; iapply (owns_of_writes c sc2 _ (cover_mid_2 c _ _ _ _ _ _ _ _ _ _ _ _ _ _ _ _ _ _ _ _ _ _ _ _ _ _ _ _ _ _ _ _ _ _ _ _ _ _ _ _ _ _ _ _ _ _ _ _ _ _ _)); iexact S2
        isplitl [S3]; · rw [Found6.acc_3]; iapply (owns_of_writes c sc3 _ (cover_mid_3 c _ _ _ _ _ _ _ _ _ _ _ _ _ _ _ _ _ _ _ _ _ _ _ _ _ _ _ _ _ _ _ _ _ _ _ _ _ _ _ _ _ _ _ _ _ _ _ _ _ _ _)); iexact S3
        isplitl [S4]; · rw [Found6.acc_4]; iapply (owns_of_writes c sc4 _ (cover_mid_4 c _ _ _ _ _ _ _ _ _ _ _ _ _ _ _ _ _ _ _ _ _ _ _ _ _ _ _ _ _ _ _ _ _ _ _ _ _ _ _ _ _ _ _ _ _ _ _ _ _ _ _)); iexact S4
        rw [Found6.acc_5]; iapply (owns_of_writes c sc5 _ (cover_mid_5 c _ _ _ _ _ _ _ _ _ _ _ _ _ _ _ _ _ _ _ _ _ _ _ _ _ _ _ _ _ _ _ _ _ _ _ _ _ _ _ _ _ _ _ _ _ _ _ _ _ _ _)); iexact S5
      isplitl [HO]; · iapply (owesAt_intro m c); iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HO6

end Cert.Kernel.Hand

end
-- ==== Proof.K.Launch.lean ====
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import proofs.«123526_j17729624998291_2_alg».proof.Proof.K.Body
import proofs.«123526_j17729624998291_2_alg».proof.Proof.LibSharedFrame
import proofs.«123526_j17729624998291_2_alg».proof.Proof.LibSharedDeal
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef arrBufs restRefs withArrays)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 8000000 in
/-- The operations after the region write their own results only, none of which is an array of the pipeline. -/
theorem hostOps1_keeps : (hostOps1 : List (HloOp τ sig (Elt F))).Forall fun op => ∀ w, Proc.devRef .tc (arrRef spec0 w) ∉ op.writes := by
  simp only [List.Forall]
  repeat' constructor
  all_goals (intro w; simp only [StableHlo.nullary_writes, StableHlo.unary_writes, StableHlo.binary_writes, StableHlo.reshape_writes, Finset.mem_singleton]; refine StableHlo.devRef_ne_of_ne ?_; revert w; decide)

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops, ∀ w, Proc.devRef .tc (arrRef spec0 w) ∉ op.writes := by
  intro ops hops op hop
  simp only [List.mem_cons, List.mem_nil_iff, or_false] at hops
  rcases hops with rfl
  exact (List.forall_iff_forall_mem.mp hostOps1_keeps) op hop

/-- @main is the host operations before the region, the region, the host operations after it. -/
theorem hmain : Pipeline.HMainK (Ix := Unit) (Name := ℕ) (U := UR sig nD τ) (Lvl := ℕ) cfgs 0 defs₀ Variants.none m (main (F := F)) (V m)
      (fun _ => Pipeline.chain (([hostOps1] : List (List (HloOp τ sig (Elt F)))).map StableHlo.seq)) :=
  Pipeline.hmain_around cfgs 0 defs₀ Variants.none m main [hostOps0] [hostOps1] (show List.Forall _ [hostOps0] from hostOps0_sub)
    (show List.Forall _ [hostOps0] from hostOps0_fresh) (fun c => (main_chain c).trans rfl)

/-! ## The buffers at the region's exit -/

/-- Which windows may share an array: only two inputs. -/
theorem arr_shared : ∀ w w' : Fin 16, arrRef spec0 w' = arrRef spec0 w → w' = w ∨ ((cfg0.win w).isOut = false ∧ (cfg0.win w').isOut = false) := by decide

/-- Core `c`'s buffers when the region is left: the pipeline's arrays at what the write-backs leave, the rest as found. -/
abbrev W (c : Dev nD) : Valuation τ sig (Elt F) := withArrays spec0 c (V₀ m c) (fun w => (dats m 0 c).arrAt w cfg0.N)

theorem cast_val {X : (b : DevRef τ sig) → b.ty.Contents (Elt F)} {b b' : DevRef τ sig} (e : b = b') :
    cast (congrArg (fun b' : DevRef τ sig => b'.ty.Contents (Elt F)) e) (X b) = X b' := by subst e; rfl

theorem W_arr (c : Dev nD) (w : Fin cfg0.W) : W m c (Proc.devRef .tc (arrRef spec0 w)) = (dats m 0 c).arrAt w cfg0.N := by
  unfold W withArrays
  have h : ∃ w', Proc.devRef .tc (arrRef spec0 w') = Proc.devRef (τ := τ) .tc (arrRef spec0 w) := ⟨w, rfl⟩
  rw [dif_pos h]
  suffices ∀ (w' : Fin 16) (e : Proc.devRef .tc (arrRef spec0 w') = Proc.devRef (τ := τ) .tc (arrRef spec0 w)),
      cast (congrArg (fun b' : DevRef τ sig => b'.ty.Contents (Elt F)) e) ((dats m 0 c).arrAt w' cfg0.N) = (dats m 0 c).arrAt w cfg0.N from this _ h.choose_spec
  intro w' e
  rcases arr_shared w w' (Proc.devRef_injective _ e) with rfl | ⟨hw, hw'⟩
  · rfl
  · rw [(dats m 0 c).arrAt_in w' hw' _, (dats m 0 c).arrAt_in w hw _, A_eq, A_eq]
    exact cast_val (X := V₀ m c) e

theorem W_rest (c : Dev nD) : ∀ b ∈ restRefs sig spec0, W m c (Proc.devRef .tc b) = V₀ m c (Proc.devRef .tc b) := fun b hb =>
  Pipeline.withArrays_of_ne spec0 c _ _ b fun w hw => by
    unfold restRefs at hb
    exact (Finset.mem_sdiff.mp hb).2 (Finset.mem_image.mpr ⟨w, Finset.mem_univ _, hw⟩)

/-! ## The shared array dealt to its two windows, and joined again -/

theorem share_1 (c : Dev nD) : (dats m 0 c).share 1 = fullShare.left := by unfold Dat.share; rfl
theorem share_2 (c : Dev nD) : (dats m 0 c).share 2 = fullShare.right := by unfold Dat.share; rfl
theorem share_rest (c : Dev nD) : ∀ w : Fin 16, w ≠ 1 → w ≠ 2 → (dats m 0 c).share w = fullShare := by
  intro w h1 h2; unfold Dat.share
  fin_cases w <;> first | rfl | exact absurd rfl h1 | exact absurd rfl h2

theorem deal (c : Dev nD) (X : (r : Ref sig .tc) → Buf (Elt F) ((c.tc : Thread nD τ).loc r))
    (G : (w : Fin cfg0.W) → Buf (Elt F) ((cfg0.spec w).arr.view.loc (c.tc : Thread nD τ))) (hG : ∀ w, G w = X (arrRef spec0 w)) :
    (arrBufs spec0 c X : sProp 𝕄) ⊣⊢ (dats m 0 c).arrays G :=
  Cert.SharedDeal.arrBufs_iff_arrays (dats m 0 c) (1 : Fin 16) (2 : Fin 16) (by decide) (by decide) (by decide) arr_whole0
    (share_1 m c) (share_2 m c) (share_rest m c) X G hG

/-! ## The invariant at the two ends -/

theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem accPart_zero (c : Dev nD) : accPart m c 0 = iprop((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a)) := by
  unfold accPart; exact dif_pos (by decide)
theorem accPart_last (c : Dev nD) : accPart m c (Fin.last cfg0.N) = iprop((∃ a, owns (c : Thread nD τ) sc0 fullShare a) ∗ (∃ a, owns (c : Thread nD τ) sc1 fullShare a) ∗ (∃ a, owns (c : Thread nD τ) sc2 fullShare a) ∗ (∃ a, owns (c : Thread nD τ) sc3 fullShare a) ∗ (∃ a, owns (c : Thread nD τ) sc4 fullShare a) ∗ (∃ a, owns (c : Thread nD τ) sc5 fullShare a)) := by
  unfold accPart; exact dif_pos (by decide)

theorem hin (c : Dev nD) : (Pipeline.ΦA (U := UR sig nD τ) spec0 c : sProp 𝕄) ⊢ (dats m 0 c).Φ 0 := by
  rw [show (dats m 0 c).Φ 0 = Φv m c 0 from rfl]
  unfold Pipeline.ΦA Φv; rw [scopedRest0_eq, accPart_zero]
  iintro ⟨⟨⟨%f0, Hf0⟩, ⟨%f1, Hf1⟩, ⟨%f2, Hf2⟩, ⟨%f3, Hf3⟩, ⟨%f4, Hf4⟩, ⟨%f5, Hf5⟩⟩, Hp⟩
  isplitr [Hp]; swap; · iexact Hp
  isplitl [Hf0]; · iexists f0; rw [owns_whole_eq]; iexists f0; isplitr; (· ipureintro; rfl); iexact Hf0
  isplitl [Hf1]; · iexists f1; rw [owns_whole_eq]; iexists f1; isplitr; (· ipureintro; rfl); iexact Hf1
  isplitl [Hf2]; · iexists f2; rw [owns_whole_eq]; iexists f2; isplitr; (· ipureintro; rfl); iexact Hf2
  isplitl [Hf3]; · iexists f3; rw [owns_whole_eq]; iexists f3; isplitr; (· ipureintro; rfl); iexact Hf3
  isplitl [Hf4]; · iexists f4; rw [owns_whole_eq]; iexists f4; isplitr; (· ipureintro; rfl); iexact Hf4
  iexists f5; rw [owns_whole_eq]; iexists f5; isplitr; (· ipureintro; rfl); iexact Hf5

theorem hout (c : Dev nD) : (dats m 0 c).Φ (Fin.last cfg0.N) ⊢ (Pipeline.ΦA (U := UR sig nD τ) spec0 c : sProp 𝕄) := by
  rw [show (dats m 0 c).Φ (Fin.last cfg0.N) = Φv m c (Fin.last cfg0.N) from rfl]
  unfold Pipeline.ΦA Φv; rw [scopedRest0_eq, accPart_last]; simp only [owns_whole_eq]
  iintro ⟨⟨⟨%a0, %f0, %hf0, Hf0⟩, ⟨%a1, %f1, %hf1, Hf1⟩, ⟨%a2, %f2, %hf2, Hf2⟩, ⟨%a3, %f3, %hf3, Hf3⟩, ⟨%a4, %f4, %hf4, Hf4⟩, ⟨%a5, %f5, %hf5, Hf5⟩⟩, Hp⟩
  isplitr [Hp]; swap; · iexact Hp
  isplitl [Hf0]; · iexists f0; iexact Hf0
  isplitl [Hf1]; · iexists f1; iexact Hf1
  isplitl [Hf2]; · iexists f2; iexact Hf2
  isplitl [Hf3]; · iexists f3; iexact Hf3
  isplitl [Hf4]; · iexists f4; iexact Hf4
  iexists f5; iexact Hf5

/-! ## The run -/

set_option backward.isDefEq.respectTransparency.types false in
/-- Every weakly fair execution of @main on the TensorCores terminates; each array of the pipeline ends at what the
    write-backs leave in it, every other unscoped buffer at what the later host operations compute. -/
theorem run_main : θ_run defs (onTc (τ := τ) (main (F := F))) (s₀ m ρ) (fun r => ∀ c : Dev nD,
      (∀ w, r.2.mem ((cfg0.spec w).arr.view.loc (c.tc : Thread nD τ)) = (dats m 0 c).arrAt w cfg0.N)
        ∧ ∀ b ∈ restRefs sig spec0, r.2.mem ((c.tc : Thread nD τ).loc b) = Cert.SharedFrame.finalAt (W m) [hostOps1] c b) :=
  Cert.SharedFrame.θ_run_around_shared cfgs (dats m) (0 : Fin 1) defs₀ Variants.none cellOf_inj winFacts₀0 block_pos0 arr_whole0 stage_whole0
    m ρ main (hbody := fun c => (body_obligation m c).loose) (howed := fun _ _ => rfl) (V₀ := V₀ m) (W := W m) (opss := [hostOps1])
    (hsub := sfx_sub) (hfresh := sfx_fresh) (hkeep := sfx_keeps) (hmain := hmain m) (hWrest := W_rest m)
    (hdeal := fun c => (deal m c (fun b => V₀ m c (Proc.devRef .tc b)) _ (fun w => A_eq m c w)).1)
    (hjoin := fun c => (deal m c (fun b => W m c (Proc.devRef .tc b)) _ (fun w => (W_arr m c w).symm)).2)
    (hdeal' := fun c => (deal m c (fun b => W m c (Proc.devRef .tc b)) _ (fun w => (W_arr m c w).symm)).1)
    (hin := hin m) (hout := hout m)

end Cert.Kernel.Hand

end
-- ==== Proof.K.Frame.lean ====
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import proofs.«123526_j17729624998291_2_alg».proof.Proof.K.Launch
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef arrBufs restRefs withArrays)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays end as launched -/

theorem hostOps0_keeps_args : (hostOps0 : List (HloOp τ sig (Elt F))).Forall fun op =>
    Proc.devRef .tc main_arg0 ∉ op.writes ∧ Proc.devRef .tc main_arg1 ∉ op.writes := by
  simp only [List.Forall]
  repeat' constructor
  all_goals (simp only [StableHlo.nullary_writes, StableHlo.unary_writes, StableHlo.binary_writes, StableHlo.reshape_writes, Finset.mem_singleton]; exact StableHlo.devRef_ne_of_ne (by decide))

set_option maxHeartbeats 8000000 in
theorem hostOps1_keeps_args : (hostOps1 : List (HloOp τ sig (Elt F))).Forall fun op =>
    Proc.devRef .tc main_arg0 ∉ op.writes ∧ Proc.devRef .tc main_arg1 ∉ op.writes := by
  simp only [List.Forall]
  repeat' constructor
  all_goals (simp only [StableHlo.nullary_writes, StableHlo.unary_writes, StableHlo.binary_writes, StableHlo.reshape_writes, Finset.mem_singleton]; exact StableHlo.devRef_ne_of_ne (by decide))

theorem arg0_rest : main_arg0 ∈ restRefs sig spec0 := by decide
theorem arg1_rest : main_arg1 ∈ restRefs sig spec0 := by decide

/-- A buffer that is no array of the pipeline and that no host operation writes ends as launched. -/
theorem final_kept (c : Dev nD) (b : Ref sig .tc) (hW : ∀ w, arrRef spec0 w ≠ b)
    (h0 : ∀ op ∈ (hostOps0 : List (HloOp τ sig (Elt F))), Proc.devRef .tc b ∉ op.writes)
    (h1 : ∀ op ∈ (hostOps1 : List (HloOp τ sig (Elt F))), Proc.devRef .tc b ∉ op.writes) :
    Cert.SharedFrame.finalAt (W m) [hostOps1] c b = m ((c.tc : Thread nD τ).loc b) := by
  show StableHlo.after (hostOps1 ++ []) (W m c) (Proc.devRef .tc b) = _
  rw [List.append_nil, StableHlo.after_of_forall_not_mem _ _ h1]
  refine (Pipeline.withArrays_of_ne spec0 c _ _ b hW).trans ?_
  show StableHlo.after (hostOps0 ++ []) (fun b => m (c, b)) (Proc.devRef .tc b) = _
  rw [List.append_nil, StableHlo.after_of_forall_not_mem _ _ h0]

/-- THE FRAME: every weakly fair execution of @main terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 arg0_rest).trans (final_kept m c main_arg0 (by decide)
        (fun op hop => ((List.forall_iff_forall_mem.mp hostOps0_keeps_args) op hop).1)
        (fun op hop => ((List.forall_iff_forall_mem.mp hostOps1_keeps_args) op hop).1)),
     ((h c).2 main_arg1 arg1_rest).trans (final_kept m c main_arg1 (by decide)
        (fun op hop => ((List.forall_iff_forall_mem.mp hostOps0_keeps_args) op hop).2)
        (fun op hop => ((List.forall_iff_forall_mem.mp hostOps1_keeps_args) op hop).2))⟩) (run_main m ρ)

end Cert.Kernel.Hand

end
-- ==== Proof.KI.Step.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.KI.Body
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one step does to each accumulator, as the body's named payloads -/

theorem hz : (![0, 0] : Fin 2 → Nat) = fun _ => 0 := funext fun a => by fin_cases a <;> rfl

omit [FloatOps F] in
theorem cover1 (p : Vec F S512x1 .f32) (y : S512x1.Idx) :
    ∃ pc ∈ ([⟨Rect.unit (s := S512x1) ![0, 0] S512x1.size inb_S512x1_S512x1_0_0, p⟩] : List (View.Piece (Elt F) S512x1 .f32)), y ∈ pc.1.set :=
  View.cover_of_tiled [⟨Rect.unit (s := S512x1) ![0, 0] S512x1.size inb_S512x1_S512x1_0_0, p⟩] S512x1.size (by rfl) y

/-- Accumulator 0 after a step, from the ten input blocks and what it held (`s`). -/
def upd0 (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s : Vec F S512x1 .f32) : Vec F S512x1 .f32 :=
  k0_pay22 (k0_pay13 x0 x2 x4 x6) x8 x9 s
/-- Accumulator 1 after a step, from the ten input blocks and what it held (`s`). -/
def upd1 (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s : Vec F S512x1 .f32) : Vec F S512x1 .f32 :=
  k0_pay28 (k0_pay21 (k0_pay10 x0 x3) (k0_pay11 x4) (k0_pay12 x7) x8 x9) s
/-- Accumulator 2 after a step, from the ten input blocks and what it held (`s`). -/
def upd2 (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s : Vec F S512x1 .f32) : Vec F S512x1 .f32 :=
  k0_pay25 (k0_pay18 (k0_pay9 x1 x3) (k0_pay14 x5 x7) (FloatOps.ofBits .f32 0x40000000#32) x8 x9) s
/-- Accumulator 3 after a step, from the ten input blocks and what it held (`s`). -/
def upd3 (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s : Vec F S512x1 .f32) : Vec F S512x1 .f32 :=
  k0_pay24 (k0_pay23 (k0_pay13 x0 x2 x4 x6) x8 x9 s)
/-- Accumulator 4 after a step, from the ten input blocks and what it held (`s`). -/
def upd4 (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s : Vec F S512x1 .f32) : Vec F S512x1 .f32 :=
  k0_pay27 (k0_pay20 (k0_pay10 x0 x3) (k0_pay11 x4) (k0_pay12 x7) x8 x9) s
/-- Accumulator 5 after a step, from the ten input blocks and what it held (`s`). -/
def upd5 (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s : Vec F S512x1 .f32) : Vec F S512x1 .f32 :=
  k0_pay26 (k0_pay19 (k0_pay9 x1 x3) (k0_pay14 x5 x7) (FloatOps.ofBits .f32 0x40000000#32) x8 x9) s

set_option maxHeartbeats 2000000

theorem mid_acc_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 0 = upd0 x0 x1 x2 x3 x4 x5 x6 x7 x8 x9 s0 := by
  rw [Found6.acc_0]; unfold rd upd0
  rw [View.read_writes_eq_canon _ _ _ (cover_mid_0 c _ _ _ _ _ _ _ _ _ _ _ _ _ _ _ _ _ _ _ _ _ _ _ _ _ _ _ _ _ _ _ _ _ _ _ _ _ _ _ _ _ _ _ _ _ _ _ _ _ _ _)]
  unfold runMid; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch0) ((Memref.isWhole_whole _).unread s0) = s0 from (Memref.isWhole_whole cc0_scratch0).read_unread s0]
theorem last_acc_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 0 = upd0 x0 x1 x2 x3 x4 x5 x6 x7 x8 x9 s0 := by
  rw [Found12.acc_0]; unfold rd upd0
  rw [View.read_writes_eq_canon _ _ _ (cover_last_0 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch0) ((Memref.isWhole_whole _).unread s0) = s0 from (Memref.isWhole_whole cc0_scratch0).read_unread s0]
theorem last_out_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).out 0 = upd0 x0 x1 x2 x3 x4 x5 x6 x7 x8 x9 s0 := by
  rw [Found12.out_0]; unfold rd upd0
  rw [View.read_writes_eq_canon _ _ _ (cover_out_0 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch0) ((Memref.isWhole_whole _).unread s0) = s0 from (Memref.isWhole_whole cc0_scratch0).read_unread s0]
theorem first_acc_0 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) :
    (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).acc 0 = upd0 x0 x1 x2 x3 x4 x5 x6 x7 x8 x9 k0_pay1 := by
  rw [Found6.acc_0]; unfold rd upd0
  rw [View.read_writes_eq_canon _ _ _ (cover_first_0 c _ _ _ _ _ _ _ _ _ _ _ _ _ _ _ _ _ _ _ _ _ _ _ _ _ _ _ _ _ _ _ _ _ _ _ _ _ _ _ _ _ _ _ _ _)]
  unfold runFirst; dsimp only; sl_unfold_words
  rw [View.canon_cons_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]

theorem mid_acc_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 1 = upd1 x0 x1 x2 x3 x4 x5 x6 x7 x8 x9 s1 := by
  rw [Found6.acc_1]; unfold rd upd1
  rw [View.read_writes_eq_canon _ _ _ (cover_mid_1 c _ _ _ _ _ _ _ _ _ _ _ _ _ _ _ _ _ _ _ _ _ _ _ _ _ _ _ _ _ _ _ _ _ _ _ _ _ _ _ _ _ _ _ _ _ _ _ _ _ _ _)]
  unfold runMid; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch1) ((Memref.isWhole_whole _).unread s1) = s1 from (Memref.isWhole_whole cc0_scratch1).read_unread s1]
theorem last_acc_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 1 = upd1 x0 x1 x2 x3 x4 x5 x6 x7 x8 x9 s1 := by
  rw [Found12.acc_1]; unfold rd upd1
  rw [View.read_writes_eq_canon _ _ _ (cover_last_1 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch1) ((Memref.isWhole_whole _).unread s1) = s1 from (Memref.isWhole_whole cc0_scratch1).read_unread s1]
theorem last_out_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).out 1 = upd1 x0 x1 x2 x3 x4 x5 x6 x7 x8 x9 s1 := by
  rw [Found12.out_1]; unfold rd upd1
  rw [View.read_writes_eq_canon _ _ _ (cover_out_1 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch1) ((Memref.isWhole_whole _).unread s1) = s1 from (Memref.isWhole_whole cc0_scratch1).read_unread s1]
theorem first_acc_1 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) :
    (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).acc 1 = upd1 x0 x1 x2 x3 x4 x5 x6 x7 x8 x9 k0_pay2 := by
  rw [Found6.acc_1]; unfold rd upd1
  rw [View.read_writes_eq_canon _ _ _ (cover_first_1 c _ _ _ _ _ _ _ _ _ _ _ _ _ _ _ _ _ _ _ _ _ _ _ _ _ _ _ _ _ _ _ _ _ _ _ _ _ _ _ _ _ _ _ _ _)]
  unfold runFirst; dsimp only; sl_unfold_words
  rw [View.canon_cons_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]

theorem mid_acc_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 2 = upd2 x0 x1 x2 x3 x4 x5 x6 x7 x8 x9 s2 := by
  rw [Found6.acc_2]; unfold rd upd2
  rw [View.read_writes_eq_canon _ _ _ (cover_mid_2 c _ _ _ _ _ _ _ _ _ _ _ _ _ _ _ _ _ _ _ _ _ _ _ _ _ _ _ _ _ _ _ _ _ _ _ _ _ _ _ _ _ _ _ _ _ _ _ _ _ _ _)]
  unfold runMid; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch2) ((Memref.isWhole_whole _).unread s2) = s2 from (Memref.isWhole_whole cc0_scratch2).read_unread s2]
theorem last_acc_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 2 = upd2 x0 x1 x2 x3 x4 x5 x6 x7 x8 x9 s2 := by
  rw [Found12.acc_2]; unfold rd upd2
  rw [View.read_writes_eq_canon _ _ _ (cover_last_2 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch2) ((Memref.isWhole_whole _).unread s2) = s2 from (Memref.isWhole_whole cc0_scratch2).read_unread s2]
theorem last_out_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).out 2 = upd2 x0 x1 x2 x3 x4 x5 x6 x7 x8 x9 s2 := by
  rw [Found12.out_2]; unfold rd upd2
  rw [View.read_writes_eq_canon _ _ _ (cover_out_2 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch2) ((Memref.isWhole_whole _).unread s2) = s2 from (Memref.isWhole_whole cc0_scratch2).read_unread s2]
theorem first_acc_2 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) :
    (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).acc 2 = upd2 x0 x1 x2 x3 x4 x5 x6 x7 x8 x9 k0_pay3 := by
  rw [Found6.acc_2]; unfold rd upd2
  rw [View.read_writes_eq_canon _ _ _ (cover_first_2 c _ _ _ _ _ _ _ _ _ _ _ _ _ _ _ _ _ _ _ _ _ _ _ _ _ _ _ _ _ _ _ _ _ _ _ _ _ _ _ _ _ _ _ _ _)]
  unfold runFirst; dsimp only; sl_unfold_words
  rw [View.canon_cons_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]

theorem mid_acc_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 3 = upd3 x0 x1 x2 x3 x4 x5 x6 x7 x8 x9 s3 := by
  rw [Found6.acc_3]; unfold rd upd3
  rw [View.read_writes_eq_canon _ _ _ (cover_mid_3 c _ _ _ _ _ _ _ _ _ _ _ _ _ _ _ _ _ _ _ _ _ _ _ _ _ _ _ _ _ _ _ _ _ _ _ _ _ _ _ _ _ _ _ _ _ _ _ _ _ _ _)]
  unfold runMid; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch3) ((Memref.isWhole_whole _).unread s3) = s3 from (Memref.isWhole_whole cc0_scratch3).read_unread s3]
theorem last_acc_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 3 = upd3 x0 x1 x2 x3 x4 x5 x6 x7 x8 x9 s3 := by
  rw [Found12.acc_3]; unfold rd upd3
  rw [View.read_writes_eq_canon _ _ _ (cover_last_3 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch3) ((Memref.isWhole_whole _).unread s3) = s3 from (Memref.isWhole_whole cc0_scratch3).read_unread s3]
theorem last_out_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).out 3 = upd3 x0 x1 x2 x3 x4 x5 x6 x7 x8 x9 s3 := by
  rw [Found12.out_3]; unfold rd upd3
  rw [View.read_writes_eq_canon _ _ _ (cover_out_3 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch3) ((Memref.isWhole_whole _).unread s3) = s3 from (Memref.isWhole_whole cc0_scratch3).read_unread s3]
theorem first_acc_3 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) :
    (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).acc 3 = upd3 x0 x1 x2 x3 x4 x5 x6 x7 x8 x9 k0_pay4 := by
  rw [Found6.acc_3]; unfold rd upd3
  rw [View.read_writes_eq_canon _ _ _ (cover_first_3 c _ _ _ _ _ _ _ _ _ _ _ _ _ _ _ _ _ _ _ _ _ _ _ _ _ _ _ _ _ _ _ _ _ _ _ _ _ _ _ _ _ _ _ _ _)]
  unfold runFirst; dsimp only; sl_unfold_words
  rw [View.canon_cons_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]

theorem mid_acc_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 4 = upd4 x0 x1 x2 x3 x4 x5 x6 x7 x8 x9 s4 := by
  rw [Found6.acc_4]; unfold rd upd4
  rw [View.read_writes_eq_canon _ _ _ (cover_mid_4 c _ _ _ _ _ _ _ _ _ _ _ _ _ _ _ _ _ _ _ _ _ _ _ _ _ _ _ _ _ _ _ _ _ _ _ _ _ _ _ _ _ _ _ _ _ _ _ _ _ _ _)]
  unfold runMid; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch4) ((Memref.isWhole_whole _).unread s4) = s4 from (Memref.isWhole_whole cc0_scratch4).read_unread s4]
theorem last_acc_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 4 = upd4 x0 x1 x2 x3 x4 x5 x6 x7 x8 x9 s4 := by
  rw [Found12.acc_4]; unfold rd upd4
  rw [View.read_writes_eq_canon _ _ _ (cover_last_4 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch4) ((Memref.isWhole_whole _).unread s4) = s4 from (Memref.isWhole_whole cc0_scratch4).read_unread s4]
theorem last_out_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).out 4 = upd4 x0 x1 x2 x3 x4 x5 x6 x7 x8 x9 s4 := by
  rw [Found12.out_4]; unfold rd upd4
  rw [View.read_writes_eq_canon _ _ _ (cover_out_4 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch4) ((Memref.isWhole_whole _).unread s4) = s4 from (Memref.isWhole_whole cc0_scratch4).read_unread s4]
theorem first_acc_4 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) :
    (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).acc 4 = upd4 x0 x1 x2 x3 x4 x5 x6 x7 x8 x9 k0_pay5 := by
  rw [Found6.acc_4]; unfold rd upd4
  rw [View.read_writes_eq_canon _ _ _ (cover_first_4 c _ _ _ _ _ _ _ _ _ _ _ _ _ _ _ _ _ _ _ _ _ _ _ _ _ _ _ _ _ _ _ _ _ _ _ _ _ _ _ _ _ _ _ _ _)]
  unfold runFirst; dsimp only; sl_unfold_words
  rw [View.canon_cons_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]

theorem mid_acc_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runMid c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 5 = upd5 x0 x1 x2 x3 x4 x5 x6 x7 x8 x9 s5 := by
  rw [Found6.acc_5]; unfold rd upd5
  rw [View.read_writes_eq_canon _ _ _ (cover_mid_5 c _ _ _ _ _ _ _ _ _ _ _ _ _ _ _ _ _ _ _ _ _ _ _ _ _ _ _ _ _ _ _ _ _ _ _ _ _ _ _ _ _ _ _ _ _ _ _ _ _ _ _)]
  unfold runMid; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch5) ((Memref.isWhole_whole _).unread s5) = s5 from (Memref.isWhole_whole cc0_scratch5).read_unread s5]
theorem last_acc_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).acc 5 = upd5 x0 x1 x2 x3 x4 x5 x6 x7 x8 x9 s5 := by
  rw [Found12.acc_5]; unfold rd upd5
  rw [View.read_writes_eq_canon _ _ _ (cover_last_5 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch5) ((Memref.isWhole_whole _).unread s5) = s5 from (Memref.isWhole_whole cc0_scratch5).read_unread s5]
theorem last_out_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : ¬ IsFirst i) (hL : IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) (s0 : Vec F S512x1 .f32) (s1 : Vec F S512x1 .f32) (s2 : Vec F S512x1 .f32) (s3 : Vec F S512x1 .f32) (s4 : Vec F S512x1 .f32) (s5 : Vec F S512x1 .f32) :
    (runLast c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9 s0 s1 s2 s3 s4 s5).out 5 = upd5 x0 x1 x2 x3 x4 x5 x6 x7 x8 x9 s5 := by
  rw [Found12.out_5]; unfold rd upd5
  rw [View.read_writes_eq_canon _ _ _ (cover_out_5 c _ _ _ _ _ _ _ _ _ _ _ _ _ _ _ _ _ _ _ _ _ _ _ _ _ _ _ _ _ _ _ _ _ _ _ _ _ _ _ _ _ _ _ _ _ _ _ _ _ _ _)]
  unfold runLast; dsimp only; sl_unfold_words
  rw [View.canon_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]
  rw [show View.read (Elt F) (View.whole cc0_scratch5) ((Memref.isWhole_whole _).unread s5) = s5 from (Memref.isWhole_whole cc0_scratch5).read_unread s5]
theorem first_acc_5 (c : Dev nD) (i : grid0.Coords) (a0 : Memref sig .tc .vmem S512x128 .bf16) (h0 : a0.IsWhole) (a1 : Memref sig .tc .vmem S512x128 .bf16) (h1 : a1.IsWhole) (a2 : Memref sig .tc .vmem S1024x128 .bf16) (h2 : a2.IsWhole) (a3 : Memref sig .tc .vmem S1024x128 .bf16) (h3 : a3.IsWhole) (a4 : Memref sig .tc .vmem S512x1 .f32) (h4 : a4.IsWhole) (a5 : Memref sig .tc .vmem S512x1 .f32) (h5 : a5.IsWhole) (a6 : Memref sig .tc .vmem S1x1024 .f32) (h6 : a6.IsWhole) (a7 : Memref sig .tc .vmem S1x1024 .f32) (h7 : a7.IsWhole) (a8 : Memref sig .tc .vmem S512x1 .i32) (h8 : a8.IsWhole) (a9 : Memref sig .tc .vmem S1x1024 .i32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole) (a14 : Memref sig .tc .vmem S512x1 .f32) (h14 : a14.IsWhole) (a15 : Memref sig .tc .vmem S512x1 .f32) (h15 : a15.IsWhole) (hF : IsFirst i) (hL : ¬ IsLast i) (x0 : Vec F S512x128 .bf16) (x1 : Vec F S512x128 .bf16) (x2 : Vec F S1024x128 .bf16) (x3 : Vec F S1024x128 .bf16) (x4 : Vec F S512x1 .f32) (x5 : Vec F S512x1 .f32) (x6 : Vec F S1x1024 .f32) (x7 : Vec F S1x1024 .f32) (x8 : Vec F S512x1 .i32) (x9 : Vec F S1x1024 .i32) :
    (runFirst c i a0 h0 a1 h1 a2 h2 a3 h3 a4 h4 a5 h5 a6 h6 a7 h7 a8 h8 a9 h9 a10 h10 a11 h11 a12 h12 a13 h13 a14 h14 a15 h15 hF hL x0 x1 x2 x3 x4 x5 x6 x7 x8 x9).acc 5 = upd5 x0 x1 x2 x3 x4 x5 x6 x7 x8 x9 k0_pay6 := by
  rw [Found6.acc_5]; unfold rd upd5
  rw [View.read_writes_eq_canon _ _ _ (cover_first_5 c _ _ _ _ _ _ _ _ _ _ _ _ _ _ _ _ _ _ _ _ _ _ _ _ _ _ _ _ _ _ _ _ _ _ _ _ _ _ _ _ _ _ _ _ _)]
  unfold runFirst; dsimp only; sl_unfold_words
  rw [View.canon_cons_unit_zero hz, View.readCov_eq_canon_ld _ _ _ (cover1 _), View.canon_unit_zero hz, View.ld_unit_zero (S := S512x1) hz]
  simp only [View.readAt_eq_ld, Memref.IsWhole.read_unread, View.ld_unit_zero (S := S512x1) hz, View.ld_unit_zero (S := S512x128) hz, View.ld_unit_zero (S := S1024x128) hz, View.ld_unit_zero (S := S1x1024) hz]

end Cert.KernelIdeal.Hand

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRowSoftmax.lean ====
/-
  Softmax along the last axis, on the extended reals, and the operations a vector kernel or a host program builds it from,
  each read at one element, over any sizes.

  For a row `r` of extended reals, `rowMax r` is the greatest entry (the fold of `max` from −∞) and
  `rowSoftmax r j = exp (r j − rowMax r) / ∑ k, exp (r k − rowMax r)`, with the exponential and the quotient of the
  ideal float values (so the corners are theirs: exp (−∞) = 0, x / ±∞ = 0, …). `softmax2` and `softmax4` apply it to
  every row of a matrix and to every last-axis row of a rank-4 array. A softmax only looks along rows: two arrays that
  hold the same row give the same values on it (`softmax2_row`, `softmax4_row2`), which is what carries the function
  through blocks, sub-blocks and reshapes that keep rows whole.

  Read at an element: a lane maximum of an [a, b] vector from −∞ is `rowMax` of the row (`laneMax_apply`), a lane sum is
  the row's sum (`laneSum_apply`), a reduced column cast to [a, 1] and broadcast to [a, b] reads its row's entry
  (`keepdimsCol_apply`); the host's max-reduction over the last of four axes from −∞ is `rowMax` of that row
  (`hostRowMax_apply`), and a further `max` with −∞ changes nothing (`max_negInf`).
-/
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

/-! ## The function -/

/-- The f32 pattern of −∞ denotes the least extended real. -/
theorem negInf_eq_bot : Ideal.ofBits .f32 0xFF800000#32 = (⊥ : EReal) := by simp [Ideal.ofBits, Ideal.ieee]

/-- The maximum with −∞ is the other operand. -/
theorem max_negInf (x : EReal) : max (Ideal.ofBits .f32 0xFF800000#32) x = x := by
  rw [negInf_eq_bot]; exact max_eq_right bot_le

/-- The greatest entry of a row: the fold of `max` from −∞ (−∞ itself for an empty row). -/
def rowMax {n : ℕ} (r : Fin n → EReal) : EReal :=
  (Finset.univ : Finset (Fin n)).fold max (Ideal.ofBits .f32 0xFF800000#32) r

/-- Softmax of a row at position `j`: the entry's exponential, shifted by the row's maximum, over the sum of all the
    row's shifted exponentials. -/
def rowSoftmax {n : ℕ} (r : Fin n → EReal) (j : Fin n) : EReal :=
  Ideal.div (Ideal.exp (r j - rowMax r)) (∑ k : Fin n, Ideal.exp (r k - rowMax r))

/-- Softmax of every row of a matrix. -/
def softmax2 {a b : ℕ} (x : (⟨2, ![a, b]⟩ : Shape).Idx → EReal) : (⟨2, ![a, b]⟩ : Shape).Idx → EReal :=
  fun y => rowSoftmax (fun k : Fin b => x (ix2 (n0 := a) (y 0) k)) (y 1)

theorem softmax2_ix2 {a b : ℕ} (x : (⟨2, ![a, b]⟩ : Shape).Idx → EReal) (p : Fin a) (q : Fin b) :
    softmax2 x (ix2 p q) = rowSoftmax (fun k => x (ix2 p k)) q := rfl

/-- Softmax along the last axis of a rank-4 array. -/
def softmax4 {a b c d : ℕ} (x : (⟨4, ![a, b, c, d]⟩ : Shape).Idx → EReal) : (⟨4, ![a, b, c, d]⟩ : Shape).Idx → EReal :=
  fun y => rowSoftmax (fun k : Fin d => x (ix4 (n0 := a) (n1 := b) (n2 := c) (y 0) (y 1) (y 2) k)) (y 3)

theorem softmax4_ix4 {a b c d : ℕ} (x : (⟨4, ![a, b, c, d]⟩ : Shape).Idx → EReal) (i : Fin a) (j : Fin b) (k : Fin c) (q : Fin d) :
    softmax4 x (ix4 i j k q) = rowSoftmax (fun l => x (ix4 i j k l)) q := rfl

/-- Two matrices holding the same row have the same softmax on it. -/
theorem softmax2_row {a a' b : ℕ} (x : (⟨2, ![a, b]⟩ : Shape).Idx → EReal) (x' : (⟨2, ![a', b]⟩ : Shape).Idx → EReal)
    (p : Fin a) (p' : Fin a') (h : ∀ k : Fin b, x' (ix2 p' k) = x (ix2 p k)) (q : Fin b) :
    softmax2 x' (ix2 p' q) = softmax2 x (ix2 p q) := by
  rw [softmax2_ix2, softmax2_ix2, funext h]

/-- A rank-4 array and a matrix holding the same row have the same softmax on it. -/
theorem softmax4_row2 {a b c d a' : ℕ} (x : (⟨4, ![a, b, c, d]⟩ : Shape).Idx → EReal) (x' : (⟨2, ![a', d]⟩ : Shape).Idx → EReal)
    (i : Fin a) (j : Fin b) (k : Fin c) (p' : Fin a') (h : ∀ l : Fin d, x' (ix2 p' l) = x (ix4 i j k l)) (q : Fin d) :
    softmax2 x' (ix2 p' q) = softmax4 x (ix4 i j k q) := by
  rw [softmax2_ix2, softmax4_ix4, funext h]

/-! ## A vector kernel's pieces, at an element -/

/-- A lane maximum of an [a, b] vector, from −∞, at row `p`: the row's greatest entry. -/
theorem laneMax_apply {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p) = rowMax (fun k : Fin b => v (ix2 p k)) := by
  refine (Ideal.multiReduction_maximumf_single v _ h hφ hacc (ix1 p)).trans ?_
  unfold rowMax
  refine congrArg (fun f => Finset.fold max _ f Finset.univ) (funext fun k => congrArg v (funext fun c => Fin.ext ?_))
  match c with
  | ⟨0, _⟩ => rfl
  | ⟨1, _⟩ => rfl

/-- A lane sum of an [a, b] vector at row `p`: the sum of the row. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v _ h hφ hacc (ix1 p)).trans ?_
  refine Finset.sum_congr rfl fun k _ => congrArg v (funext fun c => Fin.ext ?_)
  match c with
  | ⟨0, _⟩ => rfl
  | ⟨1, _⟩ => rfl

/-- A column of `a` entries cast to [a, 1] and broadcast along the lanes to [a, b] reads, at (p, q), entry `p`. -/
theorem keepdimsCol_apply {α : Type} {a b : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) := by
  refine (broadcastTo_apply _ hb (ix2 p q) (ix2 p (0 : Fin 1)) fun c => ?_).trans ?_
  · match c with
    | ⟨0, _⟩ =>
      show p.val = if a = 1 then 0 else p.val
      split
      · have := p.isLt; omega
      · rfl
    | ⟨1, _⟩ =>
      exact (if_pos rfl).symm
  · refine shapeCast_apply u hc (ix2 p (0 : Fin 1)) (ix1 p) ?_
    rw [Shape.rowMajor_val_one, Shape.rowMajor_val_two]
    show p.val = p.val * 1 + 0
    omega

/-- The whole vector expression — the lanes' maximum subtracted, the exponential, divided by the lanes' sum, the two
    reduced columns cast and broadcast back over the lanes — reads, at (p, q), the softmax of row `p` at `q`. -/
theorem vectorSoftmax_apply {a b : ℕ} (v : FVec Ideal ⟨2, ![a, b]⟩ .f32) (hr : Shape.Reduces ⟨2, ![a, b]⟩ [1] ⟨1, ![a]⟩)
    (hφ hφ' : FKind.Formats .f32) (hm : (0xFF800000#32 : BitVec 32) = FKind.maximumf.neutral .f32 hφ)
    (hs : (0x00000000#32 : BitVec 32) = FKind.add.neutral .f32 hφ')
    (hc : (⟨1, ![a]⟩ : Shape).ShapeCasts ⟨2, ![a, 1]⟩) (hb : (⟨2, ![a, 1]⟩ : Shape).Broadcasts ⟨2, ![a, b]⟩)
    (p : Fin a) (q : Fin b) :
    divf (exp (subf v (broadcastTo ⟨2, ![a, b]⟩ (shapeCast ⟨2, ![a, 1]⟩ (multiReduction .maximumf [1] ⟨1, ![a]⟩ v 0xFF800000#32 hr hφ hm) hc) hb)))
        (broadcastTo ⟨2, ![a, b]⟩ (shapeCast ⟨2, ![a, 1]⟩ (multiReduction .add [1] ⟨1, ![a]⟩
          (exp (subf v (broadcastTo ⟨2, ![a, b]⟩ (shapeCast ⟨2, ![a, 1]⟩ (multiReduction .maximumf [1] ⟨1, ![a]⟩ v 0xFF800000#32 hr hφ hm) hc) hb)))
          0x00000000#32 hr hφ' hs) hc) hb) (ix2 p q)
      = softmax2 v (ix2 p q) := by
  have hsub : ∀ k : Fin b, exp (subf v (broadcastTo ⟨2, ![a, b]⟩ (shapeCast ⟨2, ![a, 1]⟩ (multiReduction .maximumf [1] ⟨1, ![a]⟩ v 0xFF800000#32 hr hφ hm) hc) hb)) (ix2 p k)
      = Ideal.exp (v (ix2 p k) - rowMax (fun l : Fin b => v (ix2 p l))) := fun k => by
    show Ideal.exp (v (ix2 p k) - broadcastTo ⟨2, ![a, b]⟩ (shapeCast ⟨2, ![a, 1]⟩ (multiReduction .maximumf [1] ⟨1, ![a]⟩ v 0xFF800000#32 hr hφ hm) hc) hb (ix2 p k)) = _
    rw [keepdimsCol_apply, laneMax_apply]
  rw [softmax2_ix2]
  unfold rowSoftmax
  show Ideal.div (exp (subf v _) (ix2 p q)) (broadcastTo ⟨2, ![a, b]⟩ (shapeCast ⟨2, ![a, 1]⟩ _ hc) hb (ix2 p q)) = _
  rw [keepdimsCol_apply, laneSum_apply, hsub q]
  exact congrArg _ (Finset.sum_congr rfl fun k _ => hsub k)

/-! ## The host's pieces, at an element -/

/-- The host's max-reduction over the last of four axes, from an initial value, at (i, j, k): the fold of `max` from the
    initial value over that row. -/
theorem hostRowFold_apply {a b c d : ℕ} (x : FVec Ideal ⟨4, ![a, b, c, d]⟩ .f32) (init : FVec Ideal ⟨0, ![]⟩ .f32)
    (h' : Shape.ReducesTo ⟨4, ![a, b, c, d]⟩ [3] ⟨3, ![a, b, c]⟩) (h : Shape.Reduces ⟨4, ![a, b, c, d]⟩ [3] ⟨3, ![a, b, c]⟩)
    (hu : 0 < (⟨0, ![]⟩ : Shape).numel) (i : Fin a) (j : Fin b) (k : Fin c) :
    Host.reduce FloatOps.maximumf x init h' hu (ix3 i j k)
      = (Finset.univ : Finset (Fin d)).fold max (init (Shape.Idx.first hu)) (fun l : Fin d => x (ix4 i j k l)) := by
  refine (Host.reduce_eq_fold_single FloatOps.maximumf x init h' h hu (ix3 i j k)).trans ?_
  refine congrArg (fun f => Finset.fold max _ f Finset.univ) (funext fun l => congrArg x (funext fun e => Fin.ext ?_))
  match e with
  | ⟨0, _⟩ => rfl
  | ⟨1, _⟩ => rfl
  | ⟨2, _⟩ => rfl
  | ⟨3, _⟩ => rfl

end Cert.RowSoftmax

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibMaskedExtrema.lean ====
/-
  Masked extrema of rows on the extended reals: the greatest entry of a row among the positions a mask selects, and
  the least entry among the positions it does not.

  `hardest mask y` is the fold of `max` from −∞ over the row `y` with the unselected entries replaced by −∞;
  `easiest mask y` the fold of `min` from +∞ with the SELECTED entries replaced by +∞. Three laws, none of which needs the
  entries to be finite:
  * a monotone map commutes with `hardest` when the mask selects at least one position (the map of the greatest selected
    entry is the greatest mapped entry; without a selected position the left side is the map of −∞, the right side −∞);
  * a monotone map that fixes +∞ commutes with `easiest`;
  * a row cut into blocks: the extremum of the row is the extremum, over the blocks, of the blocks' extrema — in
    particular a running maximum (minimum) started from −∞ (+∞) and updated block by block ends at the row's.
-/
import Idealize.ShloMosaic.PureOps.Ideal
import Mathlib.Data.Finset.Fold

noncomputable section

namespace Cert.MaskedExtrema

variable {ι : Type} [Fintype ι]

/-- The greatest `y j` among the `j` the mask selects (−∞ if it selects none). -/
def hardest (mask : ι → Prop) [DecidablePred mask] (y : ι → EReal) : EReal :=
  Finset.univ.fold max ⊥ fun j => if mask j then y j else ⊥

/-- The least `y j` among the `j` the mask does NOT select (+∞ if it selects all). -/
def easiest (mask : ι → Prop) [DecidablePred mask] (y : ι → EReal) : EReal :=
  Finset.univ.fold min ⊤ fun j => if mask j then ⊤ else y j

theorem hardest_le_iff (mask : ι → Prop) [DecidablePred mask] (y : ι → EReal) (c : EReal) :
    hardest mask y ≤ c ↔ ∀ j, mask j → y j ≤ c := by
  unfold hardest
  rw [Finset.fold_max_le]
  constructor
  · intro h j hj; have := h.2 j (Finset.mem_univ j); rwa [if_pos hj] at this
  · intro h; refine ⟨bot_le, fun j _ => ?_⟩
    by_cases hj : mask j
    · rw [if_pos hj]; exact h j hj
    · rw [if_neg hj]; exact bot_le

theorem le_easiest_iff (mask : ι → Prop) [DecidablePred mask] (y : ι → EReal) (c : EReal) :
    c ≤ easiest mask y ↔ ∀ j, ¬ mask j → c ≤ y j := by
  unfold easiest
  rw [Finset.le_fold_min]
  constructor
  · intro h j hj; have := h.2 j (Finset.mem_univ j); rwa [if_neg hj] at this
  · intro h; refine ⟨le_top, fun j _ => ?_⟩
    by_cases hj : mask j
    · rw [if_pos hj]; exact le_top
    · rw [if_neg hj]; exact h j hj

theorem le_hardest (mask : ι → Prop) [DecidablePred mask] (y : ι → EReal) (j : ι) (hj : mask j) : y j ≤ hardest mask y :=
  (hardest_le_iff mask y _).mp le_rfl j hj

theorem easiest_le (mask : ι → Prop) [DecidablePred mask] (y : ι → EReal) (j : ι) (hj : ¬ mask j) : easiest mask y ≤ y j :=
  (le_easiest_iff mask y _).mp le_rfl j hj

/-- The greatest selected entry is attained, when there is a selected position. -/
theorem hardest_attained (mask : ι → Prop) [DecidablePred mask] (y : ι → EReal) (hex : ∃ j, mask j) :
    ∃ j, mask j ∧ hardest mask y = y j := by
  obtain ⟨j0, hj0⟩ := hex
  have h : hardest mask y ≤ hardest mask y := le_rfl
  unfold hardest at h
  rw [Finset.le_fold_max] at h
  rcases h with h | ⟨j, -, hj⟩
  · -- the fold is −∞: so is every selected entry
    have hb : hardest mask y = ⊥ := le_antisymm h bot_le
    exact ⟨j0, hj0, le_antisymm (hb ▸ bot_le) (le_hardest mask y j0 hj0)⟩
  · by_cases hm : mask j
    · rw [if_pos hm] at hj
      exact ⟨j, hm, le_antisymm hj (le_hardest mask y j hm)⟩
    · rw [if_neg hm] at hj
      have hb : hardest mask y = ⊥ := le_antisymm hj bot_le
      exact ⟨j0, hj0, le_antisymm (hb ▸ bot_le) (le_hardest mask y j0 hj0)⟩

/-- The least unselected entry is attained or is +∞. -/
theorem easiest_attained (mask : ι → Prop) [DecidablePred mask] (y : ι → EReal) :
    easiest mask y = ⊤ ∨ ∃ j, ¬ mask j ∧ easiest mask y = y j := by
  have h : easiest mask y ≤ easiest mask y := le_rfl
  unfold easiest at h
  rw [Finset.fold_min_le] at h
  rcases h with h | ⟨j, -, hj⟩
  · exact .inl (le_antisymm le_top h)
  · by_cases hm : mask j
    · rw [if_pos hm] at hj; exact .inl (le_antisymm le_top hj)
    · rw [if_neg hm] at hj
      exact .inr ⟨j, hm, le_antisymm (easiest_le mask y j hm) hj⟩

/-- A MONOTONE MAP COMMUTES WITH THE MASKED MAXIMUM when a position is selected. -/
theorem map_hardest (f : EReal → EReal) (hf : Monotone f) (mask : ι → Prop) [DecidablePred mask] (y : ι → EReal)
    (hex : ∃ j, mask j) : f (hardest mask y) = hardest mask fun j => f (y j) := by
  apply le_antisymm
  · obtain ⟨j, hj, e⟩ := hardest_attained mask y hex
    rw [e]; exact le_hardest mask (fun j => f (y j)) j hj
  · rw [hardest_le_iff]
    exact fun j hj => hf (le_hardest mask y j hj)

/-- A MONOTONE MAP THAT FIXES +∞ COMMUTES WITH THE MASKED MINIMUM. -/
theorem map_easiest (f : EReal → EReal) (hf : Monotone f) (htop : f ⊤ = ⊤) (mask : ι → Prop) [DecidablePred mask] (y : ι → EReal) :
    f (easiest mask y) = easiest mask fun j => f (y j) := by
  apply le_antisymm
  · rw [le_easiest_iff]
    exact fun j hj => hf (easiest_le mask y j hj)
  · rcases easiest_attained mask y with e | ⟨j, hj, e⟩
    · rw [e, htop]; exact le_top
    · rw [e]; exact easiest_le mask (fun j => f (y j)) j hj

/-! ## A row cut into blocks -/

variable {κ β : Type} [Fintype κ] [Fintype β]

/-- The masked maximum of a row whose positions are (block, place) pairs, every position being some pair's: the
    maximum over the blocks of each block's masked maximum. -/
theorem hardest_blocks (e : κ → β → ι) (hsurj : ∀ i, ∃ k q, e k q = i) (mask : ι → Prop) [DecidablePred mask] (y : ι → EReal) :
    hardest mask y = Finset.univ.fold max ⊥ fun k : κ => hardest (fun q => mask (e k q)) fun q => y (e k q) := by
  apply le_antisymm
  · rw [hardest_le_iff]
    intro i hi
    obtain ⟨k, q, rfl⟩ := hsurj i
    exact (le_hardest (fun q => mask (e k q)) (fun q => y (e k q)) q hi).trans
      ((Finset.le_fold_max _).2 (Or.inr ⟨k, Finset.mem_univ k, le_rfl⟩))
  · rw [Finset.fold_max_le]
    refine ⟨bot_le, fun k _ => ?_⟩
    rw [hardest_le_iff]
    exact fun q hq => le_hardest mask y (e k q) hq

theorem easiest_blocks (e : κ → β → ι) (hsurj : ∀ i, ∃ k q, e k q = i) (mask : ι → Prop) [DecidablePred mask] (y : ι → EReal) :
    easiest mask y = Finset.univ.fold min ⊤ fun k : κ => easiest (fun q => mask (e k q)) fun q => y (e k q) := by
  apply le_antisymm
  · rw [Finset.le_fold_min]
    refine ⟨le_top, fun k _ => ?_⟩
    rw [le_easiest_iff]
    exact fun q hq => easiest_le mask y (e k q) hq
  · rw [le_easiest_iff]
    intro i hi
    obtain ⟨k, q, rfl⟩ := hsurj i
    exact ((Finset.fold_min_le _).2 (Or.inr ⟨k, Finset.mem_univ k, le_rfl⟩)).trans
      (easiest_le (fun q => mask (e k q)) (fun q => y (e k q)) q hi)

/-- A running maximum over four blocks, started from −∞, is the fold over the four. -/
theorem run_max4 (b : Fin 4 → EReal) :
    max (max (max (max ⊥ (b 0)) (b 1)) (b 2)) (b 3) = Finset.univ.fold max ⊥ b := by
  apply le_antisymm
  · have h : ∀ k, b k ≤ Finset.univ.fold max ⊥ b := fun k => (Finset.le_fold_max _).2 (Or.inr ⟨k, Finset.mem_univ k, le_rfl⟩)
    exact max_le (max_le (max_le (max_le bot_le (h 0)) (h 1)) (h 2)) (h 3)
  · rw [Finset.fold_max_le]
    refine ⟨bot_le, fun k _ => ?_⟩
    fin_cases k
    · exact le_max_of_le_left (le_max_of_le_left (le_max_of_le_left (le_max_right _ _)))
    · exact le_max_of_le_left (le_max_of_le_left (le_max_right _ _))
    · exact le_max_of_le_left (le_max_right _ _)
    · exact le_max_right _ _

/-- A running minimum over four blocks, started from +∞, is the fold over the four. -/
theorem run_min4 (b : Fin 4 → EReal) :
    min (min (min (min ⊤ (b 0)) (b 1)) (b 2)) (b 3) = Finset.univ.fold min ⊤ b := by
  apply le_antisymm
  · rw [Finset.le_fold_min]
    refine ⟨le_top, fun k _ => ?_⟩
    fin_cases k
    · exact min_le_of_left_le (min_le_of_left_le (min_le_of_left_le (min_le_right _ _)))
    · exact min_le_of_left_le (min_le_of_left_le (min_le_right _ _))
    · exact min_le_of_left_le (min_le_right _ _)
    · exact min_le_right _ _
  · have h : ∀ k, Finset.univ.fold min ⊤ b ≤ b k := fun k => (Finset.fold_min_le _).2 (Or.inr ⟨k, Finset.mem_univ k, le_rfl⟩)
    exact le_min (le_min (le_min (le_min le_top (h 0)) (h 1)) (h 2)) (h 3)

end Cert.MaskedExtrema

end
-- ==== Proof.KI.Rows.lean ====
import proofs.«123526_j17729624998291_2_alg».proof.Proof.KI.Step
import proofs.«123526_j17729624998291_2_alg».proof.Proof.LibColRowBroadcast
import proofs.«123526_j17729624998291_2_alg».proof.Proof.LibRowSoftmax
import proofs.«123526_j17729624998291_2_alg».proof.Proof.LibPlainMatmul
import proofs.«123526_j17729624998291_2_alg».proof.Proof.LibMaskedExtrema
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-! ## One step's update of an accumulator, entry by entry, on the extended reals -/

/-- −∞ and +∞ as the body spells them, and the factor 2. -/
abbrev NEG : EReal := Ideal.ofBits .f32 0xFF800000#32
abbrev POS : EReal := Ideal.ofBits .f32 0x7F800000#32
abbrev TWO : EReal := Ideal.ofBits .f32 0x40000000#32

/-- The squared distance of row `p` of `l` and row `q` of `r` from their squared norms `a p`, `b q` and their dot product. -/
def dist2 {P Q : ℕ} (a : (⟨2, ![P, 1]⟩ : Shape).Idx → EReal) (b : (⟨2, ![1, Q]⟩ : Shape).Idx → EReal)
    (l : (⟨2, ![P, 128]⟩ : Shape).Idx → EReal) (r : (⟨2, ![Q, 128]⟩ : Shape).Idx → EReal) (p : Fin P) (q : Fin Q) : EReal :=
  (a (ix2 p (0 : Fin 1)) + b (ix2 (0 : Fin 1) q)) - TWO * ∑ k : Fin 128, l (ix2 p k) * r (ix2 q k)

theorem dims_eq : dot_S512x128_S128x1024_S512x1024_1_0_0_1_n_n = DotDims.plain 512 128 1024 := rfl

/-- The product of a 512×128 block with the transpose of a 1024×128 block, at (p, q): the dot product of row p and row q. -/
theorem dotT_apply (l : FVec Ideal S512x128 .bf16) (r : FVec Ideal S1024x128 .bf16) (p : Fin 512) (q : Fin 1024) :
    matmul dot_S512x128_S128x1024_S512x1024_1_0_0_1_n_n none l (transpose S128x1024 [1, 0] r transposes_S1024x128_p1_0_S128x1024)
      (constant S512x1024 .f32 0x00000000#32) (ix2 p q) = ∑ k : Fin 128, l (ix2 p k) * r (ix2 q k) := by
  rw [dims_eq]
  refine (Cert.PlainMatmul.matmul_zero_apply 512 128 1024 none l _ p q).trans ?_
  refine Finset.sum_congr rfl fun k _ => congrArg (l (ix2 p k) * ·) ?_
  refine transpose_apply [1, 0] r transposes_S1024x128_p1_0_S128x1024 (ix2 k q) (ix2 q k) fun a => ?_
  match a with
  | ⟨0, _⟩ => rfl
  | ⟨1, _⟩ => rfl

theorem pay13_apply (x0 : Vec Ideal S512x128 .bf16) (x2 : Vec Ideal S1024x128 .bf16) (x4 : Vec Ideal S512x1 .f32) (x6 : Vec Ideal S1x1024 .f32)
    (p : Fin 512) (q : Fin 1024) : k0_pay13 x0 x2 x4 x6 (ix2 p q) = dist2 x4 x6 x0 x2 p q := by
  unfold k0_pay13 k0_pay7 k0_pay11 dist2
  simp only [shapeCast_self]
  rw [subf_apply, addf_apply, mulf_apply, broadcast_apply, dotT_apply,
    Cert.ColRowBroadcast.colBroadcast_apply, Cert.ColRowBroadcast.rowBroadcast_apply]
  rfl

theorem sel_eq {α : Type} {w : ℕ} (u v : BitVec w) (a b : α) : Scalar.select (IntOp.cmpi .eq u v) a b = if u = v then a else b := by
  by_cases h : u = v
  · subst h; simp [Scalar.select, IntOp.cmpi]
  · have hb : (u == v) = false := by simpa using h
    simp [Scalar.select, IntOp.cmpi, hb]
    exact fun e => absurd e h

theorem neg_eq_bot : (Ideal.ofBits .f32 0xFF800000#32 : EReal) = ⊥ := by simp [Ideal.ofBits, Ideal.ieee]
theorem pos_eq_top : (Ideal.ofBits .f32 0x7F800000#32 : EReal) = ⊤ := by simp [Ideal.ofBits, Ideal.ieee]

theorem pay17_apply (x8 : Vec Ideal S512x1 .i32) (x9 : Vec Ideal S1x1024 .i32) (p : Fin 512) (q : Fin 1024) :
    k0_pay17 x8 x9 (ix2 p q) = IntOp.cmpi .eq (x8 (ix2 p (0 : Fin 1))) (x9 (ix2 (0 : Fin 1) q)) := by
  unfold k0_pay17
  simp only [shapeCast_self]
  show IntOp.cmpi .eq (broadcastTo S512x1024 x8 broadcasts_S512x1_S512x1024 (ix2 p q)) (broadcastTo S512x1024 x9 broadcasts_S1x1024_S512x1024 (ix2 p q)) = _
  rw [Cert.ColRowBroadcast.colBroadcast_apply, Cert.ColRowBroadcast.rowBroadcast_apply]

theorem pay15_apply (x1 : Vec Ideal S512x128 .bf16) (x3 : Vec Ideal S1024x128 .bf16) (x5 : Vec Ideal S512x1 .f32) (x7 : Vec Ideal S1x1024 .f32)
    (p : Fin 512) (q : Fin 1024) :
    k0_pay15 (k0_pay9 x1 x3) (k0_pay14 x5 x7) (FloatOps.ofBits .f32 0x40000000#32) (ix2 p q) = dist2 x5 x7 x1 x3 p q := by
  unfold k0_pay15 k0_pay9 k0_pay14 k0_pay8 k0_pay12 dist2
  simp only [shapeCast_self]
  rw [subf_apply, addf_apply, mulf_apply, broadcast_apply, dotT_apply,
    Cert.ColRowBroadcast.colBroadcast_apply, Cert.ColRowBroadcast.rowBroadcast_apply]
  rfl

theorem pay16_apply (x0 : Vec Ideal S512x128 .bf16) (x3 : Vec Ideal S1024x128 .bf16) (x4 : Vec Ideal S512x1 .f32) (x7 : Vec Ideal S1x1024 .f32)
    (p : Fin 512) (q : Fin 1024) :
    k0_pay16 (k0_pay10 x0 x3) (k0_pay11 x4) (k0_pay12 x7) (ix2 p q) = dist2 x4 x7 x0 x3 p q := by
  unfold k0_pay16 k0_pay10 k0_pay11 k0_pay12 k0_pay7 k0_pay8 dist2
  simp only [shapeCast_self]
  rw [subf_apply, addf_apply, mulf_apply, broadcast_apply, dotT_apply,
    Cert.ColRowBroadcast.colBroadcast_apply, Cert.ColRowBroadcast.rowBroadcast_apply]
  rfl

/-- A lane minimum of an [a, b] vector, from +∞, at row `p`: the fold of `min` over the row. -/
theorem laneMin_apply {a b : ℕ} (v : FVec Ideal ⟨2, ![a, b]⟩ .f32) (h : Shape.Reduces ⟨2, ![a, b]⟩ [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p)
      = (Finset.univ : Finset (Fin b)).fold min POS (fun k : Fin b => v (ix2 p k)) := by
  rw [multiReduction_minimumf_eq_fold]
  refine (h.fold_filter_drop_single _ _ v (ix1 p)).trans ?_
  refine congrArg (fun f => Finset.fold min _ f Finset.univ) (funext fun k => congrArg v (funext fun c => Fin.ext ?_))
  match c with
  | ⟨0, _⟩ => rfl
  | ⟨1, _⟩ => rfl

/-- A running maximum updated by a block's row maxima, at row `p`. -/
theorem colMax_apply (v : FVec Ideal S512x1024 .f32) (s : FVec Ideal S512x1 .f32) (p : Fin 512) :
    maximumf s (shapeCast S512x1 (multiReduction .maximumf [1] S512 v 0xFF800000#32 reduces_S512x1024_S512 (.inl rfl) rfl) shapeCasts_S512_S512x1)
        (ix2 p (0 : Fin 1))
      = max (s (ix2 p (0 : Fin 1))) ((Finset.univ : Finset (Fin 1024)).fold max NEG fun q => v (ix2 p q)) := by
  rw [maximumf_apply, Cert.ColRowBroadcast.colCast_apply]
  exact congrArg (max _) (Cert.RowSoftmax.laneMax_apply (a := 512) (b := 1024) v reduces_S512x1024_S512 (.inl rfl) rfl p)

/-- A running minimum updated by a block's row minima, at row `p`. -/
theorem colMin_apply (v : FVec Ideal S512x1024 .f32) (s : FVec Ideal S512x1 .f32) (p : Fin 512) :
    minimumf s (shapeCast S512x1 (multiReduction .minimumf [1] S512 v 0x7F800000#32 reduces_S512x1024_S512 (.inl rfl) rfl) shapeCasts_S512_S512x1)
        (ix2 p (0 : Fin 1))
      = min (s (ix2 p (0 : Fin 1))) ((Finset.univ : Finset (Fin 1024)).fold min POS fun q => v (ix2 p q)) := by
  rw [minimumf_apply, Cert.ColRowBroadcast.colCast_apply]
  exact congrArg (min _) (laneMin_apply (a := 512) (b := 1024) v reduces_S512x1024_S512 (.inl rfl) rfl p)

open Cert.MaskedExtrema in
/-- A block's masked row maximum in the vector unit's spelling. -/
theorem foldMax_eq (mask : Fin 1024 → BitVec 1) (y : Fin 1024 → EReal) (u : BitVec 32) (v : Fin 1024 → BitVec 32)
    (hm : ∀ q, mask q = IntOp.cmpi .eq u (v q)) :
    (Finset.univ : Finset (Fin 1024)).fold max NEG (fun q => Scalar.select (mask q) (y q) NEG) = hardest (fun q => u = v q) y := by
  unfold hardest
  rw [show (NEG : EReal) = ⊥ from neg_eq_bot]
  refine congrArg (fun f => Finset.fold max ⊥ f Finset.univ) (funext fun q => ?_)
  rw [hm, sel_eq]

open Cert.MaskedExtrema in
theorem foldMin_eq (mask : Fin 1024 → BitVec 1) (y : Fin 1024 → EReal) (u : BitVec 32) (v : Fin 1024 → BitVec 32)
    (hm : ∀ q, mask q = IntOp.cmpi .eq u (v q)) :
    (Finset.univ : Finset (Fin 1024)).fold min POS (fun q => Scalar.select (mask q) POS (y q)) = easiest (fun q => u = v q) y := by
  unfold easiest
  rw [show (POS : EReal) = ⊤ from pos_eq_top]
  refine congrArg (fun f => Finset.fold min ⊤ f Finset.univ) (funext fun q => ?_)
  rw [hm, sel_eq]

section Upd
open Cert.MaskedExtrema

variable (x0 x1 : Vec Ideal S512x128 .bf16) (x2 x3 : Vec Ideal S1024x128 .bf16) (x4 x5 : Vec Ideal S512x1 .f32) (x6 x7 : Vec Ideal S1x1024 .f32)
  (x8 : Vec Ideal S512x1 .i32) (x9 : Vec Ideal S1x1024 .i32) (s : Vec Ideal S512x1 .f32) (p : Fin 512)

/-- The mask of row `p` against the block's columns: equal labels. -/
abbrev same (x8 : Vec Ideal S512x1 .i32) (x9 : Vec Ideal S1x1024 .i32) (p : Fin 512) (q : Fin 1024) : Prop :=
  x8 (ix2 p (0 : Fin 1)) = x9 (ix2 (0 : Fin 1) q)

theorem upd0_apply : upd0 x0 x1 x2 x3 x4 x5 x6 x7 x8 x9 s (ix2 p (0 : Fin 1))
    = max (s (ix2 p (0 : Fin 1))) (hardest (same x8 x9 p) fun q => dist2 x4 x6 x0 x2 p q) := by
  unfold upd0 k0_pay22
  simp only [shapeCast_self]
  rw [colMax_apply]
  refine congrArg (max _) ((congrArg (fun f => Finset.fold max NEG f Finset.univ) (funext fun q => ?_)).trans
    (foldMax_eq (fun q => k0_pay17 x8 x9 (ix2 p q)) _ _ _ fun q => pay17_apply x8 x9 p q))
  rw [select_apply, broadcast_apply, pay13_apply]; rfl

theorem upd3_apply : upd3 x0 x1 x2 x3 x4 x5 x6 x7 x8 x9 s (ix2 p (0 : Fin 1))
    = min (s (ix2 p (0 : Fin 1))) (easiest (same x8 x9 p) fun q => dist2 x4 x6 x0 x2 p q) := by
  unfold upd3 k0_pay24 k0_pay23
  simp only [shapeCast_self]
  rw [colMin_apply]
  refine congrArg (min _) ((congrArg (fun f => Finset.fold min POS f Finset.univ) (funext fun q => ?_)).trans
    (foldMin_eq (fun q => k0_pay17 x8 x9 (ix2 p q)) _ _ _ fun q => pay17_apply x8 x9 p q))
  rw [select_apply, broadcast_apply, pay13_apply]; rfl

theorem upd2_apply : upd2 x0 x1 x2 x3 x4 x5 x6 x7 x8 x9 s (ix2 p (0 : Fin 1))
    = max (s (ix2 p (0 : Fin 1))) (hardest (same x8 x9 p) fun q => dist2 x5 x7 x1 x3 p q) := by
  unfold upd2 k0_pay25 k0_pay18
  simp only [shapeCast_self]
  rw [colMax_apply]
  refine congrArg (max _) ((congrArg (fun f => Finset.fold max NEG f Finset.univ) (funext fun q => ?_)).trans
    (foldMax_eq (fun q => k0_pay17 x8 x9 (ix2 p q)) _ _ _ fun q => pay17_apply x8 x9 p q))
  rw [select_apply, broadcast_apply, pay15_apply]; rfl

theorem upd5_apply : upd5 x0 x1 x2 x3 x4 x5 x6 x7 x8 x9 s (ix2 p (0 : Fin 1))
    = min (s (ix2 p (0 : Fin 1))) (easiest (same x8 x9 p) fun q => dist2 x5 x7 x1 x3 p q) := by
  unfold upd5 k0_pay26 k0_pay19
  simp only [shapeCast_self]
  rw [colMin_apply]
  refine congrArg (min _) ((congrArg (fun f => Finset.fold min POS f Finset.univ) (funext fun q => ?_)).trans
    (foldMin_eq (fun q => k0_pay17 x8 x9 (ix2 p q)) _ _ _ fun q => pay17_apply x8 x9 p q))
  rw [select_apply, broadcast_apply, pay15_apply]; rfl

theorem upd4_apply : upd4 x0 x1 x2 x3 x4 x5 x6 x7 x8 x9 s (ix2 p (0 : Fin 1))
    = max (s (ix2 p (0 : Fin 1))) (hardest (same x8 x9 p) fun q => dist2 x4 x7 x0 x3 p q) := by
  unfold upd4 k0_pay27 k0_pay20
  simp only [shapeCast_self]
  rw [colMax_apply]
  refine congrArg (max _) ((congrArg (fun f => Finset.fold max NEG f Finset.univ) (funext fun q => ?_)).trans
    (foldMax_eq (fun q => k0_pay17 x8 x9 (ix2 p q)) _ _ _ fun q => pay17_apply x8 x9 p q))
  rw [select_apply, broadcast_apply, pay16_apply]; rfl

theorem upd1_apply : upd1 x0 x1 x2 x3 x4 x5 x6 x7 x8 x9 s (ix2 p (0 : Fin 1))
    = min (s (ix2 p (0 : Fin 1))) (easiest (same x8 x9 p) fun q => dist2 x4 x7 x0 x3 p q) := by
  unfold upd1 k0_pay28 k0_pay21
  simp only [shapeCast_self]
  rw [colMin_apply]
  refine congrArg (min _) ((congrArg (fun f => Finset.fold min POS f Finset.univ) (funext fun q => ?_)).trans
    (foldMin_eq (fun q => k0_pay17 x8 x9 (ix2 p q)) _ _ _ fun q => pay17_apply x8 x9 p q))
  rw [select_apply, broadcast_apply, pay16_apply]; rfl

/-- The accumulators' reset values: −∞ for a running maximum, +∞ for a running minimum. -/
theorem init_max_apply : (k0_pay1 (F := Ideal)) (ix2 p (0 : Fin 1)) = ⊥ := by
  unfold k0_pay1; simp only [shapeCast_self]; rw [broadcast_apply]; exact neg_eq_bot
theorem init_min_apply : (k0_pay2 (F := Ideal)) (ix2 p (0 : Fin 1)) = ⊤ := by
  unfold k0_pay2; simp only [shapeCast_self]; rw [broadcast_apply]; exact pos_eq_top

end Upd

end Cert.KernelIdeal.Hand

end
-- ==== Proof.KI.Blocks.lean ====
import proofs.«123526_j17729624998291_2_alg».proof.Proof.KI.Rows
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.MaskedExtrema

variable (m : (ℓ : Loc nD τ sig) → Buf (Elt Ideal) ℓ)

/-! ## Rows and columns of the whole arrays behind a point's blocks -/

/-- The point of row block `i` and column step `j`. -/
def pt (i : Fin 8) (j : Fin 4) : Fin cfg0.N := ⟨4 * i.val + j.val, by rw [N_32]; omega⟩
/-- Row `p` of row block `i`, and column `q` of column block `j`, in the whole arrays. -/
def row (i : Fin 8) (p : Fin 512) : Fin 4096 := ⟨512 * i.val + p.val, by omega⟩
def col (j : Fin 4) (q : Fin 1024) : Fin 4096 := ⟨1024 * j.val + q.val, by omega⟩
/-- The same from a point's number. -/
def rowT (t : Fin cfg0.N) (p : Fin 512) : Fin 4096 := ⟨512 * (t.val / 4) + p.val, by have : t.val < 32 := lt_of_lt_of_eq t.isLt N_32; omega⟩
def colT (t : Fin cfg0.N) (q : Fin 1024) : Fin 4096 := ⟨1024 * (t.val % 4) + q.val, by omega⟩

theorem rowT_pt (i : Fin 8) (j : Fin 4) (p : Fin 512) : rowT (pt i j) p = row i p :=
  Fin.ext (by show 512 * ((4 * i.val + j.val) / 4) + p.val = 512 * i.val + p.val; have := j.isLt; rw [show (4 * i.val + j.val) / 4 = i.val by omega])
theorem colT_pt (i : Fin 8) (j : Fin 4) (q : Fin 1024) : colT (pt i j) q = col j q :=
  Fin.ext (by show 1024 * ((4 * i.val + j.val) % 4) + q.val = 1024 * j.val + q.val; have := j.isLt; rw [show (4 * i.val + j.val) % 4 = j.val by omega])

theorem col_surj : ∀ s : Fin 4096, ∃ (j : Fin 4) (q : Fin 1024), col j q = s := fun s =>
  ⟨⟨s.val / 1024, by have := s.isLt; omega⟩, ⟨s.val % 1024, Nat.mod_lt _ (by decide)⟩, Fin.ext (by show 1024 * (s.val / 1024) + s.val % 1024 = s.val; omega)⟩

/-! ## Where each window's block sits in its array -/

theorem idx_0 : ∀ (t : Fin cfg0.N) (a : Fin 2), (cfg0.win 0).index t a * (cfg0.win 0).size a = (![512 * (t.val / 4), 0] : Fin 2 → ℕ) a :=
  (by decide +kernel : ∀ (t : Fin grid0.N) (a : Fin 2), win0_0.index t a * win0_0.size a = (![512 * (t.val / 4), 0] : Fin 2 → ℕ) a)
theorem idx_1 : ∀ (t : Fin cfg0.N) (a : Fin 2), (cfg0.win 1).index t a * (cfg0.win 1).size a = (![512 * (t.val / 4), 0] : Fin 2 → ℕ) a :=
  (by decide +kernel : ∀ (t : Fin grid0.N) (a : Fin 2), win0_1.index t a * win0_1.size a = (![512 * (t.val / 4), 0] : Fin 2 → ℕ) a)
theorem idx_2 : ∀ (t : Fin cfg0.N) (a : Fin 2), (cfg0.win 2).index t a * (cfg0.win 2).size a = (![1024 * (t.val % 4), 0] : Fin 2 → ℕ) a :=
  (by decide +kernel : ∀ (t : Fin grid0.N) (a : Fin 2), win0_2.index t a * win0_2.size a = (![1024 * (t.val % 4), 0] : Fin 2 → ℕ) a)
theorem idx_3 : ∀ (t : Fin cfg0.N) (a : Fin 2), (cfg0.win 3).index t a * (cfg0.win 3).size a = (![1024 * (t.val % 4), 0] : Fin 2 → ℕ) a :=
  (by decide +kernel : ∀ (t : Fin grid0.N) (a : Fin 2), win0_3.index t a * win0_3.size a = (![1024 * (t.val % 4), 0] : Fin 2 → ℕ) a)
theorem idx_4 : ∀ (t : Fin cfg0.N) (a : Fin 2), (cfg0.win 4).index t a * (cfg0.win 4).size a = (![512 * (t.val / 4), 0] : Fin 2 → ℕ) a :=
  (by decide +kernel : ∀ (t : Fin grid0.N) (a : Fin 2), win0_4.index t a * win0_4.size a = (![512 * (t.val / 4), 0] : Fin 2 → ℕ) a)
theorem idx_5 : ∀ (t : Fin cfg0.N) (a : Fin 2), (cfg0.win 5).index t a * (cfg0.win 5).size a = (![512 * (t.val / 4), 0] : Fin 2 → ℕ) a :=
  (by decide +kernel : ∀ (t : Fin grid0.N) (a : Fin 2), win0_5.index t a * win0_5.size a = (![512 * (t.val / 4), 0] : Fin 2 → ℕ) a)
theorem idx_6 : ∀ (t : Fin cfg0.N) (a : Fin 2), (cfg0.win 6).index t a * (cfg0.win 6).size a = (![0, 1024 * (t.val % 4)] : Fin 2 → ℕ) a :=
  (by decide +kernel : ∀ (t : Fin grid0.N) (a : Fin 2), win0_6.index t a * win0_6.size a = (![0, 1024 * (t.val % 4)] : Fin 2 → ℕ) a)
theorem idx_7 : ∀ (t : Fin cfg0.N) (a : Fin 2), (cfg0.win 7).index t a * (cfg0.win 7).size a = (![0, 1024 * (t.val % 4)] : Fin 2 → ℕ) a :=
  (by decide +kernel : ∀ (t : Fin grid0.N) (a : Fin 2), win0_7.index t a * win0_7.size a = (![0, 1024 * (t.val % 4)] : Fin 2 → ℕ) a)
theorem idx_8 : ∀ (t : Fin cfg0.N) (a : Fin 2), (cfg0.win 8).index t a * (cfg0.win 8).size a = (![512 * (t.val / 4), 0] : Fin 2 → ℕ) a :=
  (by decide +kernel : ∀ (t : Fin grid0.N) (a : Fin 2), win0_8.index t a * win0_8.size a = (![512 * (t.val / 4), 0] : Fin 2 → ℕ) a)
theorem idx_9 : ∀ (t : Fin cfg0.N) (a : Fin 2), (cfg0.win 9).index t a * (cfg0.win 9).size a = (![0, 1024 * (t.val % 4)] : Fin 2 → ℕ) a :=
  (by decide +kernel : ∀ (t : Fin grid0.N) (a : Fin 2), win0_9.index t a * win0_9.size a = (![0, 1024 * (t.val % 4)] : Fin 2 → ℕ) a)

theorem blk0 (c : Dev nD) (t : Fin cfg0.N) (p : Fin 512) (k : Fin 128) :
    (iblk m c 0 t : Vec Ideal S512x128 .bf16) (ix2 p k) = V m c main_v3 (ix2 (rowT t p) k) := by
  show V m c main_v3 (((cfg0.win 0).blk t).view.emb (ix2 p k)) = _
  refine congrArg _ (funext fun a => Fin.ext ?_)
  show (cfg0.win 0).index t a * (cfg0.win 0).size a + 1 * ((ix2 p k : (⟨2, ![512, 128]⟩ : Shape).Idx) a).val = _
  rw [idx_0 t a]
  match a with
  | ⟨0, _⟩ => show 512 * (t.val / 4) + 1 * p.val = 512 * (t.val / 4) + p.val; omega
  | ⟨1, _⟩ => show 0 + 1 * k.val = k.val; omega
theorem blk1 (c : Dev nD) (t : Fin cfg0.N) (p : Fin 512) (k : Fin 128) :
    (iblk m c 1 t : Vec Ideal S512x128 .bf16) (ix2 p k) = V m c main_v4 (ix2 (rowT t p) k) := by
  show V m c main_v4 (((cfg0.win 1).blk t).view.emb (ix2 p k)) = _
  refine congrArg _ (funext fun a => Fin.ext ?_)
  show (cfg0.win 1).index t a * (cfg0.win 1).size a + 1 * ((ix2 p k : (⟨2, ![512, 128]⟩ : Shape).Idx) a).val = _
  rw [idx_1 t a]
  match a with
  | ⟨0, _⟩ => show 512 * (t.val / 4) + 1 * p.val = 512 * (t.val / 4) + p.val; omega
  | ⟨1, _⟩ => show 0 + 1 * k.val = k.val; omega
theorem blk2 (c : Dev nD) (t : Fin cfg0.N) (p : Fin 1024) (k : Fin 128) :
    (iblk m c 2 t : Vec Ideal S1024x128 .bf16) (ix2 p k) = V m c main_v4 (ix2 (colT t p) k) := by
  show V m c main_v4 (((cfg0.win 2).blk t).view.emb (ix2 p k)) = _
  refine congrArg _ (funext fun a => Fin.ext ?_)
  show (cfg0.win 2).index t a * (cfg0.win 2).size a + 1 * ((ix2 p k : (⟨2, ![1024, 128]⟩ : Shape).Idx) a).val = _
  rw [idx_2 t a]
  match a with
  | ⟨0, _⟩ => show 1024 * (t.val % 4) + 1 * p.val = 1024 * (t.val % 4) + p.val; omega
  | ⟨1, _⟩ => show 0 + 1 * k.val = k.val; omega
theorem blk3 (c : Dev nD) (t : Fin cfg0.N) (p : Fin 1024) (k : Fin 128) :
    (iblk m c 3 t : Vec Ideal S1024x128 .bf16) (ix2 p k) = V m c main_v5 (ix2 (colT t p) k) := by
  show V m c main_v5 (((cfg0.win 3).blk t).view.emb (ix2 p k)) = _
  refine congrArg _ (funext fun a => Fin.ext ?_)
  show (cfg0.win 3).index t a * (cfg0.win 3).size a + 1 * ((ix2 p k : (⟨2, ![1024, 128]⟩ : Shape).Idx) a).val = _
  rw [idx_3 t a]
  match a with
  | ⟨0, _⟩ => show 1024 * (t.val % 4) + 1 * p.val = 1024 * (t.val % 4) + p.val; omega
  | ⟨1, _⟩ => show 0 + 1 * k.val = k.val; omega
theorem blk4 (c : Dev nD) (t : Fin cfg0.N) (p : Fin 512) (z : Fin 1) :
    (iblk m c 4 t : Vec Ideal S512x1 .f32) (ix2 p z) = V m c main_v8 (ix2 (rowT t p) z) := by
  show V m c main_v8 (((cfg0.win 4).blk t).view.emb (ix2 p z)) = _
  refine congrArg _ (funext fun a => Fin.ext ?_)
  show (cfg0.win 4).index t a * (cfg0.win 4).size a + 1 * ((ix2 p z : (⟨2, ![512, 1]⟩ : Shape).Idx) a).val = _
  rw [idx_4 t a]
  match a with
  | ⟨0, _⟩ => show 512 * (t.val / 4) + 1 * p.val = 512 * (t.val / 4) + p.val; omega
  | ⟨1, _⟩ => show 0 + 1 * z.val = z.val; omega
theorem blk5 (c : Dev nD) (t : Fin cfg0.N) (p : Fin 512) (z : Fin 1) :
    (iblk m c 5 t : Vec Ideal S512x1 .f32) (ix2 p z) = V m c main_v11 (ix2 (rowT t p) z) := by
  show V m c main_v11 (((cfg0.win 5).blk t).view.emb (ix2 p z)) = _
  refine congrArg _ (funext fun a => Fin.ext ?_)
  show (cfg0.win 5).index t a * (cfg0.win 5).size a + 1 * ((ix2 p z : (⟨2, ![512, 1]⟩ : Shape).Idx) a).val = _
  rw [idx_5 t a]
  match a with
  | ⟨0, _⟩ => show 512 * (t.val / 4) + 1 * p.val = 512 * (t.val / 4) + p.val; omega
  | ⟨1, _⟩ => show 0 + 1 * z.val = z.val; omega
theorem blk6 (c : Dev nD) (t : Fin cfg0.N) (z : Fin 1) (q : Fin 1024) :
    (iblk m c 6 t : Vec Ideal S1x1024 .f32) (ix2 z q) = V m c main_v15 (ix2 z (colT t q)) := by
  show V m c main_v15 (((cfg0.win 6).blk t).view.emb (ix2 z q)) = _
  refine congrArg _ (funext fun a => Fin.ext ?_)
  show (cfg0.win 6).index t a * (cfg0.win 6).size a + 1 * ((ix2 z q : (⟨2, ![1, 1024]⟩ : Shape).Idx) a).val = _
  rw [idx_6 t a]
  match a with
  | ⟨0, _⟩ => show 0 + 1 * z.val = z.val; omega
  | ⟨1, _⟩ => show 1024 * (t.val % 4) + 1 * q.val = 1024 * (t.val % 4) + q.val; omega
theorem blk7 (c : Dev nD) (t : Fin cfg0.N) (z : Fin 1) (q : Fin 1024) :
    (iblk m c 7 t : Vec Ideal S1x1024 .f32) (ix2 z q) = V m c main_v19 (ix2 z (colT t q)) := by
  show V m c main_v19 (((cfg0.win 7).blk t).view.emb (ix2 z q)) = _
  refine congrArg _ (funext fun a => Fin.ext ?_)
  show (cfg0.win 7).index t a * (cfg0.win 7).size a + 1 * ((ix2 z q : (⟨2, ![1, 1024]⟩ : Shape).Idx) a).val = _
  rw [idx_7 t a]
  match a with
  | ⟨0, _⟩ => show 0 + 1 * z.val = z.val; omega
  | ⟨1, _⟩ => show 1024 * (t.val % 4) + 1 * q.val = 1024 * (t.val % 4) + q.val; omega
theorem blk8 (c : Dev nD) (t : Fin cfg0.N) (p : Fin 512) (z : Fin 1) :
    (iblk m c 8 t : Vec Ideal S512x1 .i32) (ix2 p z) = V m c main_v20 (ix2 (rowT t p) z) := by
  show V m c main_v20 (((cfg0.win 8).blk t).view.emb (ix2 p z)) = _
  refine congrArg _ (funext fun a => Fin.ext ?_)
  show (cfg0.win 8).index t a * (cfg0.win 8).size a + 1 * ((ix2 p z : (⟨2, ![512, 1]⟩ : Shape).Idx) a).val = _
  rw [idx_8 t a]
  match a with
  | ⟨0, _⟩ => show 512 * (t.val / 4) + 1 * p.val = 512 * (t.val / 4) + p.val; omega
  | ⟨1, _⟩ => show 0 + 1 * z.val = z.val; omega
theorem blk9 (c : Dev nD) (t : Fin cfg0.N) (z : Fin 1) (q : Fin 1024) :
    (iblk m c 9 t : Vec Ideal S1x1024 .i32) (ix2 z q) = V m c main_v21 (ix2 z (colT t q)) := by
  show V m c main_v21 (((cfg0.win 9).blk t).view.emb (ix2 z q)) = _
  refine congrArg _ (funext fun a => Fin.ext ?_)
  show (cfg0.win 9).index t a * (cfg0.win 9).size a + 1 * ((ix2 z q : (⟨2, ![1, 1024]⟩ : Shape).Idx) a).val = _
  rw [idx_9 t a]
  match a with
  | ⟨0, _⟩ => show 0 + 1 * z.val = z.val; omega
  | ⟨1, _⟩ => show 1024 * (t.val % 4) + 1 * q.val = 1024 * (t.val % 4) + q.val; omega

/-! ## One step over the whole arrays -/

/-- Row `r` and column `s` carry the same label. -/
def sameG (c : Dev nD) (r s : Fin 4096) : Prop := V m c main_v20 (ix2 r (0 : Fin 1)) = V m c main_v21 (ix2 (0 : Fin 1) s)
instance (c : Dev nD) (r : Fin 4096) : DecidablePred (sameG m c r) := fun _ => by unfold sameG; infer_instance

theorem init0_apply (p : Fin 512) : (k0_pay1 (F := Ideal)) (ix2 p (0 : Fin 1)) = ⊥ := by
  unfold k0_pay1; simp only [shapeCast_self]; rw [broadcast_apply]; exact neg_eq_bot
theorem init1_apply (p : Fin 512) : (k0_pay2 (F := Ideal)) (ix2 p (0 : Fin 1)) = ⊤ := by
  unfold k0_pay2; simp only [shapeCast_self]; rw [broadcast_apply]; exact pos_eq_top
theorem init2_apply (p : Fin 512) : (k0_pay3 (F := Ideal)) (ix2 p (0 : Fin 1)) = ⊥ := by
  unfold k0_pay3; simp only [shapeCast_self]; rw [broadcast_apply]; exact neg_eq_bot
theorem init3_apply (p : Fin 512) : (k0_pay4 (F := Ideal)) (ix2 p (0 : Fin 1)) = ⊤ := by
  unfold k0_pay4; simp only [shapeCast_self]; rw [broadcast_apply]; exact pos_eq_top
theorem init4_apply (p : Fin 512) : (k0_pay5 (F := Ideal)) (ix2 p (0 : Fin 1)) = ⊥ := by
  unfold k0_pay5; simp only [shapeCast_self]; rw [broadcast_apply]; exact neg_eq_bot
theorem init5_apply (p : Fin 512) : (k0_pay6 (F := Ideal)) (ix2 p (0 : Fin 1)) = ⊤ := by
  unfold k0_pay6; simp only [shapeCast_self]; rw [broadcast_apply]; exact pos_eq_top

/-- One step of accumulator 0 at row `p` of row block `t / 4`, over the whole arrays. -/
theorem step0 (c : Dev nD) (t : Fin cfg0.N) (s : Vec Ideal S512x1 .f32) (p : Fin 512) :
    upd0 (iblk m c 0 t) (iblk m c 1 t) (iblk m c 2 t) (iblk m c 3 t) (iblk m c 4 t) (iblk m c 5 t) (iblk m c 6 t) (iblk m c 7 t) (iblk m c 8 t) (iblk m c 9 t) s (ix2 p (0 : Fin 1))
      = max (s (ix2 p (0 : Fin 1))) (hardest (fun q : Fin 1024 => sameG m c (rowT t p) (colT t q))
          fun q => dist2 (V m c main_v8) (V m c main_v15) (V m c main_v3) (V m c main_v4) (rowT t p) (colT t q)) := by
  rw [upd0_apply]
  unfold same sameG dist2
  simp only [blk0, blk1, blk2, blk3, blk4, blk5, blk6, blk7, blk8, blk9]

/-- One step of accumulator 1 at row `p` of row block `t / 4`, over the whole arrays. -/
theorem step1 (c : Dev nD) (t : Fin cfg0.N) (s : Vec Ideal S512x1 .f32) (p : Fin 512) :
    upd1 (iblk m c 0 t) (iblk m c 1 t) (iblk m c 2 t) (iblk m c 3 t) (iblk m c 4 t) (iblk m c 5 t) (iblk m c 6 t) (iblk m c 7 t) (iblk m c 8 t) (iblk m c 9 t) s (ix2 p (0 : Fin 1))
      = min (s (ix2 p (0 : Fin 1))) (easiest (fun q : Fin 1024 => sameG m c (rowT t p) (colT t q))
          fun q => dist2 (V m c main_v8) (V m c main_v19) (V m c main_v3) (V m c main_v5) (rowT t p) (colT t q)) := by
  rw [upd1_apply]
  unfold same sameG dist2
  simp only [blk0, blk1, blk2, blk3, blk4, blk5, blk6, blk7, blk8, blk9]

/-- One step of accumulator 2 at row `p` of row block `t / 4`, over the whole arrays. -/
theorem step2 (c : Dev nD) (t : Fin cfg0.N) (s : Vec Ideal S512x1 .f32) (p : Fin 512) :
    upd2 (iblk m c 0 t) (iblk m c 1 t) (iblk m c 2 t) (iblk m c 3 t) (iblk m c 4 t) (iblk m c 5 t) (iblk m c 6 t) (iblk m c 7 t) (iblk m c 8 t) (iblk m c 9 t) s (ix2 p (0 : Fin 1))
      = max (s (ix2 p (0 : Fin 1))) (hardest (fun q : Fin 1024 => sameG m c (rowT t p) (colT t q))
          fun q => dist2 (V m c main_v11) (V m c main_v19) (V m c main_v4) (V m c main_v5) (rowT t p) (colT t q)) := by
  rw [upd2_apply]
  unfold same sameG dist2
  simp only [blk0, blk1, blk2, blk3, blk4, blk5, blk6, blk7, blk8, blk9]

/-- One step of accumulator 3 at row `p` of row block `t / 4`, over the whole arrays. -/
theorem step3 (c : Dev nD) (t : Fin cfg0.N) (s : Vec Ideal S512x1 .f32) (p : Fin 512) :
    upd3 (iblk m c 0 t) (iblk m c 1 t) (iblk m c 2 t) (iblk m c 3 t) (iblk m c 4 t) (iblk m c 5 t) (iblk m c 6 t) (iblk m c 7 t) (iblk m c 8 t) (iblk m c 9 t) s (ix2 p (0 : Fin 1))
      = min (s (ix2 p (0 : Fin 1))) (easiest (fun q : Fin 1024 => sameG m c (rowT t p) (colT t q))
          fun q => dist2 (V m c main_v8) (V m c main_v15) (V m c main_v3) (V m c main_v4) (rowT t p) (colT t q)) := by
  rw [upd3_apply]
  unfold same sameG dist2
  simp only [blk0, blk1, blk2, blk3, blk4, blk5, blk6, blk7, blk8, blk9]

/-- One step of accumulator 4 at row `p` of row block `t / 4`, over the whole arrays. -/
theorem step4 (c : Dev nD) (t : Fin cfg0.N) (s : Vec Ideal S512x1 .f32) (p : Fin 512) :
    upd4 (iblk m c 0 t) (iblk m c 1 t) (iblk m c 2 t) (iblk m c 3 t) (iblk m c 4 t) (iblk m c 5 t) (iblk m c 6 t) (iblk m c 7 t) (iblk m c 8 t) (iblk m c 9 t) s (ix2 p (0 : Fin 1))
      = max (s (ix2 p (0 : Fin 1))) (hardest (fun q : Fin 1024 => sameG m c (rowT t p) (colT t q))
          fun q => dist2 (V m c main_v8) (V m c main_v19) (V m c main_v3) (V m c main_v5) (rowT t p) (colT t q)) := by
  rw [upd4_apply]
  unfold same sameG dist2
  simp only [blk0, blk1, blk2, blk3, blk4, blk5, blk6, blk7, blk8, blk9]

/-- One step of accumulator 5 at row `p` of row block `t / 4`, over the whole arrays. -/
theorem step5 (c : Dev nD) (t : Fin cfg0.N) (s : Vec Ideal S512x1 .f32) (p : Fin 512) :
    upd5 (iblk m c 0 t) (iblk m c 1 t) (iblk m c 2 t) (iblk m c 3 t) (iblk m c 4 t) (iblk m c 5 t) (iblk m c 6 t) (iblk m c 7 t) (iblk m c 8 t) (iblk m c 9 t) s (ix2 p (0 : Fin 1))
      = min (s (ix2 p (0 : Fin 1))) (easiest (fun q : Fin 1024 => sameG m c (rowT t p) (colT t q))
          fun q => dist2 (V m c main_v11) (V m c main_v19) (V m c main_v4) (V m c main_v5) (rowT t p) (colT t q)) := by
  rw [upd5_apply]
  unfold same sameG dist2
  simp only [blk0, blk1, blk2, blk3, blk4, blk5, blk6, blk7, blk8, blk9]

/-! ## A row block's four steps -/

theorem accAt_congr (c : Dev nD) {n n' : ℕ} (h : n = n') (hn : n < cfg0.N) (hn' : n' < cfg0.N) : accAt m c n hn = accAt m c n' hn' := by
  subst h; rfl

theorem pt_mod (i : Fin 8) (j : Fin 4) : (pt i j).val % 4 = j.val := by
  show (4 * i.val + j.val) % 4 = j.val; have := j.isLt; omega

theorem acc_first_0 (c : Dev nD) (i : Fin 8) :
    accAt m c (pt i 0).val (pt i 0).isLt 0 = upd0 (iblk m c 0 (pt i 0)) (iblk m c 1 (pt i 0)) (iblk m c 2 (pt i 0)) (iblk m c 3 (pt i 0)) (iblk m c 4 (pt i 0)) (iblk m c 5 (pt i 0)) (iblk m c 6 (pt i 0)) (iblk m c 7 (pt i 0)) (iblk m c 8 (pt i 0)) (iblk m c 9 (pt i 0)) (k0_pay1 (F := Ideal)) := by
  rw [congrFun (accAt_first m c (pt i 0) (pt_mod i 0)) 0, first_acc_0]
theorem acc_mid1_0 (c : Dev nD) (i : Fin 8) :
    accAt m c (pt i 1).val (pt i 1).isLt 0 = upd0 (iblk m c 0 (pt i 1)) (iblk m c 1 (pt i 1)) (iblk m c 2 (pt i 1)) (iblk m c 3 (pt i 1)) (iblk m c 4 (pt i 1)) (iblk m c 5 (pt i 1)) (iblk m c 6 (pt i 1)) (iblk m c 7 (pt i 1)) (iblk m c 8 (pt i 1)) (iblk m c 9 (pt i 1)) (accAt m c (pt i 0).val (pt i 0).isLt 0) := by
  rw [congrFun (accAt_mid m c (pt i 1) (by rw [pt_mod]; decide) (by rw [pt_mod]; decide)) 0, mid_acc_0]
  exact congrArg _ (congrFun (accAt_congr m c (by show 4 * i.val + 1 - 1 = 4 * i.val + 0; omega) _ _) 0)
theorem acc_mid2_0 (c : Dev nD) (i : Fin 8) :
    accAt m c (pt i 2).val (pt i 2).isLt 0 = upd0 (iblk m c 0 (pt i 2)) (iblk m c 1 (pt i 2)) (iblk m c 2 (pt i 2)) (iblk m c 3 (pt i 2)) (iblk m c 4 (pt i 2)) (iblk m c 5 (pt i 2)) (iblk m c 6 (pt i 2)) (iblk m c 7 (pt i 2)) (iblk m c 8 (pt i 2)) (iblk m c 9 (pt i 2)) (accAt m c (pt i 1).val (pt i 1).isLt 0) := by
  rw [congrFun (accAt_mid m c (pt i 2) (by rw [pt_mod]; decide) (by rw [pt_mod]; decide)) 0, mid_acc_0]
  exact congrArg _ (congrFun (accAt_congr m c (by show 4 * i.val + 2 - 1 = 4 * i.val + 1; omega) _ _) 0)
theorem out_last_0 (c : Dev nD) (i : Fin 8) :
    outAt m c (pt i 3) 0 = upd0 (iblk m c 0 (pt i 3)) (iblk m c 1 (pt i 3)) (iblk m c 2 (pt i 3)) (iblk m c 3 (pt i 3)) (iblk m c 4 (pt i 3)) (iblk m c 5 (pt i 3)) (iblk m c 6 (pt i 3)) (iblk m c 7 (pt i 3)) (iblk m c 8 (pt i 3)) (iblk m c 9 (pt i 3)) (accAt m c (pt i 2).val (pt i 2).isLt 0) := by
  rw [outAt_last m c (pt i 3) (by rw [pt_mod]; decide) (pt_mod i 3), last_out_0]
  exact congrArg _ (congrFun (accAt_congr m c (by show 4 * i.val + 3 - 1 = 4 * i.val + 2; omega) _ _) 0)
theorem acc_first_1 (c : Dev nD) (i : Fin 8) :
    accAt m c (pt i 0).val (pt i 0).isLt 1 = upd1 (iblk m c 0 (pt i 0)) (iblk m c 1 (pt i 0)) (iblk m c 2 (pt i 0)) (iblk m c 3 (pt i 0)) (iblk m c 4 (pt i 0)) (iblk m c 5 (pt i 0)) (iblk m c 6 (pt i 0)) (iblk m c 7 (pt i 0)) (iblk m c 8 (pt i 0)) (iblk m c 9 (pt i 0)) (k0_pay2 (F := Ideal)) := by
  rw [congrFun (accAt_first m c (pt i 0) (pt_mod i 0)) 1, first_acc_1]
theorem acc_mid1_1 (c : Dev nD) (i : Fin 8) :
    accAt m c (pt i 1).val (pt i 1).isLt 1 = upd1 (iblk m c 0 (pt i 1)) (iblk m c 1 (pt i 1)) (iblk m c 2 (pt i 1)) (iblk m c 3 (pt i 1)) (iblk m c 4 (pt i 1)) (iblk m c 5 (pt i 1)) (iblk m c 6 (pt i 1)) (iblk m c 7 (pt i 1)) (iblk m c 8 (pt i 1)) (iblk m c 9 (pt i 1)) (accAt m c (pt i 0).val (pt i 0).isLt 1) := by
  rw [congrFun (accAt_mid m c (pt i 1) (by rw [pt_mod]; decide) (by rw [pt_mod]; decide)) 1, mid_acc_1]
  exact congrArg _ (congrFun (accAt_congr m c (by show 4 * i.val + 1 - 1 = 4 * i.val + 0; omega) _ _) 1)
theorem acc_mid2_1 (c : Dev nD) (i : Fin 8) :
    accAt m c (pt i 2).val (pt i 2).isLt 1 = upd1 (iblk m c 0 (pt i 2)) (iblk m c 1 (pt i 2)) (iblk m c 2 (pt i 2)) (iblk m c 3 (pt i 2)) (iblk m c 4 (pt i 2)) (iblk m c 5 (pt i 2)) (iblk m c 6 (pt i 2)) (iblk m c 7 (pt i 2)) (iblk m c 8 (pt i 2)) (iblk m c 9 (pt i 2)) (accAt m c (pt i 1).val (pt i 1).isLt 1) := by
  rw [congrFun (accAt_mid m c (pt i 2) (by rw [pt_mod]; decide) (by rw [pt_mod]; decide)) 1, mid_acc_1]
  exact congrArg _ (congrFun (accAt_congr m c (by show 4 * i.val + 2 - 1 = 4 * i.val + 1; omega) _ _) 1)
theorem out_last_1 (c : Dev nD) (i : Fin 8) :
    outAt m c (pt i 3) 1 = upd1 (iblk m c 0 (pt i 3)) (iblk m c 1 (pt i 3)) (iblk m c 2 (pt i 3)) (iblk m c 3 (pt i 3)) (iblk m c 4 (pt i 3)) (iblk m c 5 (pt i 3)) (iblk m c 6 (pt i 3)) (iblk m c 7 (pt i 3)) (iblk m c 8 (pt i 3)) (iblk m c 9 (pt i 3)) (accAt m c (pt i 2).val (pt i 2).isLt 1) := by
  rw [outAt_last m c (pt i 3) (by rw [pt_mod]; decide) (pt_mod i 3), last_out_1]
  exact congrArg _ (congrFun (accAt_congr m c (by show 4 * i.val + 3 - 1 = 4 * i.val + 2; omega) _ _) 1)
theorem acc_first_2 (c : Dev nD) (i : Fin 8) :
    accAt m c (pt i 0).val (pt i 0).isLt 2 = upd2 (iblk m c 0 (pt i 0)) (iblk m c 1 (pt i 0)) (iblk m c 2 (pt i 0)) (iblk m c 3 (pt i 0)) (iblk m c 4 (pt i 0)) (iblk m c 5 (pt i 0)) (iblk m c 6 (pt i 0)) (iblk m c 7 (pt i 0)) (iblk m c 8 (pt i 0)) (iblk m c 9 (pt i 0)) (k0_pay3 (F := Ideal)) := by
  rw [congrFun (accAt_first m c (pt i 0) (pt_mod i 0)) 2, first_acc_2]
theorem acc_mid1_2 (c : Dev nD) (i : Fin 8) :
    accAt m c (pt i 1).val (pt i 1).isLt 2 = upd2 (iblk m c 0 (pt i 1)) (iblk m c 1 (pt i 1)) (iblk m c 2 (pt i 1)) (iblk m c 3 (pt i 1)) (iblk m c 4 (pt i 1)) (iblk m c 5 (pt i 1)) (iblk m c 6 (pt i 1)) (iblk m c 7 (pt i 1)) (iblk m c 8 (pt i 1)) (iblk m c 9 (pt i 1)) (accAt m c (pt i 0).val (pt i 0).isLt 2) := by
  rw [congrFun (accAt_mid m c (pt i 1) (by rw [pt_mod]; decide) (by rw [pt_mod]; decide)) 2, mid_acc_2]
  exact congrArg _ (congrFun (accAt_congr m c (by show 4 * i.val + 1 - 1 = 4 * i.val + 0; omega) _ _) 2)
theorem acc_mid2_2 (c : Dev nD) (i : Fin 8) :
    accAt m c (pt i 2).val (pt i 2).isLt 2 = upd2 (iblk m c 0 (pt i 2)) (iblk m c 1 (pt i 2)) (iblk m c 2 (pt i 2)) (iblk m c 3 (pt i 2)) (iblk m c 4 (pt i 2)) (iblk m c 5 (pt i 2)) (iblk m c 6 (pt i 2)) (iblk m c 7 (pt i 2)) (iblk m c 8 (pt i 2)) (iblk m c 9 (pt i 2)) (accAt m c (pt i 1).val (pt i 1).isLt 2) := by
  rw [congrFun (accAt_mid m c (pt i 2) (by rw [pt_mod]; decide) (by rw [pt_mod]; decide)) 2, mid_acc_2]
  exact congrArg _ (congrFun (accAt_congr m c (by show 4 * i.val + 2 - 1 = 4 * i.val + 1; omega) _ _) 2)
theorem out_last_2 (c : Dev nD) (i : Fin 8) :
    outAt m c (pt i 3) 2 = upd2 (iblk m c 0 (pt i 3)) (iblk m c 1 (pt i 3)) (iblk m c 2 (pt i 3)) (iblk m c 3 (pt i 3)) (iblk m c 4 (pt i 3)) (iblk m c 5 (pt i 3)) (iblk m c 6 (pt i 3)) (iblk m c 7 (pt i 3)) (iblk m c 8 (pt i 3)) (iblk m c 9 (pt i 3)) (accAt m c (pt i 2).val (pt i 2).isLt 2) := by
  rw [outAt_last m c (pt i 3) (by rw [pt_mod]; decide) (pt_mod i 3), last_out_2]
  exact congrArg _ (congrFun (accAt_congr m c (by show 4 * i.val + 3 - 1 = 4 * i.val + 2; omega) _ _) 2)
theorem acc_first_3 (c : Dev nD) (i : Fin 8) :
    accAt m c (pt i 0).val (pt i 0).isLt 3 = upd3 (iblk m c 0 (pt i 0)) (iblk m c 1 (pt i 0)) (iblk m c 2 (pt i 0)) (iblk m c 3 (pt i 0)) (iblk m c 4 (pt i 0)) (iblk m c 5 (pt i 0)) (iblk m c 6 (pt i 0)) (iblk m c 7 (pt i 0)) (iblk m c 8 (pt i 0)) (iblk m c 9 (pt i 0)) (k0_pay4 (F := Ideal)) := by
  rw [congrFun (accAt_first m c (pt i 0) (pt_mod i 0)) 3, first_acc_3]
theorem acc_mid1_3 (c : Dev nD) (i : Fin 8) :
    accAt m c (pt i 1).val (pt i 1).isLt 3 = upd3 (iblk m c 0 (pt i 1)) (iblk m c 1 (pt i 1)) (iblk m c 2 (pt i 1)) (iblk m c 3 (pt i 1)) (iblk m c 4 (pt i 1)) (iblk m c 5 (pt i 1)) (iblk m c 6 (pt i 1)) (iblk m c 7 (pt i 1)) (iblk m c 8 (pt i 1)) (iblk m c 9 (pt i 1)) (accAt m c (pt i 0).val (pt i 0).isLt 3) := by
  rw [congrFun (accAt_mid m c (pt i 1) (by rw [pt_mod]; decide) (by rw [pt_mod]; decide)) 3, mid_acc_3]
  exact congrArg _ (congrFun (accAt_congr m c (by show 4 * i.val + 1 - 1 = 4 * i.val + 0; omega) _ _) 3)
theorem acc_mid2_3 (c : Dev nD) (i : Fin 8) :
    accAt m c (pt i 2).val (pt i 2).isLt 3 = upd3 (iblk m c 0 (pt i 2)) (iblk m c 1 (pt i 2)) (iblk m c 2 (pt i 2)) (iblk m c 3 (pt i 2)) (iblk m c 4 (pt i 2)) (iblk m c 5 (pt i 2)) (iblk m c 6 (pt i 2)) (iblk m c 7 (pt i 2)) (iblk m c 8 (pt i 2)) (iblk m c 9 (pt i 2)) (accAt m c (pt i 1).val (pt i 1).isLt 3) := by
  rw [congrFun (accAt_mid m c (pt i 2) (by rw [pt_mod]; decide) (by rw [pt_mod]; decide)) 3, mid_acc_3]
  exact congrArg _ (congrFun (accAt_congr m c (by show 4 * i.val + 2 - 1 = 4 * i.val + 1; omega) _ _) 3)
theorem out_last_3 (c : Dev nD) (i : Fin 8) :
    outAt m c (pt i 3) 3 = upd3 (iblk m c 0 (pt i 3)) (iblk m c 1 (pt i 3)) (iblk m c 2 (pt i 3)) (iblk m c 3 (pt i 3)) (iblk m c 4 (pt i 3)) (iblk m c 5 (pt i 3)) (iblk m c 6 (pt i 3)) (iblk m c 7 (pt i 3)) (iblk m c 8 (pt i 3)) (iblk m c 9 (pt i 3)) (accAt m c (pt i 2).val (pt i 2).isLt 3) := by
  rw [outAt_last m c (pt i 3) (by rw [pt_mod]; decide) (pt_mod i 3), last_out_3]
  exact congrArg _ (congrFun (accAt_congr m c (by show 4 * i.val + 3 - 1 = 4 * i.val + 2; omega) _ _) 3)
theorem acc_first_4 (c : Dev nD) (i : Fin 8) :
    accAt m c (pt i 0).val (pt i 0).isLt 4 = upd4 (iblk m c 0 (pt i 0)) (iblk m c 1 (pt i 0)) (iblk m c 2 (pt i 0)) (iblk m c 3 (pt i 0)) (iblk m c 4 (pt i 0)) (iblk m c 5 (pt i 0)) (iblk m c 6 (pt i 0)) (iblk m c 7 (pt i 0)) (iblk m c 8 (pt i 0)) (iblk m c 9 (pt i 0)) (k0_pay5 (F := Ideal)) := by
  rw [congrFun (accAt_first m c (pt i 0) (pt_mod i 0)) 4, first_acc_4]
theorem acc_mid1_4 (c : Dev nD) (i : Fin 8) :
    accAt m c (pt i 1).val (pt i 1).isLt 4 = upd4 (iblk m c 0 (pt i 1)) (iblk m c 1 (pt i 1)) (iblk m c 2 (pt i 1)) (iblk m c 3 (pt i 1)) (iblk m c 4 (pt i 1)) (iblk m c 5 (pt i 1)) (iblk m c 6 (pt i 1)) (iblk m c 7 (pt i 1)) (iblk m c 8 (pt i 1)) (iblk m c 9 (pt i 1)) (accAt m c (pt i 0).val (pt i 0).isLt 4) := by
  rw [congrFun (accAt_mid m c (pt i 1) (by rw [pt_mod]; decide) (by rw [pt_mod]; decide)) 4, mid_acc_4]
  exact congrArg _ (congrFun (accAt_congr m c (by show 4 * i.val + 1 - 1 = 4 * i.val + 0; omega) _ _) 4)
theorem acc_mid2_4 (c : Dev nD) (i : Fin 8) :
    accAt m c (pt i 2).val (pt i 2).isLt 4 = upd4 (iblk m c 0 (pt i 2)) (iblk m c 1 (pt i 2)) (iblk m c 2 (pt i 2)) (iblk m c 3 (pt i 2)) (iblk m c 4 (pt i 2)) (iblk m c 5 (pt i 2)) (iblk m c 6 (pt i 2)) (iblk m c 7 (pt i 2)) (iblk m c 8 (pt i 2)) (iblk m c 9 (pt i 2)) (accAt m c (pt i 1).val (pt i 1).isLt 4) := by
  rw [congrFun (accAt_mid m c (pt i 2) (by rw [pt_mod]; decide) (by rw [pt_mod]; decide)) 4, mid_acc_4]
  exact congrArg _ (congrFun (accAt_congr m c (by show 4 * i.val + 2 - 1 = 4 * i.val + 1; omega) _ _) 4)
theorem out_last_4 (c : Dev nD) (i : Fin 8) :
    outAt m c (pt i 3) 4 = upd4 (iblk m c 0 (pt i 3)) (iblk m c 1 (pt i 3)) (iblk m c 2 (pt i 3)) (iblk m c 3 (pt i 3)) (iblk m c 4 (pt i 3)) (iblk m c 5 (pt i 3)) (iblk m c 6 (pt i 3)) (iblk m c 7 (pt i 3)) (iblk m c 8 (pt i 3)) (iblk m c 9 (pt i 3)) (accAt m c (pt i 2).val (pt i 2).isLt 4) := by
  rw [outAt_last m c (pt i 3) (by rw [pt_mod]; decide) (pt_mod i 3), last_out_4]
  exact congrArg _ (congrFun (accAt_congr m c (by show 4 * i.val + 3 - 1 = 4 * i.val + 2; omega) _ _) 4)
theorem acc_first_5 (c : Dev nD) (i : Fin 8) :
    accAt m c (pt i 0).val (pt i 0).isLt 5 = upd5 (iblk m c 0 (pt i 0)) (iblk m c 1 (pt i 0)) (iblk m c 2 (pt i 0)) (iblk m c 3 (pt i 0)) (iblk m c 4 (pt i 0)) (iblk m c 5 (pt i 0)) (iblk m c 6 (pt i 0)) (iblk m c 7 (pt i 0)) (iblk m c 8 (pt i 0)) (iblk m c 9 (pt i 0)) (k0_pay6 (F := Ideal)) := by
  rw [congrFun (accAt_first m c (pt i 0) (pt_mod i 0)) 5, first_acc_5]
theorem acc_mid1_5 (c : Dev nD) (i : Fin 8) :
    accAt m c (pt i 1).val (pt i 1).isLt 5 = upd5 (iblk m c 0 (pt i 1)) (iblk m c 1 (pt i 1)) (iblk m c 2 (pt i 1)) (iblk m c 3 (pt i 1)) (iblk m c 4 (pt i 1)) (iblk m c 5 (pt i 1)) (iblk m c 6 (pt i 1)) (iblk m c 7 (pt i 1)) (iblk m c 8 (pt i 1)) (iblk m c 9 (pt i 1)) (accAt m c (pt i 0).val (pt i 0).isLt 5) := by
  rw [congrFun (accAt_mid m c (pt i 1) (by rw [pt_mod]; decide) (by rw [pt_mod]; decide)) 5, mid_acc_5]
  exact congrArg _ (congrFun (accAt_congr m c (by show 4 * i.val + 1 - 1 = 4 * i.val + 0; omega) _ _) 5)
theorem acc_mid2_5 (c : Dev nD) (i : Fin 8) :
    accAt m c (pt i 2).val (pt i 2).isLt 5 = upd5 (iblk m c 0 (pt i 2)) (iblk m c 1 (pt i 2)) (iblk m c 2 (pt i 2)) (iblk m c 3 (pt i 2)) (iblk m c 4 (pt i 2)) (iblk m c 5 (pt i 2)) (iblk m c 6 (pt i 2)) (iblk m c 7 (pt i 2)) (iblk m c 8 (pt i 2)) (iblk m c 9 (pt i 2)) (accAt m c (pt i 1).val (pt i 1).isLt 5) := by
  rw [congrFun (accAt_mid m c (pt i 2) (by rw [pt_mod]; decide) (by rw [pt_mod]; decide)) 5, mid_acc_5]
  exact congrArg _ (congrFun (accAt_congr m c (by show 4 * i.val + 2 - 1 = 4 * i.val + 1; omega) _ _) 5)
theorem out_last_5 (c : Dev nD) (i : Fin 8) :
    outAt m c (pt i 3) 5 = upd5 (iblk m c 0 (pt i 3)) (iblk m c 1 (pt i 3)) (iblk m c 2 (pt i 3)) (iblk m c 3 (pt i 3)) (iblk m c 4 (pt i 3)) (iblk m c 5 (pt i 3)) (iblk m c 6 (pt i 3)) (iblk m c 7 (pt i 3)) (iblk m c 8 (pt i 3)) (iblk m c 9 (pt i 3)) (accAt m c (pt i 2).val (pt i 2).isLt 5) := by
  rw [outAt_last m c (pt i 3) (by rw [pt_mod]; decide) (pt_mod i 3), last_out_5]
  exact congrArg _ (congrFun (accAt_congr m c (by show 4 * i.val + 3 - 1 = 4 * i.val + 2; omega) _ _) 5)

/-! ## What each output block holds -/

/-- Output 0 after a row block's last step, at row `p`: the greatest squared distance of the row over ALL 4096 columns with the row's label. -/
theorem out0_apply (c : Dev nD) (i : Fin 8) (p : Fin 512) :
    outAt m c (pt i 3) 0 (ix2 p (0 : Fin 1)) = hardest (sameG m c (row i p)) fun s => dist2 (V m c main_v8) (V m c main_v15) (V m c main_v3) (V m c main_v4) (row i p) s := by
  rw [out_last_0 m c i, step0, acc_mid2_0 m c i, step0, acc_mid1_0 m c i, step0, acc_first_0 m c i, step0, init0_apply]
  simp only [rowT_pt, colT_pt]
  rw [hardest_blocks col col_surj]
  exact run_max4 fun j : Fin 4 => hardest (fun q : Fin 1024 => sameG m c (row i p) (col j q)) fun q => dist2 (V m c main_v8) (V m c main_v15) (V m c main_v3) (V m c main_v4) (row i p) (col j q)

/-- Output 1 after a row block's last step, at row `p`: the least squared distance of the row over ALL 4096 columns with another label. -/
theorem out1_apply (c : Dev nD) (i : Fin 8) (p : Fin 512) :
    outAt m c (pt i 3) 1 (ix2 p (0 : Fin 1)) = easiest (sameG m c (row i p)) fun s => dist2 (V m c main_v8) (V m c main_v19) (V m c main_v3) (V m c main_v5) (row i p) s := by
  rw [out_last_1 m c i, step1, acc_mid2_1 m c i, step1, acc_mid1_1 m c i, step1, acc_first_1 m c i, step1, init1_apply]
  simp only [rowT_pt, colT_pt]
  rw [easiest_blocks col col_surj]
  exact run_min4 fun j : Fin 4 => easiest (fun q : Fin 1024 => sameG m c (row i p) (col j q)) fun q => dist2 (V m c main_v8) (V m c main_v19) (V m c main_v3) (V m c main_v5) (row i p) (col j q)

/-- Output 2 after a row block's last step, at row `p`: the greatest squared distance of the row over ALL 4096 columns with the row's label. -/
theorem out2_apply (c : Dev nD) (i : Fin 8) (p : Fin 512) :
    outAt m c (pt i 3) 2 (ix2 p (0 : Fin 1)) = hardest (sameG m c (row i p)) fun s => dist2 (V m c main_v11) (V m c main_v19) (V m c main_v4) (V m c main_v5) (row i p) s := by
  rw [out_last_2 m c i, step2, acc_mid2_2 m c i, step2, acc_mid1_2 m c i, step2, acc_first_2 m c i, step2, init2_apply]
  simp only [rowT_pt, colT_pt]
  rw [hardest_blocks col col_surj]
  exact run_max4 fun j : Fin 4 => hardest (fun q : Fin 1024 => sameG m c (row i p) (col j q)) fun q => dist2 (V m c main_v11) (V m c main_v19) (V m c main_v4) (V m c main_v5) (row i p) (col j q)

/-- Output 3 after a row block's last step, at row `p`: the least squared distance of the row over ALL 4096 columns with another label. -/
theorem out3_apply (c : Dev nD) (i : Fin 8) (p : Fin 512) :
    outAt m c (pt i 3) 3 (ix2 p (0 : Fin 1)) = easiest (sameG m c (row i p)) fun s => dist2 (V m c main_v8) (V m c main_v15) (V m c main_v3) (V m c main_v4) (row i p) s := by
  rw [out_last_3 m c i, step3, acc_mid2_3 m c i, step3, acc_mid1_3 m c i, step3, acc_first_3 m c i, step3, init3_apply]
  simp only [rowT_pt, colT_pt]
  rw [easiest_blocks col col_surj]
  exact run_min4 fun j : Fin 4 => easiest (fun q : Fin 1024 => sameG m c (row i p) (col j q)) fun q => dist2 (V m c main_v8) (V m c main_v15) (V m c main_v3) (V m c main_v4) (row i p) (col j q)

/-- Output 4 after a row block's last step, at row `p`: the greatest squared distance of the row over ALL 4096 columns with the row's label. -/
theorem out4_apply (c : Dev nD) (i : Fin 8) (p : Fin 512) :
    outAt m c (pt i 3) 4 (ix2 p (0 : Fin 1)) = hardest (sameG m c (row i p)) fun s => dist2 (V m c main_v8) (V m c main_v19) (V m c main_v3) (V m c main_v5) (row i p) s := by
  rw [out_last_4 m c i, step4, acc_mid2_4 m c i, step4, acc_mid1_4 m c i, step4, acc_first_4 m c i, step4, init4_apply]
  simp only [rowT_pt, colT_pt]
  rw [hardest_blocks col col_surj]
  exact run_max4 fun j : Fin 4 => hardest (fun q : Fin 1024 => sameG m c (row i p) (col j q)) fun q => dist2 (V m c main_v8) (V m c main_v19) (V m c main_v3) (V m c main_v5) (row i p) (col j q)

/-- Output 5 after a row block's last step, at row `p`: the least squared distance of the row over ALL 4096 columns with another label. -/
theorem out5_apply (c : Dev nD) (i : Fin 8) (p : Fin 512) :
    outAt m c (pt i 3) 5 (ix2 p (0 : Fin 1)) = easiest (sameG m c (row i p)) fun s => dist2 (V m c main_v11) (V m c main_v19) (V m c main_v4) (V m c main_v5) (row i p) s := by
  rw [out_last_5 m c i, step5, acc_mid2_5 m c i, step5, acc_mid1_5 m c i, step5, acc_first_5 m c i, step5, init5_apply]
  simp only [rowT_pt, colT_pt]
  rw [easiest_blocks col col_surj]
  exact run_min4 fun j : Fin 4 => easiest (fun q : Fin 1024 => sameG m c (row i p) (col j q)) fun q => dist2 (V m c main_v11) (V m c main_v19) (V m c main_v4) (V m c main_v5) (row i p) (col j q)

end Cert.KernelIdeal.Hand

end
-- ==== Proof.KI.Final.lean ====
import proofs.«123526_j17729624998291_2_alg».proof.Proof.KI.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.MaskedExtrema

variable (m : (ℓ : Loc nD τ sig) → Buf (Elt Ideal) ℓ)

/-! ## The six result arrays of the region -/

theorem idx_10 : ∀ (t : Fin cfg0.N) (a : Fin 2), (cfg0.win 10).index t a * (cfg0.win 10).size a = (![512 * (t.val / 4), 0] : Fin 2 → ℕ) a :=
  (by decide +kernel : ∀ (t : Fin grid0.N) (a : Fin 2), win0_10.index t a * win0_10.size a = (![512 * (t.val / 4), 0] : Fin 2 → ℕ) a)
theorem xsize_10 : ∀ (t : Fin cfg0.N) (a : Fin 2), (cfg0.win 10).xsize (cfg0.grid.coords t) a = (![512, 1] : Fin 2 → ℕ) a :=
  (by decide +kernel : ∀ (t : Fin grid0.N) (a : Fin 2), win0_10.xsize (grid0.coords t) a = (![512, 1] : Fin 2 → ℕ) a)

/-- What output 0 ends holding: at row `r`, the greatest squared distance over the columns with the row's label. -/
def Grow0 (c : Dev nD) (r : Fin 4096) : EReal := hardest (sameG m c r) fun s => dist2 (V m c main_v8) (V m c main_v15) (V m c main_v3) (V m c main_v4) r s
def G0 (c : Dev nD) : Buf (Elt Ideal) ((c : Thread nD τ).loc main_v22_0) := fun y => Grow0 m c (y 0)

theorem flushed_eq_0 (c : Dev nD) (t : Fin cfg0.N) (hf : (cfg0.win 10).flush t = true) :
    (dats m 0 c).flushed 10 t = ((cfg0.win 10).blk t).view.read (Elt Ideal) (G0 m c) := by
  show (cfg0.win 10).cut (grid0.coords t) ((dats m 0 c).after 10 t) = _
  rw [after_10]
  have h3 : t.val % 4 = 3 := (flush0_10 t).mp hf
  have hN : t.val < 32 := lt_of_lt_of_eq t.isLt N_32
  obtain ⟨i, rfl⟩ : ∃ i : Fin 8, t = pt i 3 := ⟨⟨t.val / 4, by omega⟩, Fin.ext (by show t.val = 4 * (t.val / 4) + 3; omega)⟩
  funext y
  obtain ⟨p, z, rfl⟩ : ∃ (p : Fin 512) (z : Fin 1), y = ix2 p z := ⟨y 0, y 1, eq_ix2 y⟩
  obtain rfl : z = 0 := Subsingleton.elim _ _
  show outAt m c (pt i 3) 0 (ix2 p (0 : Fin 1)) = G0 m c (((cfg0.win 10).blk (pt i 3)).view.emb (ix2 p (0 : Fin 1)))
  rw [out0_apply]
  show Grow0 m c (row i p) = Grow0 m c _
  have hrow : (((cfg0.win 10).blk (pt i 3)).view.emb (ix2 p (0 : Fin 1))) 0 = row i p := Fin.ext (by
    show (cfg0.win 10).index (pt i 3) 0 * (cfg0.win 10).size 0 + 1 * p.val = 512 * i.val + p.val
    rw [idx_10]
    show 512 * ((4 * i.val + 3) / 4) + 1 * p.val = 512 * i.val + p.val
    omega)
  exact congrArg _ hrow.symm

theorem cover_0 (y : S4096x1.Idx) : ∃ t : Fin cfg0.N, (cfg0.win 10).flush t = true ∧ y ∈ ((cfg0.win 10).blk t).view.set := by
  have h0 : (y 0 : ℕ) < 4096 := (y 0).isLt
  have h1 : (y 1 : ℕ) < 1 := (y 1).isLt
  obtain ⟨i, hi⟩ : ∃ i : Fin 8, i.val = (y 0).val / 512 := ⟨⟨(y 0).val / 512, by omega⟩, rfl⟩
  refine ⟨pt i 3, (flush0_10 _).mpr (pt_mod i 3), ?_⟩
  show y ∈ ((View.whole main_v22_0).slice (win0_10.rect (pt i 3))).set
  rw [View.set_slice_whole, Rect.mem_set_unit]
  intro a
  show (cfg0.win 10).index (pt i 3) a * (cfg0.win 10).size a ≤ (y a : ℕ) ∧ (y a : ℕ) < (cfg0.win 10).index (pt i 3) a * (cfg0.win 10).size a + (cfg0.win 10).xsize (cfg0.grid.coords (pt i 3)) a
  rw [idx_10, xsize_10]
  match a with
  | ⟨0, _⟩ => show 512 * ((4 * i.val + 3) / 4) ≤ (y 0 : ℕ) ∧ (y 0 : ℕ) < 512 * ((4 * i.val + 3) / 4) + 512; omega
  | ⟨1, _⟩ => show 0 ≤ (y 1 : ℕ) ∧ (y 1 : ℕ) < 0 + 1; omega

/-- THE VALUE of output 0. -/
theorem final_0 (c : Dev nD) : (dats m 0 c).arrAt 10 cfg0.N = G0 m c :=
  (dats m 0 c).arrAt_eq_of_cover 10 (G0 m c) (fun t hf => flushed_eq_0 m c t hf) cover_0

theorem idx_11 : ∀ (t : Fin cfg0.N) (a : Fin 2), (cfg0.win 11).index t a * (cfg0.win 11).size a = (![512 * (t.val / 4), 0] : Fin 2 → ℕ) a :=
  (by decide +kernel : ∀ (t : Fin grid0.N) (a : Fin 2), win0_11.index t a * win0_11.size a = (![512 * (t.val / 4), 0] : Fin 2 → ℕ) a)
theorem xsize_11 : ∀ (t : Fin cfg0.N) (a : Fin 2), (cfg0.win 11).xsize (cfg0.grid.coords t) a = (![512, 1] : Fin 2 → ℕ) a :=
  (by decide +kernel : ∀ (t : Fin grid0.N) (a : Fin 2), win0_11.xsize (grid0.coords t) a = (![512, 1] : Fin 2 → ℕ) a)

/-- What output 1 ends holding: at row `r`, the least squared distance over the columns without the row's label. -/
def Grow1 (c : Dev nD) (r : Fin 4096) : EReal := easiest (sameG m c r) fun s => dist2 (V m c main_v8) (V m c main_v19) (V m c main_v3) (V m c main_v5) r s
def G1 (c : Dev nD) : Buf (Elt Ideal) ((c : Thread nD τ).loc main_v22_1) := fun y => Grow1 m c (y 0)

theorem flushed_eq_1 (c : Dev nD) (t : Fin cfg0.N) (hf : (cfg0.win 11).flush t = true) :
    (dats m 0 c).flushed 11 t = ((cfg0.win 11).blk t).view.read (Elt Ideal) (G1 m c) := by
  show (cfg0.win 11).cut (grid0.coords t) ((dats m 0 c).after 11 t) = _
  rw [after_11]
  have h3 : t.val % 4 = 3 := (flush0_11 t).mp hf
  have hN : t.val < 32 := lt_of_lt_of_eq t.isLt N_32
  obtain ⟨i, rfl⟩ : ∃ i : Fin 8, t = pt i 3 := ⟨⟨t.val / 4, by omega⟩, Fin.ext (by show t.val = 4 * (t.val / 4) + 3; omega)⟩
  funext y
  obtain ⟨p, z, rfl⟩ : ∃ (p : Fin 512) (z : Fin 1), y = ix2 p z := ⟨y 0, y 1, eq_ix2 y⟩
  obtain rfl : z = 0 := Subsingleton.elim _ _
  show outAt m c (pt i 3) 1 (ix2 p (0 : Fin 1)) = G1 m c (((cfg0.win 11).blk (pt i 3)).view.emb (ix2 p (0 : Fin 1)))
  rw [out1_apply]
  show Grow1 m c (row i p) = Grow1 m c _
  have hrow : (((cfg0.win 11).blk (pt i 3)).view.emb (ix2 p (0 : Fin 1))) 0 = row i p := Fin.ext (by
    show (cfg0.win 11).index (pt i 3) 0 * (cfg0.win 11).size 0 + 1 * p.val = 512 * i.val + p.val
    rw [idx_11]
    show 512 * ((4 * i.val + 3) / 4) + 1 * p.val = 512 * i.val + p.val
    omega)
  exact congrArg _ hrow.symm

theorem cover_1 (y : S4096x1.Idx) : ∃ t : Fin cfg0.N, (cfg0.win 11).flush t = true ∧ y ∈ ((cfg0.win 11).blk t).view.set := by
  have h0 : (y 0 : ℕ) < 4096 := (y 0).isLt
  have h1 : (y 1 : ℕ) < 1 := (y 1).isLt
  obtain ⟨i, hi⟩ : ∃ i : Fin 8, i.val = (y 0).val / 512 := ⟨⟨(y 0).val / 512, by omega⟩, rfl⟩
  refine ⟨pt i 3, (flush0_11 _).mpr (pt_mod i 3), ?_⟩
  show y ∈ ((View.whole main_v22_1).slice (win0_11.rect (pt i 3))).set
  rw [View.set_slice_whole, Rect.mem_set_unit]
  intro a
  show (cfg0.win 11).index (pt i 3) a * (cfg0.win 11).size a ≤ (y a : ℕ) ∧ (y a : ℕ) < (cfg0.win 11).index (pt i 3) a * (cfg0.win 11).size a + (cfg0.win 11).xsize (cfg0.grid.coords (pt i 3)) a
  rw [idx_11, xsize_11]
  match a with
  | ⟨0, _⟩ => show 512 * ((4 * i.val + 3) / 4) ≤ (y 0 : ℕ) ∧ (y 0 : ℕ) < 512 * ((4 * i.val + 3) / 4) + 512; omega
  | ⟨1, _⟩ => show 0 ≤ (y 1 : ℕ) ∧ (y 1 : ℕ) < 0 + 1; omega

/-- THE VALUE of output 1. -/
theorem final_1 (c : Dev nD) : (dats m 0 c).arrAt 11 cfg0.N = G1 m c :=
  (dats m 0 c).arrAt_eq_of_cover 11 (G1 m c) (fun t hf => flushed_eq_1 m c t hf) cover_1

theorem idx_12 : ∀ (t : Fin cfg0.N) (a : Fin 2), (cfg0.win 12).index t a * (cfg0.win 12).size a = (![512 * (t.val / 4), 0] : Fin 2 → ℕ) a :=
  (by decide +kernel : ∀ (t : Fin grid0.N) (a : Fin 2), win0_12.index t a * win0_12.size a = (![512 * (t.val / 4), 0] : Fin 2 → ℕ) a)
theorem xsize_12 : ∀ (t : Fin cfg0.N) (a : Fin 2), (cfg0.win 12).xsize (cfg0.grid.coords t) a = (![512, 1] : Fin 2 → ℕ) a :=
  (by decide +kernel : ∀ (t : Fin grid0.N) (a : Fin 2), win0_12.xsize (grid0.coords t) a = (![512, 1] : Fin 2 → ℕ) a)

/-- What output 2 ends holding: at row `r`, the greatest squared distance over the columns with the row's label. -/
def Grow2 (c : Dev nD) (r : Fin 4096) : EReal := hardest (sameG m c r) fun s => dist2 (V m c main_v11) (V m c main_v19) (V m c main_v4) (V m c main_v5) r s
def G2 (c : Dev nD) : Buf (Elt Ideal) ((c : Thread nD τ).loc main_v22_2) := fun y => Grow2 m c (y 0)

theorem flushed_eq_2 (c : Dev nD) (t : Fin cfg0.N) (hf : (cfg0.win 12).flush t = true) :
    (dats m 0 c).flushed 12 t = ((cfg0.win 12).blk t).view.read (Elt Ideal) (G2 m c) := by
  show (cfg0.win 12).cut (grid0.coords t) ((dats m 0 c).after 12 t) = _
  rw [after_12]
  have h3 : t.val % 4 = 3 := (flush0_12 t).mp hf
  have hN : t.val < 32 := lt_of_lt_of_eq t.isLt N_32
  obtain ⟨i, rfl⟩ : ∃ i : Fin 8, t = pt i 3 := ⟨⟨t.val / 4, by omega⟩, Fin.ext (by show t.val = 4 * (t.val / 4) + 3; omega)⟩
  funext y
  obtain ⟨p, z, rfl⟩ : ∃ (p : Fin 512) (z : Fin 1), y = ix2 p z := ⟨y 0, y 1, eq_ix2 y⟩
  obtain rfl : z = 0 := Subsingleton.elim _ _
  show outAt m c (pt i 3) 2 (ix2 p (0 : Fin 1)) = G2 m c (((cfg0.win 12).blk (pt i 3)).view.emb (ix2 p (0 : Fin 1)))
  rw [out2_apply]
  show Grow2 m c (row i p) = Grow2 m c _
  have hrow : (((cfg0.win 12).blk (pt i 3)).view.emb (ix2 p (0 : Fin 1))) 0 = row i p := Fin.ext (by
    show (cfg0.win 12).index (pt i 3) 0 * (cfg0.win 12).size 0 + 1 * p.val = 512 * i.val + p.val
    rw [idx_12]
    show 512 * ((4 * i.val + 3) / 4) + 1 * p.val = 512 * i.val + p.val
    omega)
  exact congrArg _ hrow.symm

theorem cover_2 (y : S4096x1.Idx) : ∃ t : Fin cfg0.N, (cfg0.win 12).flush t = true ∧ y ∈ ((cfg0.win 12).blk t).view.set := by
  have h0 : (y 0 : ℕ) < 4096 := (y 0).isLt
  have h1 : (y 1 : ℕ) < 1 := (y 1).isLt
  obtain ⟨i, hi⟩ : ∃ i : Fin 8, i.val = (y 0).val / 512 := ⟨⟨(y 0).val / 512, by omega⟩, rfl⟩
  refine ⟨pt i 3, (flush0_12 _).mpr (pt_mod i 3), ?_⟩
  show y ∈ ((View.whole main_v22_2).slice (win0_12.rect (pt i 3))).set
  rw [View.set_slice_whole, Rect.mem_set_unit]
  intro a
  show (cfg0.win 12).index (pt i 3) a * (cfg0.win 12).size a ≤ (y a : ℕ) ∧ (y a : ℕ) < (cfg0.win 12).index (pt i 3) a * (cfg0.win 12).size a + (cfg0.win 12).xsize (cfg0.grid.coords (pt i 3)) a
  rw [idx_12, xsize_12]
  match a with
  | ⟨0, _⟩ => show 512 * ((4 * i.val + 3) / 4) ≤ (y 0 : ℕ) ∧ (y 0 : ℕ) < 512 * ((4 * i.val + 3) / 4) + 512; omega
  | ⟨1, _⟩ => show 0 ≤ (y 1 : ℕ) ∧ (y 1 : ℕ) < 0 + 1; omega

/-- THE VALUE of output 2. -/
theorem final_2 (c : Dev nD) : (dats m 0 c).arrAt 12 cfg0.N = G2 m c :=
  (dats m 0 c).arrAt_eq_of_cover 12 (G2 m c) (fun t hf => flushed_eq_2 m c t hf) cover_2

theorem idx_13 : ∀ (t : Fin cfg0.N) (a : Fin 2), (cfg0.win 13).index t a * (cfg0.win 13).size a = (![512 * (t.val / 4), 0] : Fin 2 → ℕ) a :=
  (by decide +kernel : ∀ (t : Fin grid0.N) (a : Fin 2), win0_13.index t a * win0_13.size a = (![512 * (t.val / 4), 0] : Fin 2 → ℕ) a)
theorem xsize_13 : ∀ (t : Fin cfg0.N) (a : Fin 2), (cfg0.win 13).xsize (cfg0.grid.coords t) a = (![512, 1] : Fin 2 → ℕ) a :=
  (by decide +kernel : ∀ (t : Fin grid0.N) (a : Fin 2), win0_13.xsize (grid0.coords t) a = (![512, 1] : Fin 2 → ℕ) a)

/-- What output 3 ends holding: at row `r`, the least squared distance over the columns without the row's label. -/
def Grow3 (c : Dev nD) (r : Fin 4096) : EReal := easiest (sameG m c r) fun s => dist2 (V m c main_v8) (V m c main_v15) (V m c main_v3) (V m c main_v4) r s
def G3 (c : Dev nD) : Buf (Elt Ideal) ((c : Thread nD τ).loc main_v22_3) := fun y => Grow3 m c (y 0)

theorem flushed_eq_3 (c : Dev nD) (t : Fin cfg0.N) (hf : (cfg0.win 13).flush t = true) :
    (dats m 0 c).flushed 13 t = ((cfg0.win 13).blk t).view.read (Elt Ideal) (G3 m c) := by
  show (cfg0.win 13).cut (grid0.coords t) ((dats m 0 c).after 13 t) = _
  rw [after_13]
  have h3 : t.val % 4 = 3 := (flush0_13 t).mp hf
  have hN : t.val < 32 := lt_of_lt_of_eq t.isLt N_32
  obtain ⟨i, rfl⟩ : ∃ i : Fin 8, t = pt i 3 := ⟨⟨t.val / 4, by omega⟩, Fin.ext (by show t.val = 4 * (t.val / 4) + 3; omega)⟩
  funext y
  obtain ⟨p, z, rfl⟩ : ∃ (p : Fin 512) (z : Fin 1), y = ix2 p z := ⟨y 0, y 1, eq_ix2 y⟩
  obtain rfl : z = 0 := Subsingleton.elim _ _
  show outAt m c (pt i 3) 3 (ix2 p (0 : Fin 1)) = G3 m c (((cfg0.win 13).blk (pt i 3)).view.emb (ix2 p (0 : Fin 1)))
  rw [out3_apply]
  show Grow3 m c (row i p) = Grow3 m c _
  have hrow : (((cfg0.win 13).blk (pt i 3)).view.emb (ix2 p (0 : Fin 1))) 0 = row i p := Fin.ext (by
    show (cfg0.win 13).index (pt i 3) 0 * (cfg0.win 13).size 0 + 1 * p.val = 512 * i.val + p.val
    rw [idx_13]
    show 512 * ((4 * i.val + 3) / 4) + 1 * p.val = 512 * i.val + p.val
    omega)
  exact congrArg _ hrow.symm

theorem cover_3 (y : S4096x1.Idx) : ∃ t : Fin cfg0.N, (cfg0.win 13).flush t = true ∧ y ∈ ((cfg0.win 13).blk t).view.set := by
  have h0 : (y 0 : ℕ) < 4096 := (y 0).isLt
  have h1 : (y 1 : ℕ) < 1 := (y 1).isLt
  obtain ⟨i, hi⟩ : ∃ i : Fin 8, i.val = (y 0).val / 512 := ⟨⟨(y 0).val / 512, by omega⟩, rfl⟩
  refine ⟨pt i 3, (flush0_13 _).mpr (pt_mod i 3), ?_⟩
  show y ∈ ((View.whole main_v22_3).slice (win0_13.rect (pt i 3))).set
  rw [View.set_slice_whole, Rect.mem_set_unit]
  intro a
  show (cfg0.win 13).index (pt i 3) a * (cfg0.win 13).size a ≤ (y a : ℕ) ∧ (y a : ℕ) < (cfg0.win 13).index (pt i 3) a * (cfg0.win 13).size a + (cfg0.win 13).xsize (cfg0.grid.coords (pt i 3)) a
  rw [idx_13, xsize_13]
  match a with
  | ⟨0, _⟩ => show 512 * ((4 * i.val + 3) / 4) ≤ (y 0 : ℕ) ∧ (y 0 : ℕ) < 512 * ((4 * i.val + 3) / 4) + 512; omega
  | ⟨1, _⟩ => show 0 ≤ (y 1 : ℕ) ∧ (y 1 : ℕ) < 0 + 1; omega

/-- THE VALUE of output 3. -/
theorem final_3 (c : Dev nD) : (dats m 0 c).arrAt 13 cfg0.N = G3 m c :=
  (dats m 0 c).arrAt_eq_of_cover 13 (G3 m c) (fun t hf => flushed_eq_3 m c t hf) cover_3

theorem idx_14 : ∀ (t : Fin cfg0.N) (a : Fin 2), (cfg0.win 14).index t a * (cfg0.win 14).size a = (![512 * (t.val / 4), 0] : Fin 2 → ℕ) a :=
  (by decide +kernel : ∀ (t : Fin grid0.N) (a : Fin 2), win0_14.index t a * win0_14.size a = (![512 * (t.val / 4), 0] : Fin 2 → ℕ) a)
theorem xsize_14 : ∀ (t : Fin cfg0.N) (a : Fin 2), (cfg0.win 14).xsize (cfg0.grid.coords t) a = (![512, 1] : Fin 2 → ℕ) a :=
  (by decide +kernel : ∀ (t : Fin grid0.N) (a : Fin 2), win0_14.xsize (grid0.coords t) a = (![512, 1] : Fin 2 → ℕ) a)

/-- What output 4 ends holding: at row `r`, the greatest squared distance over the columns with the row's label. -/
def Grow4 (c : Dev nD) (r : Fin 4096) : EReal := hardest (sameG m c r) fun s => dist2 (V m c main_v8) (V m c main_v19) (V m c main_v3) (V m c main_v5) r s
def G4 (c : Dev nD) : Buf (Elt Ideal) ((c : Thread nD τ).loc main_v22_4) := fun y => Grow4 m c (y 0)

theorem flushed_eq_4 (c : Dev nD) (t : Fin cfg0.N) (hf : (cfg0.win 14).flush t = true) :
    (dats m 0 c).flushed 14 t = ((cfg0.win 14).blk t).view.read (Elt Ideal) (G4 m c) := by
  show (cfg0.win 14).cut (grid0.coords t) ((dats m 0 c).after 14 t) = _
  rw [after_14]
  have h3 : t.val % 4 = 3 := (flush0_14 t).mp hf
  have hN : t.val < 32 := lt_of_lt_of_eq t.isLt N_32
  obtain ⟨i, rfl⟩ : ∃ i : Fin 8, t = pt i 3 := ⟨⟨t.val / 4, by omega⟩, Fin.ext (by show t.val = 4 * (t.val / 4) + 3; omega)⟩
  funext y
  obtain ⟨p, z, rfl⟩ : ∃ (p : Fin 512) (z : Fin 1), y = ix2 p z := ⟨y 0, y 1, eq_ix2 y⟩
  obtain rfl : z = 0 := Subsingleton.elim _ _
  show outAt m c (pt i 3) 4 (ix2 p (0 : Fin 1)) = G4 m c (((cfg0.win 14).blk (pt i 3)).view.emb (ix2 p (0 : Fin 1)))
  rw [out4_apply]
  show Grow4 m c (row i p) = Grow4 m c _
  have hrow : (((cfg0.win 14).blk (pt i 3)).view.emb (ix2 p (0 : Fin 1))) 0 = row i p := Fin.ext (by
    show (cfg0.win 14).index (pt i 3) 0 * (cfg0.win 14).size 0 + 1 * p.val = 512 * i.val + p.val
    rw [idx_14]
    show 512 * ((4 * i.val + 3) / 4) + 1 * p.val = 512 * i.val + p.val
    omega)
  exact congrArg _ hrow.symm

theorem cover_4 (y : S4096x1.Idx) : ∃ t : Fin cfg0.N, (cfg0.win 14).flush t = true ∧ y ∈ ((cfg0.win 14).blk t).view.set := by
  have h0 : (y 0 : ℕ) < 4096 := (y 0).isLt
  have h1 : (y 1 : ℕ) < 1 := (y 1).isLt
  obtain ⟨i, hi⟩ : ∃ i : Fin 8, i.val = (y 0).val / 512 := ⟨⟨(y 0).val / 512, by omega⟩, rfl⟩
  refine ⟨pt i 3, (flush0_14 _).mpr (pt_mod i 3), ?_⟩
  show y ∈ ((View.whole main_v22_4).slice (win0_14.rect (pt i 3))).set
  rw [View.set_slice_whole, Rect.mem_set_unit]
  intro a
  show (cfg0.win 14).index (pt i 3) a * (cfg0.win 14).size a ≤ (y a : ℕ) ∧ (y a : ℕ) < (cfg0.win 14).index (pt i 3) a * (cfg0.win 14).size a + (cfg0.win 14).xsize (cfg0.grid.coords (pt i 3)) a
  rw [idx_14, xsize_14]
  match a with
  | ⟨0, _⟩ => show 512 * ((4 * i.val + 3) / 4) ≤ (y 0 : ℕ) ∧ (y 0 : ℕ) < 512 * ((4 * i.val + 3) / 4) + 512; omega
  | ⟨1, _⟩ => show 0 ≤ (y 1 : ℕ) ∧ (y 1 : ℕ) < 0 + 1; omega

/-- THE VALUE of output 4. -/
theorem final_4 (c : Dev nD) : (dats m 0 c).arrAt 14 cfg0.N = G4 m c :=
  (dats m 0 c).arrAt_eq_of_cover 14 (G4 m c) (fun t hf => flushed_eq_4 m c t hf) cover_4

theorem idx_15 : ∀ (t : Fin cfg0.N) (a : Fin 2), (cfg0.win 15).index t a * (cfg0.win 15).size a = (![512 * (t.val / 4), 0] : Fin 2 → ℕ) a :=
  (by decide +kernel : ∀ (t : Fin grid0.N) (a : Fin 2), win0_15.index t a * win0_15.size a = (![512 * (t.val / 4), 0] : Fin 2 → ℕ) a)
theorem xsize_15 : ∀ (t : Fin cfg0.N) (a : Fin 2), (cfg0.win 15).xsize (cfg0.grid.coords t) a = (![512, 1] : Fin 2 → ℕ) a :=
  (by decide +kernel : ∀ (t : Fin grid0.N) (a : Fin 2), win0_15.xsize (grid0.coords t) a = (![512, 1] : Fin 2 → ℕ) a)

/-- What output 5 ends holding: at row `r`, the least squared distance over the columns without the row's label. -/
def Grow5 (c : Dev nD) (r : Fin 4096) : EReal := easiest (sameG m c r) fun s => dist2 (V m c main_v11) (V m c main_v19) (V m c main_v4) (V m c main_v5) r s
def G5 (c : Dev nD) : Buf (Elt Ideal) ((c : Thread nD τ).loc main_v22_5) := fun y => Grow5 m c (y 0)

theorem flushed_eq_5 (c : Dev nD) (t : Fin cfg0.N) (hf : (cfg0.win 15).flush t = true) :
    (dats m 0 c).flushed 15 t = ((cfg0.win 15).blk t).view.read (Elt Ideal) (G5 m c) := by
  show (cfg0.win 15).cut (grid0.coords t) ((dats m 0 c).after 15 t) = _
  rw [after_15]
  have h3 : t.val % 4 = 3 := (flush0_15 t).mp hf
  have hN : t.val < 32 := lt_of_lt_of_eq t.isLt N_32
  obtain ⟨i, rfl⟩ : ∃ i : Fin 8, t = pt i 3 := ⟨⟨t.val / 4, by omega⟩, Fin.ext (by show t.val = 4 * (t.val / 4) + 3; omega)⟩
  funext y
  obtain ⟨p, z, rfl⟩ : ∃ (p : Fin 512) (z : Fin 1), y = ix2 p z := ⟨y 0, y 1, eq_ix2 y⟩
  obtain rfl : z = 0 := Subsingleton.elim _ _
  show outAt m c (pt i 3) 5 (ix2 p (0 : Fin 1)) = G5 m c (((cfg0.win 15).blk (pt i 3)).view.emb (ix2 p (0 : Fin 1)))
  rw [out5_apply]
  show Grow5 m c (row i p) = Grow5 m c _
  have hrow : (((cfg0.win 15).blk (pt i 3)).view.emb (ix2 p (0 : Fin 1))) 0 = row i p := Fin.ext (by
    show (cfg0.win 15).index (pt i 3) 0 * (cfg0.win 15).size 0 + 1 * p.val = 512 * i.val + p.val
    rw [idx_15]
    show 512 * ((4 * i.val + 3) / 4) + 1 * p.val = 512 * i.val + p.val
    omega)
  exact congrArg _ hrow.symm

theorem cover_5 (y : S4096x1.Idx) : ∃ t : Fin cfg0.N, (cfg0.win 15).flush t = true ∧ y ∈ ((cfg0.win 15).blk t).view.set := by
  have h0 : (y 0 : ℕ) < 4096 := (y 0).isLt
  have h1 : (y 1 : ℕ) < 1 := (y 1).isLt
  obtain ⟨i, hi⟩ : ∃ i : Fin 8, i.val = (y 0).val / 512 := ⟨⟨(y 0).val / 512, by omega⟩, rfl⟩
  refine ⟨pt i 3, (flush0_15 _).mpr (pt_mod i 3), ?_⟩
  show y ∈ ((View.whole main_v22_5).slice (win0_15.rect (pt i 3))).set
  rw [View.set_slice_whole, Rect.mem_set_unit]
  intro a
  show (cfg0.win 15).index (pt i 3) a * (cfg0.win 15).size a ≤ (y a : ℕ) ∧ (y a : ℕ) < (cfg0.win 15).index (pt i 3) a * (cfg0.win 15).size a + (cfg0.win 15).xsize (cfg0.grid.coords (pt i 3)) a
  rw [idx_15, xsize_15]
  match a with
  | ⟨0, _⟩ => show 512 * ((4 * i.val + 3) / 4) ≤ (y 0 : ℕ) ∧ (y 0 : ℕ) < 512 * ((4 * i.val + 3) / 4) + 512; omega
  | ⟨1, _⟩ => show 0 ≤ (y 1 : ℕ) ∧ (y 1 : ℕ) < 0 + 1; omega

/-- THE VALUE of output 5. -/
theorem final_5 (c : Dev nD) : (dats m 0 c).arrAt 15 cfg0.N = G5 m c :=
  (dats m 0 c).arrAt_eq_of_cover 15 (G5 m c) (fun t hf => flushed_eq_5 m c t hf) cover_5

end Cert.KernelIdeal.Hand

end
-- ==== Proof.Tail.lean ====
import proofs.«123526_j17729624998291_2_alg».proof.ReferenceIdeal
import proofs.«123526_j17729624998291_2_alg».proof.Proof.Gen.ReferenceIdeal

set_option maxRecDepth 16384

noncomputable section

namespace Cert.Tail

open Cert.ReferenceIdeal Cert.ReferenceIdeal.Gen Idealize.ShloMosaic

variable {F : FTy → Type} [FloatOps F]

/-- The margin loss of a pair of mined distance vectors: max(ap − an + 0.3, 0), entry by entry. -/
def lossOf (ap an : (⟨S4096, .f32⟩ : BufTy).Contents (Elt F)) : (⟨S4096, .f32⟩ : BufTy).Contents (Elt F) :=
  maximumf (addf (subf ap an) (broadcastInDim S4096 ![] bcast_S_S4096 (constant S_ .f32 0x3E99999A#32)))
    (broadcastInDim S4096 ![] bcast_S_S4096 (constant S_ .f32 0x00000000#32))

/-- The host's sum of a vector from zero. -/
def sumOf (v : (⟨S4096, .f32⟩ : BufTy).Contents (Elt F)) : (⟨S_, .f32⟩ : BufTy).Contents (Elt F) :=
  Host.reduceAdd v (constant S_ .f32 0x00000000#32) reducesTo_S4096_S_d0 h_S_

/-- The total of the weights exp(loss) over the three pairs. -/
def denomOf (l1 l2 l3 : (⟨S4096, .f32⟩ : BufTy).Contents (Elt F)) : (⟨S_, .f32⟩ : BufTy).Contents (Elt F) :=
  addf (addf (sumOf (Host.exp l1)) (sumOf (Host.exp l2))) (sumOf (Host.exp l3))

/-- One pair's weighted loss: Σ exp(loss)/total · loss. -/
def termOf (l : (⟨S4096, .f32⟩ : BufTy).Contents (Elt F)) (d : (⟨S_, .f32⟩ : BufTy).Contents (Elt F)) : (⟨S_, .f32⟩ : BufTy).Contents (Elt F) :=
  sumOf (mulf (Host.divf (Host.exp l) (broadcastInDim S4096 ![] bcast_S_S4096 d)) l)

/-- The number of rows whose hardest negative is at least as far as the hardest positive. -/
def countOf (ap an : (⟨S4096, .f32⟩ : BufTy).Contents (Elt F)) : (⟨S_, .i32⟩ : BufTy).Contents (Elt F) :=
  Host.reduce IntOp.addi (extui 32 (cmpf .oge an ap) natLt_1_32) (constantI S_ 32 0#32) reducesTo_S4096_S_d0 h_S_

/-- The loss and the count from the six mined distance vectors (hardest positive and hardest negative of each of the
    three pairs): three times the weighted sum of the margin losses, and the rows counted over the three pairs. Both
    programs end with these same host operations. -/
def lossTail (ap1 an1 ap2 an2 ap3 an3 : (⟨S4096, .f32⟩ : BufTy).Contents (Elt F)) :
    (⟨S_, .f32⟩ : BufTy).Contents (Elt F) × (⟨S_, .i32⟩ : BufTy).Contents (Elt F) :=
  (mulf (constant S_ .f32 0x40400000#32)
      (addf (addf (termOf (lossOf ap1 an1) (denomOf (lossOf ap1 an1) (lossOf ap2 an2) (lossOf ap3 an3)))
        (termOf (lossOf ap2 an2) (denomOf (lossOf ap1 an1) (lossOf ap2 an2) (lossOf ap3 an3))))
        (termOf (lossOf ap3 an3) (denomOf (lossOf ap1 an1) (lossOf ap2 an2) (lossOf ap3 an3)))),
   addi (addi (countOf ap1 an1) (countOf ap2 an2)) (countOf ap3 an3))

end Cert.Tail

end
-- ==== Proof.R.Value.lean ====
import proofs.«123526_j17729624998291_2_alg».proof.Proof.Gen.ReferenceIdeal.Read
import proofs.«123526_j17729624998291_2_alg».proof.Proof.Tail
import proofs.«123526_j17729624998291_2_alg».proof.Proof.LibMaskedExtrema
import Idealize.ShloMosaic.PureOps.Ideal.Laws
import Idealize.ShloMosaic.Lib.ValueIdx

set_option maxRecDepth 16384

noncomputable section

namespace Cert.ReferenceIdeal.Hand

open Cert.ReferenceIdeal Cert.ReferenceIdeal.Gen Cert.ReferenceIdeal.Read
open Idealize.ShloMosaic Idealize.ShloMosaic.ValueIdx
open Cert.MaskedExtrema

/-! ## The vocabulary both programs are read in -/

/-- The factor 2 and the small clamp as both programs spell them. -/
abbrev TWO : EReal := Ideal.ofBits .f32 0x40000000#32
abbrev EPS : EReal := Ideal.ofBits .f32 0x2B8CBCCC#32

/-- The squared distance of row `r` of `a` and row `s` of `b`, from their squared norms and their dot product. -/
def DD (na nb : Fin 4096 → EReal) (a b : FVec Ideal S4096x128 .f32) (r s : Fin 4096) : EReal :=
  (na r + nb s) - TWO * ∑ k : Fin 128, a (ix2 r k) * b (ix2 s k)

/-- Clamp below at the small constant, then the square root: monotone, and +∞ at +∞. -/
def clampSqrt (x : EReal) : EReal := Ideal.sqrt (max x EPS)

/-- Rows `r` and `s` carry the same label. -/
def lab (Tg : (⟨S4096, .i32⟩ : BufTy).Contents (Elt Ideal)) (r s : Fin 4096) : Prop := Tg (ix1 r) = Tg (ix1 s)
instance (Tg : (⟨S4096, .i32⟩ : BufTy).Contents (Elt Ideal)) (r : Fin 4096) : DecidablePred (lab Tg r) := fun _ => by unfold lab; infer_instance

theorem neg_eq_bot : (Ideal.ofBits .f32 0xFF800000#32 : EReal) = ⊥ := by simp [Ideal.ofBits, Ideal.ieee]
theorem pos_eq_top : (Ideal.ofBits .f32 0x7F800000#32 : EReal) = ⊤ := by simp [Ideal.ofBits, Ideal.ieee]

theorem sel_eq {α : Type} {w : ℕ} (u v : BitVec w) (a b : α) : Scalar.select (IntOp.cmpi .eq u v) a b = if u = v then a else b := by
  by_cases h : u = v
  · subst h; simp [Scalar.select, IntOp.cmpi]
  · have hb : (u == v) = false := by simpa using h
    simp [Scalar.select, IntOp.cmpi, hb]
    exact fun e => absurd e h

/-- The host's maximum along the rows of a matrix, from an initial value, at row `p`. -/
theorem rowMax_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩) (hu : 0 < (⟨0, ![]⟩ : Shape).numel) (p : Fin a) :
    Host.reduce FloatOps.maximumf x init h' hu (ix1 p)
      = (Finset.univ : Finset (Fin b)).fold max (init (Shape.Idx.first hu)) (fun q : Fin b => x (ix2 p q)) := by
  refine (Host.reduce_eq_fold_single FloatOps.maximumf x init h' h hu (ix1 p)).trans ?_
  refine congrArg (fun f => Finset.fold max _ f Finset.univ) (funext fun l => congrArg x (funext fun e => Fin.ext ?_))
  match e with
  | ⟨0, _⟩ => rfl
  | ⟨1, _⟩ => rfl

theorem rowMin_apply {a b : ℕ} (x : FVec Ideal ⟨2, ![a, b]⟩ .f32) (init : FVec Ideal ⟨0, ![]⟩ .f32)
    (h' : Shape.ReducesTo ⟨2, ![a, b]⟩ [1] ⟨1, ![a]⟩) (h : Shape.Reduces ⟨2, ![a, b]⟩ [1] ⟨1, ![a]⟩) (hu : 0 < (⟨0, ![]⟩ : Shape).numel) (p : Fin a) :
    Host.reduce FloatOps.minimumf x init h' hu (ix1 p)
      = (Finset.univ : Finset (Fin b)).fold min (init (Shape.Idx.first hu)) (fun q : Fin b => x (ix2 p q)) := by
  refine (Host.reduce_eq_fold_single FloatOps.minimumf x init h' h hu (ix1 p)).trans ?_
  refine congrArg (fun f => Finset.fold min _ f Finset.univ) (funext fun l => congrArg x (funext fun e => Fin.ext ?_))
  match e with
  | ⟨0, _⟩ => rfl
  | ⟨1, _⟩ => rfl

variable (X : (⟨S12288x128, .f32⟩ : BufTy).Contents (Elt Ideal)) (Tg : (⟨S4096, .i32⟩ : BufTy).Contents (Elt Ideal))

/-! ## The reference's three distance matrices and its mask, entry by entry -/

/-- The reference's squared-distance matrix 1, at (r, s). -/
theorem d2_1 (r s : Fin 4096) : val_main_v17 (F := Ideal) X (ix2 r s)
    = DD (fun r => val_main_v4 (F := Ideal) X (ix1 r)) (fun s => val_main_v7 (F := Ideal) X (ix1 s)) (val_main_v0 (F := Ideal) X) (val_main_v1 (F := Ideal) X) r s := by
  rw [val_main_v17_apply, val_main_v12_apply, val_main_v16_apply, val_main_v10_apply, val_main_v5_apply,
    val_main_v11_apply, val_main_v9_apply, val_main_v8_apply, val_main_v15_apply, val_main_cst_1_apply, val_main_v14_apply]
  unfold DD
  have e1 : idx_main_v5 (idx_main_v10 (ix2 r s)) = ix1 r := (funext fun a => Fin.ext (by match a with | ⟨0, _⟩ => rfl))
  have e2 : idx_main_v8 (idx_main_v9 (idx_main_v11 (ix2 r s))) = ix1 s := (funext fun a => Fin.ext (by match a with | ⟨0, _⟩ => rfl))
  rw [e1, e2]
  have e3 : ∀ k : Fin 128, val_main_v0 (F := Ideal) X (lidx_main_v14 (ix2 r s) k) * val_main_v13 (F := Ideal) X (ridx_main_v14 (ix2 r s) k)
      = val_main_v0 (F := Ideal) X (ix2 r k) * val_main_v1 (F := Ideal) X (ix2 s k) := fun k => by
    rw [val_main_v13_apply]
    have ea : lidx_main_v14 (ix2 r s) k = ix2 r k := (funext fun a => Fin.ext (by match a with | ⟨0, _⟩ => rfl | ⟨1, _⟩ => rfl))
    have eb : idx_main_v13 (ridx_main_v14 (ix2 r s) k) = ix2 s k := (funext fun a => Fin.ext (by match a with | ⟨0, _⟩ => rfl | ⟨1, _⟩ => rfl))
    rw [ea, eb]
  simp only [e3]
  rfl

/-- and after the clamp and the square root. -/
theorem dist_1 (r s : Fin 4096) : val_main_v20 (F := Ideal) X (ix2 r s)
    = clampSqrt (DD (fun r => val_main_v4 (F := Ideal) X (ix1 r)) (fun s => val_main_v7 (F := Ideal) X (ix1 s)) (val_main_v0 (F := Ideal) X) (val_main_v1 (F := Ideal) X) r s) := by
  rw [val_main_v20_apply, val_main_v19_apply, val_main_v18_apply, val_main_cst_2_apply, d2_1]
  rfl

/-- The reference's squared-distance matrix 2, at (r, s). -/
theorem d2_2 (r s : Fin 4096) : val_main_v35 (F := Ideal) X (ix2 r s)
    = DD (fun r => val_main_v7 (F := Ideal) X (ix1 r)) (fun s => val_main_v25 (F := Ideal) X (ix1 s)) (val_main_v1 (F := Ideal) X) (val_main_v2 (F := Ideal) X) r s := by
  rw [val_main_v35_apply, val_main_v30_apply, val_main_v34_apply, val_main_v28_apply, val_main_v23_apply,
    val_main_v29_apply, val_main_v27_apply, val_main_v26_apply, val_main_v33_apply, val_main_cst_5_apply, val_main_v32_apply]
  unfold DD
  have e1 : idx_main_v23 (idx_main_v28 (ix2 r s)) = ix1 r := (funext fun a => Fin.ext (by match a with | ⟨0, _⟩ => rfl))
  have e2 : idx_main_v26 (idx_main_v27 (idx_main_v29 (ix2 r s))) = ix1 s := (funext fun a => Fin.ext (by match a with | ⟨0, _⟩ => rfl))
  rw [e1, e2]
  have e3 : ∀ k : Fin 128, val_main_v1 (F := Ideal) X (lidx_main_v32 (ix2 r s) k) * val_main_v31 (F := Ideal) X (ridx_main_v32 (ix2 r s) k)
      = val_main_v1 (F := Ideal) X (ix2 r k) * val_main_v2 (F := Ideal) X (ix2 s k) := fun k => by
    rw [val_main_v31_apply]
    have ea : lidx_main_v32 (ix2 r s) k = ix2 r k := (funext fun a => Fin.ext (by match a with | ⟨0, _⟩ => rfl | ⟨1, _⟩ => rfl))
    have eb : idx_main_v31 (ridx_main_v32 (ix2 r s) k) = ix2 s k := (funext fun a => Fin.ext (by match a with | ⟨0, _⟩ => rfl | ⟨1, _⟩ => rfl))
    rw [ea, eb]
  simp only [e3]
  rw [show val_main_v22 (F := Ideal) X = val_main_v7 (F := Ideal) X from rfl]
  rfl

/-- and after the clamp and the square root. -/
theorem dist_2 (r s : Fin 4096) : val_main_v38 (F := Ideal) X (ix2 r s)
    = clampSqrt (DD (fun r => val_main_v7 (F := Ideal) X (ix1 r)) (fun s => val_main_v25 (F := Ideal) X (ix1 s)) (val_main_v1 (F := Ideal) X) (val_main_v2 (F := Ideal) X) r s) := by
  rw [val_main_v38_apply, val_main_v37_apply, val_main_v36_apply, val_main_cst_6_apply, d2_2]
  rfl

/-- The reference's squared-distance matrix 3, at (r, s). -/
theorem d2_3 (r s : Fin 4096) : val_main_v53 (F := Ideal) X (ix2 r s)
    = DD (fun r => val_main_v4 (F := Ideal) X (ix1 r)) (fun s => val_main_v25 (F := Ideal) X (ix1 s)) (val_main_v0 (F := Ideal) X) (val_main_v2 (F := Ideal) X) r s := by
  rw [val_main_v53_apply, val_main_v48_apply, val_main_v52_apply, val_main_v46_apply, val_main_v41_apply,
    val_main_v47_apply, val_main_v45_apply, val_main_v44_apply, val_main_v51_apply, val_main_cst_9_apply, val_main_v50_apply]
  unfold DD
  have e1 : idx_main_v41 (idx_main_v46 (ix2 r s)) = ix1 r := (funext fun a => Fin.ext (by match a with | ⟨0, _⟩ => rfl))
  have e2 : idx_main_v44 (idx_main_v45 (idx_main_v47 (ix2 r s))) = ix1 s := (funext fun a => Fin.ext (by match a with | ⟨0, _⟩ => rfl))
  rw [e1, e2]
  have e3 : ∀ k : Fin 128, val_main_v0 (F := Ideal) X (lidx_main_v50 (ix2 r s) k) * val_main_v49 (F := Ideal) X (ridx_main_v50 (ix2 r s) k)
      = val_main_v0 (F := Ideal) X (ix2 r k) * val_main_v2 (F := Ideal) X (ix2 s k) := fun k => by
    rw [val_main_v49_apply]
    have ea : lidx_main_v50 (ix2 r s) k = ix2 r k := (funext fun a => Fin.ext (by match a with | ⟨0, _⟩ => rfl | ⟨1, _⟩ => rfl))
    have eb : idx_main_v49 (ridx_main_v50 (ix2 r s) k) = ix2 s k := (funext fun a => Fin.ext (by match a with | ⟨0, _⟩ => rfl | ⟨1, _⟩ => rfl))
    rw [ea, eb]
  simp only [e3]
  rw [show val_main_v40 (F := Ideal) X = val_main_v4 (F := Ideal) X from rfl, show val_main_v43 (F := Ideal) X = val_main_v25 (F := Ideal) X from rfl]
  rfl

/-- and after the clamp and the square root. -/
theorem dist_3 (r s : Fin 4096) : val_main_v56 (F := Ideal) X (ix2 r s)
    = clampSqrt (DD (fun r => val_main_v4 (F := Ideal) X (ix1 r)) (fun s => val_main_v25 (F := Ideal) X (ix1 s)) (val_main_v0 (F := Ideal) X) (val_main_v2 (F := Ideal) X) r s) := by
  rw [val_main_v56_apply, val_main_v55_apply, val_main_v54_apply, val_main_cst_10_apply, d2_3]
  rfl

theorem mask_apply (r s : Fin 4096) : val_main_v61 (F := Ideal) Tg (ix2 r s) = IntOp.cmpi .eq (Tg (ix1 r)) (Tg (ix1 s)) := by
  rw [val_main_v61_apply, val_main_v59_apply, val_main_v60_apply, val_main_v57_apply, val_main_v58_apply]
  have e1 : idx_main_v57 (idx_main_v59 (ix2 r s)) = ix1 r := (funext fun a => Fin.ext (by match a with | ⟨0, _⟩ => rfl))
  have e2 : idx_main_v58 (idx_main_v60 (ix2 r s)) = ix1 s := (funext fun a => Fin.ext (by match a with | ⟨0, _⟩ => rfl))
  rw [e1, e2]

/-! ## The six mined vectors of the reference -/

/-- The reference's ap1, at row r. -/
theorem ref_ap1 (r : Fin 4096) : val_main_v63 (F := Ideal) X Tg (ix1 r)
    = hardest (lab Tg r) fun s => clampSqrt (DD (fun r => val_main_v4 (F := Ideal) X (ix1 r)) (fun s => val_main_v7 (F := Ideal) X (ix1 s)) (val_main_v0 (F := Ideal) X) (val_main_v1 (F := Ideal) X) r s) := by
  unfold val_main_v63
  rw [rowMax_apply (val_main_v62 (F := Ideal) X Tg) (val_main_cst_12 (F := Ideal)) reducesTo_S4096x4096_S4096_d1 (by decide) h_S_ r]
  rw [val_main_cst_12_apply]
  unfold hardest lab
  rw [show (FloatOps.ofBits .f32 0xFF800000#32 : Ideal .f32) = (⊥ : EReal) from neg_eq_bot]
  refine congrArg (fun f => Finset.fold max ⊥ f Finset.univ) (funext fun s => ?_)
  rw [val_main_v62_apply, mask_apply, sel_eq, val_main_call0_v1_apply, val_main_call0_v0_apply, val_main_cst_11_apply, dist_1]
  rw [show (FloatOps.ofBits .f32 0xFF800000#32 : Ideal .f32) = (⊥ : EReal) from neg_eq_bot]

/-- The reference's an1, at row r. -/
theorem ref_an1 (r : Fin 4096) : val_main_v65 (F := Ideal) X Tg (ix1 r)
    = easiest (lab Tg r) fun s => clampSqrt (DD (fun r => val_main_v4 (F := Ideal) X (ix1 r)) (fun s => val_main_v25 (F := Ideal) X (ix1 s)) (val_main_v0 (F := Ideal) X) (val_main_v2 (F := Ideal) X) r s) := by
  unfold val_main_v65
  rw [rowMin_apply (val_main_v64 (F := Ideal) X Tg) (val_main_cst_14 (F := Ideal)) reducesTo_S4096x4096_S4096_d1 (by decide) h_S_ r]
  rw [val_main_cst_14_apply]
  unfold easiest lab
  rw [show (FloatOps.ofBits .f32 0x7F800000#32 : Ideal .f32) = (⊤ : EReal) from pos_eq_top]
  refine congrArg (fun f => Finset.fold min ⊤ f Finset.univ) (funext fun s => ?_)
  rw [val_main_v64_apply, mask_apply, sel_eq, val_main_call1_v1_apply, val_main_call1_v0_apply, val_main_cst_13_apply, dist_3]
  rw [show (FloatOps.ofBits .f32 0x7F800000#32 : Ideal .f32) = (⊤ : EReal) from pos_eq_top]

/-- The reference's ap2, at row r. -/
theorem ref_ap2 (r : Fin 4096) : val_main_v67 (F := Ideal) X Tg (ix1 r)
    = hardest (lab Tg r) fun s => clampSqrt (DD (fun r => val_main_v7 (F := Ideal) X (ix1 r)) (fun s => val_main_v25 (F := Ideal) X (ix1 s)) (val_main_v1 (F := Ideal) X) (val_main_v2 (F := Ideal) X) r s) := by
  unfold val_main_v67
  rw [rowMax_apply (val_main_v66 (F := Ideal) X Tg) (val_main_cst_16 (F := Ideal)) reducesTo_S4096x4096_S4096_d1 (by decide) h_S_ r]
  rw [val_main_cst_16_apply]
  unfold hardest lab
  rw [show (FloatOps.ofBits .f32 0xFF800000#32 : Ideal .f32) = (⊥ : EReal) from neg_eq_bot]
  refine congrArg (fun f => Finset.fold max ⊥ f Finset.univ) (funext fun s => ?_)
  rw [val_main_v66_apply, mask_apply, sel_eq, val_main_call2_v1_apply, val_main_call2_v0_apply, val_main_cst_15_apply, dist_2]
  rw [show (FloatOps.ofBits .f32 0xFF800000#32 : Ideal .f32) = (⊥ : EReal) from neg_eq_bot]

/-- The reference's an2, at row r. -/
theorem ref_an2 (r : Fin 4096) : val_main_v69 (F := Ideal) X Tg (ix1 r)
    = easiest (lab Tg r) fun s => clampSqrt (DD (fun r => val_main_v4 (F := Ideal) X (ix1 r)) (fun s => val_main_v7 (F := Ideal) X (ix1 s)) (val_main_v0 (F := Ideal) X) (val_main_v1 (F := Ideal) X) r s) := by
  unfold val_main_v69
  rw [rowMin_apply (val_main_v68 (F := Ideal) X Tg) (val_main_cst_18 (F := Ideal)) reducesTo_S4096x4096_S4096_d1 (by decide) h_S_ r]
  rw [val_main_cst_18_apply]
  unfold easiest lab
  rw [show (FloatOps.ofBits .f32 0x7F800000#32 : Ideal .f32) = (⊤ : EReal) from pos_eq_top]
  refine congrArg (fun f => Finset.fold min ⊤ f Finset.univ) (funext fun s => ?_)
  rw [val_main_v68_apply, mask_apply, sel_eq, val_main_call3_v1_apply, val_main_call3_v0_apply, val_main_cst_17_apply, dist_1]
  rw [show (FloatOps.ofBits .f32 0x7F800000#32 : Ideal .f32) = (⊤ : EReal) from pos_eq_top]

/-- The reference's ap3, at row r. -/
theorem ref_ap3 (r : Fin 4096) : val_main_v71 (F := Ideal) X Tg (ix1 r)
    = hardest (lab Tg r) fun s => clampSqrt (DD (fun r => val_main_v4 (F := Ideal) X (ix1 r)) (fun s => val_main_v25 (F := Ideal) X (ix1 s)) (val_main_v0 (F := Ideal) X) (val_main_v2 (F := Ideal) X) r s) := by
  unfold val_main_v71
  rw [rowMax_apply (val_main_v70 (F := Ideal) X Tg) (val_main_cst_20 (F := Ideal)) reducesTo_S4096x4096_S4096_d1 (by decide) h_S_ r]
  rw [val_main_cst_20_apply]
  unfold hardest lab
  rw [show (FloatOps.ofBits .f32 0xFF800000#32 : Ideal .f32) = (⊥ : EReal) from neg_eq_bot]
  refine congrArg (fun f => Finset.fold max ⊥ f Finset.univ) (funext fun s => ?_)
  rw [val_main_v70_apply, mask_apply, sel_eq, val_main_call4_v1_apply, val_main_call4_v0_apply, val_main_cst_19_apply, dist_3]
  rw [show (FloatOps.ofBits .f32 0xFF800000#32 : Ideal .f32) = (⊥ : EReal) from neg_eq_bot]

/-- The reference's an3, at row r. -/
theorem ref_an3 (r : Fin 4096) : val_main_v73 (F := Ideal) X Tg (ix1 r)
    = easiest (lab Tg r) fun s => clampSqrt (DD (fun r => val_main_v7 (F := Ideal) X (ix1 r)) (fun s => val_main_v25 (F := Ideal) X (ix1 s)) (val_main_v1 (F := Ideal) X) (val_main_v2 (F := Ideal) X) r s) := by
  unfold val_main_v73
  rw [rowMin_apply (val_main_v72 (F := Ideal) X Tg) (val_main_cst_22 (F := Ideal)) reducesTo_S4096x4096_S4096_d1 (by decide) h_S_ r]
  rw [val_main_cst_22_apply]
  unfold easiest lab
  rw [show (FloatOps.ofBits .f32 0x7F800000#32 : Ideal .f32) = (⊤ : EReal) from pos_eq_top]
  refine congrArg (fun f => Finset.fold min ⊤ f Finset.univ) (funext fun s => ?_)
  rw [val_main_v72_apply, mask_apply, sel_eq, val_main_call5_v1_apply, val_main_call5_v0_apply, val_main_cst_21_apply, dist_2]
  rw [show (FloatOps.ofBits .f32 0x7F800000#32 : Ideal .f32) = (⊤ : EReal) from pos_eq_top]

/-! ## The reference's results from its six mined vectors -/

theorem result_f : val_main_v122 (F := Ideal) X Tg
    = (Cert.Tail.lossTail (val_main_v63 (F := Ideal) X Tg) (val_main_v65 (F := Ideal) X Tg) (val_main_v67 (F := Ideal) X Tg)
        (val_main_v69 (F := Ideal) X Tg) (val_main_v71 (F := Ideal) X Tg) (val_main_v73 (F := Ideal) X Tg)).1 := rfl
theorem result_i : val_main_v121 (F := Ideal) X Tg
    = (Cert.Tail.lossTail (val_main_v63 (F := Ideal) X Tg) (val_main_v65 (F := Ideal) X Tg) (val_main_v67 (F := Ideal) X Tg)
        (val_main_v69 (F := Ideal) X Tg) (val_main_v71 (F := Ideal) X Tg) (val_main_v73 (F := Ideal) X Tg)).2 := rfl

end Cert.ReferenceIdeal.Hand

end
-- ==== Proof.KI.Prefix.lean ====
import proofs.«123526_j17729624998291_2_alg».proof.Proof.KI.Final
import proofs.«123526_j17729624998291_2_alg».proof.Proof.R.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Cert.MaskedExtrema
open Cert.ReferenceIdeal.Hand (DD lab clampSqrt)

variable (m : (ℓ : Loc nD τ sig) → Buf (Elt Ideal) ℓ)

/-! ## The arrays the region finds, from the two arguments -/

/-- The two argument arrays of core `c`. -/
abbrev argX (c : Dev nD) : FVec Ideal S12288x128 .f32 := m ((c.tc : Thread nD τ).loc main_arg0)
abbrev argT (c : Dev nD) : IVec S4096 32 := m ((c.tc : Thread nD τ).loc main_arg1)

theorem arr3 (c : Dev nD) : V m c main_v3 = truncf (F := Ideal) .bf16 (Cert.ReferenceIdeal.Read.val_main_v0 (F := Ideal) (argX m c)) bitsLt_bf16_f32 := by
  show StableHlo.after (hostOps0 ++ []) (fun b => m (c, b)) (Proc.devRef .tc main_v3) = _
  rw [List.append_nil]; after_results; rfl
theorem arr4 (c : Dev nD) : V m c main_v4 = truncf (F := Ideal) .bf16 (Cert.ReferenceIdeal.Read.val_main_v1 (F := Ideal) (argX m c)) bitsLt_bf16_f32 := by
  show StableHlo.after (hostOps0 ++ []) (fun b => m (c, b)) (Proc.devRef .tc main_v4) = _
  rw [List.append_nil]; after_results; rfl
theorem arr5 (c : Dev nD) : V m c main_v5 = truncf (F := Ideal) .bf16 (Cert.ReferenceIdeal.Read.val_main_v2 (F := Ideal) (argX m c)) bitsLt_bf16_f32 := by
  show StableHlo.after (hostOps0 ++ []) (fun b => m (c, b)) (Proc.devRef .tc main_v5) = _
  rw [List.append_nil]; after_results; rfl
theorem arr8 (c : Dev nD) : V m c main_v8 = Cert.ReferenceIdeal.Read.val_main_v5 (F := Ideal) (argX m c) := by
  show StableHlo.after (hostOps0 ++ []) (fun b => m (c, b)) (Proc.devRef .tc main_v8) = _
  rw [List.append_nil]; after_results; rfl
theorem arr11 (c : Dev nD) : V m c main_v11 = Cert.ReferenceIdeal.Read.val_main_v8 (F := Ideal) (argX m c) := by
  show StableHlo.after (hostOps0 ++ []) (fun b => m (c, b)) (Proc.devRef .tc main_v11) = _
  rw [List.append_nil]; after_results; rfl
theorem arr15 (c : Dev nD) : V m c main_v15 = shapeCast S1x4096 (Cert.ReferenceIdeal.Read.val_main_v8 (F := Ideal) (argX m c)) shapeCasts_S4096x1_S1x4096 := by
  show StableHlo.after (hostOps0 ++ []) (fun b => m (c, b)) (Proc.devRef .tc main_v15) = _
  rw [List.append_nil]; after_results; rfl
theorem arr19 (c : Dev nD) : V m c main_v19 = shapeCast S1x4096 (Cert.ReferenceIdeal.Read.val_main_v26 (F := Ideal) (argX m c)) shapeCasts_S4096x1_S1x4096 := by
  show StableHlo.after (hostOps0 ++ []) (fun b => m (c, b)) (Proc.devRef .tc main_v19) = _
  rw [List.append_nil]; after_results; rfl
theorem arr20 (c : Dev nD) : V m c main_v20 = shapeCast S4096x1 (argT m c) shapeCasts_S4096_S4096x1 := by
  show StableHlo.after (hostOps0 ++ []) (fun b => m (c, b)) (Proc.devRef .tc main_v20) = _
  rw [List.append_nil]; after_results; rfl
theorem arr21 (c : Dev nD) : V m c main_v21 = shapeCast S1x4096 (argT m c) shapeCasts_S4096_S1x4096 := by
  show StableHlo.after (hostOps0 ++ []) (fun b => m (c, b)) (Proc.devRef .tc main_v21) = _
  rw [List.append_nil]; after_results; rfl

/-! ## Their entries -/

theorem a3_apply (c : Dev nD) (r : Fin 4096) (k : Fin 128) : V m c main_v3 (ix2 r k) = Cert.ReferenceIdeal.Read.val_main_v0 (F := Ideal) (argX m c) (ix2 r k) := by
  rw [arr3]; rfl
theorem a4_apply (c : Dev nD) (r : Fin 4096) (k : Fin 128) : V m c main_v4 (ix2 r k) = Cert.ReferenceIdeal.Read.val_main_v1 (F := Ideal) (argX m c) (ix2 r k) := by
  rw [arr4]; rfl
theorem a5_apply (c : Dev nD) (r : Fin 4096) (k : Fin 128) : V m c main_v5 (ix2 r k) = Cert.ReferenceIdeal.Read.val_main_v2 (F := Ideal) (argX m c) (ix2 r k) := by
  rw [arr5]; rfl

theorem c8_apply (c : Dev nD) (r : Fin 4096) : V m c main_v8 (ix2 r (0 : Fin 1)) = Cert.ReferenceIdeal.Read.val_main_v4 (F := Ideal) (argX m c) (ix1 r) := by
  rw [arr8, Cert.ReferenceIdeal.Read.val_main_v5_apply]
  exact congrArg _ (funext fun a => Fin.ext (by match a with | ⟨0, _⟩ => rfl))
theorem c11_apply (c : Dev nD) (r : Fin 4096) : V m c main_v11 (ix2 r (0 : Fin 1)) = Cert.ReferenceIdeal.Read.val_main_v7 (F := Ideal) (argX m c) (ix1 r) := by
  rw [arr11, Cert.ReferenceIdeal.Read.val_main_v8_apply]
  exact congrArg _ (funext fun a => Fin.ext (by match a with | ⟨0, _⟩ => rfl))

theorem r15_apply (c : Dev nD) (s : Fin 4096) : V m c main_v15 (ix2 (0 : Fin 1) s) = Cert.ReferenceIdeal.Read.val_main_v7 (F := Ideal) (argX m c) (ix1 s) := by
  rw [arr15, shapeCast_apply _ shapeCasts_S4096x1_S1x4096 (ix2 (0 : Fin 1) s) (ix2 s (0 : Fin 1)) (by
    rw [Shape.rowMajor_val_two, Shape.rowMajor_val_two]; show s.val * 1 + 0 = 0 * 4096 + s.val; omega), Cert.ReferenceIdeal.Read.val_main_v8_apply]
  exact congrArg _ (funext fun a => Fin.ext (by match a with | ⟨0, _⟩ => rfl))
theorem r19_apply (c : Dev nD) (s : Fin 4096) : V m c main_v19 (ix2 (0 : Fin 1) s) = Cert.ReferenceIdeal.Read.val_main_v25 (F := Ideal) (argX m c) (ix1 s) := by
  rw [arr19, shapeCast_apply _ shapeCasts_S4096x1_S1x4096 (ix2 (0 : Fin 1) s) (ix2 s (0 : Fin 1)) (by
    rw [Shape.rowMajor_val_two, Shape.rowMajor_val_two]; show s.val * 1 + 0 = 0 * 4096 + s.val; omega), Cert.ReferenceIdeal.Read.val_main_v26_apply]
  exact congrArg _ (funext fun a => Fin.ext (by match a with | ⟨0, _⟩ => rfl))

theorem t20_apply (c : Dev nD) (r : Fin 4096) : V m c main_v20 (ix2 r (0 : Fin 1)) = argT m c (ix1 r) := by
  rw [arr20]
  exact shapeCast_apply _ shapeCasts_S4096_S4096x1 (ix2 r (0 : Fin 1)) (ix1 r) (by
    rw [Shape.rowMajor_val_one, Shape.rowMajor_val_two]; show r.val = r.val * 1 + 0; omega)
theorem t21_apply (c : Dev nD) (s : Fin 4096) : V m c main_v21 (ix2 (0 : Fin 1) s) = argT m c (ix1 s) := by
  rw [arr21]
  exact shapeCast_apply _ shapeCasts_S4096_S1x4096 (ix2 (0 : Fin 1) s) (ix1 s) (by
    rw [Shape.rowMajor_val_one, Shape.rowMajor_val_two]; show s.val = 0 * 4096 + s.val; omega)

/-! ## The region's six result columns in the common vocabulary -/

theorem sameG_iff (c : Dev nD) (r s : Fin 4096) : sameG m c r s ↔ lab (argT m c) r s := by
  unfold sameG lab; rw [t20_apply, t21_apply]

end Cert.KernelIdeal.Hand

end
-- ==== Proof.KI.Frame.lean ====
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.KI.Launch
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (arrRef arrBufs restRefs withArrays)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays end as launched -/

theorem hostOps0_keeps_args : (hostOps0 : List (HloOp τ sig (Elt F))).Forall fun op =>
    Proc.devRef .tc main_arg0 ∉ op.writes ∧ Proc.devRef .tc main_arg1 ∉ op.writes := by
  simp only [List.Forall]
  repeat' constructor
  all_goals (simp only [StableHlo.nullary_writes, StableHlo.unary_writes, StableHlo.binary_writes, StableHlo.reshape_writes, Finset.mem_singleton]; exact StableHlo.devRef_ne_of_ne (by decide))

set_option maxHeartbeats 8000000 in
theorem hostOps1_keeps_args : (hostOps1 : List (HloOp τ sig (Elt F))).Forall fun op =>
    Proc.devRef .tc main_arg0 ∉ op.writes ∧ Proc.devRef .tc main_arg1 ∉ op.writes := by
  simp only [List.Forall]
  repeat' constructor
  all_goals (simp only [StableHlo.nullary_writes, StableHlo.unary_writes, StableHlo.binary_writes, StableHlo.reshape_writes, Finset.mem_singleton]; exact StableHlo.devRef_ne_of_ne (by decide))

theorem arg0_rest : main_arg0 ∈ restRefs sig spec0 := by decide
theorem arg1_rest : main_arg1 ∈ restRefs sig spec0 := by decide

/-- A buffer that is no array of the pipeline and that no host operation writes ends as launched. -/
theorem final_kept (c : Dev nD) (b : Ref sig .tc) (hW : ∀ w, arrRef spec0 w ≠ b)
    (h0 : ∀ op ∈ (hostOps0 : List (HloOp τ sig (Elt F))), Proc.devRef .tc b ∉ op.writes)
    (h1 : ∀ op ∈ (hostOps1 : List (HloOp τ sig (Elt F))), Proc.devRef .tc b ∉ op.writes) :
    Cert.SharedFrame.finalAt (W m) [hostOps1] c b = m ((c.tc : Thread nD τ).loc b) := by
  show StableHlo.after (hostOps1 ++ []) (W m c) (Proc.devRef .tc b) = _
  rw [List.append_nil, StableHlo.after_of_forall_not_mem _ _ h1]
  refine (Pipeline.withArrays_of_ne spec0 c _ _ b hW).trans ?_
  show StableHlo.after (hostOps0 ++ []) (fun b => m (c, b)) (Proc.devRef .tc b) = _
  rw [List.append_nil, StableHlo.after_of_forall_not_mem _ _ h0]

/-- THE FRAME: every weakly fair execution of @main terminates, nothing faults, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 arg0_rest).trans (final_kept m c main_arg0 (by decide)
        (fun op hop => ((List.forall_iff_forall_mem.mp hostOps0_keeps_args) op hop).1)
        (fun op hop => ((List.forall_iff_forall_mem.mp hostOps1_keeps_args) op hop).1)),
     ((h c).2 main_arg1 arg1_rest).trans (final_kept m c main_arg1 (by decide)
        (fun op hop => ((List.forall_iff_forall_mem.mp hostOps0_keeps_args) op hop).2)
        (fun op hop => ((List.forall_iff_forall_mem.mp hostOps1_keeps_args) op hop).2))⟩) (run_main m ρ)

end Cert.KernelIdeal.Hand

end
-- ==== Proof.KI.TailA.lean ====
import proofs.«123526_j17729624998291_2_alg».proof.Proof.KI.Final
import proofs.«123526_j17729624998291_2_alg».proof.Proof.KI.Frame
import proofs.«123526_j17729624998291_2_alg».proof.Proof.Tail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.ShloMosaic.Pipeline (Dat arrRef)

variable {F : FTy → Type} [FloatOps F]

/-! ## The host operations after the region, in two stretches -/

/-- The first thirty: each result column as a vector, clamped below and square-rooted. -/
abbrev tailA : List (HloOp τ sig (Elt F)) :=
  [ StableHlo.reshape main_v22_0 main_v23 rfl shapeCasts_S4096x1_S4096,
    StableHlo.reshape main_v22_1 main_v24 rfl shapeCasts_S4096x1_S4096,
    StableHlo.reshape main_v22_2 main_v25 rfl shapeCasts_S4096x1_S4096,
    StableHlo.reshape main_v22_3 main_v26 rfl shapeCasts_S4096x1_S4096,
    StableHlo.reshape main_v22_4 main_v27 rfl shapeCasts_S4096x1_S4096,
    StableHlo.reshape main_v22_5 main_v28 rfl shapeCasts_S4096x1_S4096,
    StableHlo.nullary main_cst_3 (constant S_ .f32 0x2B8CBCCC#32),
    StableHlo.unary main_cst_3 main_v29 (broadcastInDim S4096 ![] bcast_S_S4096 : (⟨S_, .f32⟩ : BufTy).Contents (Elt F) → (⟨S4096, .f32⟩ : BufTy).Contents (Elt F)),
    StableHlo.binary main_v23 main_v29 main_v30 (maximumf : (⟨S4096, .f32⟩ : BufTy).Contents (Elt F) → (⟨S4096, .f32⟩ : BufTy).Contents (Elt F) → (⟨S4096, .f32⟩ : BufTy).Contents (Elt F)),
    StableHlo.unary main_v30 main_v31 (Host.sqrt : (⟨S4096, .f32⟩ : BufTy).Contents (Elt F) → (⟨S4096, .f32⟩ : BufTy).Contents (Elt F)),
    StableHlo.nullary main_cst_4 (constant S_ .f32 0x2B8CBCCC#32),
    StableHlo.unary main_cst_4 main_v32 (broadcastInDim S4096 ![] bcast_S_S4096 : (⟨S_, .f32⟩ : BufTy).Contents (Elt F) → (⟨S4096, .f32⟩ : BufTy).Contents (Elt F)),
    StableHlo.binary main_v24 main_v32 main_v33 (maximumf : (⟨S4096, .f32⟩ : BufTy).Contents (Elt F) → (⟨S4096, .f32⟩ : BufTy).Contents (Elt F) → (⟨S4096, .f32⟩ : BufTy).Contents (Elt F)),
    StableHlo.unary main_v33 main_v34 (Host.sqrt : (⟨S4096, .f32⟩ : BufTy).Contents (Elt F) → (⟨S4096, .f32⟩ : BufTy).Contents (Elt F)),
    StableHlo.nullary main_cst_5 (constant S_ .f32 0x2B8CBCCC#32),
    StableHlo.unary main_cst_5 main_v35 (broadcastInDim S4096 ![] bcast_S_S4096 : (⟨S_, .f32⟩ : BufTy).Contents (Elt F) → (⟨S4096, .f32⟩ : BufTy).Contents (Elt F)),
    StableHlo.binary main_v25 main_v35 main_v36 (maximumf : (⟨S4096, .f32⟩ : BufTy).Contents (Elt F) → (⟨S4096, .f32⟩ : BufTy).Contents (Elt F) → (⟨S4096, .f32⟩ : BufTy).Contents (Elt F)),
    StableHlo.unary main_v36 main_v37 (Host.sqrt : (⟨S4096, .f32⟩ : BufTy).Contents (Elt F) → (⟨S4096, .f32⟩ : BufTy).Contents (Elt F)),
    StableHlo.nullary main_cst_6 (constant S_ .f32 0x2B8CBCCC#32),
    StableHlo.unary main_cst_6 main_v38 (broadcastInDim S4096 ![] bcast_S_S4096 : (⟨S_, .f32⟩ : BufTy).Contents (Elt F) → (⟨S4096, .f32⟩ : BufTy).Contents (Elt F)),
    StableHlo.binary main_v26 main_v38 main_v39 (maximumf : (⟨S4096, .f32⟩ : BufTy).Contents (Elt F) → (⟨S4096, .f32⟩ : BufTy).Contents (Elt F) → (⟨S4096, .f32⟩ : BufTy).Contents (Elt F)),
    StableHlo.unary main_v39 main_v40 (Host.sqrt : (⟨S4096, .f32⟩ : BufTy).Contents (Elt F) → (⟨S4096, .f32⟩ : BufTy).Contents (Elt F)),
    StableHlo.nullary main_cst_7 (constant S_ .f32 0x2B8CBCCC#32),
    StableHlo.unary main_cst_7 main_v41 (broadcastInDim S4096 ![] bcast_S_S4096 : (⟨S_, .f32⟩ : BufTy).Contents (Elt F) → (⟨S4096, .f32⟩ : BufTy).Contents (Elt F)),
    StableHlo.binary main_v27 main_v41 main_v42 (maximumf : (⟨S4096, .f32⟩ : BufTy).Contents (Elt F) → (⟨S4096, .f32⟩ : BufTy).Contents (Elt F) → (⟨S4096, .f32⟩ : BufTy).Contents (Elt F)),
    StableHlo.unary main_v42 main_v43 (Host.sqrt : (⟨S4096, .f32⟩ : BufTy).Contents (Elt F) → (⟨S4096, .f32⟩ : BufTy).Contents (Elt F)),
    StableHlo.nullary main_cst_8 (constant S_ .f32 0x2B8CBCCC#32),
    StableHlo.unary main_cst_8 main_v44 (broadcastInDim S4096 ![] bcast_S_S4096 : (⟨S_, .f32⟩ : BufTy).Contents (Elt F) → (⟨S4096, .f32⟩ : BufTy).Contents (Elt F)),
    StableHlo.binary main_v28 main_v44 main_v45 (maximumf : (⟨S4096, .f32⟩ : BufTy).Contents (Elt F) → (⟨S4096, .f32⟩ : BufTy).Contents (Elt F) → (⟨S4096, .f32⟩ : BufTy).Contents (Elt F)),
    StableHlo.unary main_v45 main_v46 (Host.sqrt : (⟨S4096, .f32⟩ : BufTy).Contents (Elt F) → (⟨S4096, .f32⟩ : BufTy).Contents (Elt F)) ]
set_option maxHeartbeats 4000000 in
/-- The other sixty-five: the losses, the weights, the weighted sum and the count. -/
abbrev tailB : List (HloOp τ sig (Elt F)) :=
  [ StableHlo.binary main_v31 main_v34 main_v47 (subf : (⟨S4096, .f32⟩ : BufTy).Contents (Elt F) → (⟨S4096, .f32⟩ : BufTy).Contents (Elt F) → (⟨S4096, .f32⟩ : BufTy).Contents (Elt F)),
    StableHlo.nullary main_cst_9 (constant S_ .f32 0x3E99999A#32),
    StableHlo.unary main_cst_9 main_v48 (broadcastInDim S4096 ![] bcast_S_S4096 : (⟨S_, .f32⟩ : BufTy).Contents (Elt F) → (⟨S4096, .f32⟩ : BufTy).Contents (Elt F)),
    StableHlo.binary main_v47 main_v48 main_v49 (addf : (⟨S4096, .f32⟩ : BufTy).Contents (Elt F) → (⟨S4096, .f32⟩ : BufTy).Contents (Elt F) → (⟨S4096, .f32⟩ : BufTy).Contents (Elt F)),
    StableHlo.nullary main_cst_10 (constant S_ .f32 0x00000000#32),
    StableHlo.unary main_cst_10 main_v50 (broadcastInDim S4096 ![] bcast_S_S4096 : (⟨S_, .f32⟩ : BufTy).Contents (Elt F) → (⟨S4096, .f32⟩ : BufTy).Contents (Elt F)),
    StableHlo.binary main_v49 main_v50 main_v51 (maximumf : (⟨S4096, .f32⟩ : BufTy).Contents (Elt F) → (⟨S4096, .f32⟩ : BufTy).Contents (Elt F) → (⟨S4096, .f32⟩ : BufTy).Contents (Elt F)),
    StableHlo.binary main_v37 main_v40 main_v52 (subf : (⟨S4096, .f32⟩ : BufTy).Contents (Elt F) → (⟨S4096, .f32⟩ : BufTy).Contents (Elt F) → (⟨S4096, .f32⟩ : BufTy).Contents (Elt F)),
    StableHlo.nullary main_cst_11 (constant S_ .f32 0x3E99999A#32),
    StableHlo.unary main_cst_11 main_v53 (broadcastInDim S4096 ![] bcast_S_S4096 : (⟨S_, .f32⟩ : BufTy).Contents (Elt F) → (⟨S4096, .f32⟩ : BufTy).Contents (Elt F)),
    StableHlo.binary main_v52 main_v53 main_v54 (addf : (⟨S4096, .f32⟩ : BufTy).Contents (Elt F) → (⟨S4096, .f32⟩ : BufTy).Contents (Elt F) → (⟨S4096, .f32⟩ : BufTy).Contents (Elt F)),
    StableHlo.nullary main_cst_12 (constant S_ .f32 0x00000000#32),
    StableHlo.unary main_cst_12 main_v55 (broadcastInDim S4096 ![] bcast_S_S4096 : (⟨S_, .f32⟩ : BufTy).Contents (Elt F) → (⟨S4096, .f32⟩ : BufTy).Contents (Elt F)),
    StableHlo.binary main_v54 main_v55 main_v56 (maximumf : (⟨S4096, .f32⟩ : BufTy).Contents (Elt F) → (⟨S4096, .f32⟩ : BufTy).Contents (Elt F) → (⟨S4096, .f32⟩ : BufTy).Contents (Elt F)),
    StableHlo.binary main_v43 main_v46 main_v57 (subf : (⟨S4096, .f32⟩ : BufTy).Contents (Elt F) → (⟨S4096, .f32⟩ : BufTy).Contents (Elt F) → (⟨S4096, .f32⟩ : BufTy).Contents (Elt F)),
    StableHlo.nullary main_cst_13 (constant S_ .f32 0x3E99999A#32),
    StableHlo.unary main_cst_13 main_v58 (broadcastInDim S4096 ![] bcast_S_S4096 : (⟨S_, .f32⟩ : BufTy).Contents (Elt F) → (⟨S4096, .f32⟩ : BufTy).Contents (Elt F)),
    StableHlo.binary main_v57 main_v58 main_v59 (addf : (⟨S4096, .f32⟩ : BufTy).Contents (Elt F) → (⟨S4096, .f32⟩ : BufTy).Contents (Elt F) → (⟨S4096, .f32⟩ : BufTy).Contents (Elt F)),
    StableHlo.nullary main_cst_14 (constant S_ .f32 0x00000000#32),
    StableHlo.unary main_cst_14 main_v60 (broadcastInDim S4096 ![] bcast_S_S4096 : (⟨S_, .f32⟩ : BufTy).Contents (Elt F) → (⟨S4096, .f32⟩ : BufTy).Contents (Elt F)),
    StableHlo.binary main_v59 main_v60 main_v61 (maximumf : (⟨S4096, .f32⟩ : BufTy).Contents (Elt F) → (⟨S4096, .f32⟩ : BufTy).Contents (Elt F) → (⟨S4096, .f32⟩ : BufTy).Contents (Elt F)),
    StableHlo.unary main_v51 main_v62 (Host.exp : (⟨S4096, .f32⟩ : BufTy).Contents (Elt F) → (⟨S4096, .f32⟩ : BufTy).Contents (Elt F)),
    StableHlo.unary main_v56 main_v63 (Host.exp : (⟨S4096, .f32⟩ : BufTy).Contents (Elt F) → (⟨S4096, .f32⟩ : BufTy).Contents (Elt F)),
    StableHlo.unary main_v61 main_v64 (Host.exp : (⟨S4096, .f32⟩ : BufTy).Contents (Elt F) → (⟨S4096, .f32⟩ : BufTy).Contents (Elt F)),
    StableHlo.nullary main_cst_15 (constant S_ .f32 0x00000000#32),
    StableHlo.binary main_v62 main_cst_15 main_v65 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.binary main_v63 main_cst_16 main_v66 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v65 main_v66 main_v67 (addf : (⟨S_, .f32⟩ : BufTy).Contents (Elt F) → (⟨S_, .f32⟩ : BufTy).Contents (Elt F) → (⟨S_, .f32⟩ : BufTy).Contents (Elt F)),
    StableHlo.nullary main_cst_17 (constant S_ .f32 0x00000000#32),
    StableHlo.binary main_v64 main_cst_17 main_v68 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v67 main_v68 main_v69 (addf : (⟨S_, .f32⟩ : BufTy).Contents (Elt F) → (⟨S_, .f32⟩ : BufTy).Contents (Elt F) → (⟨S_, .f32⟩ : BufTy).Contents (Elt F)),
    StableHlo.unary main_v69 main_v70 (broadcastInDim S4096 ![] bcast_S_S4096 : (⟨S_, .f32⟩ : BufTy).Contents (Elt F) → (⟨S4096, .f32⟩ : BufTy).Contents (Elt F)),
    StableHlo.binary main_v62 main_v70 main_v71 (Host.divf : (⟨S4096, .f32⟩ : BufTy).Contents (Elt F) → (⟨S4096, .f32⟩ : BufTy).Contents (Elt F) → (⟨S4096, .f32⟩ : BufTy).Contents (Elt F)),
    StableHlo.binary main_v71 main_v51 main_v72 (mulf : (⟨S4096, .f32⟩ : BufTy).Contents (Elt F) → (⟨S4096, .f32⟩ : BufTy).Contents (Elt F) → (⟨S4096, .f32⟩ : BufTy).Contents (Elt F)),
    StableHlo.nullary main_cst_18 (constant S_ .f32 0x00000000#32),
    StableHlo.binary main_v72 main_cst_18 main_v73 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v69 main_v74 (broadcastInDim S4096 ![] bcast_S_S4096 : (⟨S_, .f32⟩ : BufTy).Contents (Elt F) → (⟨S4096, .f32⟩ : BufTy).Contents (Elt F)),
    StableHlo.binary main_v63 main_v74 main_v75 (Host.divf : (⟨S4096, .f32⟩ : BufTy).Contents (Elt F) → (⟨S4096, .f32⟩ : BufTy).Contents (Elt F) → (⟨S4096, .f32⟩ : BufTy).Contents (Elt F)),
    StableHlo.binary main_v75 main_v56 main_v76 (mulf : (⟨S4096, .f32⟩ : BufTy).Contents (Elt F) → (⟨S4096, .f32⟩ : BufTy).Contents (Elt F) → (⟨S4096, .f32⟩ : BufTy).Contents (Elt F)),
    StableHlo.nullary main_cst_19 (constant S_ .f32 0x00000000#32),
    StableHlo.binary main_v76 main_cst_19 main_v77 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v73 main_v77 main_v78 (addf : (⟨S_, .f32⟩ : BufTy).Contents (Elt F) → (⟨S_, .f32⟩ : BufTy).Contents (Elt F) → (⟨S_, .f32⟩ : BufTy).Contents (Elt F)),
    StableHlo.unary main_v69 main_v79 (broadcastInDim S4096 ![] bcast_S_S4096 : (⟨S_, .f32⟩ : BufTy).Contents (Elt F) → (⟨S4096, .f32⟩ : BufTy).Contents (Elt F)),
    StableHlo.binary main_v64 main_v79 main_v80 (Host.divf : (⟨S4096, .f32⟩ : BufTy).Contents (Elt F) → (⟨S4096, .f32⟩ : BufTy).Contents (Elt F) → (⟨S4096, .f32⟩ : BufTy).Contents (Elt F)),
    StableHlo.binary main_v80 main_v61 main_v81 (mulf : (⟨S4096, .f32⟩ : BufTy).Contents (Elt F) → (⟨S4096, .f32⟩ : BufTy).Contents (Elt F) → (⟨S4096, .f32⟩ : BufTy).Contents (Elt F)),
    StableHlo.nullary main_cst_20 (constant S_ .f32 0x00000000#32),
    StableHlo.binary main_v81 main_cst_20 main_v82 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v78 main_v82 main_v83 (addf : (⟨S_, .f32⟩ : BufTy).Contents (Elt F) → (⟨S_, .f32⟩ : BufTy).Contents (Elt F) → (⟨S_, .f32⟩ : BufTy).Contents (Elt F)),
    StableHlo.binary main_v34 main_v31 main_v84 (cmpf .oge : (⟨S4096, .f32⟩ : BufTy).Contents (Elt F) → (⟨S4096, .f32⟩ : BufTy).Contents (Elt F) → (⟨S4096, .i1⟩ : BufTy).Contents (Elt F)),
    StableHlo.unary main_v84 main_v85 ((extui 32 · natLt_1_32) : (⟨S4096, .i1⟩ : BufTy).Contents (Elt F) → (⟨S4096, .i32⟩ : BufTy).Contents (Elt F)),
    StableHlo.nullary main_c (constantI S_ 32 0#32),
    StableHlo.binary main_v85 main_c main_v86 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.binary main_v40 main_v37 main_v87 (cmpf .oge : (⟨S4096, .f32⟩ : BufTy).Contents (Elt F) → (⟨S4096, .f32⟩ : BufTy).Contents (Elt F) → (⟨S4096, .i1⟩ : BufTy).Contents (Elt F)),
    StableHlo.unary main_v87 main_v88 ((extui 32 · natLt_1_32) : (⟨S4096, .i1⟩ : BufTy).Contents (Elt F) → (⟨S4096, .i32⟩ : BufTy).Contents (Elt F)),
    StableHlo.nullary main_c_21 (constantI S_ 32 0#32),
    StableHlo.binary main_v88 main_c_21 main_v89 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.binary main_v86 main_v89 main_v90 (addi : (⟨S_, .i32⟩ : BufTy).Contents (Elt F) → (⟨S_, .i32⟩ : BufTy).Contents (Elt F) → (⟨S_, .i32⟩ : BufTy).Contents (Elt F)),
    StableHlo.binary main_v46 main_v43 main_v91 (cmpf .oge : (⟨S4096, .f32⟩ : BufTy).Contents (Elt F) → (⟨S4096, .f32⟩ : BufTy).Contents (Elt F) → (⟨S4096, .i1⟩ : BufTy).Contents (Elt F)),
    StableHlo.unary main_v91 main_v92 ((extui 32 · natLt_1_32) : (⟨S4096, .i1⟩ : BufTy).Contents (Elt F) → (⟨S4096, .i32⟩ : BufTy).Contents (Elt F)),
    StableHlo.nullary main_c_22 (constantI S_ 32 0#32),
    StableHlo.binary main_v92 main_c_22 main_v93 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.binary main_v90 main_v93 main_v94 (addi : (⟨S_, .i32⟩ : BufTy).Contents (Elt F) → (⟨S_, .i32⟩ : BufTy).Contents (Elt F) → (⟨S_, .i32⟩ : BufTy).Contents (Elt F)),
    StableHlo.nullary main_cst_23 (constant S_ .f32 0x40400000#32),
    StableHlo.binary main_cst_23 main_v83 main_v95 (mulf : (⟨S_, .f32⟩ : BufTy).Contents (Elt F) → (⟨S_, .f32⟩ : BufTy).Contents (Elt F) → (⟨S_, .f32⟩ : BufTy).Contents (Elt F)) ]

set_option maxHeartbeats 4000000 in
theorem hostOps1_split : (hostOps1 : List (HloOp τ sig (Elt F))) = tailA ++ tailB := rfl

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The host's epilogue on one mined column of squared distances: as a vector, clamped below at the small constant, then
    the square root. -/
def mined (o : FVec Ideal S4096x1 .f32) : FVec Ideal S4096 .f32 :=
  Host.sqrt (F := Ideal) (maximumf (F := Ideal) (shapeCast S4096 o shapeCasts_S4096x1_S4096) (broadcastInDim S4096 ![] bcast_S_S4096 (constant (F := Ideal) S_ .f32 0x2B8CBCCC#32)))

variable (V : Valuation τ sig (Elt Ideal))

theorem tailA_0 : StableHlo.after (tailA (F := Ideal)) V (Proc.devRef .tc main_v31) = mined (V (Proc.devRef .tc main_v22_0)) := by
  after_results; rfl
theorem tailA_1 : StableHlo.after (tailA (F := Ideal)) V (Proc.devRef .tc main_v34) = mined (V (Proc.devRef .tc main_v22_1)) := by
  after_results; rfl
theorem tailA_2 : StableHlo.after (tailA (F := Ideal)) V (Proc.devRef .tc main_v37) = mined (V (Proc.devRef .tc main_v22_2)) := by
  after_results; rfl
theorem tailA_3 : StableHlo.after (tailA (F := Ideal)) V (Proc.devRef .tc main_v40) = mined (V (Proc.devRef .tc main_v22_3)) := by
  after_results; rfl
theorem tailA_4 : StableHlo.after (tailA (F := Ideal)) V (Proc.devRef .tc main_v43) = mined (V (Proc.devRef .tc main_v22_4)) := by
  after_results; rfl
theorem tailA_5 : StableHlo.after (tailA (F := Ideal)) V (Proc.devRef .tc main_v46) = mined (V (Proc.devRef .tc main_v22_5)) := by
  after_results; rfl

end Cert.KernelIdeal.Hand

end
-- ==== Proof.KI.Bridge.lean ====
import proofs.«123526_j17729624998291_2_alg».proof.Proof.KI.Prefix
import proofs.«123526_j17729624998291_2_alg».proof.Proof.KI.TailA

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Cert.MaskedExtrema
open Cert.ReferenceIdeal.Hand (DD lab clampSqrt EPS)

variable (m : (ℓ : Loc nD τ sig) → Buf (Elt Ideal) ℓ)

/-! ## The clamp and the square root commute with the row extrema -/

theorem sqrt_mono : Monotone Ideal.sqrt := by
  intro x y hxy
  induction x using EReal.rec with
  | bot => exact bot_le
  | top => have : y = ⊤ := top_le_iff.mp hxy; subst this; exact le_rfl
  | coe a =>
    induction y using EReal.rec with
    | bot => exact absurd hxy (by simp)
    | top => exact le_top
    | coe b =>
      have hab : a ≤ b := EReal.coe_le_coe_iff.mp hxy
      simp only [Ideal.sqrt_coe]
      by_cases ha : a < 0
      · rw [if_pos ha]; exact bot_le
      · rw [if_neg ha, if_neg (by linarith : ¬ b < 0)]
        exact EReal.coe_le_coe_iff.mpr (Real.sqrt_le_sqrt hab)

theorem clampSqrt_mono : Monotone clampSqrt := fun x y h => sqrt_mono (max_le_max h le_rfl)
theorem clampSqrt_top : clampSqrt ⊤ = ⊤ := by
  unfold clampSqrt; rw [max_eq_left le_top]; rfl

/-- Two masked maxima agree when the masks and the entries do. -/
theorem hardest_congr {ι : Type} [Fintype ι] {mask mask' : ι → Prop} [DecidablePred mask] [DecidablePred mask'] {y y' : ι → EReal}
    (hm : ∀ j, mask j ↔ mask' j) (hy : ∀ j, y j = y' j) : hardest mask y = hardest mask' y' := by
  unfold hardest
  refine congrArg (fun f => Finset.fold max ⊥ f Finset.univ) (funext fun j => ?_)
  rw [hy j]; exact if_congr (hm j) rfl rfl
theorem easiest_congr {ι : Type} [Fintype ι] {mask mask' : ι → Prop} [DecidablePred mask] [DecidablePred mask'] {y y' : ι → EReal}
    (hm : ∀ j, mask j ↔ mask' j) (hy : ∀ j, y j = y' j) : easiest mask y = easiest mask' y' := by
  unfold easiest
  refine congrArg (fun f => Finset.fold min ⊤ f Finset.univ) (funext fun j => ?_)
  rw [hy j]; exact if_congr (hm j) rfl rfl

/-- The host's epilogue on a result column, at row `r`. -/
theorem mined_apply (o : FVec Ideal S4096x1 .f32) (r : Fin 4096) : mined o (ix1 r) = clampSqrt (o (ix2 r (0 : Fin 1))) := by
  unfold mined clampSqrt
  show Ideal.sqrt (max (shapeCast S4096 o shapeCasts_S4096x1_S4096 (ix1 r)) (broadcastInDim S4096 ![] bcast_S_S4096 (constant (F := Ideal) S_ .f32 0x2B8CBCCC#32) (ix1 r))) = _
  rw [shapeCast_apply o shapeCasts_S4096x1_S4096 (ix1 r) (ix2 r (0 : Fin 1)) (by
      rw [Shape.rowMajor_val_one, Shape.rowMajor_val_two]; show r.val * 1 + 0 = r.val; omega),
    broadcastInDim_apply _ bcast_S_S4096 _ (ix1 r) (fun a => a.elim0) (fun a => a.elim0)]
  rfl

/-! ## Each result column is the reference's mined vector -/

theorem dist_0 (c : Dev nD) (r s : Fin 4096) :
    dist2 (V m c main_v8) (V m c main_v15) (V m c main_v3) (V m c main_v4) r s = DD (fun r => Cert.ReferenceIdeal.Read.val_main_v4 (F := Ideal) (argX m c) (ix1 r)) (fun s => Cert.ReferenceIdeal.Read.val_main_v7 (F := Ideal) (argX m c) (ix1 s)) (Cert.ReferenceIdeal.Read.val_main_v0 (F := Ideal) (argX m c)) (Cert.ReferenceIdeal.Read.val_main_v1 (F := Ideal) (argX m c)) r s := by
  unfold dist2 DD
  rw [c8_apply, r15_apply]
  simp only [a3_apply, a4_apply]
  rfl

/-- Result column 0 after the host's clamp and square root is the reference's ap1. -/
theorem mined_0 (c : Dev nD) : mined (G0 m c) = Cert.ReferenceIdeal.Read.val_main_v63 (F := Ideal) (argX m c) (argT m c) := by
  funext i
  obtain ⟨r, rfl⟩ : ∃ r : Fin 4096, i = ix1 r := ⟨i 0, eq_ix1 i⟩
  rw [Cert.ReferenceIdeal.Hand.ref_ap1, mined_apply]
  show clampSqrt (Grow0 m c r) = _
  unfold Grow0
  rw [hardest_congr (fun s => sameG_iff m c r s) (fun s => dist_0 m c r s)]
  exact map_hardest clampSqrt clampSqrt_mono _ _ ⟨r, rfl⟩

theorem dist_1 (c : Dev nD) (r s : Fin 4096) :
    dist2 (V m c main_v8) (V m c main_v19) (V m c main_v3) (V m c main_v5) r s = DD (fun r => Cert.ReferenceIdeal.Read.val_main_v4 (F := Ideal) (argX m c) (ix1 r)) (fun s => Cert.ReferenceIdeal.Read.val_main_v25 (F := Ideal) (argX m c) (ix1 s)) (Cert.ReferenceIdeal.Read.val_main_v0 (F := Ideal) (argX m c)) (Cert.ReferenceIdeal.Read.val_main_v2 (F := Ideal) (argX m c)) r s := by
  unfold dist2 DD
  rw [c8_apply, r19_apply]
  simp only [a3_apply, a5_apply]
  rfl

/-- Result column 1 after the host's clamp and square root is the reference's an1. -/
theorem mined_1 (c : Dev nD) : mined (G1 m c) = Cert.ReferenceIdeal.Read.val_main_v65 (F := Ideal) (argX m c) (argT m c) := by
  funext i
  obtain ⟨r, rfl⟩ : ∃ r : Fin 4096, i = ix1 r := ⟨i 0, eq_ix1 i⟩
  rw [Cert.ReferenceIdeal.Hand.ref_an1, mined_apply]
  show clampSqrt (Grow1 m c r) = _
  unfold Grow1
  rw [easiest_congr (fun s => sameG_iff m c r s) (fun s => dist_1 m c r s)]
  exact map_easiest clampSqrt clampSqrt_mono clampSqrt_top _ _

theorem dist_2 (c : Dev nD) (r s : Fin 4096) :
    dist2 (V m c main_v11) (V m c main_v19) (V m c main_v4) (V m c main_v5) r s = DD (fun r => Cert.ReferenceIdeal.Read.val_main_v7 (F := Ideal) (argX m c) (ix1 r)) (fun s => Cert.ReferenceIdeal.Read.val_main_v25 (F := Ideal) (argX m c) (ix1 s)) (Cert.ReferenceIdeal.Read.val_main_v1 (F := Ideal) (argX m c)) (Cert.ReferenceIdeal.Read.val_main_v2 (F := Ideal) (argX m c)) r s := by
  unfold dist2 DD
  rw [c11_apply, r19_apply]
  simp only [a4_apply, a5_apply]
  rfl

/-- Result column 2 after the host's clamp and square root is the reference's ap2. -/
theorem mined_2 (c : Dev nD) : mined (G2 m c) = Cert.ReferenceIdeal.Read.val_main_v67 (F := Ideal) (argX m c) (argT m c) := by
  funext i
  obtain ⟨r, rfl⟩ : ∃ r : Fin 4096, i = ix1 r := ⟨i 0, eq_ix1 i⟩
  rw [Cert.ReferenceIdeal.Hand.ref_ap2, mined_apply]
  show clampSqrt (Grow2 m c r) = _
  unfold Grow2
  rw [hardest_congr (fun s => sameG_iff m c r s) (fun s => dist_2 m c r s)]
  exact map_hardest clampSqrt clampSqrt_mono _ _ ⟨r, rfl⟩

theorem dist_3 (c : Dev nD) (r s : Fin 4096) :
    dist2 (V m c main_v8) (V m c main_v15) (V m c main_v3) (V m c main_v4) r s = DD (fun r => Cert.ReferenceIdeal.Read.val_main_v4 (F := Ideal) (argX m c) (ix1 r)) (fun s => Cert.ReferenceIdeal.Read.val_main_v7 (F := Ideal) (argX m c) (ix1 s)) (Cert.ReferenceIdeal.Read.val_main_v0 (F := Ideal) (argX m c)) (Cert.ReferenceIdeal.Read.val_main_v1 (F := Ideal) (argX m c)) r s := by
  unfold dist2 DD
  rw [c8_apply, r15_apply]
  simp only [a3_apply, a4_apply]
  rfl

/-- Result column 3 after the host's clamp and square root is the reference's an2. -/
theorem mined_3 (c : Dev nD) : mined (G3 m c) = Cert.ReferenceIdeal.Read.val_main_v69 (F := Ideal) (argX m c) (argT m c) := by
  funext i
  obtain ⟨r, rfl⟩ : ∃ r : Fin 4096, i = ix1 r := ⟨i 0, eq_ix1 i⟩
  rw [Cert.ReferenceIdeal.Hand.ref_an2, mined_apply]
  show clampSqrt (Grow3 m c r) = _
  unfold Grow3
  rw [easiest_congr (fun s => sameG_iff m c r s) (fun s => dist_3 m c r s)]
  exact map_easiest clampSqrt clampSqrt_mono clampSqrt_top _ _

theorem dist_4 (c : Dev nD) (r s : Fin 4096) :
    dist2 (V m c main_v8) (V m c main_v19) (V m c main_v3) (V m c main_v5) r s = DD (fun r => Cert.ReferenceIdeal.Read.val_main_v4 (F := Ideal) (argX m c) (ix1 r)) (fun s => Cert.ReferenceIdeal.Read.val_main_v25 (F := Ideal) (argX m c) (ix1 s)) (Cert.ReferenceIdeal.Read.val_main_v0 (F := Ideal) (argX m c)) (Cert.ReferenceIdeal.Read.val_main_v2 (F := Ideal) (argX m c)) r s := by
  unfold dist2 DD
  rw [c8_apply, r19_apply]
  simp only [a3_apply, a5_apply]
  rfl

/-- Result column 4 after the host's clamp and square root is the reference's ap3. -/
theorem mined_4 (c : Dev nD) : mined (G4 m c) = Cert.ReferenceIdeal.Read.val_main_v71 (F := Ideal) (argX m c) (argT m c) := by
  funext i
  obtain ⟨r, rfl⟩ : ∃ r : Fin 4096, i = ix1 r := ⟨i 0, eq_ix1 i⟩
  rw [Cert.ReferenceIdeal.Hand.ref_ap3, mined_apply]
  show clampSqrt (Grow4 m c r) = _
  unfold Grow4
  rw [hardest_congr (fun s => sameG_iff m c r s) (fun s => dist_4 m c r s)]
  exact map_hardest clampSqrt clampSqrt_mono _ _ ⟨r, rfl⟩

theorem dist_5 (c : Dev nD) (r s : Fin 4096) :
    dist2 (V m c main_v11) (V m c main_v19) (V m c main_v4) (V m c main_v5) r s = DD (fun r => Cert.ReferenceIdeal.Read.val_main_v7 (F := Ideal) (argX m c) (ix1 r)) (fun s => Cert.ReferenceIdeal.Read.val_main_v25 (F := Ideal) (argX m c) (ix1 s)) (Cert.ReferenceIdeal.Read.val_main_v1 (F := Ideal) (argX m c)) (Cert.ReferenceIdeal.Read.val_main_v2 (F := Ideal) (argX m c)) r s := by
  unfold dist2 DD
  rw [c11_apply, r19_apply]
  simp only [a4_apply, a5_apply]
  rfl

/-- Result column 5 after the host's clamp and square root is the reference's an3. -/
theorem mined_5 (c : Dev nD) : mined (G5 m c) = Cert.ReferenceIdeal.Read.val_main_v73 (F := Ideal) (argX m c) (argT m c) := by
  funext i
  obtain ⟨r, rfl⟩ : ∃ r : Fin 4096, i = ix1 r := ⟨i 0, eq_ix1 i⟩
  rw [Cert.ReferenceIdeal.Hand.ref_an3, mined_apply]
  show clampSqrt (Grow5 m c r) = _
  unfold Grow5
  rw [easiest_congr (fun s => sameG_iff m c r s) (fun s => dist_5 m c r s)]
  exact map_easiest clampSqrt clampSqrt_mono clampSqrt_top _ _

end Cert.KernelIdeal.Hand

end
-- ==== Proof.KI.TailB.lean ====
import proofs.«123526_j17729624998291_2_alg».proof.Proof.KI.TailA

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

variable {F : FTy → Type} [FloatOps F]

/-! ## The later host operations in five short stretches -/

/-- The three margin losses. -/
abbrev tailB1 : List (HloOp τ sig (Elt F)) :=
  [ StableHlo.binary main_v31 main_v34 main_v47 (subf : (⟨S4096, .f32⟩ : BufTy).Contents (Elt F) → (⟨S4096, .f32⟩ : BufTy).Contents (Elt F) → (⟨S4096, .f32⟩ : BufTy).Contents (Elt F)),
    StableHlo.nullary main_cst_9 (constant S_ .f32 0x3E99999A#32),
    StableHlo.unary main_cst_9 main_v48 (broadcastInDim S4096 ![] bcast_S_S4096 : (⟨S_, .f32⟩ : BufTy).Contents (Elt F) → (⟨S4096, .f32⟩ : BufTy).Contents (Elt F)),
    StableHlo.binary main_v47 main_v48 main_v49 (addf : (⟨S4096, .f32⟩ : BufTy).Contents (Elt F) → (⟨S4096, .f32⟩ : BufTy).Contents (Elt F) → (⟨S4096, .f32⟩ : BufTy).Contents (Elt F)),
    StableHlo.nullary main_cst_10 (constant S_ .f32 0x00000000#32),
    StableHlo.unary main_cst_10 main_v50 (broadcastInDim S4096 ![] bcast_S_S4096 : (⟨S_, .f32⟩ : BufTy).Contents (Elt F) → (⟨S4096, .f32⟩ : BufTy).Contents (Elt F)),
    StableHlo.binary main_v49 main_v50 main_v51 (maximumf : (⟨S4096, .f32⟩ : BufTy).Contents (Elt F) → (⟨S4096, .f32⟩ : BufTy).Contents (Elt F) → (⟨S4096, .f32⟩ : BufTy).Contents (Elt F)),
    StableHlo.binary main_v37 main_v40 main_v52 (subf : (⟨S4096, .f32⟩ : BufTy).Contents (Elt F) → (⟨S4096, .f32⟩ : BufTy).Contents (Elt F) → (⟨S4096, .f32⟩ : BufTy).Contents (Elt F)),
    StableHlo.nullary main_cst_11 (constant S_ .f32 0x3E99999A#32),
    StableHlo.unary main_cst_11 main_v53 (broadcastInDim S4096 ![] bcast_S_S4096 : (⟨S_, .f32⟩ : BufTy).Contents (Elt F) → (⟨S4096, .f32⟩ : BufTy).Contents (Elt F)),
    StableHlo.binary main_v52 main_v53 main_v54 (addf : (⟨S4096, .f32⟩ : BufTy).Contents (Elt F) → (⟨S4096, .f32⟩ : BufTy).Contents (Elt F) → (⟨S4096, .f32⟩ : BufTy).Contents (Elt F)),
    StableHlo.nullary main_cst_12 (constant S_ .f32 0x00000000#32),
    StableHlo.unary main_cst_12 main_v55 (broadcastInDim S4096 ![] bcast_S_S4096 : (⟨S_, .f32⟩ : BufTy).Contents (Elt F) → (⟨S4096, .f32⟩ : BufTy).Contents (Elt F)),
    StableHlo.binary main_v54 main_v55 main_v56 (maximumf : (⟨S4096, .f32⟩ : BufTy).Contents (Elt F) → (⟨S4096, .f32⟩ : BufTy).Contents (Elt F) → (⟨S4096, .f32⟩ : BufTy).Contents (Elt F)),
    StableHlo.binary main_v43 main_v46 main_v57 (subf : (⟨S4096, .f32⟩ : BufTy).Contents (Elt F) → (⟨S4096, .f32⟩ : BufTy).Contents (Elt F) → (⟨S4096, .f32⟩ : BufTy).Contents (Elt F)),
    StableHlo.nullary main_cst_13 (constant S_ .f32 0x3E99999A#32),
    StableHlo.unary main_cst_13 main_v58 (broadcastInDim S4096 ![] bcast_S_S4096 : (⟨S_, .f32⟩ : BufTy).Contents (Elt F) → (⟨S4096, .f32⟩ : BufTy).Contents (Elt F)),
    StableHlo.binary main_v57 main_v58 main_v59 (addf : (⟨S4096, .f32⟩ : BufTy).Contents (Elt F) → (⟨S4096, .f32⟩ : BufTy).Contents (Elt F) → (⟨S4096, .f32⟩ : BufTy).Contents (Elt F)),
    StableHlo.nullary main_cst_14 (constant S_ .f32 0x00000000#32),
    StableHlo.unary main_cst_14 main_v60 (broadcastInDim S4096 ![] bcast_S_S4096 : (⟨S_, .f32⟩ : BufTy).Contents (Elt F) → (⟨S4096, .f32⟩ : BufTy).Contents (Elt F)),
    StableHlo.binary main_v59 main_v60 main_v61 (maximumf : (⟨S4096, .f32⟩ : BufTy).Contents (Elt F) → (⟨S4096, .f32⟩ : BufTy).Contents (Elt F) → (⟨S4096, .f32⟩ : BufTy).Contents (Elt F)) ]
/-- The weights and their total. -/
abbrev tailB2 : List (HloOp τ sig (Elt F)) :=
  [ StableHlo.unary main_v51 main_v62 (Host.exp : (⟨S4096, .f32⟩ : BufTy).Contents (Elt F) → (⟨S4096, .f32⟩ : BufTy).Contents (Elt F)),
    StableHlo.unary main_v56 main_v63 (Host.exp : (⟨S4096, .f32⟩ : BufTy).Contents (Elt F) → (⟨S4096, .f32⟩ : BufTy).Contents (Elt F)),
    StableHlo.unary main_v61 main_v64 (Host.exp : (⟨S4096, .f32⟩ : BufTy).Contents (Elt F) → (⟨S4096, .f32⟩ : BufTy).Contents (Elt F)),
    StableHlo.nullary main_cst_15 (constant S_ .f32 0x00000000#32),
    StableHlo.binary main_v62 main_cst_15 main_v65 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.binary main_v63 main_cst_16 main_v66 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v65 main_v66 main_v67 (addf : (⟨S_, .f32⟩ : BufTy).Contents (Elt F) → (⟨S_, .f32⟩ : BufTy).Contents (Elt F) → (⟨S_, .f32⟩ : BufTy).Contents (Elt F)),
    StableHlo.nullary main_cst_17 (constant S_ .f32 0x00000000#32),
    StableHlo.binary main_v64 main_cst_17 main_v68 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v67 main_v68 main_v69 (addf : (⟨S_, .f32⟩ : BufTy).Contents (Elt F) → (⟨S_, .f32⟩ : BufTy).Contents (Elt F) → (⟨S_, .f32⟩ : BufTy).Contents (Elt F)) ]
/-- The weighted sum of the losses. -/
abbrev tailB3 : List (HloOp τ sig (Elt F)) :=
  [ StableHlo.unary main_v69 main_v70 (broadcastInDim S4096 ![] bcast_S_S4096 : (⟨S_, .f32⟩ : BufTy).Contents (Elt F) → (⟨S4096, .f32⟩ : BufTy).Contents (Elt F)),
    StableHlo.binary main_v62 main_v70 main_v71 (Host.divf : (⟨S4096, .f32⟩ : BufTy).Contents (Elt F) → (⟨S4096, .f32⟩ : BufTy).Contents (Elt F) → (⟨S4096, .f32⟩ : BufTy).Contents (Elt F)),
    StableHlo.binary main_v71 main_v51 main_v72 (mulf : (⟨S4096, .f32⟩ : BufTy).Contents (Elt F) → (⟨S4096, .f32⟩ : BufTy).Contents (Elt F) → (⟨S4096, .f32⟩ : BufTy).Contents (Elt F)),
    StableHlo.nullary main_cst_18 (constant S_ .f32 0x00000000#32),
    StableHlo.binary main_v72 main_cst_18 main_v73 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v69 main_v74 (broadcastInDim S4096 ![] bcast_S_S4096 : (⟨S_, .f32⟩ : BufTy).Contents (Elt F) → (⟨S4096, .f32⟩ : BufTy).Contents (Elt F)),
    StableHlo.binary main_v63 main_v74 main_v75 (Host.divf : (⟨S4096, .f32⟩ : BufTy).Contents (Elt F) → (⟨S4096, .f32⟩ : BufTy).Contents (Elt F) → (⟨S4096, .f32⟩ : BufTy).Contents (Elt F)),
    StableHlo.binary main_v75 main_v56 main_v76 (mulf : (⟨S4096, .f32⟩ : BufTy).Contents (Elt F) → (⟨S4096, .f32⟩ : BufTy).Contents (Elt F) → (⟨S4096, .f32⟩ : BufTy).Contents (Elt F)),
    StableHlo.nullary main_cst_19 (constant S_ .f32 0x00000000#32),
    StableHlo.binary main_v76 main_cst_19 main_v77 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v73 main_v77 main_v78 (addf : (⟨S_, .f32⟩ : BufTy).Contents (Elt F) → (⟨S_, .f32⟩ : BufTy).Contents (Elt F) → (⟨S_, .f32⟩ : BufTy).Contents (Elt F)),
    StableHlo.unary main_v69 main_v79 (broadcastInDim S4096 ![] bcast_S_S4096 : (⟨S_, .f32⟩ : BufTy).Contents (Elt F) → (⟨S4096, .f32⟩ : BufTy).Contents (Elt F)),
    StableHlo.binary main_v64 main_v79 main_v80 (Host.divf : (⟨S4096, .f32⟩ : BufTy).Contents (Elt F) → (⟨S4096, .f32⟩ : BufTy).Contents (Elt F) → (⟨S4096, .f32⟩ : BufTy).Contents (Elt F)),
    StableHlo.binary main_v80 main_v61 main_v81 (mulf : (⟨S4096, .f32⟩ : BufTy).Contents (Elt F) → (⟨S4096, .f32⟩ : BufTy).Contents (Elt F) → (⟨S4096, .f32⟩ : BufTy).Contents (Elt F)),
    StableHlo.nullary main_cst_20 (constant S_ .f32 0x00000000#32),
    StableHlo.binary main_v81 main_cst_20 main_v82 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v78 main_v82 main_v83 (addf : (⟨S_, .f32⟩ : BufTy).Contents (Elt F) → (⟨S_, .f32⟩ : BufTy).Contents (Elt F) → (⟨S_, .f32⟩ : BufTy).Contents (Elt F)) ]
/-- The count. -/
abbrev tailB4 : List (HloOp τ sig (Elt F)) :=
  [ StableHlo.binary main_v34 main_v31 main_v84 (cmpf .oge : (⟨S4096, .f32⟩ : BufTy).Contents (Elt F) → (⟨S4096, .f32⟩ : BufTy).Contents (Elt F) → (⟨S4096, .i1⟩ : BufTy).Contents (Elt F)),
    StableHlo.unary main_v84 main_v85 ((extui 32 · natLt_1_32) : (⟨S4096, .i1⟩ : BufTy).Contents (Elt F) → (⟨S4096, .i32⟩ : BufTy).Contents (Elt F)),
    StableHlo.nullary main_c (constantI S_ 32 0#32),
    StableHlo.binary main_v85 main_c main_v86 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.binary main_v40 main_v37 main_v87 (cmpf .oge : (⟨S4096, .f32⟩ : BufTy).Contents (Elt F) → (⟨S4096, .f32⟩ : BufTy).Contents (Elt F) → (⟨S4096, .i1⟩ : BufTy).Contents (Elt F)),
    StableHlo.unary main_v87 main_v88 ((extui 32 · natLt_1_32) : (⟨S4096, .i1⟩ : BufTy).Contents (Elt F) → (⟨S4096, .i32⟩ : BufTy).Contents (Elt F)),
    StableHlo.nullary main_c_21 (constantI S_ 32 0#32),
    StableHlo.binary main_v88 main_c_21 main_v89 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.binary main_v86 main_v89 main_v90 (addi : (⟨S_, .i32⟩ : BufTy).Contents (Elt F) → (⟨S_, .i32⟩ : BufTy).Contents (Elt F) → (⟨S_, .i32⟩ : BufTy).Contents (Elt F)),
    StableHlo.binary main_v46 main_v43 main_v91 (cmpf .oge : (⟨S4096, .f32⟩ : BufTy).Contents (Elt F) → (⟨S4096, .f32⟩ : BufTy).Contents (Elt F) → (⟨S4096, .i1⟩ : BufTy).Contents (Elt F)),
    StableHlo.unary main_v91 main_v92 ((extui 32 · natLt_1_32) : (⟨S4096, .i1⟩ : BufTy).Contents (Elt F) → (⟨S4096, .i32⟩ : BufTy).Contents (Elt F)),
    StableHlo.nullary main_c_22 (constantI S_ 32 0#32),
    StableHlo.binary main_v92 main_c_22 main_v93 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.binary main_v90 main_v93 main_v94 (addi : (⟨S_, .i32⟩ : BufTy).Contents (Elt F) → (⟨S_, .i32⟩ : BufTy).Contents (Elt F) → (⟨S_, .i32⟩ : BufTy).Contents (Elt F)) ]
/-- The factor three. -/
abbrev tailB5 : List (HloOp τ sig (Elt F)) :=
  [ StableHlo.nullary main_cst_23 (constant S_ .f32 0x40400000#32),
    StableHlo.binary main_cst_23 main_v83 main_v95 (mulf : (⟨S_, .f32⟩ : BufTy).Contents (Elt F) → (⟨S_, .f32⟩ : BufTy).Contents (Elt F) → (⟨S_, .f32⟩ : BufTy).Contents (Elt F)) ]

set_option maxHeartbeats 4000000 in
theorem tailB_split : (tailB : List (HloOp τ sig (Elt F))) = tailB1 ++ (tailB2 ++ (tailB3 ++ (tailB4 ++ tailB5))) := rfl

variable (V : Valuation τ sig (Elt Ideal))

set_option maxHeartbeats 4000000

/-! ### What each stretch computes, from any contents -/

theorem B1_v51 : StableHlo.after (tailB1 (F := Ideal)) V (Proc.devRef .tc main_v51) = Cert.Tail.lossOf (F := Ideal) (V (Proc.devRef .tc main_v31)) (V (Proc.devRef .tc main_v34)) := by after_results <;> rfl
theorem B1_v56 : StableHlo.after (tailB1 (F := Ideal)) V (Proc.devRef .tc main_v56) = Cert.Tail.lossOf (F := Ideal) (V (Proc.devRef .tc main_v37)) (V (Proc.devRef .tc main_v40)) := by after_results <;> rfl
theorem B1_v61 : StableHlo.after (tailB1 (F := Ideal)) V (Proc.devRef .tc main_v61) = Cert.Tail.lossOf (F := Ideal) (V (Proc.devRef .tc main_v43)) (V (Proc.devRef .tc main_v46)) := by after_results <;> rfl
theorem B1_keep_v31 : StableHlo.after (tailB1 (F := Ideal)) V (Proc.devRef .tc main_v31) = V (Proc.devRef .tc main_v31) := by after_results <;> rfl
theorem B1_keep_v34 : StableHlo.after (tailB1 (F := Ideal)) V (Proc.devRef .tc main_v34) = V (Proc.devRef .tc main_v34) := by after_results <;> rfl
theorem B1_keep_v37 : StableHlo.after (tailB1 (F := Ideal)) V (Proc.devRef .tc main_v37) = V (Proc.devRef .tc main_v37) := by after_results <;> rfl
theorem B1_keep_v40 : StableHlo.after (tailB1 (F := Ideal)) V (Proc.devRef .tc main_v40) = V (Proc.devRef .tc main_v40) := by after_results <;> rfl
theorem B1_keep_v43 : StableHlo.after (tailB1 (F := Ideal)) V (Proc.devRef .tc main_v43) = V (Proc.devRef .tc main_v43) := by after_results <;> rfl
theorem B1_keep_v46 : StableHlo.after (tailB1 (F := Ideal)) V (Proc.devRef .tc main_v46) = V (Proc.devRef .tc main_v46) := by after_results <;> rfl

theorem B2_v62 : StableHlo.after (tailB2 (F := Ideal)) V (Proc.devRef .tc main_v62) = Host.exp (F := Ideal) (s := S4096) (φ := .f32) (V (Proc.devRef .tc main_v51) : FVec Ideal S4096 .f32) := by after_results <;> rfl
theorem B2_v63 : StableHlo.after (tailB2 (F := Ideal)) V (Proc.devRef .tc main_v63) = Host.exp (F := Ideal) (s := S4096) (φ := .f32) (V (Proc.devRef .tc main_v56) : FVec Ideal S4096 .f32) := by after_results <;> rfl
theorem B2_v64 : StableHlo.after (tailB2 (F := Ideal)) V (Proc.devRef .tc main_v64) = Host.exp (F := Ideal) (s := S4096) (φ := .f32) (V (Proc.devRef .tc main_v61) : FVec Ideal S4096 .f32) := by after_results <;> rfl
theorem B2_v69 : StableHlo.after (tailB2 (F := Ideal)) V (Proc.devRef .tc main_v69) = Cert.Tail.denomOf (F := Ideal) (V (Proc.devRef .tc main_v51)) (V (Proc.devRef .tc main_v56)) (V (Proc.devRef .tc main_v61)) := by after_results <;> rfl
theorem B2_keep_v31 : StableHlo.after (tailB2 (F := Ideal)) V (Proc.devRef .tc main_v31) = V (Proc.devRef .tc main_v31) := by after_results <;> rfl
theorem B2_keep_v34 : StableHlo.after (tailB2 (F := Ideal)) V (Proc.devRef .tc main_v34) = V (Proc.devRef .tc main_v34) := by after_results <;> rfl
theorem B2_keep_v37 : StableHlo.after (tailB2 (F := Ideal)) V (Proc.devRef .tc main_v37) = V (Proc.devRef .tc main_v37) := by after_results <;> rfl
theorem B2_keep_v40 : StableHlo.after (tailB2 (F := Ideal)) V (Proc.devRef .tc main_v40) = V (Proc.devRef .tc main_v40) := by after_results <;> rfl
theorem B2_keep_v43 : StableHlo.after (tailB2 (F := Ideal)) V (Proc.devRef .tc main_v43) = V (Proc.devRef .tc main_v43) := by after_results <;> rfl
theorem B2_keep_v46 : StableHlo.after (tailB2 (F := Ideal)) V (Proc.devRef .tc main_v46) = V (Proc.devRef .tc main_v46) := by after_results <;> rfl
theorem B2_keep_v51 : StableHlo.after (tailB2 (F := Ideal)) V (Proc.devRef .tc main_v51) = V (Proc.devRef .tc main_v51) := by after_results <;> rfl
theorem B2_keep_v56 : StableHlo.after (tailB2 (F := Ideal)) V (Proc.devRef .tc main_v56) = V (Proc.devRef .tc main_v56) := by after_results <;> rfl
theorem B2_keep_v61 : StableHlo.after (tailB2 (F := Ideal)) V (Proc.devRef .tc main_v61) = V (Proc.devRef .tc main_v61) := by after_results <;> rfl

/-- One pair's weighted loss from its weights, its loss and the total. -/
def termOf' (w l : FVec Ideal S4096 .f32) (d : FVec Ideal S_ .f32) : FVec Ideal S_ .f32 :=
  Host.reduceAdd (F := Ideal) (mulf (F := Ideal) (Host.divf (F := Ideal) w (broadcastInDim S4096 ![] bcast_S_S4096 d)) l) (constant (F := Ideal) S_ .f32 0x00000000#32) reducesTo_S4096_S_d0 h_S_

theorem B3_v83 : StableHlo.after (tailB3 (F := Ideal)) V (Proc.devRef .tc main_v83)
    = addf (F := Ideal) (addf (F := Ideal) (termOf' (V (Proc.devRef .tc main_v62)) (V (Proc.devRef .tc main_v51)) (V (Proc.devRef .tc main_v69))) (termOf' (V (Proc.devRef .tc main_v63)) (V (Proc.devRef .tc main_v56)) (V (Proc.devRef .tc main_v69))))
        (termOf' (V (Proc.devRef .tc main_v64)) (V (Proc.devRef .tc main_v61)) (V (Proc.devRef .tc main_v69))) := by after_results <;> rfl
theorem B3_keep_v31 : StableHlo.after (tailB3 (F := Ideal)) V (Proc.devRef .tc main_v31) = V (Proc.devRef .tc main_v31) := by after_results <;> rfl
theorem B3_keep_v34 : StableHlo.after (tailB3 (F := Ideal)) V (Proc.devRef .tc main_v34) = V (Proc.devRef .tc main_v34) := by after_results <;> rfl
theorem B3_keep_v37 : StableHlo.after (tailB3 (F := Ideal)) V (Proc.devRef .tc main_v37) = V (Proc.devRef .tc main_v37) := by after_results <;> rfl
theorem B3_keep_v40 : StableHlo.after (tailB3 (F := Ideal)) V (Proc.devRef .tc main_v40) = V (Proc.devRef .tc main_v40) := by after_results <;> rfl
theorem B3_keep_v43 : StableHlo.after (tailB3 (F := Ideal)) V (Proc.devRef .tc main_v43) = V (Proc.devRef .tc main_v43) := by after_results <;> rfl
theorem B3_keep_v46 : StableHlo.after (tailB3 (F := Ideal)) V (Proc.devRef .tc main_v46) = V (Proc.devRef .tc main_v46) := by after_results <;> rfl

theorem B4_v94 : StableHlo.after (tailB4 (F := Ideal)) V (Proc.devRef .tc main_v94)
    = addi (addi (Cert.Tail.countOf (F := Ideal) (V (Proc.devRef .tc main_v31)) (V (Proc.devRef .tc main_v34))) (Cert.Tail.countOf (F := Ideal) (V (Proc.devRef .tc main_v37)) (V (Proc.devRef .tc main_v40))))
        (Cert.Tail.countOf (F := Ideal) (V (Proc.devRef .tc main_v43)) (V (Proc.devRef .tc main_v46))) := by after_results <;> rfl
theorem B4_keep_v83 : StableHlo.after (tailB4 (F := Ideal)) V (Proc.devRef .tc main_v83) = V (Proc.devRef .tc main_v83) := by after_results <;> rfl

theorem B5_v95 : StableHlo.after (tailB5 (F := Ideal)) V (Proc.devRef .tc main_v95) = mulf (F := Ideal) (constant (F := Ideal) S_ .f32 0x40400000#32) (V (Proc.devRef .tc main_v83)) := by after_results <;> rfl
theorem B5_keep_v94 : StableHlo.after (tailB5 (F := Ideal)) V (Proc.devRef .tc main_v94) = V (Proc.devRef .tc main_v94) := by after_results <;> rfl

/-! ### The whole of the later stretch -/

theorem tailB_f : StableHlo.after (tailB (F := Ideal)) V (Proc.devRef .tc main_v95)
    = (Cert.Tail.lossTail (F := Ideal) (V (Proc.devRef .tc main_v31)) (V (Proc.devRef .tc main_v34)) (V (Proc.devRef .tc main_v37)) (V (Proc.devRef .tc main_v40)) (V (Proc.devRef .tc main_v43)) (V (Proc.devRef .tc main_v46))).1 := by
  rw [tailB_split, after_append, after_append, after_append, after_append, B5_v95, B4_keep_v83, B3_v83,
    B2_v62, B2_v63, B2_v64, B2_v69, B2_keep_v51, B2_keep_v56, B2_keep_v61, B1_v51, B1_v56, B1_v61]
  rfl

theorem tailB_i : StableHlo.after (tailB (F := Ideal)) V (Proc.devRef .tc main_v94)
    = (Cert.Tail.lossTail (F := Ideal) (V (Proc.devRef .tc main_v31)) (V (Proc.devRef .tc main_v34)) (V (Proc.devRef .tc main_v37)) (V (Proc.devRef .tc main_v40)) (V (Proc.devRef .tc main_v43)) (V (Proc.devRef .tc main_v46))).2 := by
  rw [tailB_split, after_append, after_append, after_append, after_append, B5_keep_v94, B4_v94,
    B3_keep_v31, B3_keep_v34, B3_keep_v37, B3_keep_v40, B3_keep_v43, B3_keep_v46, B2_keep_v31, B2_keep_v34, B2_keep_v37, B2_keep_v40, B2_keep_v43, B2_keep_v46, B1_keep_v31, B1_keep_v34, B1_keep_v37, B1_keep_v40, B1_keep_v43, B1_keep_v46]
  rfl

end Cert.KernelIdeal.Hand

end
-- ==== Proof.KI.Value.lean ====
import proofs.«123526_j17729624998291_2_alg».proof.Proof.KI.Bridge
import proofs.«123526_j17729624998291_2_alg».proof.Proof.KI.TailB

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.ShloMosaic.Pipeline (restRefs)
open Idealize.SL.Sem

variable (m : (ℓ : Loc nD τ sig) → Buf (Elt Ideal) ℓ) (ρ : Dev nD → PrngReg)

/-! ## The kernel program's two results are the reference's terms of the arguments -/

theorem W_out_0 (c : Dev nD) : W m c (Proc.devRef .tc main_v22_0) = G0 m c := (W_arr m c 10).trans (final_0 m c)
theorem W_out_1 (c : Dev nD) : W m c (Proc.devRef .tc main_v22_1) = G1 m c := (W_arr m c 11).trans (final_1 m c)
theorem W_out_2 (c : Dev nD) : W m c (Proc.devRef .tc main_v22_2) = G2 m c := (W_arr m c 12).trans (final_2 m c)
theorem W_out_3 (c : Dev nD) : W m c (Proc.devRef .tc main_v22_3) = G3 m c := (W_arr m c 13).trans (final_3 m c)
theorem W_out_4 (c : Dev nD) : W m c (Proc.devRef .tc main_v22_4) = G4 m c := (W_arr m c 14).trans (final_4 m c)
theorem W_out_5 (c : Dev nD) : W m c (Proc.devRef .tc main_v22_5) = G5 m c := (W_arr m c 15).trans (final_5 m c)

theorem v95_rest : main_v95 ∈ restRefs sig spec0 := by decide
theorem v94_rest : main_v94 ∈ restRefs sig spec0 := by decide

theorem mined_at (c : Dev nD) :
    StableHlo.after (tailA (F := Ideal)) (W m c) (Proc.devRef .tc main_v31) = Cert.ReferenceIdeal.Read.val_main_v63 (F := Ideal) (argX m c) (argT m c)
    ∧ StableHlo.after (tailA (F := Ideal)) (W m c) (Proc.devRef .tc main_v34) = Cert.ReferenceIdeal.Read.val_main_v65 (F := Ideal) (argX m c) (argT m c)
    ∧ StableHlo.after (tailA (F := Ideal)) (W m c) (Proc.devRef .tc main_v37) = Cert.ReferenceIdeal.Read.val_main_v67 (F := Ideal) (argX m c) (argT m c)
    ∧ StableHlo.after (tailA (F := Ideal)) (W m c) (Proc.devRef .tc main_v40) = Cert.ReferenceIdeal.Read.val_main_v69 (F := Ideal) (argX m c) (argT m c)
    ∧ StableHlo.after (tailA (F := Ideal)) (W m c) (Proc.devRef .tc main_v43) = Cert.ReferenceIdeal.Read.val_main_v71 (F := Ideal) (argX m c) (argT m c)
    ∧ StableHlo.after (tailA (F := Ideal)) (W m c) (Proc.devRef .tc main_v46) = Cert.ReferenceIdeal.Read.val_main_v73 (F := Ideal) (argX m c) (argT m c) :=
  ⟨(tailA_0 _).trans ((congrArg mined (W_out_0 m c)).trans (mined_0 m c)),
   (tailA_1 _).trans ((congrArg mined (W_out_1 m c)).trans (mined_1 m c)),
   (tailA_2 _).trans ((congrArg mined (W_out_2 m c)).trans (mined_2 m c)),
   (tailA_3 _).trans ((congrArg mined (W_out_3 m c)).trans (mined_3 m c)),
   (tailA_4 _).trans ((congrArg mined (W_out_4 m c)).trans (mined_4 m c)),
   (tailA_5 _).trans ((congrArg mined (W_out_5 m c)).trans (mined_5 m c))⟩

theorem kernel_f (c : Dev nD) : Cert.SharedFrame.finalAt (W m) [hostOps1] c main_v95 = Cert.ReferenceIdeal.Read.val_main_v122 (F := Ideal) (argX m c) (argT m c) := by
  show StableHlo.after (hostOps1 ++ []) (W m c) (Proc.devRef .tc main_v95) = _
  rw [List.append_nil, hostOps1_split, after_append, tailB_f, Cert.ReferenceIdeal.Hand.result_f]
  obtain ⟨h0, h1, h2, h3, h4, h5⟩ := mined_at m c
  rw [h0, h1, h2, h3, h4, h5]

theorem kernel_i (c : Dev nD) : Cert.SharedFrame.finalAt (W m) [hostOps1] c main_v94 = Cert.ReferenceIdeal.Read.val_main_v121 (F := Ideal) (argX m c) (argT m c) := by
  show StableHlo.after (hostOps1 ++ []) (W m c) (Proc.devRef .tc main_v94) = _
  rw [List.append_nil, hostOps1_split, after_append, tailB_i, Cert.ReferenceIdeal.Hand.result_i]
  obtain ⟨h0, h1, h2, h3, h4, h5⟩ := mined_at m c
  rw [h0, h1, h2, h3, h4, h5]

/-- THE VALUE RUN of the idealized kernel program: it terminates with its two results at the reference's terms of the two
    argument arrays, and the arguments as launched. -/
theorem value_run : θ_run defs (onTc (τ := τ) (main (F := Ideal))) ⟨m, fun _ => 0, ρ⟩ (fun r => ∀ c : Dev nD,
      r.2.mem ((c.tc : Thread nD τ).loc main_v95) = Cert.ReferenceIdeal.Read.val_main_v122 (F := Ideal) (argX m c) (argT m c)
      ∧ r.2.mem ((c.tc : Thread nD τ).loc main_v94) = Cert.ReferenceIdeal.Read.val_main_v121 (F := Ideal) (argX m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v95 v95_rest).trans (kernel_f m c), ((h c).2 main_v94 v94_rest).trans (kernel_i m c),
     ((h c).2 main_arg0 arg0_rest).trans (final_kept m c main_arg0 (by decide)
        (fun op hop => ((List.forall_iff_forall_mem.mp hostOps0_keeps_args) op hop).1)
        (fun op hop => ((List.forall_iff_forall_mem.mp hostOps1_keeps_args) op hop).1)),
     ((h c).2 main_arg1 arg1_rest).trans (final_kept m c main_arg1 (by decide)
        (fun op hop => ((List.forall_iff_forall_mem.mp hostOps0_keeps_args) op hop).2)
        (fun op hop => ((List.forall_iff_forall_mem.mp hostOps1_keeps_args) op hop).2))⟩) (run_main m ρ)

end Cert.KernelIdeal.Hand

end
-- ==== Proof.lean ====
/-
  The certificate of a fused triplet-mining kernel against its reference.

  The kernel tiles three 4096-by-4096 matrices of squared row distances (rows of the first, second and third thirds of the
  input: pairs 1–2, 2–3 and 1–3) over a grid of 8 row blocks by 4 column blocks, never storing them: for each row it keeps six
  running extrema in scratch accumulators — the greatest squared distance among the columns carrying the row's label and
  the least among the others, per pair — reset at a row block's first column step, updated at every step, and copied to
  six result columns at the last. The host then clamps each column below at a small constant, takes square roots, and
  forms the weighted margin loss and the count. The reference forms the three full distance matrices after the clamp
  and the square root, masks them, and reduces rows.

  On the extended reals both are one function of the two arguments. The squared distances agree entry by entry (a
  change of float format is the identity; a block's matrix product into zeros is the row-by-row dot product). The running
  extrema over the four column blocks are the extrema over the whole rows. And the clamp followed by the square root is
  monotone and fixes +∞, so it commutes with a row's masked maximum — a row always carries its own label, so the mask
  selects a column — and with its masked minimum. From the six mined vectors on, the two programs run the same host
  operations. No entry needs to be finite for any of this.

  Two windows of the kernel stage blocks of one array (the second third of the input is both a row operand and a column
  operand), so the array's buffer is held by halves: the frames go through the launch with the shared array dealt to its two
  windows and joined again at the region's exit.
-/
import proofs.«123526_j17729624998291_2_alg».proof.Defs
import proofs.«123526_j17729624998291_2_alg».proof.Proof.Gen.Kernel
import proofs.«123526_j17729624998291_2_alg».proof.Proof.Gen.Kernel.Skeleton
import proofs.«123526_j17729624998291_2_alg».proof.Proof.Gen.Kernel.Launch
import proofs.«123526_j17729624998291_2_alg».proof.Proof.Gen.Kernel.Points
import proofs.«123526_j17729624998291_2_alg».proof.Proof.Gen.KernelIdeal
import proofs.«123526_j17729624998291_2_alg».proof.Proof.Gen.KernelIdeal.Skeleton
import proofs.«123526_j17729624998291_2_alg».proof.Proof.Gen.KernelIdeal.Launch
import proofs.«123526_j17729624998291_2_alg».proof.Proof.Gen.KernelIdeal.Points
import proofs.«123526_j17729624998291_2_alg».proof.Proof.Gen.ReferenceIdeal
import proofs.«123526_j17729624998291_2_alg».proof.Proof.Gen.Pre_finite_inputs
import proofs.«123526_j17729624998291_2_alg».proof.Proof.Gen.ReferenceIdeal.Run
import proofs.«123526_j17729624998291_2_alg».proof.Proof.Gen.ReferenceIdeal.Read
import proofs.«123526_j17729624998291_2_alg».proof.Proof.K.Frame
import proofs.«123526_j17729624998291_2_alg».proof.Proof.KI.Value
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with their two results at one term of the argument arrays. -/
theorem algebraic : Cert.algebraic_KernelIdeal_ReferenceIdeal := by
  intro m ρ m' ρ' _ hagree
  refine ⟨fun c => Cert.ReferenceIdeal.Read.val_main_v122 (F := Ideal) (Cert.KernelIdeal.Hand.argX m c) (Cert.KernelIdeal.Hand.argT m c),
    fun c => Cert.ReferenceIdeal.Read.val_main_v121 (F := Ideal) (Cert.KernelIdeal.Hand.argX m c) (Cert.KernelIdeal.Hand.argT m c),
    Cert.KernelIdeal.Hand.value_run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v122_eq, (hagree c).1, (hagree c).2]
  · rw [(h c).2.1, Cert.ReferenceIdeal.Read.val_main_v121_eq, (hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
